-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v28_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v28_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3x360 : Shape := ⟨3, ![16384, 3, 360]⟩
abbrev S360x200 : Shape := ⟨2, ![360, 200]⟩
abbrev S16384x200 : Shape := ⟨2, ![16384, 200]⟩
abbrev S256x1080 : Shape := ⟨2, ![256, 1080]⟩
abbrev S256 : Shape := ⟨1, ![256]⟩
abbrev S256x256 : Shape := ⟨2, ![256, 256]⟩
abbrev S360x256 : Shape := ⟨2, ![360, 256]⟩
abbrev S360 : Shape := ⟨1, ![360]⟩
abbrev S512x129600 : Shape := ⟨2, ![512, 129600]⟩
abbrev S512 : Shape := ⟨1, ![512]⟩
abbrev S128x512 : Shape := ⟨2, ![128, 512]⟩
abbrev S128 : Shape := ⟨1, ![128]⟩
abbrev S256x200 : Shape := ⟨2, ![256, 200]⟩
abbrev S128x256 : Shape := ⟨2, ![128, 256]⟩
abbrev S256x128 : Shape := ⟨2, ![256, 128]⟩
abbrev S_ : Shape := ⟨0, ![]⟩

class Facts : Prop where
  bcast_S_S16384x3x360 : S_.BroadcastsInDim S16384x3x360 (![] : Fin 0 → Fin S16384x3x360.rank)
  reducesTo_S16384x3x360_S_d0_1_2 : S16384x3x360.ReducesTo [0, 1, 2] S_
  h_S_ : 0 < S_.numel
  bcast_S_S360x200 : S_.BroadcastsInDim S360x200 (![] : Fin 0 → Fin S360x200.rank)
  reducesTo_S360x200_S_d0_1 : S360x200.ReducesTo [0, 1] S_
  bcast_S_S16384x200 : S_.BroadcastsInDim S16384x200 (![] : Fin 0 → Fin S16384x200.rank)
  reducesTo_S16384x200_S_d0_1 : S16384x200.ReducesTo [0, 1] S_
  bcast_S_S256x1080 : S_.BroadcastsInDim S256x1080 (![] : Fin 0 → Fin S256x1080.rank)
  reducesTo_S256x1080_S_d0_1 : S256x1080.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S360x256 : S_.BroadcastsInDim S360x256 (![] : Fin 0 → Fin S360x256.rank)
  reducesTo_S360x256_S_d0_1 : S360x256.ReducesTo [0, 1] S_
  bcast_S_S360 : S_.BroadcastsInDim S360 (![] : Fin 0 → Fin S360.rank)
  reducesTo_S360_S_d0 : S360.ReducesTo [0] S_
  bcast_S_S512x129600 : S_.BroadcastsInDim S512x129600 (![] : Fin 0 → Fin S512x129600.rank)
  reducesTo_S512x129600_S_d0_1 : S512x129600.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S256x200 : S_.BroadcastsInDim S256x200 (![] : Fin 0 → Fin S256x200.rank)
  reducesTo_S256x200_S_d0_1 : S256x200.ReducesTo [0, 1] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part6 {F : FTy → Type} [FloatOps F] (main_v98 : IVec S_ 1) (main_v101 : IVec S360 1) (main_c_39 : IVec S_ 1) : IVec S_ 1 :=
  let main_v102 : IVec S_ 1 := (fun x v => Host.reduce IntOp.andi x v reducesTo_S360_S_d0 h_S_) main_v101 main_c_39
  let main_v103 : IVec S_ 1 := andi main_v98 main_v102
  main_v103

def fn_part5 {F : FTy → Type} [FloatOps F] (main_arg18 : FVec F S256 .f32) (main_arg19 : FVec F S360x256 .f32) (main_arg20 : FVec F S360 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S360x256 .f32 := Host.absf main_arg19
  let main_cst_36 : FVec F S_ .f32 := constant S_ .f32 0x7F800000#32
  let main_v95 : FVec F S360x256 .f32 := broadcastInDim S360x256 ![] bcast_S_S360x256 main_cst_36
  let main_v96 : IVec S360x256 1 := cmpf .olt main_v94 main_v95
  let main_c_37 : IVec S_ 1 := constantI S_ 1 1#1
  let main_v97 : IVec S_ 1 := (fun x v => Host.reduce IntOp.andi x v reducesTo_S360x256_S_d0_1 h_S_) main_v96 main_c_37
  let main_v98 : IVec S_ 1 := andi main_v93 main_v97
  let main_v99 : FVec F S360 .f32 := Host.absf main_arg20
  let main_cst_38 : FVec F S_ .f32 := constant S_ .f32 0x7F800000#32
  let main_v100 : FVec F S360 .f32 := broadcastInDim S360 ![] bcast_S_S360 main_cst_38
  let main_v101 : IVec S360 1 := cmpf .olt main_v99 main_v100
  let main_c_39 : IVec S_ 1 := constantI S_ 1 1#1
  fn_part6 (F := F) main_v98 main_v101 main_c_39

def fn_part4 {F : FTy → Type} [FloatOps F] (main_arg14 : FVec F S256 .f32) (main_arg15 : FVec F S128x256 .f32) (main_arg16 : FVec F S128 .f32) (main_arg17 : FVec F S256x128 .f32) (main_arg18 : FVec F S256 .f32) (main_arg19 : FVec F S360x256 .f32) (main_arg20 : FVec F S360 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S128x256 .f32 := Host.absf main_arg15
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S256x128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S128x512 .f32) (main_arg12 : FVec F S128 .f32) (main_arg13 : FVec F S256x200 .f32) (main_arg14 : FVec F S256 .f32) (main_arg15 : FVec F S128x256 .f32) (main_arg16 : FVec F S128 .f32) (main_arg17 : FVec F S256x128 .f32) (main_arg18 : FVec F S256 .f32) (main_arg19 : FVec F S360x256 .f32) (main_arg20 : FVec F S360 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S128x512 .f32 := Host.absf main_arg11
  let main_cst_20 : FVec F S_ .f32 := constant S_ .f32 0x7F800000#32
  let main_v55 : FVec F S128x512 .f32 := broadcastInDim S128x512 ![] bcast_S_S128x512 main_cst_20
  let main_v56 : IVec S128x512 1 := cmpf .olt main_v54 main_v55
  let main_c_21 : IVec S_ 1 := constantI S_ 1 1#1
  let main_v57 : IVec S_ 1 := (fun x v => Host.reduce IntOp.andi x v reducesTo_S128x512_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x200 .f32 := Host.absf main_arg13
  let main_cst_24 : FVec F S_ .f32 := constant S_ .f32 0x7F800000#32
  let main_v65 : FVec F S256x200 .f32 := broadcastInDim S256x200 ![] bcast_S_S256x200 main_cst_24
  let main_v66 : IVec S256x200 1 := cmpf .olt main_v64 main_v65
  let main_c_25 : IVec S_ 1 := constantI S_ 1 1#1
  let main_v67 : IVec S_ 1 := (fun x v => Host.reduce IntOp.andi x v reducesTo_S256x200_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S360x256 .f32) (main_arg8 : FVec F S360 .f32) (main_arg9 : FVec F S512x129600 .f32) (main_arg10 : FVec F S512 .f32) (main_arg11 : FVec F S128x512 .f32) (main_arg12 : FVec F S128 .f32) (main_arg13 : FVec F S256x200 .f32) (main_arg14 : FVec F S256 .f32) (main_arg15 : FVec F S128x256 .f32) (main_arg16 : FVec F S128 .f32) (main_arg17 : FVec F S256x128 .f32) (main_arg18 : FVec F S256 .f32) (main_arg19 : FVec F S360x256 .f32) (main_arg20 : FVec F S360 .f32) (main_v33 : IVec S_ 1) : IVec S_ 1 :=
  let main_v34 : FVec F S360x256 .f32 := Host.absf main_arg7
  let main_cst_12 : FVec F S_ .f32 := constant S_ .f32 0x7F800000#32
  let main_v35 : FVec F S360x256 .f32 := broadcastInDim S360x256 ![] bcast_S_S360x256 main_cst_12
  let main_v36 : IVec S360x256 1 := cmpf .olt main_v34 main_v35
  let main_c_13 : IVec S_ 1 := constantI S_ 1 1#1
  let main_v37 : IVec S_ 1 := (fun x v => Host.reduce IntOp.andi x v reducesTo_S360x256_S_d0_1 h_S_) main_v36 main_c_13
  let main_v38 : IVec S_ 1 := andi main_v33 main_v37
  let main_v39 : FVec F S360 .f32 := Host.absf main_arg8
  let main_cst_14 : FVec F S_ .f32 := constant S_ .f32 0x7F800000#32
  let main_v40 : FVec F S360 .f32 := broadcastInDim S360 ![] bcast_S_S360 main_cst_14
  let main_v41 : IVec S360 1 := cmpf .olt main_v39 main_v40
  let main_c_15 : IVec S_ 1 := constantI S_ 1 1#1
  let main_v42 : IVec S_ 1 := (fun x v => Host.reduce IntOp.andi x v reducesTo_S360_S_d0 h_S_) main_v41 main_c_15
  let main_v43 : IVec S_ 1 := andi main_v38 main_v42
  let main_v44 : FVec F S512x129600 .f32 := Host.absf main_arg9
  let main_cst_16 : FVec F S_ .f32 := constant S_ .f32 0x7F800000#32
  let main_v45 : FVec F S512x129600 .f32 := broadcastInDim S512x129600 ![] bcast_S_S512x129600 main_cst_16
  let main_v46 : IVec S512x129600 1 := cmpf .olt main_v44 main_v45
  let main_c_17 : IVec S_ 1 := constantI S_ 1 1#1
  let main_v47 : IVec S_ 1 := (fun x v => Host.reduce IntOp.andi x v reducesTo_S512x129600_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S256 .f32) (main_arg5 : FVec F S256x256 .f32) (main_arg6 : FVec F S256 .f32) (main_arg7 : FVec F S360x256 .f32) (main_arg8 : FVec F S360 .f32) (main_arg9 : FVec F S512x129600 .f32) (main_arg10 : FVec F S512 .f32) (main_arg11 : FVec F S128x512 .f32) (main_arg12 : FVec F S128 .f32) (main_arg13 : FVec F S256x200 .f32) (main_arg14 : FVec F S256 .f32) (main_arg15 : FVec F S128x256 .f32) (main_arg16 : FVec F S128 .f32) (main_arg17 : FVec F S256x128 .f32) (main_arg18 : FVec F S256 .f32) (main_arg19 : FVec F S360x256 .f32) (main_arg20 : FVec F S360 .f32) (main_v13 : IVec S_ 1) (main_v16 : IVec S256x1080 1) : IVec S_ 1 :=
  let main_c_5 : IVec S_ 1 := constantI S_ 1 1#1
  let main_v17 : IVec S_ 1 := (fun x v => Host.reduce IntOp.andi x v reducesTo_S256x1080_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x3x360 .f32) (main_arg1 : FVec F S360x200 .f32) (main_arg2 : FVec F S16384x200 .f32) (main_arg3 : FVec F S256x1080 .f32) (main_arg4 : FVec F S256 .f32) (main_arg5 : FVec F S256x256 .f32) (main_arg6 : FVec F S256 .f32) (main_arg7 : FVec F S360x256 .f32) (main_arg8 : FVec F S360 .f32) (main_arg9 : FVec F S512x129600 .f32) (main_arg10 : FVec F S512 .f32) (main_arg11 : FVec F S128x512 .f32) (main_arg12 : FVec F S128 .f32) (main_arg13 : FVec F S256x200 .f32) (main_arg14 : FVec F S256 .f32) (main_arg15 : FVec F S128x256 .f32) (main_arg16 : FVec F S128 .f32) (main_arg17 : FVec F S256x128 .f32) (main_arg18 : FVec F S256 .f32) (main_arg19 : FVec F S360x256 .f32) (main_arg20 : FVec F S360 .f32) : IVec S_ 1 :=
  let main_v0 : FVec F S16384x3x360 .f32 := Host.absf main_arg0
  let main_cst : FVec F S_ .f32 := constant S_ .f32 0x7F800000#32
  let main_v1 : FVec F S16384x3x360 .f32 := broadcastInDim S16384x3x360 ![] bcast_S_S16384x3x360 main_cst
  let main_v2 : IVec S16384x3x360 1 := cmpf .olt main_v0 main_v1
  let main_c : IVec S_ 1 := constantI S_ 1 1#1
  let main_v3 : IVec S_ 1 := (fun x v => Host.reduce IntOp.andi x v reducesTo_S16384x3x360_S_d0_1_2 h_S_) main_v2 main_c
  let main_v4 : FVec F S360x200 .f32 := Host.absf main_arg1
  let main_cst_0 : FVec F S_ .f32 := constant S_ .f32 0x7F800000#32
  let main_v5 : FVec F S360x200 .f32 := broadcastInDim S360x200 ![] bcast_S_S360x200 main_cst_0
  let main_v6 : IVec S360x200 1 := cmpf .olt main_v4 main_v5
  let main_c_1 : IVec S_ 1 := constantI S_ 1 1#1
  let main_v7 : IVec S_ 1 := (fun x v => Host.reduce IntOp.andi x v reducesTo_S360x200_S_d0_1 h_S_) main_v6 main_c_1
  let main_v8 : IVec S_ 1 := andi main_v3 main_v7
  let main_v9 : FVec F S16384x200 .f32 := Host.absf main_arg2
  let main_cst_2 : FVec F S_ .f32 := constant S_ .f32 0x7F800000#32
  let main_v10 : FVec F S16384x200 .f32 := broadcastInDim S16384x200 ![] bcast_S_S16384x200 main_cst_2
  let main_v11 : IVec S16384x200 1 := cmpf .olt main_v9 main_v10
  let main_c_3 : IVec S_ 1 := constantI S_ 1 1#1
  let main_v12 : IVec S_ 1 := (fun x v => Host.reduce IntOp.andi x v reducesTo_S16384x200_S_d0_1 h_S_) main_v11 main_c_3
  let main_v13 : IVec S_ 1 := andi main_v8 main_v12
  let main_v14 : FVec F S256x1080 .f32 := Host.absf main_arg3
  let main_cst_4 : FVec F S_ .f32 := constant S_ .f32 0x7F800000#32
  let main_v15 : FVec F S256x1080 .f32 := broadcastInDim S256x1080 ![] bcast_S_S256x1080 main_cst_4
  let main_v16 : IVec S256x1080 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x3x360 : Shape := ⟨3, ![16384, 3, 360]⟩
abbrev S360x200 : Shape := ⟨2, ![360, 200]⟩
abbrev S16384x200 : Shape := ⟨2, ![16384, 200]⟩
abbrev S256x1080 : Shape := ⟨2, ![256, 1080]⟩
abbrev S256 : Shape := ⟨1, ![256]⟩
abbrev S256x256 : Shape := ⟨2, ![256, 256]⟩
abbrev S360x256 : Shape := ⟨2, ![360, 256]⟩
abbrev S360 : Shape := ⟨1, ![360]⟩
abbrev S512x129600 : Shape := ⟨2, ![512, 129600]⟩
abbrev S512 : Shape := ⟨1, ![512]⟩
abbrev S128x512 : Shape := ⟨2, ![128, 512]⟩
abbrev S128 : Shape := ⟨1, ![128]⟩
abbrev S256x200 : Shape := ⟨2, ![256, 200]⟩
abbrev S128x256 : Shape := ⟨2, ![128, 256]⟩
abbrev S256x128 : Shape := ⟨2, ![256, 128]⟩
abbrev S16384x1080 : Shape := ⟨2, ![16384, 1080]⟩
abbrev S1080x256 : Shape := ⟨2, ![1080, 256]⟩
abbrev S256x360 : Shape := ⟨2, ![256, 360]⟩
abbrev S2x256x256 : Shape := ⟨3, ![2, 256, 256]⟩
abbrev S1024x1080 : Shape := ⟨2, ![1024, 1080]⟩
abbrev S1x256x256 : Shape := ⟨3, ![1, 256, 256]⟩
abbrev S1024x256 : Shape := ⟨2, ![1024, 256]⟩
abbrev S1x256 : Shape := ⟨2, ![1, 256]⟩
abbrev S256x1024 : Shape := ⟨2, ![256, 1024]⟩
abbrev S_ : Shape := ⟨0, ![]⟩
abbrev S360x360 : Shape := ⟨2, ![360, 360]⟩
abbrev S1x360x360 : Shape := ⟨3, ![1, 360, 360]⟩
abbrev S512x360x360 : Shape := ⟨3, ![512, 360, 360]⟩
abbrev S512x1 : Shape := ⟨2, ![512, 1]⟩
abbrev S16x360x360 : Shape := ⟨3, ![16, 360, 360]⟩
abbrev S16x1 : Shape := ⟨2, ![16, 1]⟩
abbrev S16x360 : Shape := ⟨2, ![16, 360]⟩
abbrev S16 : Shape := ⟨1, ![16]⟩
abbrev S1x512 : Shape := ⟨2, ![1, 512]⟩
abbrev S512x128 : Shape := ⟨2, ![512, 128]⟩
abbrev S1x128 : Shape := ⟨2, ![1, 128]⟩
abbrev S200x256 : Shape := ⟨2, ![200, 256]⟩
abbrev S16384x128 : Shape := ⟨2, ![16384, 128]⟩
abbrev S16384x360 : Shape := ⟨2, ![16384, 360]⟩
abbrev S2048x200 : Shape := ⟨2, ![2048, 200]⟩
abbrev S2048x128 : Shape := ⟨2, ![2048, 128]⟩
abbrev S2048x360 : Shape := ⟨2, ![2048, 360]⟩
abbrev S2048x256 : Shape := ⟨2, ![2048, 256]⟩
abbrev S2048 : Shape := ⟨1, ![2048]⟩
abbrev S2048x1 : Shape := ⟨2, ![2048, 1]⟩
abbrev S1x360 : Shape := ⟨2, ![1, 360]⟩

abbrev nBuf : Space → Nat
  | .hbm => 54
  | .vmem => 35
  | .smem => 0
  | _ => 0

abbrev bufTy : (tb : Table) → Fin (tcTables nBuf tb) → BufTy
  | .hbm, ⟨0, _⟩ => ⟨S16384x3x360, .f32⟩
  | .hbm, ⟨1, _⟩ => ⟨S360x200, .f32⟩
  | .hbm, ⟨2, _⟩ => ⟨S16384x200, .f32⟩
  | .hbm, ⟨3, _⟩ => ⟨S256x1080, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S360x256, .f32⟩
  | .hbm, ⟨8, _⟩ => ⟨S360, .f32⟩
  | .hbm, ⟨9, _⟩ => ⟨S512x129600, .f32⟩
  | .hbm, ⟨10, _⟩ => ⟨S512, .f32⟩
  | .hbm, ⟨11, _⟩ => ⟨S128x512, .f32⟩
  | .hbm, ⟨12, _⟩ => ⟨S128, .f32⟩
  | .hbm, ⟨13, _⟩ => ⟨S256x200, .f32⟩
  | .hbm, ⟨14, _⟩ => ⟨S256, .f32⟩
  | .hbm, ⟨15, _⟩ => ⟨S128x256, .f32⟩
  | .hbm, ⟨16, _⟩ => ⟨S128, .f32⟩
  | .hbm, ⟨17, _⟩ => ⟨S256x128, .f32⟩
  | .hbm, ⟨18, _⟩ => ⟨S256, .f32⟩
  | .hbm, ⟨19, _⟩ => ⟨S360x256, .f32⟩
  | .hbm, ⟨20, _⟩ => ⟨S360, .f32⟩
  | .hbm, ⟨21, _⟩ => ⟨S16384x1080, .f32⟩
  | .hbm, ⟨22, _⟩ => ⟨S1080x256, .f32⟩
  | .hbm, ⟨23, _⟩ => ⟨S256x256, .f32⟩
  | .hbm, ⟨24, _⟩ => ⟨S256x360, .f32⟩
  | .hbm, ⟨25, _⟩ => ⟨S2x256x256, .f32⟩
  | .hbm, ⟨26, _⟩ => ⟨S1x256x256, .f32⟩
  | .hbm, ⟨27, _⟩ => ⟨S256x256, .f32⟩
  | .hbm, ⟨28, _⟩ => ⟨S1x256x256, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x360, .f32⟩
  | .hbm, ⟨36, _⟩ => ⟨S360x360, .f32⟩
  | .hbm, ⟨37, _⟩ => ⟨S1x360x360, .f32⟩
  | .hbm, ⟨38, _⟩ => ⟨S512x360x360, .f32⟩
  | .hbm, ⟨39, _⟩ => ⟨S512x1, .f32⟩
  | .hbm, ⟨40, _⟩ => ⟨S512x1, .f32⟩
  | .hbm, ⟨41, _⟩ => ⟨S1x512, .f32⟩
  | .hbm, ⟨42, _⟩ => ⟨S512x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S200x256, .f32⟩
  | .hbm, ⟨47, _⟩ => ⟨S256x128, .f32⟩
  | .hbm, ⟨48, _⟩ => ⟨S128x256, .f32⟩
  | .hbm, ⟨49, _⟩ => ⟨S256x360, .f32⟩
  | .hbm, ⟨50, _⟩ => ⟨S16384x128, .f32⟩
  | .hbm, ⟨51, _⟩ => ⟨S16384x128, .f32⟩
  | .hbm, ⟨52, _⟩ => ⟨S16384x128, .f32⟩
  | .hbm, ⟨53, _⟩ => ⟨S16384x360, .f32⟩
  | .local _ .vmem, ⟨0, _⟩ => ⟨S1024x1080, .f32⟩
  | .local _ .vmem, ⟨1, _⟩ => ⟨S1024x1080, .f32⟩
  | .local _ .vmem, ⟨2, _⟩ => ⟨S1080x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1x256x256, .f32⟩
  | .local _ .vmem, ⟨7, _⟩ => ⟨S1x256x256, .f32⟩
  | .local _ .vmem, ⟨8, _⟩ => ⟨S256x256, .f32⟩
  | .local _ .vmem, ⟨9, _⟩ => ⟨S1x360x360, .f32⟩
  | .local _ .vmem, ⟨10, _⟩ => ⟨S16x360x360, .f32⟩
  | .local _ .vmem, ⟨11, _⟩ => ⟨S16x360x360, .f32⟩
  | .local _ .vmem, ⟨12, _⟩ => ⟨S16x1, .f32⟩
  | .local _ .vmem, ⟨13, _⟩ => ⟨S16x1, .f32⟩
  | .local _ .vmem, ⟨14, _⟩ => ⟨S16x1, .f32⟩
  | .local _ .vmem, ⟨15, _⟩ => ⟨S16x1, .f32⟩
  | .local _ .vmem, ⟨16, _⟩ => ⟨S2048x200, .f32⟩
  | .local _ .vmem, ⟨17, _⟩ => ⟨S2048x200, .f32⟩
  | .local _ .vmem, ⟨18, _⟩ => ⟨S1x128, .f32⟩
  | .local _ .vmem, ⟨19, _⟩ => ⟨S200x256, .f32⟩
  | .local _ .vmem, ⟨20, _⟩ => ⟨S256, .f32⟩
  | .local _ .vmem, ⟨21, _⟩ => ⟨S256x128, .f32⟩
  | .local _ .vmem, ⟨22, _⟩ => ⟨S128, .f32⟩
  | .local _ .vmem, ⟨23, _⟩ => ⟨S128x256, .f32⟩
  | .local _ .vmem, ⟨24, _⟩ => ⟨S256, .f32⟩
  | .local _ .vmem, ⟨25, _⟩ => ⟨S256x360, .f32⟩
  | .local _ .vmem, ⟨26, _⟩ => ⟨S360, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x360, .f32⟩
  | .local _ .vmem, ⟨34, _⟩ => ⟨S2048x360, .f32⟩
  | _, _ => ⟨S16384x3x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v28_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg10_1 : Ref sig .tc := ⟨.vmem, 28, rfl⟩
abbrev cc2_stg11_0 : Ref sig .tc := ⟨.vmem, 29, rfl⟩
abbrev cc2_stg11_1 : Ref sig .tc := ⟨.vmem, 30, rfl⟩
abbrev cc2_stg12_0 : Ref sig .tc := ⟨.vmem, 31, rfl⟩
abbrev cc2_stg12_1 : Ref sig .tc := ⟨.vmem, 32, rfl⟩
abbrev cc2_stg13_0 : Ref sig .tc := ⟨.vmem, 33, rfl⟩
abbrev cc2_stg13_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem10_1 : DmaSem sig := 27
abbrev cc2_sem11_0 : DmaSem sig := 28
abbrev cc2_sem11_1 : DmaSem sig := 29
abbrev cc2_sem12_0 : DmaSem sig := 30
abbrev cc2_sem12_1 : DmaSem sig := 31
abbrev cc2_sem13_0 : DmaSem sig := 32
abbrev cc2_sem13_1 : DmaSem sig := 33

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1080 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1080x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x360x360 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16x360x360 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S200x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x360 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S360 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2048x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S2048x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S2048x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S2048x360 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  shapeCasts_S16384x3x360_S16384x1080 : S16384x3x360.ShapeCasts S16384x1080
  transposes_S256x1080_S1080x256_1_0 : S256x1080.Transposes [1, 0] S1080x256
  transposes_S256x256_S256x256_1_0 : S256x256.Transposes [1, 0] S256x256
  slices_S256x1080_S256x360_0_720 : S256x1080.Slices ![0, 720] S256x360
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x1080_S1024x1080_0_0 : ∀ a, (![0, 0] : Fin 2 → Nat) a + S1024x1080.size a ≤ S1024x1080.size a
  h_S1024x1080 : 0 < S1024x1080.numel
  shapeCasts_S1024x1080_S1024x1080 : S1024x1080.ShapeCasts S1024x1080
  bitsLt_bf16_f32 : FTy.bits .bf16 < FTy.bits .f32
  inb_S1080x256_S1080x256_0_0 : ∀ a, (![0, 0] : Fin 2 → Nat) a + S1080x256.size a ≤ S1080x256.size a
  h_S1080x256 : 0 < S1080x256.numel
  shapeCasts_S1080x256_S1080x256 : S1080x256.ShapeCasts S1080x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  natLt_1_32 : 1 < 32
  transposes_S1024x256_p1_0_S256x1024 : S1024x256.Transposes [1, 0] S256x1024
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  slices_S2x256x256_S1x256x256_0_0_0 : S2x256x256.Slices ![0, 0, 0] S1x256x256
  slices_S2x256x256_S1x256x256_1_0_0 : S2x256x256.Slices ![1, 0, 0] S1x256x256
  bcast_S_S256x256 : S_.BroadcastsInDim S256x256 (![] : Fin 0 → Fin S256x256.rank)
  shapeCasts_S360x360_S1x360x360 : S360x360.ShapeCasts S1x360x360
  shapeCasts_S512x129600_S512x360x360 : S512x129600.ShapeCasts S512x360x360
  shapeCasts_S512_S512x1 : S512.ShapeCasts S512x1
  inb_S1x360x360_S1x360x360_0_0_0 : ∀ a, (![0, 0, 0] : Fin 3 → Nat) a + S1x360x360.size a ≤ S1x360x360.size a
  h_S1x360x360 : 0 < S1x360x360.numel
  shapeCasts_S1x360x360_S1x360x360 : S1x360x360.ShapeCasts S1x360x360
  inb_S16x360x360_S16x360x360_0_0_0 : ∀ a, (![0, 0, 0] : Fin 3 → Nat) a + S16x360x360.size a ≤ S16x360x360.size a
  h_S16x360x360 : 0 < S16x360x360.numel
  shapeCasts_S16x360x360_S16x360x360 : S16x360x360.ShapeCasts S16x360x360
  broadcasts_S1x360x360_S16x360x360 : S1x360x360.Broadcasts S16x360x360
  reduces_S16x360x360_S16x360 : S16x360x360.Reduces [2] S16x360
  reduces_S16x360_S16 : S16x360.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S512x1_S1x512 : S512x1.ShapeCasts S1x512
  transposes_S128x512_S512x128_1_0 : S128x512.Transposes [1, 0] S512x128
  bcast_S128_S1x128_1 : S128.BroadcastsInDim S1x128 (![1] : Fin 1 → Fin S1x128.rank)
  transposes_S256x200_S200x256_1_0 : S256x200.Transposes [1, 0] S200x256
  transposes_S128x256_S256x128_1_0 : S128x256.Transposes [1, 0] S256x128
  transposes_S256x128_S128x256_1_0 : S256x128.Transposes [1, 0] S128x256
  transposes_S360x256_S256x360_1_0 : S360x256.Transposes [1, 0] S256x360
  inb_S2048x200_S2048x200_0_0 : ∀ a, (![0, 0] : Fin 2 → Nat) a + S2048x200.size a ≤ S2048x200.size a
  h_S2048x200 : 0 < S2048x200.numel
  inb_S200x256_S200x256_0_0 : ∀ a, (![0, 0] : Fin 2 → Nat) a + S200x256.size a ≤ S200x256.size a
  h_S200x256 : 0 < S200x256.numel
  shapeCasts_S200x256_S200x256 : S200x256.ShapeCasts S200x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S2048x128_S2048 : S2048x128.Reduces [1] S2048
  shapeCasts_S2048_S2048x1 : S2048.ShapeCasts S2048x1
  broadcasts_S2048x1_S2048x128 : S2048x1.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x360_S256x360_0_0 : ∀ a, (![0, 0] : Fin 2 → Nat) a + S256x360.size a ≤ S256x360.size a
  h_S256x360 : 0 < S256x360.numel
  shapeCasts_S256x360_S256x360 : S256x360.ShapeCasts S256x360
  inb_S360_S360_0 : ∀ a, (![0] : Fin 1 → Nat) a + S360.size a ≤ S360.size a
  h_S360 : 0 < S360.numel
  shapeCasts_S360_S1x360 : S360.ShapeCasts S1x360
  broadcasts_S1x360_S2048x360 : S1x360.Broadcasts S2048x360
  inb_S2048x128_S2048x128_0_0 : ∀ a, (![0, 0] : Fin 2 → Nat) a + S2048x128.size a ≤ S2048x128.size a
  h_S2048x128 : 0 < S2048x128.numel
  inb_S2048x360_S2048x360_0_0 : ∀ a, (![0, 0] : Fin 2 → Nat) a + S2048x360.size a ≤ S2048x360.size a
  h_S2048x360 : 0 < S2048x360.numel
  dot_S1024x1080_S1080x256_S1024x256_1_0_0_1_n_n_wf : DotDims.WF S1024x1080 S1080x256 S1024x256 [1] [0] [0] [1] [] []
  dot_S1024x256_S256x256_S1024x256_1_0_0_1_n_n_wf : DotDims.WF S1024x256 S256x256 S1024x256 [1] [0] [0] [1] [] []
  dot_S256x1024_S1024x256_S256x256_1_0_0_1_n_n_wf : DotDims.WF S256x1024 S1024x256 S256x256 [1] [0] [0] [1] [] []
  dot_S256x256_S256x360_S256x360_1_0_0_1_n_n_wf : DotDims.WF S256x256 S256x360 S256x360 [1] [0] [0] [1] [] []
  dot_S360x256_S256x360_S360x360_1_0_0_1_n_n_wf : DotDims.WF S360x256 S256x360 S360x360 [1] [0] [0] [1] [] []
  dot_S1x512_S512x128_S1x128_1_0_0_1_n_n_wf : DotDims.WF S1x512 S512x128 S1x128 [1] [0] [0] [1] [] []
  dot_S2048x200_S200x256_S2048x256_1_0_0_1_n_n_wf : DotDims.WF S2048x200 S200x256 S2048x256 [1] [0] [0] [1] [] []
  dot_S2048x256_S256x128_S2048x128_1_0_0_1_n_n_wf : DotDims.WF S2048x256 S256x128 S2048x128 [1] [0] [0] [1] [] []
  dot_S2048x128_S128x256_S2048x256_1_0_0_1_n_n_wf : DotDims.WF S2048x128 S128x256 S2048x256 [1] [0] [0] [1] [] []
  dot_S2048x256_S256x360_S2048x360_1_0_0_1_n_n_wf : DotDims.WF S2048x256 S256x360 S2048x360 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1080.size a ≤ S16384x1080.size a
  hwx0_0 : ∀ i : grid0.Coords, EltTy.bits .f32 = 32 ∨ (Rect.block (s := S16384x1080) S1024x1080.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1080x256.size a ≤ S1080x256.size a
  hwx0_1 : ∀ i : grid0.Coords, EltTy.bits .f32 = 32 ∨ (Rect.block (s := S1080x256) S1080x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S2x256x256.size a
  hwx0_5 : ∀ i : grid0.Coords, EltTy.bits .f32 = 32 ∨ (Rect.block (s := S2x256x256) S1x256x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x360x360.size a ≤ S1x360x360.size a
  hwx1_0 : ∀ i : grid1.Coords, EltTy.bits .f32 = 32 ∨ (Rect.block (s := S1x360x360) S1x360x360.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x360x360.size a ≤ S512x360x360.size a
  hwx1_1 : ∀ i : grid1.Coords, EltTy.bits .f32 = 32 ∨ (Rect.block (s := S512x360x360) S16x360x360.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S512x1.size a
  hwx1_2 : ∀ i : grid1.Coords, EltTy.bits .f32 = 32 ∨ (Rect.block (s := S512x1) S16x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S512x1.size a
  hwx1_3 : ∀ i : grid1.Coords, EltTy.bits .f32 = 32 ∨ (Rect.block (s := S512x1) S16x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x200.size a ≤ S16384x200.size a
  hwx2_0 : ∀ i : grid2.Coords, EltTy.bits .f32 = 32 ∨ (Rect.block (s := S16384x200) S2048x200.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S200x256.size a ≤ S200x256.size a
  hwx2_2 : ∀ i : grid2.Coords, EltTy.bits .f32 = 32 ∨ (Rect.block (s := S200x256) S200x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256.size a ≤ S256.size a
  hwx2_7 : ∀ i : grid2.Coords, EltTy.bits .f32 = 32 ∨ (Rect.block (s := S256) S256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x360.size a ≤ S256x360.size a
  hwx2_8 : ∀ i : grid2.Coords, EltTy.bits .f32 = 32 ∨ (Rect.block (s := S256x360) S256x360.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S360.size a ≤ S360.size a
  hwx2_9 : ∀ i : grid2.Coords, EltTy.bits .f32 = 32 ∨ (Rect.block (s := S360) S360.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x128.size a ≤ S16384x128.size a
  hwx2_10 : ∀ i : grid2.Coords, EltTy.bits .f32 = 32 ∨ (Rect.block (s := S16384x128) S2048x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2048x128.size a ≤ S16384x128.size a
  hwx2_11 : ∀ i : grid2.Coords, EltTy.bits .f32 = 32 ∨ (Rect.block (s := S16384x128) S2048x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2048x128.size a ≤ S16384x128.size a
  hwx2_12 : ∀ i : grid2.Coords, EltTy.bits .f32 = 32 ∨ (Rect.block (s := S16384x128) S2048x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2048x360.size a ≤ S16384x360.size a
  hwx2_13 : ∀ i : grid2.Coords, EltTy.bits .f32 = 32 ∨ (Rect.block (s := S16384x360) S2048x360.size (cc2_transform_13 i) (hinb2_13 i)).WholeWords (EltTy.packing .f32)

variable [Facts₀]

def dot_S1024x1080_S1080x256_S1024x256_1_0_0_1_n_n : DotDims S1024x1080 S1080x256 S1024x256 where
  lhsContracting := [1]
  rhsContracting := [0]
  lhsNonContracting := [0]
  rhsNonContracting := [1]
  lhsBatch := []
  rhsBatch := []
  wf := dot_S1024x1080_S1080x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x360_S256x360_1_0_0_1_n_n : DotDims S256x256 S256x360 S256x360 where
  lhsContracting := [1]
  rhsContracting := [0]
  lhsNonContracting := [0]
  rhsNonContracting := [1]
  lhsBatch := []
  rhsBatch := []
  wf := dot_S256x256_S256x360_S256x360_1_0_0_1_n_n_wf
def dot_S360x256_S256x360_S360x360_1_0_0_1_n_n : DotDims S360x256 S256x360 S360x360 where
  lhsContracting := [1]
  rhsContracting := [0]
  lhsNonContracting := [0]
  rhsNonContracting := [1]
  lhsBatch := []
  rhsBatch := []
  wf := dot_S360x256_S256x360_S360x360_1_0_0_1_n_n_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf
def dot_S2048x200_S200x256_S2048x256_1_0_0_1_n_n : DotDims S2048x200 S200x256 S2048x256 where
  lhsContracting := [1]
  rhsContracting := [0]
  lhsNonContracting := [0]
  rhsNonContracting := [1]
  lhsBatch := []
  rhsBatch := []
  wf := dot_S2048x200_S200x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x360_S2048x360_1_0_0_1_n_n : DotDims S2048x256 S256x360 S2048x360 where
  lhsContracting := [1]
  rhsContracting := [0]
  lhsNonContracting := [0]
  rhsNonContracting := [1]
  lhsBatch := []
  rhsBatch := []
  wf := dot_S2048x256_S256x360_S2048x360_1_0_0_1_n_n_wf

abbrev win0_0 : Pipeline.Window sig grid0 :=
  Pipeline.Window.ofSpec (Memref.whole main_v0) S1024x1080.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1080x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v15) S1x360x360.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v16) S16x360x360.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S16x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S16x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S2048x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S200x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v27) S256x360.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg20) S360.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v28_0) S2048x128.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v28_1) S2048x128.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v28_2) S2048x128.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v28_3) S2048x360.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S16384x3x360 : Shape := ⟨3, ![16384, 3, 360]⟩
abbrev S360x200 : Shape := ⟨2, ![360, 200]⟩
abbrev S16384x200 : Shape := ⟨2, ![16384, 200]⟩
abbrev S256x1080 : Shape := ⟨2, ![256, 1080]⟩
abbrev S256 : Shape := ⟨1, ![256]⟩
abbrev S256x256 : Shape := ⟨2, ![256, 256]⟩
abbrev S360x256 : Shape := ⟨2, ![360, 256]⟩
abbrev S360 : Shape := ⟨1, ![360]⟩
abbrev S512x129600 : Shape := ⟨2, ![512, 129600]⟩
abbrev S512 : Shape := ⟨1, ![512]⟩
abbrev S128x512 : Shape := ⟨2, ![128, 512]⟩
abbrev S128 : Shape := ⟨1, ![128]⟩
abbrev S256x200 : Shape := ⟨2, ![256, 200]⟩
abbrev S128x256 : Shape := ⟨2, ![128, 256]⟩
abbrev S256x128 : Shape := ⟨2, ![256, 128]⟩
abbrev S16384x1080 : Shape := ⟨2, ![16384, 1080]⟩
abbrev S1080x256 : Shape := ⟨2, ![1080, 256]⟩
abbrev S16384x256 : Shape := ⟨2, ![16384, 256]⟩
abbrev S1x256 : Shape := ⟨2, ![1, 256]⟩
abbrev S_ : Shape := ⟨0, ![]⟩
abbrev S256x16384 : Shape := ⟨2, ![256, 16384]⟩
abbrev S256x360 : Shape := ⟨2, ![256, 360]⟩
abbrev S360x360 : Shape := ⟨2, ![360, 360]⟩
abbrev S1x129600 : Shape := ⟨2, ![1, 129600]⟩
abbrev S129600x512 : Shape := ⟨2, ![129600, 512]⟩
abbrev S1x512 : Shape := ⟨2, ![1, 512]⟩
abbrev S512x128 : Shape := ⟨2, ![512, 128]⟩
abbrev S1x128 : Shape := ⟨2, ![1, 128]⟩
abbrev S1x1x1x128 : Shape := ⟨4, ![1, 1, 1, 128]⟩
abbrev S16384x1x1x128 : Shape := ⟨4, ![16384, 1, 1, 128]⟩
abbrev S16384x128 : Shape := ⟨2, ![16384, 128]⟩
abbrev S200x256 : Shape := ⟨2, ![200, 256]⟩
abbrev S16384 : Shape := ⟨1, ![16384]⟩
abbrev S16384x1 : Shape := ⟨2, ![16384, 1]⟩
abbrev S16384x360 : Shape := ⟨2, ![16384, 360]⟩
abbrev S1x360 : Shape := ⟨2, ![1, 360]⟩

abbrev nBuf : Space → Nat
  | .hbm => 102
  | .vmem => 0
  | .smem => 0
  | _ => 0

abbrev bufTy : (tb : Table) → Fin (tcTables nBuf tb) → BufTy
  | .hbm, ⟨0, _⟩ => ⟨S16384x3x360, .f32⟩
  | .hbm, ⟨1, _⟩ => ⟨S360x200, .f32⟩
  | .hbm, ⟨2, _⟩ => ⟨S16384x200, .f32⟩
  | .hbm, ⟨3, _⟩ => ⟨S256x1080, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S360x256, .f32⟩
  | .hbm, ⟨8, _⟩ => ⟨S360, .f32⟩
  | .hbm, ⟨9, _⟩ => ⟨S512x129600, .f32⟩
  | .hbm, ⟨10, _⟩ => ⟨S512, .f32⟩
  | .hbm, ⟨11, _⟩ => ⟨S128x512, .f32⟩
  | .hbm, ⟨12, _⟩ => ⟨S128, .f32⟩
  | .hbm, ⟨13, _⟩ => ⟨S256x200, .f32⟩
  | .hbm, ⟨14, _⟩ => ⟨S256, .f32⟩
  | .hbm, ⟨15, _⟩ => ⟨S128x256, .f32⟩
  | .hbm, ⟨16, _⟩ => ⟨S128, .f32⟩
  | .hbm, ⟨17, _⟩ => ⟨S256x128, .f32⟩
  | .hbm, ⟨18, _⟩ => ⟨S256, .f32⟩
  | .hbm, ⟨19, _⟩ => ⟨S360x256, .f32⟩
  | .hbm, ⟨20, _⟩ => ⟨S360, .f32⟩
  | .hbm, ⟨21, _⟩ => ⟨S16384x1080, .f32⟩
  | .hbm, ⟨22, _⟩ => ⟨S1080x256, .f32⟩
  | .hbm, ⟨23, _⟩ => ⟨S16384x256, .f32⟩
  | .hbm, ⟨24, _⟩ => ⟨S1x256, .f32⟩
  | .hbm, ⟨25, _⟩ => ⟨S16384x256, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .i1⟩
  | .hbm, ⟨30, _⟩ => ⟨S16384x256, .f32⟩
  | .hbm, ⟨31, _⟩ => ⟨S16384x256, .f32⟩
  | .hbm, ⟨32, _⟩ => ⟨S256x256, .f32⟩
  | .hbm, ⟨33, _⟩ => ⟨S16384x256, .f32⟩
  | .hbm, ⟨34, _⟩ => ⟨S1x256, .f32⟩
  | .hbm, ⟨35, _⟩ => ⟨S16384x256, .f32⟩
  | .hbm, ⟨36, _⟩ => ⟨S16384x256, .f32⟩
  | .hbm, ⟨37, _⟩ => ⟨S_, .f32⟩
  | .hbm, ⟨38, _⟩ => ⟨S16384x256, .f32⟩
  | .hbm, ⟨39, _⟩ => ⟨S16384x256, .i1⟩
  | .hbm, ⟨40, _⟩ => ⟨S16384x256, .f32⟩
  | .hbm, ⟨41, _⟩ => ⟨S256x16384, .f32⟩
  | .hbm, ⟨42, _⟩ => ⟨S256x256, .f32⟩
  | .hbm, ⟨43, _⟩ => ⟨S_, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x360, .f32⟩
  | .hbm, ⟨48, _⟩ => ⟨S256x360, .f32⟩
  | .hbm, ⟨49, _⟩ => ⟨S360x360, .f32⟩
  | .hbm, ⟨50, _⟩ => ⟨S1x129600, .f32⟩
  | .hbm, ⟨51, _⟩ => ⟨S129600x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S_, .f32⟩
  | .hbm, ⟨56, _⟩ => ⟨S1x512, .f32⟩
  | .hbm, ⟨57, _⟩ => ⟨S1x512, .f32⟩
  | .hbm, ⟨58, _⟩ => ⟨S512x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x1x1x128, .f32⟩
  | .hbm, ⟨63, _⟩ => ⟨S16384x1x1x128, .f32⟩
  | .hbm, ⟨64, _⟩ => ⟨S16384x128, .f32⟩
  | .hbm, ⟨65, _⟩ => ⟨S200x256, .f32⟩
  | .hbm, ⟨66, _⟩ => ⟨S16384x256, .f32⟩
  | .hbm, ⟨67, _⟩ => ⟨S1x256, .f32⟩
  | .hbm, ⟨68, _⟩ => ⟨S16384x256, .f32⟩
  | .hbm, ⟨69, _⟩ => ⟨S16384x256, .f32⟩
  | .hbm, ⟨70, _⟩ => ⟨S_, .f32⟩
  | .hbm, ⟨71, _⟩ => ⟨S16384x256, .f32⟩
  | .hbm, ⟨72, _⟩ => ⟨S16384x256, .f32⟩
  | .hbm, ⟨73, _⟩ => ⟨S256x128, .f32⟩
  | .hbm, ⟨74, _⟩ => ⟨S16384x128, .f32⟩
  | .hbm, ⟨75, _⟩ => ⟨S1x128, .f32⟩
  | .hbm, ⟨76, _⟩ => ⟨S16384x128, .f32⟩
  | .hbm, ⟨77, _⟩ => ⟨S16384x128, .f32⟩
  | .hbm, ⟨78, _⟩ => ⟨S16384x128, .f32⟩
  | .hbm, ⟨79, _⟩ => ⟨S16384x128, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x128, .f32⟩
  | .hbm, ⟨88, _⟩ => ⟨S16384x128, .f32⟩
  | .hbm, ⟨89, _⟩ => ⟨S128x256, .f32⟩
  | .hbm, ⟨90, _⟩ => ⟨S16384x256, .f32⟩
  | .hbm, ⟨91, _⟩ => ⟨S1x256, .f32⟩
  | .hbm, ⟨92, _⟩ => ⟨S16384x256, .f32⟩
  | .hbm, ⟨93, _⟩ => ⟨S16384x256, .f32⟩
  | .hbm, ⟨94, _⟩ => ⟨S_, .f32⟩
  | .hbm, ⟨95, _⟩ => ⟨S16384x256, .f32⟩
  | .hbm, ⟨96, _⟩ => ⟨S16384x256, .f32⟩
  | .hbm, ⟨97, _⟩ => ⟨S256x360, .f32⟩
  | .hbm, ⟨98, _⟩ => ⟨S16384x360, .f32⟩
  | .hbm, ⟨99, _⟩ => ⟨S1x360, .f32⟩
  | .hbm, ⟨100, _⟩ => ⟨S16384x360, .f32⟩
  | .hbm, ⟨101, _⟩ => ⟨S16384x360, .f32⟩
  | _, _ => ⟨S16384x3x360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call0_cst : Ref sig .tc := ⟨.hbm, 55, rfl⟩
abbrev main_call0_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call1_cst : Ref sig .tc := ⟨.hbm, 70, rfl⟩
abbrev main_call1_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_v0 : Ref sig .tc := ⟨.hbm, 79, rfl⟩
abbrev main_call2_cst : Ref sig .tc := ⟨.hbm, 80, rfl⟩
abbrev main_call2_v1 : Ref sig .tc := ⟨.hbm, 81, rfl⟩
abbrev main_call2_v2 : Ref sig .tc := ⟨.hbm, 82, rfl⟩
abbrev main_v51 : Ref sig .tc := ⟨.hbm, 83, rfl⟩
abbrev main_cst_2 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call3_cst : Ref sig .tc := ⟨.hbm, 94, rfl⟩
abbrev main_call3_v0 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]

class Facts₀ : Prop where
  shapeCasts_S16384x3x360_S16384x1080 : S16384x3x360.ShapeCasts S16384x1080
  transposes_S256x1080_S1080x256_1_0 : S256x1080.Transposes [1, 0] S1080x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S256x256_S256x256_1_0 : S256x256.Transposes [1, 0] S256x256
  transposes_S16384x256_S256x16384_1_0 : S16384x256.Transposes [1, 0] S256x16384
  bcast_S_S256x256 : S_.BroadcastsInDim S256x256 (![] : Fin 0 → Fin S256x256.rank)
  slices_S256x1080_S256x360_0_720 : S256x1080.Slices ![0, 720] S256x360
  shapeCasts_S360x360_S1x129600 : S360x360.ShapeCasts S1x129600
  transposes_S512x129600_S129600x512_1_0 : S512x129600.Transposes [1, 0] S129600x512
  bcast_S512_S1x512_1 : S512.BroadcastsInDim S1x512 (![1] : Fin 1 → Fin S1x512.rank)
  bcast_S_S1x512 : S_.BroadcastsInDim S1x512 (![] : Fin 0 → Fin S1x512.rank)
  transposes_S128x512_S512x128_1_0 : S128x512.Transposes [1, 0] S512x128
  bcast_S128_S1x128_1 : S128.BroadcastsInDim S1x128 (![1] : Fin 1 → Fin S1x128.rank)
  shapeCasts_S1x128_S1x1x1x128 : S1x128.ShapeCasts S1x1x1x128
  bcast_S1x1x1x128_S16384x1x1x128_0_1_2_3 : S1x1x1x128.BroadcastsInDim S16384x1x1x128 (![0, 1, 2, 3] : Fin 4 → Fin S16384x1x1x128.rank)
  shapeCasts_S16384x1x1x128_S16384x128 : S16384x1x1x128.ShapeCasts S16384x128
  transposes_S256x200_S200x256_1_0 : S256x200.Transposes [1, 0] S200x256
  transposes_S128x256_S256x128_1_0 : S128x256.Transposes [1, 0] S256x128
  bcast_S1x128_S16384x128_0_1 : S1x128.BroadcastsInDim S16384x128 (![0, 1] : Fin 2 → Fin S16384x128.rank)
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  transposes_S256x128_S128x256_1_0 : S256x128.Transposes [1, 0] S128x256
  transposes_S360x256_S256x360_1_0 : S360x256.Transposes [1, 0] S256x360
  bcast_S360_S1x360_1 : S360.BroadcastsInDim S1x360 (![1] : Fin 1 → Fin S1x360.rank)
  bcast_S1x360_S16384x360_0_1 : S1x360.BroadcastsInDim S16384x360 (![0, 1] : Fin 2 → Fin S16384x360.rank)
  dot_S16384x1080_S1080x256_S16384x256_1_0_0_1_n_n_wf : DotDims.WF S16384x1080 S1080x256 S16384x256 [1] [0] [0] [1] [] []
  dot_S16384x256_S256x256_S16384x256_1_0_0_1_n_n_wf : DotDims.WF S16384x256 S256x256 S16384x256 [1] [0] [0] [1] [] []
  dot_S256x16384_S16384x256_S256x256_1_0_0_1_n_n_wf : DotDims.WF S256x16384 S16384x256 S256x256 [1] [0] [0] [1] [] []
  dot_S256x256_S256x360_S256x360_1_0_0_1_n_n_wf : DotDims.WF S256x256 S256x360 S256x360 [1] [0] [0] [1] [] []
  dot_S360x256_S256x360_S360x360_1_0_0_1_n_n_wf : DotDims.WF S360x256 S256x360 S360x360 [1] [0] [0] [1] [] []
  dot_S1x129600_S129600x512_S1x512_1_0_0_1_n_n_wf : DotDims.WF S1x129600 S129600x512 S1x512 [1] [0] [0] [1] [] []
  dot_S1x512_S512x128_S1x128_1_0_0_1_n_n_wf : DotDims.WF S1x512 S512x128 S1x128 [1] [0] [0] [1] [] []
  dot_S16384x200_S200x256_S16384x256_1_0_0_1_n_n_wf : DotDims.WF S16384x200 S200x256 S16384x256 [1] [0] [0] [1] [] []
  dot_S16384x256_S256x128_S16384x128_1_0_0_1_n_n_wf : DotDims.WF S16384x256 S256x128 S16384x128 [1] [0] [0] [1] [] []
  dot_S16384x128_S128x256_S16384x256_1_0_0_1_n_n_wf : DotDims.WF S16384x128 S128x256 S16384x256 [1] [0] [0] [1] [] []
  dot_S16384x256_S256x360_S16384x360_1_0_0_1_n_n_wf : DotDims.WF S16384x256 S256x360 S16384x360 [1] [0] [0] [1] [] []

variable [Facts₀]

def dot_S16384x1080_S1080x256_S16384x256_1_0_0_1_n_n : DotDims S16384x1080 S1080x256 S16384x256 where
  lhsContracting := [1]
  rhsContracting := [0]
  lhsNonContracting := [0]
  rhsNonContracting := [1]
  lhsBatch := []
  rhsBatch := []
  wf := dot_S16384x1080_S1080x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S256x16384_S16384x256_S256x256_1_0_0_1_n_n : DotDims S256x16384 S16384x256 S256x256 where
  lhsContracting := [1]
  rhsContracting := [0]
  lhsNonContracting := [0]
  rhsNonContracting := [1]
  lhsBatch := []
  rhsBatch := []
  wf := dot_S256x16384_S16384x256_S256x256_1_0_0_1_n_n_wf
def dot_S256x256_S256x360_S256x360_1_0_0_1_n_n : DotDims S256x256 S256x360 S256x360 where
  lhsContracting := [1]
  rhsContracting := [0]
  lhsNonContracting := [0]
  rhsNonContracting := [1]
  lhsBatch := []
  rhsBatch := []
  wf := dot_S256x256_S256x360_S256x360_1_0_0_1_n_n_wf
def dot_S360x256_S256x360_S360x360_1_0_0_1_n_n : DotDims S360x256 S256x360 S360x360 where
  lhsContracting := [1]
  rhsContracting := [0]
  lhsNonContracting := [0]
  rhsNonContracting := [1]
  lhsBatch := []
  rhsBatch := []
  wf := dot_S360x256_S256x360_S360x360_1_0_0_1_n_n_wf
def dot_S1x129600_S129600x512_S1x512_1_0_0_1_n_n : DotDims S1x129600 S129600x512 S1x512 where
  lhsContracting := [1]
  rhsContracting := [0]
  lhsNonContracting := [0]
  rhsNonContracting := [1]
  lhsBatch := []
  rhsBatch := []
  wf := dot_S1x129600_S129600x512_S1x512_1_0_0_1_n_n_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf
def dot_S16384x200_S200x256_S16384x256_1_0_0_1_n_n : DotDims S16384x200 S200x256 S16384x256 where
  lhsContracting := [1]
  rhsContracting := [0]
  lhsNonContracting := [0]
  rhsNonContracting := [1]
  lhsBatch := []
  rhsBatch := []
  wf := dot_S16384x200_S200x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x360_S16384x360_1_0_0_1_n_n : DotDims S16384x256 S256x360 S16384x360 where
  lhsContracting := [1]
  rhsContracting := [0]
  lhsNonContracting := [0]
  rhsNonContracting := [1]
  lhsBatch := []
  rhsBatch := []
  wf := dot_S16384x256_S256x360_S16384x360_1_0_0_1_n_n_wf

class Facts : Prop extends Facts₀ where

variable [Facts]
-- ==== Proof.K.Region0.lean ====
/-
  The first pallas_call (the Jacobian batch reduction) as a pipeline region.

  The grid is 2 × 8: the first axis picks a half of the batch, the second walks that half in 8 blocks of 1024 rows.
  At a point the body reads a block of 1024 rows of the reshaped input and the four whole parameter arrays, forms the
  two layers' sign masks m1, m2 : 1024 × 256 (entries 0 or 1) and adds m2ᵀ · m1 to a 256 × 256 accumulator kept in a
  scratch buffer across the points of one half: at the half's first point the scratch is first overwritten with zeros,
  at its last point the accumulator is also copied to the output block (one 256 × 256 slab per half), which is written
  back there and nowhere else.

  So the scratch after point n is `accAfter n`: the step applied to the blocks at n and to zeros (first point of a half)
  or to `accAfter (n - 1)`; the output block after the last point of a half is that accumulator as a 1 × 256 × 256 slab.
-/
import proofs.«119898_j41583873360606_2_alg».proof.Proof.Gen.Kernel.Launch
import proofs.«119898_j41583873360606_2_alg».proof.Proof.Gen.Kernel.Skeleton
import proofs.«119898_j41583873360606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.R0
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- "This is the first block of its half": the body's first conditional, from the second grid coordinate. -/
abbrev cond0_1 (i : grid0.Coords) : Prop := (Scalar.cmpi .ne (Scalar.extui (Scalar.cmpi .eq (BitVec.ofNat 32 (i 1).val) 0#32)) 0#32) = 1#1
/-- "This is the last block of its half": the body's second conditional. -/
abbrev cond0_2 (i : grid0.Coords) : Prop := k0_cond2 i = 1#1

theorem hcond0_1 : ∀ t : Fin cfg0.N, cond0_1 (grid0.coords t) ↔ t.val % 8 = 0 :=
  (by decide +kernel : ∀ t : Fin grid0.N, cond0_1 (grid0.coords t) ↔ t.val % 8 = 0)
theorem hcond0_2 : ∀ t : Fin cfg0.N, cond0_2 (grid0.coords t) ↔ t.val % 8 = 7 :=
  (by decide +kernel : ∀ t : Fin grid0.N, cond0_2 (grid0.coords t) ↔ t.val % 8 = 7)

/-- The output window is idle (not stored) exactly away from the last block of a half. -/
theorem idle5_of_not (i : grid0.Coords) (h : ¬cond0_2 i) : cfg0.idle 5 i = true := by
  show (!(k0_cond2 i == 1#1)) = true
  rw [Bool.not_eq_true', beq_eq_false_iff_ne]; exact h
theorem idle5_of (i : grid0.Coords) (h : cond0_2 i) : cfg0.idle 5 i = false := by
  show (!(k0_cond2 i == 1#1)) = false
  rw [Bool.not_eq_false', beq_iff_eq]; exact h

/-! ## One step of the accumulation, and what the body leaves -/

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- The accumulator after a point: the previous accumulator plus m2ᵀ · m1 of the point's block of rows. -/
def step (x0 : Vec F S1024x1080 .f32) (x1 : Vec F S1080x256 .f32) (x2 : Vec F S256 .f32) (x3 : Vec F S256x256 .f32) (x4 : Vec F S256 .f32)
    (prev : Vec F S256x256 .f32) : Vec F S256x256 .f32 :=
  k0_pay1 (k0_pay4 x0 x1 x2 x3 x4 prev)

/-- The zero accumulator a half starts from. -/
def zeroAcc : Vec F S256x256 .f32 := k0_pay3 (F := F)

abbrev rS : Rect S256x256 := Rect.unit (s := S256x256) ![0, 0] S256x256.size inb_S256x256_S256x256_0_0
abbrev rO : Rect S1x256x256 := Rect.unit (s := S1x256x256) ![0, 0, 0] S1x256x256.size inb_S1x256x256_S1x256x256_0_0_0

theorem coverS (L : List (View.Piece (Elt F) S256x256 .f32)) (p : Vec F S256x256 .f32) (y : S256x256.Idx) :
    ∃ pc ∈ ((⟨rS, p⟩ : View.Piece (Elt F) S256x256 .f32) :: L), y ∈ pc.1.set := by
  obtain ⟨pc, hpc, hy⟩ := View.cover_of_tiled ([⟨rS, p⟩] : List (View.Piece (Elt F) S256x256 .f32)) S256x256.size (by rfl) y
  exact ⟨pc, List.mem_cons.mpr (Or.inl (List.mem_singleton.mp hpc)), hy⟩
theorem coverO (L : List (View.Piece (Elt F) S1x256x256 .f32)) (p : Vec F S1x256x256 .f32) (y : S1x256x256.Idx) :
    ∃ pc ∈ ((⟨rO, p⟩ : View.Piece (Elt F) S1x256x256 .f32) :: L), y ∈ pc.1.set := by
  obtain ⟨pc, hpc, hy⟩ := View.cover_of_tiled ([⟨rO, p⟩] : List (View.Piece (Elt F) S1x256x256 .f32)) S1x256x256.size (by rfl) y
  exact ⟨pc, List.mem_cons.mpr (Or.inl (List.mem_singleton.mp hpc)), hy⟩

/-! ## The body's runs, one per case of its two conditionals -/

set_option maxHeartbeats 1000000 in
/-- A middle block of a half: the accumulator (at `xs`) takes one step; the output block is not touched. -/
theorem sound_kernel0_B (c : Dev nD) (i : grid0.Coords)
    (arg2 : Memref sig .tc .vmem S1024x1080 .f32) (harg2 : arg2.IsWhole) (arg3 : Memref sig .tc .vmem S1080x256 .f32) (harg3 : arg3.IsWhole)
    (arg4 : Memref sig .tc .vmem S256 .f32) (harg4 : arg4.IsWhole) (arg5 : Memref sig .tc .vmem S256x256 .f32) (harg5 : arg5.IsWhole)
    (arg6 : Memref sig .tc .vmem S256 .f32) (harg6 : arg6.IsWhole) (arg7 : Memref sig .tc .vmem S1x256x256 .f32) (harg7 : arg7.IsWhole)
    (arg8 : Memref sig .tc .vmem S256x256 .f32) (harg8 : arg8.IsWhole) (hc1 : ¬cond0_1 i) (hc2 : ¬cond0_2 i)
    (x0 : Vec F S1024x1080 .f32) (x1 : Vec F S1080x256 .f32) (x2 : Vec F S256 .f32) (x3 : Vec F S256x256 .f32) (x4 : Vec F S256 .f32) (xs : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare (step x0 x1 x2 x3 x4 xs)) -∗ K ⟨⟩))
      ⊢ wp frame (wpE (defs₀ (F := F)) Variants.none c none) E (cc0__jac_kernel i arg2 harg2 arg3 harg3 arg4 harg4 arg5 harg5 arg6 harg6 arg7 harg7 arg8 harg8) K := by
  simp only [cc0__jac_kernel_eq_skeleton]; unfold cc0__jac_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf8
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H8
  ipureintro
  rw [View.read_writes_eq_canon _ _ _ (coverS _ _), View.canon_cons_unit_zero hz2]
  simp only [View.readAt_eq_ld, harg2.read_unread, harg3.read_unread, harg4.read_unread, harg5.read_unread, harg6.read_unread, harg8.read_unread,
      View.ld_unit_zero (S := S1024x1080) hz2, View.ld_unit_zero (S := S1080x256) hz2, View.ld_unit_zero (S := S256) hz1, View.ld_unit_zero (S := S256x256) hz2]
  rfl

set_option maxHeartbeats 1000000 in
/-- The first block of a half: the accumulator is zeroed, then takes one step; whatever it held before is forgotten.
    The output block is not touched. -/
theorem sound_kernel0_A (c : Dev nD) (i : grid0.Coords)
    (arg2 : Memref sig .tc .vmem S1024x1080 .f32) (harg2 : arg2.IsWhole) (arg3 : Memref sig .tc .vmem S1080x256 .f32) (harg3 : arg3.IsWhole)
    (arg4 : Memref sig .tc .vmem S256 .f32) (harg4 : arg4.IsWhole) (arg5 : Memref sig .tc .vmem S256x256 .f32) (harg5 : arg5.IsWhole)
    (arg6 : Memref sig .tc .vmem S256 .f32) (harg6 : arg6.IsWhole) (arg7 : Memref sig .tc .vmem S1x256x256 .f32) (harg7 : arg7.IsWhole)
    (arg8 : Memref sig .tc .vmem S256x256 .f32) (harg8 : arg8.IsWhole) (hc1 : cond0_1 i) (hc2 : ¬cond0_2 i)
    (x0 : Vec F S1024x1080 .f32) (x1 : Vec F S1080x256 .f32) (x2 : Vec F S256 .f32) (x3 : Vec F S256x256 .f32) (x4 : Vec F S256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ xs, owns (c : Thread nD τ) arg8 fullShare xs)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare (step x0 x1 x2 x3 x4 (zeroAcc (F := F)))) -∗ K ⟨⟩))
      ⊢ wp frame (wpE (defs₀ (F := F)) Variants.none c none) E (cc0__jac_kernel i arg2 harg2 arg3 harg3 arg4 harg4 arg5 harg5 arg6 harg6 arg7 harg7 arg8 harg8) K := by
  simp only [cc0__jac_kernel_eq_skeleton]; unfold cc0__jac_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%xs, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H8
  ipureintro
  sl_unfold_run_names
  rw [View.read_writes_eq_canon _ _ _ (coverS _ _), View.canon_cons_unit_zero hz2]
  simp only [View.readAt_eq_ld, harg2.read_unread, harg3.read_unread, harg4.read_unread, harg5.read_unread, harg6.read_unread, harg8.read_unread,
      View.ld_unit_zero (S := S1024x1080) hz2, View.ld_unit_zero (S := S1080x256) hz2, View.ld_unit_zero (S := S256) hz1, View.ld_unit_zero (S := S256x256) hz2,
      View.readCov_unit_zero (S := S256x256) _ hz2]
  rfl

set_option maxHeartbeats 1000000 in
/-- The last block of a half: the accumulator (at `xs`) takes one step and is copied to the output block as a
    1 × 256 × 256 slab. -/
theorem sound_kernel0_C (c : Dev nD) (i : grid0.Coords)
    (arg2 : Memref sig .tc .vmem S1024x1080 .f32) (harg2 : arg2.IsWhole) (arg3 : Memref sig .tc .vmem S1080x256 .f32) (harg3 : arg3.IsWhole)
    (arg4 : Memref sig .tc .vmem S256 .f32) (harg4 : arg4.IsWhole) (arg5 : Memref sig .tc .vmem S256x256 .f32) (harg5 : arg5.IsWhole)
    (arg6 : Memref sig .tc .vmem S256 .f32) (harg6 : arg6.IsWhole) (arg7 : Memref sig .tc .vmem S1x256x256 .f32) (harg7 : arg7.IsWhole)
    (arg8 : Memref sig .tc .vmem S256x256 .f32) (harg8 : arg8.IsWhole) (hc1 : ¬cond0_1 i) (hc2 : cond0_2 i)
    (x0 : Vec F S1024x1080 .f32) (x1 : Vec F S1080x256 .f32) (x2 : Vec F S256 .f32) (x3 : Vec F S256x256 .f32) (x4 : Vec F S256 .f32) (xs : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare xs ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare (step x0 x1 x2 x3 x4 xs)
            ∗ owns (c : Thread nD τ) arg7 fullShare (k0_pay2 (step x0 x1 x2 x3 x4 xs))) -∗ K ⟨⟩))
      ⊢ wp frame (wpE (defs₀ (F := F)) Variants.none c none) E (cc0__jac_kernel i arg2 harg2 arg3 harg3 arg4 harg4 arg5 harg5 arg6 harg6 arg7 harg7 arg8 harg8) K := by
  simp only [cc0__jac_kernel_eq_skeleton]; unfold cc0__jac_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf8
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H8]
  · iexists _; isplitr
    swap; · iexact H8
    ipureintro
    sl_unfold_run_names
    rw [View.read_writes_eq_canon _ _ _ (coverS _ _), View.canon_cons_unit_zero hz2]
    simp only [View.readAt_eq_ld, harg2.read_unread, harg3.read_unread, harg4.read_unread, harg5.read_unread, harg6.read_unread, harg8.read_unread,
      View.ld_unit_zero (S := S1024x1080) hz2, View.ld_unit_zero (S := S1080x256) hz2, View.ld_unit_zero (S := S256) hz1, View.ld_unit_zero (S := S256x256) hz2]
    rfl
  iexists _; isplitr
  swap; · iexact H7
  ipureintro
  sl_unfold_run_names
  rw [View.read_writes_eq_canon _ _ _ (coverO _ _), View.canon_cons_unit_zero hz3]
  simp only [View.readAt_eq_ld, harg2.read_unread, harg3.read_unread, harg4.read_unread, harg5.read_unread, harg6.read_unread, harg8.read_unread,
      View.ld_unit_zero (S := S1024x1080) hz2, View.ld_unit_zero (S := S1080x256) hz2, View.ld_unit_zero (S := S256) hz1, View.ld_unit_zero (S := S256x256) hz2,
      View.readCov_unit_zero (S := S256x256) _ hz2]
  rfl

/-! ## The accumulator point by point -/

/-- One step at position `n` of the grid (the identity past the grid: never read). -/
def stepAt (c : Dev nD) (n : ℕ) (prev : Vec F S256x256 .f32) : Vec F S256x256 .f32 :=
  if h : n < cfg0.N then step (iblk0 V c 0 ⟨n, h⟩) (iblk0 V c 1 ⟨n, h⟩) (iblk0 V c 2 ⟨n, h⟩) (iblk0 V c 3 ⟨n, h⟩) (iblk0 V c 4 ⟨n, h⟩) prev else prev

/-- What the scratch accumulator holds after the body at position `n`: a half's first point starts from zeros. -/
def accAfter (c : Dev nD) : ℕ → Vec F S256x256 .f32
  | 0 => stepAt V c 0 (zeroAcc (F := F))
  | n + 1 => stepAt V c (n + 1) (if (n + 1) % 8 = 0 then zeroAcc (F := F) else accAfter c n)

theorem stepAt_eq (c : Dev nD) (t : Fin cfg0.N) (prev : Vec F S256x256 .f32) :
    stepAt V c t.val prev = step (iblk0 V c 0 t) (iblk0 V c 1 t) (iblk0 V c 2 t) (iblk0 V c 3 t) (iblk0 V c 4 t) prev := dif_pos t.isLt

theorem accAfter_first (c : Dev nD) (t : Fin cfg0.N) (h : t.val % 8 = 0) :
    accAfter V c t.val = step (iblk0 V c 0 t) (iblk0 V c 1 t) (iblk0 V c 2 t) (iblk0 V c 3 t) (iblk0 V c 4 t) (zeroAcc (F := F)) := by
  obtain ⟨n, hn⟩ := t
  cases n with
  | zero => exact stepAt_eq V c ⟨0, hn⟩ _
  | succ n =>
    show stepAt V c (n + 1) (if (n + 1) % 8 = 0 then zeroAcc (F := F) else accAfter V c n) = _
    rw [if_pos h]; exact stepAt_eq V c ⟨n + 1, hn⟩ _

theorem accAfter_next (c : Dev nD) (t : Fin cfg0.N) (h : ¬t.val % 8 = 0) :
    accAfter V c t.val = step (iblk0 V c 0 t) (iblk0 V c 1 t) (iblk0 V c 2 t) (iblk0 V c 3 t) (iblk0 V c 4 t) (accAfter V c (t.val - 1)) := by
  obtain ⟨n, hn⟩ := t
  cases n with
  | zero => exact absurd (Nat.zero_mod _) h
  | succ n =>
    show stepAt V c (n + 1) (if (n + 1) % 8 = 0 then zeroAcc (F := F) else accAfter V c n) = _
    rw [if_neg h]; exact stepAt_eq V c ⟨n + 1, hn⟩ _

/-! ## The proof data -/

/-- The scratch accumulator's memref. -/
abbrev scr : Memref sig .tc .vmem S256x256 .f32 := Memref.whole cc0_scratch0

/-- The scratch before point `n`: anything at the start, then the accumulator after the point before. -/
def scrAt (c : Dev nD) (n : Fin (cfg0.N + 1)) : sProp 𝕄 :=
  match n.val with
  | 0 => iprop(∃ xs, owns (c : Thread nD τ) scr fullShare xs)
  | k + 1 => owns (c : Thread nD τ) scr fullShare (accAfter V c k)

/-- The invariant between points: the scratch at its running contents, the other scoped buffers this call does not
    stage at something, the generator register at some state. -/
def Φ0 (c : Dev nD) (n : Fin (cfg0.N + 1)) : sProp 𝕄 :=
  iprop(scrAt V c n ∗ Pipeline.scopedRestBut (Ix := Unit) (Name := ℕ) (U := UR sig nD τ) (Lvl := ℕ) (Val := Elt F) spec0 c [cc0_scratch0] ∗ ∃ r, prngReg c r)

theorem scrAt_succ (c : Dev nD) (t : Fin cfg0.N) : scrAt V c t.succ = owns (c : Thread nD τ) scr fullShare (accAfter V c t.val) := rfl

theorem scrAt_castSucc_pos (c : Dev nD) (t : Fin cfg0.N) (h : t.val ≠ 0) :
    scrAt V c t.castSucc = owns (c : Thread nD τ) scr fullShare (accAfter V c (t.val - 1)) := by
  obtain ⟨n, hn⟩ := t
  cases n with
  | zero => exact absurd rfl h
  | succ k => rfl

theorem scrAt_castSucc_any (c : Dev nD) (t : Fin cfg0.N) :
    scrAt V c t.castSucc ⊢ (iprop(∃ xs, owns (c : Thread nD τ) scr fullShare xs) : sProp 𝕄) := by
  obtain ⟨n, hn⟩ := t
  cases n with
  | zero => exact .rfl
  | succ k => show owns (c : Thread nD τ) scr fullShare (accAfter V c k) ⊢ _; iintro H; iexists _; iexact H

/-- The proof data of this pipeline on core `c`: the arrays as the region finds them; after the body each input's
    buffer at its block and the output's at the accumulator as a slab (asked only where the body stores it: the last
    point of a half); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (accAfter V c t.val)
  Φ n := Φ0 V c n
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (accAfter V c t.val) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the output's buffer as found where the body does not store it, the accumulator's slab where it does. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (match cfg0.idle 5 (cfg0.grid.coords t) with
        | true =>
          match (cfg0.win 5).flush t with
          | false => iprop(∃ d, owns (c : Thread nD τ) (st0_5 t) fullShare ((dat0 V c).before 5 t d))
          | true => owns (c : Thread nD τ) (st0_5 t) fullShare ((dat0 V c).after 5 t)
        | false => owns (c : Thread nD τ) (st0_5 t) fullShare ((dat0 V c).after 5 t)))

set_option maxHeartbeats 1000000 in
/-- The body at any point. The inputs' buffers hold their blocks; the point's position in its half picks the case; the
    scratch holds the running accumulator (anything before a half's first point, which zeroes it); the output's buffer
    is handed back as found except at a half's last point, where it takes the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4,
    show (dat0 V c).Φ t.succ = Φ0 V c t.succ from rfl, show (dat0 V c).Φ t.castSucc = Φ0 V c t.castSucc from rfl]
  unfold Φ0
  rw [scrAt_succ]
  have hN : t.val < 16 := lt_of_lt_of_eq t.isLt (show cfg0.N = 16 from N_0)
  by_cases h7 : t.val % 8 = 7
  · -- the last block of a half
    have hc2 : cond0_2 (grid0.coords t) := (hcond0_2 t).mpr h7
    have hc1 : ¬cond0_1 (grid0.coords t) := fun h => by have := (hcond0_1 t).mp h; omega
    have hid : idle0 5 (grid0.coords t) = false := idle5_of _ hc2
    rw [after0_5, accAfter_next V c t (by omega), scrAt_castSucc_pos V c t (by omega)]
    split
    · rename_i heq; exact absurd (heq.symm.trans hid) (by decide)
    iintro ⟨⟨Hs, Hrest, Hp⟩, Ho, ⟨%d0, H0⟩, ⟨%d1, H1⟩, ⟨%d2, H2⟩, ⟨%d3, H3⟩, ⟨%d4, H4⟩, ⟨%d5, H5⟩⟩
    iapply (sound_kernel0_C c (grid0.coords t) _ _ _ _ _ _ _ _ _ _ _ _ _ _ hc1 hc2
      (iblk0 V c 0 t) (iblk0 V c 1 t) (iblk0 V c 2 t) (iblk0 V c 3 t) (iblk0 V c 4 t) (accAfter V c (t.val - 1)) Set.univ _)
    isplitl [H0]; · iexact H0
    isplitl [H1]; · iexact H1
    isplitl [H2]; · iexact H2
    isplitl [H3]; · iexact H3
    isplitl [H4]; · iexact H4
    isplitl [Hs]; · iexact Hs
    isplitl [H5]; · iexists _; iexact H5
    iintro ⟨H0, H1, H2, H3, H4, Hs, H5⟩
    isplitl [Hs Hrest Hp]
    · isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    iexact H5
  · have hc2 : ¬cond0_2 (grid0.coords t) := fun h => h7 ((hcond0_2 t).mp h)
    have hid : idle0 5 (grid0.coords t) = true := idle5_of_not _ hc2
    have hfl : (win0 5).flush t = false := Bool.eq_false_iff.mpr fun h => h7 ((flush0_5 t).mp h)
    simp only [hfl]
    by_cases h0 : t.val % 8 = 0
    · -- the first block of a half
      have hc1 : cond0_1 (grid0.coords t) := (hcond0_1 t).mpr h0
      rw [accAfter_first V c t h0]
      split
      swap
      · rename_i heq; exact absurd (heq.symm.trans hid) (by decide)
      iintro ⟨⟨Hs, Hrest, Hp⟩, Ho, ⟨%d0, H0⟩, ⟨%d1, H1⟩, ⟨%d2, H2⟩, ⟨%d3, H3⟩, ⟨%d4, H4⟩, ⟨%d5, H5⟩⟩
      ihave Hs' := (scrAt_castSucc_any V c t) $$ Hs
      iapply (sound_kernel0_A c (grid0.coords t) _ _ _ _ _ _ _ _ _ _ _ _ _ _ hc1 hc2
        (iblk0 V c 0 t) (iblk0 V c 1 t) (iblk0 V c 2 t) (iblk0 V c 3 t) (iblk0 V c 4 t) Set.univ _)
      isplitl [H0]; · iexact H0
      isplitl [H1]; · iexact H1
      isplitl [H2]; · iexact H2
      isplitl [H3]; · iexact H3
      isplitl [H4]; · iexact H4
      isplitl [Hs']; · iexact Hs'
      iintro ⟨H0, H1, H2, H3, H4, Hs⟩
      isplitl [Hs Hrest Hp]
      · isplitl [Hs]; · iexact Hs
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      iexists _; iexact H5
    · -- a middle block of a half
      have hc1 : ¬cond0_1 (grid0.coords t) := fun h => h0 ((hcond0_1 t).mp h)
      rw [accAfter_next V c t h0, scrAt_castSucc_pos V c t (fun e => h0 (by rw [e]))]
      split
      swap
      · rename_i heq; exact absurd (heq.symm.trans hid) (by decide)
      iintro ⟨⟨Hs, Hrest, Hp⟩, Ho, ⟨%d0, H0⟩, ⟨%d1, H1⟩, ⟨%d2, H2⟩, ⟨%d3, H3⟩, ⟨%d4, H4⟩, ⟨%d5, H5⟩⟩
      iapply (sound_kernel0_B c (grid0.coords t) _ _ _ _ _ _ _ _ _ _ _ _ _ _ hc1 hc2
        (iblk0 V c 0 t) (iblk0 V c 1 t) (iblk0 V c 2 t) (iblk0 V c 3 t) (iblk0 V c 4 t) (accAfter V c (t.val - 1)) Set.univ _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      isplitl [Hs Hrest Hp]
      · isplitl [Hs]; · iexact Hs
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0
end
-- ==== Proof.K.Region1.lean ====
/- Region 1 of @main (the pallas_call of cc1__npi_kernel, pipeline 1), at the TensorCore's buffer contents V on entry:
   each window's block at a grid point, what the body leaves in the output window's staging buffer as a function of
   the three input blocks, the body's triple, the pipeline's proof data and the body obligation at every point.
   Windows: 0 = main_v15 f32[1,360,360] whole (fetched at the first point only); 1 = main_v16 f32[512,360,360] in blocks
   [16,360,360]; 2 = main_v17 f32[512,1] in blocks [16,1]; 3 = the output main_v18 f32[512,1] in blocks [16,1]. -/
import proofs.«119898_j41583873360606_2_alg».proof.Proof.Gen.Kernel.Launch
import proofs.«119898_j41583873360606_2_alg».proof.Proof.Gen.Kernel.Skeleton
import proofs.«119898_j41583873360606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1, the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2, the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev rE : Rect S1x360x360 := Rect.unit (s := S1x360x360) ![0, 0, 0] S1x360x360.size inb_S1x360x360_S1x360x360_0_0_0
abbrev rW : Rect S16x360x360 := Rect.unit (s := S16x360x360) ![0, 0, 0] S16x360x360.size inb_S16x360x360_S16x360x360_0_0_0
abbrev rB : Rect S16x1 := Rect.unit (s := S16x1) ![0, 0] S16x1.size inb_S16x1_S16x1_0_0

/-! ## What the body leaves in the output window's buffer -/

/-- Window 3's staging buffer after the body, from the three input windows' blocks: its one store, of the payload of
    the three loaded values, over the whole buffer. -/
def out1_3 (x0 : Vec F S1x360x360 .f32) (x1 : Vec F S16x360x360 .f32) (x2 : Vec F S16x1 .f32) : Vec F S16x1 .f32 :=
  View.canon [⟨rB, k1_pay1 (View.ld x0 rE) (View.ld x1 rW) (View.ld x2 rB)⟩]

/-- The store tiles the buffer, so it covers it. -/
theorem cover1_3 (p0 : Vec F S16x1 .f32) (y : S16x1.Idx) :
    ∃ pc ∈ ([⟨rB, p0⟩] : List (View.Piece (Elt F) S16x1 .f32)), y ∈ pc.1.set :=
  View.cover_of_tiled [⟨rB, p0⟩] S16x1.size (by rfl) y

/-! ## The body's triple -/

set_option maxHeartbeats 1000000 in
/-- The kernel body on whole staging memrefs, the inputs' at read contents x0 x1 x2 and the output's at anything, runs
    to the continuation holding the inputs' as they were and the output's at out1_3 of the inputs'. -/
theorem sound_kernel1 (c : Dev nD) (E : Set ℕ) (i : grid1.Coords)
    (arg1 : Memref sig .tc .vmem S1x360x360 .f32) (harg1 : arg1.IsWhole) (arg2 : Memref sig .tc .vmem S16x360x360 .f32) (harg2 : arg2.IsWhole)
    (arg3 : Memref sig .tc .vmem S16x1 .f32) (harg3 : arg3.IsWhole) (arg4 : Memref sig .tc .vmem S16x1 .f32) (harg4 : arg4.IsWhole)
    (x0 : Vec F S1x360x360 .f32) (x1 : Vec F S16x360x360 .f32) (x2 : Vec F S16x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__npi_kernel i arg1 harg1 arg2 harg2 arg3 harg3 arg4 harg4) K := by
  simp only [cc1__npi_kernel_eq_skeleton]; unfold cc1__npi_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them; after the body at point t each
    input's buffer at its block and the output's at out1_3 of the input blocks; the invariant that of a body touching
    its windows only; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.K.Region2.lean ====
/- Region 2 of @main: the pallas_call of the reconstruction kernel, on a grid of 8 points, at the buffer contents `V`
   found when the region is entered. Window 0 is a [2048,200] block of rows of the [16384,200] input, fetched at every
   point; windows 1–9 are the whole weight and bias arrays, fetched at the first point only; windows 10–13 are the
   [2048,128], [2048,128], [2048,128] and [2048,360] blocks of rows of the four results, written back at every point.
   The body stores, per block of rows x: the [1,128] row broadcast over the rows (window 10); the two-layer product
   relu(x·W₁+b₁)·W₂+b₂ (window 11); that sum with the row added, divided by the larger of its row norm and a
   literal (window 12); and the two-layer product of that quotient (window 13). Each store covers its whole buffer,
   so each output buffer after the body is its one store's payload, a function of the input blocks alone. -/
import proofs.«119898_j41583873360606_2_alg».proof.Proof.Gen.Kernel.Launch
import proofs.«119898_j41583873360606_2_alg».proof.Proof.Gen.Kernel.Skeleton
import proofs.«119898_j41583873360606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: unfetched, its
    block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: unfetched, its
    block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: unfetched, its
    block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: unfetched, its
    block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: unfetched, its
    block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: unfetched, its
    block index has not moved, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: unfetched, its
    block index has not moved, and the body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: unfetched, its
    block index has not moved, and the body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not: unfetched, its
    block index has not moved, and the body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not: unfetched, its
    block index has not moved, and the body leaves the block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and each store is of a whole buffer -/

abbrev r_S2048x200 : Rect S2048x200 := Rect.unit (s := S2048x200) ![0, 0] S2048x200.size inb_S2048x200_S2048x200_0_0
abbrev r_S1x128 : Rect S1x128 := Rect.unit (s := S1x128) ![0, 0] S1x128.size inb_S1x128_S1x128_0_0
abbrev r_S200x256 : Rect S200x256 := Rect.unit (s := S200x256) ![0, 0] S200x256.size inb_S200x256_S200x256_0_0
abbrev r_S256 : Rect S256 := Rect.unit (s := S256) ![0] S256.size inb_S256_S256_0
abbrev r_S256x128 : Rect S256x128 := Rect.unit (s := S256x128) ![0, 0] S256x128.size inb_S256x128_S256x128_0_0
abbrev r_S128 : Rect S128 := Rect.unit (s := S128) ![0] S128.size inb_S128_S128_0
abbrev r_S128x256 : Rect S128x256 := Rect.unit (s := S128x256) ![0, 0] S128x256.size inb_S128x256_S128x256_0_0
abbrev r_S256x360 : Rect S256x360 := Rect.unit (s := S256x360) ![0, 0] S256x360.size inb_S256x360_S256x360_0_0
abbrev r_S360 : Rect S360 := Rect.unit (s := S360) ![0] S360.size inb_S360_S360_0
abbrev r_S2048x128 : Rect S2048x128 := Rect.unit (s := S2048x128) ![0, 0] S2048x128.size inb_S2048x128_S2048x128_0_0
abbrev r_S2048x360 : Rect S2048x360 := Rect.unit (s := S2048x360) ![0, 0] S2048x360.size inb_S2048x360_S2048x360_0_0

/-! ## What the body leaves in each output window's buffer -/

/-- Window 10's buffer after the body: the [1,128] row (window 1) broadcast over the 2048 rows. -/
def out2_10 (x1 : Vec F S1x128 .f32) : Vec F S2048x128 .f32 :=
  View.canon [⟨r_S2048x128, k2_pay3 (View.ld x1 r_S1x128)⟩]

/-- Window 11's buffer after the body: relu(x·W₁+b₁)·W₂+b₂ of the block of rows x (window 0) with the weights and
    biases of windows 2, 3, 4, 5. -/
def out2_11 (x0 : Vec F S2048x200 .f32) (x2 : Vec F S200x256 .f32) (x3 : Vec F S256 .f32) (x4 : Vec F S256x128 .f32) (x5 : Vec F S128 .f32) : Vec F S2048x128 .f32 :=
  View.canon [⟨r_S2048x128, k2_pay2 (View.ld x0 r_S2048x200) (View.ld x2 r_S200x256) (View.ld x3 r_S256) (View.ld x4 r_S256x128) (View.ld x5 r_S128)⟩]

/-- Window 12's buffer after the body: the sum of the two above divided, row by row, by the larger of the row's
    Euclidean norm and a literal. -/
def out2_12 (x0 : Vec F S2048x200 .f32) (x2 : Vec F S200x256 .f32) (x3 : Vec F S256 .f32) (x4 : Vec F S256x128 .f32) (x5 : Vec F S128 .f32) (x1 : Vec F S1x128 .f32) : Vec F S2048x128 .f32 :=
  View.canon [⟨r_S2048x128, k2_pay4 (View.ld x0 r_S2048x200) (View.ld x2 r_S200x256) (View.ld x3 r_S256) (View.ld x4 r_S256x128) (View.ld x5 r_S128) (View.ld x1 r_S1x128)⟩]

/-- Window 13's buffer after the body: relu(z·W₃+b₃)·W₄+b₄ of that quotient z with the weights and biases of
    windows 6, 7, 8, 9. -/
def out2_13 (x0 : Vec F S2048x200 .f32) (x2 : Vec F S200x256 .f32) (x3 : Vec F S256 .f32) (x4 : Vec F S256x128 .f32) (x5 : Vec F S128 .f32) (x1 : Vec F S1x128 .f32)
    (x6 : Vec F S128x256 .f32) (x7 : Vec F S256 .f32) (x8 : Vec F S256x360 .f32) (x9 : Vec F S360 .f32) : Vec F S2048x360 .f32 :=
  View.canon [⟨r_S2048x360, k2_pay1 (k2_pay5 (View.ld x0 r_S2048x200) (View.ld x2 r_S200x256) (View.ld x3 r_S256) (View.ld x4 r_S256x128) (View.ld x5 r_S128) (View.ld x1 r_S1x128) (View.ld x6 r_S128x256)) (View.ld x7 r_S256) (View.ld x8 r_S256x360) (View.ld x9 r_S360)⟩]

/-- Each output's one store is of its whole buffer, so it covers it. -/
theorem cover2_10 (p0 : Vec F S2048x128 .f32) (y : S2048x128.Idx) :
    ∃ pc ∈ ([⟨r_S2048x128, p0⟩] : List (View.Piece (Elt F) S2048x128 .f32)), y ∈ pc.1.set :=
  View.cover_of_tiled [⟨r_S2048x128, p0⟩] S2048x128.size (by rfl) y
theorem cover2_11 (p0 : Vec F S2048x128 .f32) (y : S2048x128.Idx) :
    ∃ pc ∈ ([⟨r_S2048x128, p0⟩] : List (View.Piece (Elt F) S2048x128 .f32)), y ∈ pc.1.set := cover2_10 p0 y
theorem cover2_12 (p0 : Vec F S2048x128 .f32) (y : S2048x128.Idx) :
    ∃ pc ∈ ([⟨r_S2048x128, p0⟩] : List (View.Piece (Elt F) S2048x128 .f32)), y ∈ pc.1.set := cover2_10 p0 y
theorem cover2_13 (p0 : Vec F S2048x360 .f32) (y : S2048x360.Idx) :
    ∃ pc ∈ ([⟨r_S2048x360, p0⟩] : List (View.Piece (Elt F) S2048x360 .f32)), y ∈ pc.1.set :=
  View.cover_of_tiled [⟨r_S2048x360, p0⟩] S2048x360.size (by rfl) y

/-! ## The body's triple -/

set_option maxHeartbeats 4000000 in
/-- The kernel body on whole staging buffers, the inputs' at contents `xW` and the outputs' at anything, runs to the
    continuation holding the inputs' as they were and each output's at `out2_W` of the inputs': the body is its
    skeleton of loads and stores over payloads, the first sixty statements being its part, and every store covers
    its buffer. -/
theorem sound_kernel2 (c : Dev nD) (E : Set ℕ) (i : grid2.Coords) (arg1 : Memref sig .tc .vmem S2048x200 .f32) (harg1 : arg1.IsWhole) (arg2 : Memref sig .tc .vmem S1x128 .f32) (harg2 : arg2.IsWhole) (arg3 : Memref sig .tc .vmem S200x256 .f32) (harg3 : arg3.IsWhole) (arg4 : Memref sig .tc .vmem S256 .f32) (harg4 : arg4.IsWhole) (arg5 : Memref sig .tc .vmem S256x128 .f32) (harg5 : arg5.IsWhole) (arg6 : Memref sig .tc .vmem S128 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x360 .f32) (harg9 : arg9.IsWhole) (arg10 : Memref sig .tc .vmem S360 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x360 .f32) (harg14 : arg14.IsWhole)
    (x0 : Vec F S2048x200 .f32) (x1 : Vec F S1x128 .f32) (x2 : Vec F S200x256 .f32) (x3 : Vec F S256 .f32) (x4 : Vec F S256x128 .f32) (x5 : Vec F S128 .f32) (x6 : Vec F S128x256 .f32) (x7 : Vec F S256 .f32) (x8 : Vec F S256x360 .f32) (x9 : Vec F S360 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x1) ∗ owns (c : Thread nD τ) arg12 fullShare (out2_11 x0 x2 x3 x4 x5) ∗ owns (c : Thread nD τ) arg13 fullShare (out2_12 x0 x2 x3 x4 x5 x1) ∗ owns (c : Thread nD τ) arg14 fullShare (out2_13 x0 x2 x3 x4 x5 x1 x6 x7 x8 x9)) -∗ K ⟨⟩))
      ⊢ wp frame (wpE (defs₀ (F := F)) Variants.none c none) E (cc2__recon_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__recon_kernel_eq_skeleton]; unfold cc2__recon_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover2_10 _)
  isplitl [H11]
  · iexists _; isplitr
    swap; · iexact H11
    ipureintro
    exact View.read_writes_eq_canon _ _ _ (cover2_11 _)
  isplitl [H12]
  · iexists _; isplitr
    swap; · iexact H12
    ipureintro
    exact View.read_writes_eq_canon _ _ _ (cover2_12 _)
  iexists _; isplitr
  swap; · iexact H13
  ipureintro
  exact View.read_writes_eq_canon _ _ _ (cover2_13 _)

/-! ## The pipeline's proof data -/

/-- The proof data of the region on core `c`: the arrays as the region finds them; after the body at point `t` each
    input's buffer at its block and each output's at `out2_W` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 1 t)
    | ⟨11, _⟩ => out2_11 (iblk2 V c 0 t) (iblk2 V c 2 t) (iblk2 V c 3 t) (iblk2 V c 4 t) (iblk2 V c 5 t)
    | ⟨12, _⟩ => out2_12 (iblk2 V c 0 t) (iblk2 V c 2 t) (iblk2 V c 3 t) (iblk2 V c 4 t) (iblk2 V c 5 t) (iblk2 V c 1 t)
    | ⟨13, _⟩ => out2_13 (iblk2 V c 0 t) (iblk2 V c 2 t) (iblk2 V c 3 t) (iblk2 V c 4 t) (iblk2 V c 5 t) (iblk2 V c 1 t) (iblk2 V c 6 t) (iblk2 V c 7 t) (iblk2 V c 8 t) (iblk2 V c 9 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 1 t) := by dsimp only [dat2]
theorem after2_11 (c : Dev nD) (t : Fin cfg2.N) : (dat2 V c).after 11 t = out2_11 (iblk2 V c 0 t) (iblk2 V c 2 t) (iblk2 V c 3 t) (iblk2 V c 4 t) (iblk2 V c 5 t) := by dsimp only [dat2]
theorem after2_12 (c : Dev nD) (t : Fin cfg2.N) : (dat2 V c).after 12 t = out2_12 (iblk2 V c 0 t) (iblk2 V c 2 t) (iblk2 V c 3 t) (iblk2 V c 4 t) (iblk2 V c 5 t) (iblk2 V c 1 t) := by dsimp only [dat2]
theorem after2_13 (c : Dev nD) (t : Fin cfg2.N) : (dat2 V c).after 13 t = out2_13 (iblk2 V c 0 t) (iblk2 V c 2 t) (iblk2 V c 3 t) (iblk2 V c 4 t) (iblk2 V c 5 t) (iblk2 V c 1 t) (iblk2 V c 6 t) (iblk2 V c 7 t) (iblk2 V c 8 t) (iblk2 V c 9 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

/-- The body at any point: the inputs' buffers hold their blocks, so `sound_kernel2` applies; the invariant and the
    core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel2 c Set.univ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.R2

end
-- ==== Proof.K.Regs.lean ====
/-
  The three pallas_calls as segments of the program's run.

  Between two items of the program every unscoped buffer of a core is held at a valuation: the launch memory, then the
  host operations' results stretch by stretch, and after a pallas_call its output arrays at what its write-backs leave
  (the folded blocks) with every other buffer as before. Beside the buffers ride the generator register and the core's
  "nothing owed". Each pallas_call is entered from that state and left at it: its arrays are split out of the unscoped
  buffers and put back at their final contents; the first one also takes its scratch accumulator out of the scoped
  buffers and returns it.
-/
import proofs.«119898_j41583873360606_2_alg».proof.Proof.K.Region0
import proofs.«119898_j41583873360606_2_alg».proof.Proof.K.Region1
import proofs.«119898_j41583873360606_2_alg».proof.Proof.K.Region2
import proofs.«119898_j41583873360606_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Entry contents of the first pallas_call: the launch memory after the first stretch of host operations. -/
abbrev EV0 : (c : Dev nD) → (b : Ref sig .tc) → Buf (Elt F) ((c : Thread nD τ).loc b) := fun c b => V1 m c b
/-- After the first pallas_call: its arrays at what its write-backs leave. -/
def W2 (c : Dev nD) : Valuation τ sig (Elt F) :=
  Pipeline.withArrays spec0 c (V1 m c) fun w => (R0.dat0 (EV0 m) c).arrAt w cfg0.N
def outsA : Outs (F := F) := fun _ r c => W2 m c r
/-- Entry contents of the second pallas_call. -/
abbrev EV1 : (c : Dev nD) → (b : Ref sig .tc) → Buf (Elt F) ((c : Thread nD τ).loc b) := fun c b => V3 m (outsA m) c b
def W4 (c : Dev nD) : Valuation τ sig (Elt F) :=
  Pipeline.withArrays spec1 c (V3 m (outsA m) c) fun w => (R1.dat1 (EV1 m) c).arrAt w cfg1.N
def outsB : Outs (F := F) := fun J r c => if J ≤ 2 then W2 m c r else W4 m c r
/-- Entry contents of the third pallas_call. -/
abbrev EV2 : (c : Dev nD) → (b : Ref sig .tc) → Buf (Elt F) ((c : Thread nD τ).loc b) := fun c b => V5 m (outsB m) c b
def W6 (c : Dev nD) : Valuation τ sig (Elt F) :=
  Pipeline.withArrays spec2 c (V5 m (outsB m) c) fun w => (R2.dat2 (EV2 m) c).arrAt w cfg2.N
/-- What each pallas_call leaves, by the item after which it is read. -/
def outs : Outs (F := F) := fun J r c => if J ≤ 2 then W2 m c r else if J ≤ 4 then W4 m c r else W6 m c r

theorem V3_outs (c : Dev nD) : V3 m (outs m) c = V3 m (outsA m) c := rfl
theorem V5_outs (c : Dev nD) : V5 m (outs m) c = V5 m (outsB m) c := rfl

theorem W2_arr (c : Dev nD) (w : Fin cfg0.W) :
    W2 m c (Proc.devRef .tc (Pipeline.arrRef spec0 w)) = (R0.dat0 (EV0 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (R1.dat1 (EV1 m) c).arrAt w cfg1.N := by
  unfold W4; exact Pipeline.withArrays_arr spec1 launch1.win.arr_inj c _ _ w
theorem W6_arr (c : Dev nD) (w : Fin cfg2.W) :
    W6 m c (Proc.devRef .tc (Pipeline.arrRef spec2 w)) = (R2.dat2 (EV2 m) c).arrAt w cfg2.N := by
  unfold W6; exact Pipeline.withArrays_arr spec2 launch2.win.arr_inj c _ _ w

/-- An input array of a pallas_call ends as it was entered. -/
theorem in0 (c : Dev nD) (w : Fin cfg0.W) (hw : (cfg0.win w).isOut = false) :
    (R0.dat0 (EV0 m) c).arrAt w cfg0.N = EV0 m c (Pipeline.arrRef spec0 w) :=
  ((R0.dat0 (EV0 m) c).arrAt_in w hw _).trans (R0.A_eq0 (EV0 m) c w)
theorem in1 (c : Dev nD) (w : Fin cfg1.W) (hw : (cfg1.win w).isOut = false) :
    (R1.dat1 (EV1 m) c).arrAt w cfg1.N = V3 m (outs m) c (Pipeline.arrRef spec1 w) :=
  (((R1.dat1 (EV1 m) c).arrAt_in w hw _).trans (R1.A_eq1 (EV1 m) c w)).trans (congrFun (V3_outs m c).symm _)
theorem in2 (c : Dev nD) (w : Fin cfg2.W) (hw : (cfg2.win w).isOut = false) :
    (R2.dat2 (EV2 m) c).arrAt w cfg2.N = V5 m (outs m) c (Pipeline.arrRef spec2 w) :=
  (((R2.dat2 (EV2 m) c).arrAt_in w hw _).trans (R2.A_eq2 (EV2 m) c w)).trans (congrFun (V5_outs m c).symm _)

theorem V2_out (c : Dev nD) : V2 m (outs m) c main_v4 = W2 m c main_v4 := by
  show Function.update (V1 m c) _ _ _ = _; rw [Function.update_self]; rfl
theorem V4_out (c : Dev nD) : V4 m (outs m) c main_v18 = W4 m c main_v18 := by
  show Function.update (V3 m (outs m) c) _ _ _ = _; rw [Function.update_self]; rfl

/-- At the first pallas_call's exit each of its arrays holds what the pipeline leaves, every other buffer what it held. -/
theorem hF0 (c : Dev nD) (w : Fin cfg0.W) : (R0.dat0 (EV0 m) c).arrAt w cfg0.N = V2 m (outs m) c (Pipeline.arrRef spec0 w) := by
  fin_cases w
  · exact (in0 m c 0 rfl).trans (V2_of m (outs m) c _ (by decide)).symm
  · exact (in0 m c 1 rfl).trans (V2_of m (outs m) c _ (by decide)).symm
  · exact (in0 m c 2 rfl).trans (V2_of m (outs m) c _ (by decide)).symm
  · exact (in0 m c 3 rfl).trans (V2_of m (outs m) c _ (by decide)).symm
  · exact (in0 m c 4 rfl).trans (V2_of m (outs m) c _ (by decide)).symm
  · exact ((W2_arr m c 5).symm.trans (V2_out m c).symm)
theorem hrest0 (c : Dev nD) : ∀ b, b ∉ Finset.univ.image (Pipeline.arrRef spec0) → V2 m (outs m) c b = EV0 m c b :=
  fun b hb => V2_of m (outs m) c b (fun h => hb (by
    rw [List.mem_singleton] at h; subst h
    exact Finset.mem_image.mpr ⟨5, Finset.mem_univ _, rfl⟩))

set_option maxHeartbeats 1000000 in
theorem hF1 (c : Dev nD) (w : Fin cfg1.W) : (R1.dat1 (EV1 m) c).arrAt w cfg1.N = V4 m (outs m) c (Pipeline.arrRef spec1 w) := by
  fin_cases w
  · exact (in1 m c 0 rfl).trans (V4_of m (outs m) c _ (by decide)).symm
  · exact (in1 m c 1 rfl).trans (V4_of m (outs m) c _ (by decide)).symm
  · exact (in1 m c 2 rfl).trans (V4_of m (outs m) c _ (by decide)).symm
  · exact ((W4_arr m c 3).symm.trans (V4_out m c).symm)
theorem hrest1 (c : Dev nD) : ∀ b, b ∉ Finset.univ.image (Pipeline.arrRef spec1) → V4 m (outs m) c b = EV1 m c b :=
  fun b hb => (V4_of m (outs m) c b (fun h => hb (by
    rw [List.mem_singleton] at h; subst h
    exact Finset.mem_image.mpr ⟨3, Finset.mem_univ _, rfl⟩))).trans (congrFun (V3_outs m c) _)

theorem V6_out0 (c : Dev nD) : V6 m (outs m) c main_v28_0 = W6 m c main_v28_0 := by
  show Function.update (Function.update (Function.update (Function.update (V5 m (outs m) c) _ _) _ _) _ _) _ _ _ = _
  rw [Function.update_of_ne (StableHlo.devRef_ne_of_ne (by decide)), Function.update_of_ne (StableHlo.devRef_ne_of_ne (by decide)),
    Function.update_of_ne (StableHlo.devRef_ne_of_ne (by decide)), Function.update_self]; rfl
theorem V6_out1 (c : Dev nD) : V6 m (outs m) c main_v28_1 = W6 m c main_v28_1 := by
  show Function.update (Function.update (Function.update (Function.update (V5 m (outs m) c) _ _) _ _) _ _) _ _ _ = _
  rw [Function.update_of_ne (StableHlo.devRef_ne_of_ne (by decide)), Function.update_of_ne (StableHlo.devRef_ne_of_ne (by decide)),
    Function.update_self]; rfl
theorem V6_out2 (c : Dev nD) : V6 m (outs m) c main_v28_2 = W6 m c main_v28_2 := by
  show Function.update (Function.update (Function.update (Function.update (V5 m (outs m) c) _ _) _ _) _ _) _ _ _ = _
  rw [Function.update_of_ne (StableHlo.devRef_ne_of_ne (by decide)), Function.update_self]; rfl
theorem V6_out3 (c : Dev nD) : V6 m (outs m) c main_v28_3 = W6 m c main_v28_3 := by
  show Function.update (Function.update (Function.update (Function.update (V5 m (outs m) c) _ _) _ _) _ _) _ _ _ = _
  rw [Function.update_self]; rfl

set_option maxHeartbeats 2000000 in
theorem hF2 (c : Dev nD) (w : Fin cfg2.W) : (R2.dat2 (EV2 m) c).arrAt w cfg2.N = V6 m (outs m) c (Pipeline.arrRef spec2 w) := by
  fin_cases w
  · exact (in2 m c 0 rfl).trans (V6_of m (outs m) c _ (by decide)).symm
  · exact (in2 m c 1 rfl).trans (V6_of m (outs m) c _ (by decide)).symm
  · exact (in2 m c 2 rfl).trans (V6_of m (outs m) c _ (by decide)).symm
  · exact (in2 m c 3 rfl).trans (V6_of m (outs m) c _ (by decide)).symm
  · exact (in2 m c 4 rfl).trans (V6_of m (outs m) c _ (by decide)).symm
  · exact (in2 m c 5 rfl).trans (V6_of m (outs m) c _ (by decide)).symm
  · exact (in2 m c 6 rfl).trans (V6_of m (outs m) c _ (by decide)).symm
  · exact (in2 m c 7 rfl).trans (V6_of m (outs m) c _ (by decide)).symm
  · exact (in2 m c 8 rfl).trans (V6_of m (outs m) c _ (by decide)).symm
  · exact (in2 m c 9 rfl).trans (V6_of m (outs m) c _ (by decide)).symm
  · exact ((W6_arr m c 10).symm.trans (V6_out0 m c).symm)
  · exact ((W6_arr m c 11).symm.trans (V6_out1 m c).symm)
  · exact ((W6_arr m c 12).symm.trans (V6_out2 m c).symm)
  · exact ((W6_arr m c 13).symm.trans (V6_out3 m c).symm)
theorem hrest2 (c : Dev nD) : ∀ b, b ∉ Finset.univ.image (Pipeline.arrRef spec2) → V6 m (outs m) c b = EV2 m c b :=
  fun b hb => (V6_of m (outs m) c b (fun h => hb (by
    simp only [List.mem_cons, List.mem_singleton, List.not_mem_nil, or_false] at h
    rcases h with rfl | rfl | rfl | rfl
    · exact Finset.mem_image.mpr ⟨10, Finset.mem_univ _, rfl⟩
    · exact Finset.mem_image.mpr ⟨11, Finset.mem_univ _, rfl⟩
    · exact Finset.mem_image.mpr ⟨12, Finset.mem_univ _, rfl⟩
    · exact Finset.mem_image.mpr ⟨13, Finset.mem_univ _, rfl⟩))).trans (congrFun (V5_outs m c) _)

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => R0.dat0 (EV0 m) c
  | ⟨1, _⟩ => fun c => R1.dat1 (EV1 m) c
  | ⟨2, _⟩ => fun c => R2.dat2 (EV2 m) c

/-- No core owes another anything: no level is assigned. -/
abbrev L : GSem nD τ sig → Finset Unit := fun _ => ∅
abbrev lv : GSem nD τ sig → Unit → ℕ := fun _ _ => 0

/-- What rides beside the buffers through every segment: the generator register at some state, nothing owed. -/
abbrev R (c : Dev nD) : sProp 𝕄 := iprop((∃ r, prngReg c r) ∗ ∃ W, owes (c : Thread nD τ) (0 : CellTallies nD τ sig Unit) W)

/-- The scratch accumulator held at something, said through its memref or through its buffer. -/
theorem scr_eq (c : Dev nD) :
    (iprop(∃ xs, owns (c : Thread nD τ) R0.scr fullShare xs) : sProp 𝕄)
      = iprop(∃ f : Buf (Elt F) ((c : Thread nD τ).loc cc0_scratch0), ((c : Thread nD τ).loc cc0_scratch0) ↦{fullShare} f) := by
  simp only [owns_whole]
  rfl

/-! ## The regions as segments -/

set_option backward.isDefEq.respectTransparency.types false in
/-- The first pallas_call over the thread state. Its invariant takes the scratch accumulator out of the scoped buffers
    (at anything) and returns it (at the last accumulator, which is something). -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation0 (EV0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (EV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (EV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = R0.Φ0 (EV0 m) c 0 from rfl]; unfold R0.Φ0
    rw [show (Pipeline.scopedRest (Ix := Unit) (Name := ℕ) (U := UR sig nD τ) (Lvl := ℕ) (Val := Elt F) (Pipeline.pin (pcfgs (F := F)) adm 0).spec c : sProp 𝕄) = _ from scopedRest0_split c,
      show R0.scrAt (EV0 m) c 0 = (iprop(∃ xs, owns (c : Thread nD τ) R0.scr fullShare xs) : sProp 𝕄) from rfl, scr_eq]
    iintro ⟨Hp, -, Hs, Hr⟩
    isplitl [Hs]; · iexact Hs
    isplitl [Hr]; · iexact Hr
    iexact Hp
  hout c := by
    rw [Pipeline.ownSems0_none, show (pdats m 0 c).Φ (Fin.last _) = R0.Φ0 (EV0 m) c (Fin.last _) from rfl]; unfold R0.Φ0
    rw [show (Pipeline.scopedRest (Ix := Unit) (Name := ℕ) (U := UR sig nD τ) (Lvl := ℕ) (Val := Elt F) (Pipeline.pin (pcfgs (F := F)) adm 0).spec c : sProp 𝕄) = _ from scopedRest0_split c,
      ← scr_eq]
    iintro ⟨Hs, Hr, Hp⟩
    isplitl [Hp]; · iexact Hp
    isplitr; · iempintro
    isplitl [Hs]
    · ihave Hs' := (show R0.scrAt (EV0 m) c (Fin.last _) ⊢ (iprop(∃ xs, owns (c : Thread nD τ) R0.scr fullShare xs) : sProp 𝕄) from by
          show owns (c : Thread nD τ) R0.scr fullShare _ ⊢ _; iintro H; iexists _; iexact H) $$ Hs
      iexact Hs'
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (EV0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those
    contents with its output arrays at what its write-backs leave; the generator register passes through the
    invariant; nothing owed; no semaphore of the kernel's own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation1 (EV1 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (EV1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (EV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (EV1 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those
    contents with its output arrays at what its write-backs leave; the generator register passes through the
    invariant; nothing owed; no semaphore of the kernel's own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (R2.body_obligation2 (EV2 m) c).loose
  hwaits := Pipeline.hwaits_of_owed_zero _ _ _ _ L lv 2 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (EV2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (EV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (EV2 m c) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm
end
-- ==== Proof.K.Run.lean ====
/- The run of @main over its six items (three host stretches, three kernel regions), given a segment record per
   region: every weakly fair execution from memory m with zero counters terminates, and in every final memory EVERY
   unscoped TensorCore buffer holds what the last valuation V6 m outs c says — the launch contents carried through each
   host stretch's operations and updated, at each region, by what the region leaves in the arrays it may change. Two
   readings of that post: each argument array as launched, and the five result arrays at V6 beside the arguments. -/
import proofs.«119898_j41583873360606_2_alg».proof.Proof.Gen.Kernel.Regions

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- An unscoped TensorCore reference is among the references the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, given the regions' records: under the hypotheses of the conditional frame, every final memory agrees
    with the last valuation on every unscoped TensorCore buffer (the last thread state holds each of them at that
    valuation, and a held buffer is read off the final state). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V6 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => ∀ b ∈ Pipeline.ucRefs τ sig, s.mem ((c : Thread nD τ).1, b) = V6 m outs c b)
    (hfin := fun c s' => ?_) (hQ := fun _ h => h)
  · -- the launch: the unscoped buffers are held at the launch contents; the rest makes E 0 on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every held buffer read off the final state
    unfold StableHlo.held
    iintro ⟨Hh, HSI⟩
    imodintro
    iapply (pointsTo_read_all (Pipeline.ucRefs τ sig) (fun b => ((c : Thread nD τ).1, b)) (V6 m outs c) s')
    isplitl [Hh] <;> iassumption

/-- The frame post from the run's: each argument array is an unscoped TensorCore buffer, and the last valuation at an
    argument is the launch memory there (no host operation and no region writes an argument). -/
theorem frame_of_run (ρ : Dev nD → PrngReg) (outs : Outs (F := F))
    (hrun : θ_run defs (onTc (τ := τ) (main (F := F))) ⟨m, fun _ => 0, ρ⟩ (fun r => ∀ c : Dev nD,
      ∀ b ∈ Pipeline.ucRefs τ sig, r.2.mem ((c : Thread nD τ).1, b) = V6 m outs c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (V6_main_arg0 m outs c),
      (h c _ (mem_uc main_arg1 (by decide))).trans (V6_main_arg1 m outs c),
      (h c _ (mem_uc main_arg2 (by decide))).trans (V6_main_arg2 m outs c),
      (h c _ (mem_uc main_arg3 (by decide))).trans (V6_main_arg3 m outs c),
      (h c _ (mem_uc main_arg4 (by decide))).trans (V6_main_arg4 m outs c),
      (h c _ (mem_uc main_arg5 (by decide))).trans (V6_main_arg5 m outs c),
      (h c _ (mem_uc main_arg6 (by decide))).trans (V6_main_arg6 m outs c),
      (h c _ (mem_uc main_arg7 (by decide))).trans (V6_main_arg7 m outs c),
      (h c _ (mem_uc main_arg8 (by decide))).trans (V6_main_arg8 m outs c),
      (h c _ (mem_uc main_arg9 (by decide))).trans (V6_main_arg9 m outs c),
      (h c _ (mem_uc main_arg10 (by decide))).trans (V6_main_arg10 m outs c),
      (h c _ (mem_uc main_arg11 (by decide))).trans (V6_main_arg11 m outs c),
      (h c _ (mem_uc main_arg12 (by decide))).trans (V6_main_arg12 m outs c),
      (h c _ (mem_uc main_arg13 (by decide))).trans (V6_main_arg13 m outs c),
      (h c _ (mem_uc main_arg14 (by decide))).trans (V6_main_arg14 m outs c),
      (h c _ (mem_uc main_arg15 (by decide))).trans (V6_main_arg15 m outs c),
      (h c _ (mem_uc main_arg16 (by decide))).trans (V6_main_arg16 m outs c),
      (h c _ (mem_uc main_arg17 (by decide))).trans (V6_main_arg17 m outs c),
      (h c _ (mem_uc main_arg18 (by decide))).trans (V6_main_arg18 m outs c),
      (h c _ (mem_uc main_arg19 (by decide))).trans (V6_main_arg19 m outs c),
      (h c _ (mem_uc main_arg20 (by decide))).trans (V6_main_arg20 m outs c)⟩) hrun

/-- The five result arrays at the last valuation, beside the arguments as launched. -/
theorem results_of_run (ρ : Dev nD → PrngReg) (outs : Outs (F := F))
    (hrun : θ_run defs (onTc (τ := τ) (main (F := F))) ⟨m, fun _ => 0, ρ⟩ (fun r => ∀ c : Dev nD,
      ∀ b ∈ Pipeline.ucRefs τ sig, r.2.mem ((c : Thread nD τ).1, b) = V6 m outs c b)) :
    θ_run defs (onTc (τ := τ) (main (F := F))) ⟨m, fun _ => 0, ρ⟩ (fun r => ∀ c : Dev nD,
      r.2.mem ((c.tc : Thread nD τ).loc main_v28_0) = V6 m outs c main_v28_0
      ∧ r.2.mem ((c.tc : Thread nD τ).loc main_v28_1) = V6 m outs c main_v28_1
      ∧ r.2.mem ((c.tc : Thread nD τ).loc main_v28_2) = V6 m outs c main_v28_2
      ∧ r.2.mem ((c.tc : Thread nD τ).loc main_v14) = V6 m outs c main_v14
      ∧ r.2.mem ((c.tc : Thread nD τ).loc main_v28_3) = V6 m outs c main_v28_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨h c _ (mem_uc main_v28_0 (by decide)),
      h c _ (mem_uc main_v28_1 (by decide)),
      h c _ (mem_uc main_v28_2 (by decide)),
      h c _ (mem_uc main_v14 (by decide)),
      h c _ (mem_uc main_v28_3 (by decide)),
      (h c _ (mem_uc main_arg0 (by decide))).trans (V6_main_arg0 m outs c),
      (h c _ (mem_uc main_arg1 (by decide))).trans (V6_main_arg1 m outs c),
      (h c _ (mem_uc main_arg2 (by decide))).trans (V6_main_arg2 m outs c),
      (h c _ (mem_uc main_arg3 (by decide))).trans (V6_main_arg3 m outs c),
      (h c _ (mem_uc main_arg4 (by decide))).trans (V6_main_arg4 m outs c),
      (h c _ (mem_uc main_arg5 (by decide))).trans (V6_main_arg5 m outs c),
      (h c _ (mem_uc main_arg6 (by decide))).trans (V6_main_arg6 m outs c),
      (h c _ (mem_uc main_arg7 (by decide))).trans (V6_main_arg7 m outs c),
      (h c _ (mem_uc main_arg8 (by decide))).trans (V6_main_arg8 m outs c),
      (h c _ (mem_uc main_arg9 (by decide))).trans (V6_main_arg9 m outs c),
      (h c _ (mem_uc main_arg10 (by decide))).trans (V6_main_arg10 m outs c),
      (h c _ (mem_uc main_arg11 (by decide))).trans (V6_main_arg11 m outs c),
      (h c _ (mem_uc main_arg12 (by decide))).trans (V6_main_arg12 m outs c),
      (h c _ (mem_uc main_arg13 (by decide))).trans (V6_main_arg13 m outs c),
      (h c _ (mem_uc main_arg14 (by decide))).trans (V6_main_arg14 m outs c),
      (h c _ (mem_uc main_arg15 (by decide))).trans (V6_main_arg15 m outs c),
      (h c _ (mem_uc main_arg16 (by decide))).trans (V6_main_arg16 m outs c),
      (h c _ (mem_uc main_arg17 (by decide))).trans (V6_main_arg17 m outs c),
      (h c _ (mem_uc main_arg18 (by decide))).trans (V6_main_arg18 m outs c),
      (h c _ (mem_uc main_arg19 (by decide))).trans (V6_main_arg19 m outs c),
      (h c _ (mem_uc main_arg20 (by decide))).trans (V6_main_arg20 m outs c)⟩) hrun

end Cert.Kernel.Asm

end
-- ==== Proof.K.Frame.lean ====
/-
  The whole program's run: every weakly fair execution terminates without a fault, and at the end every unscoped
  buffer of every core holds the last valuation of the fold — the launch memory carried through the three stretches of
  host operations and the three pallas_calls. Read at the arguments this is the frame claim (no stretch writes an
  argument, no pallas_call changes one); read at the results it names what the program computed.
-/
import proofs.«119898_j41583873360606_2_alg».proof.Proof.K.Regs
import proofs.«119898_j41583873360606_2_alg».proof.Proof.K.Run

set_option maxRecDepth 16384

noncomputable section

namespace Cert.Kernel.Asm
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run to the last valuation: the generalized run at this certificate's proof data, unknowns and records. -/
theorem run_all : θ_run defs (onTc (τ := τ) (main (F := F))) ⟨m, fun _ => 0, ρ⟩
    (fun r => ∀ c : Dev nD, ∀ b ∈ Pipeline.ucRefs τ sig, r.2.mem ((c : Thread nD τ).1, b) = V6 m (outs m) c b) :=
  run_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hc : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (fun _ : Dev nD => (iprop(emp) : sProp 𝕄)) c))
          ⊢ (bigSep Finset.univ fun c : Dev nD => R c : sProp 𝕄) := bigSep_mono fun c _ =>
        show (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ R c from by
          iintro ⟨-, HO, -, Hp, -⟩
          isplitl [Hp]; · iexists _; iexact Hp
          iexists ∅; iexact HO
      iintro ⟨H, -⟩
      imodintro
      iapply hc
      iexact H)
    (hE3 := fun c => by iintro ⟨-, HO⟩; iexact HO)
    (reg0 m) (fun _ => .rfl) (fun _ => .rfl)
    (reg1 m) (fun c => by rw [V3_outs m c]; exact .rfl) (fun _ => .rfl)
    (reg2 m) (fun c => by rw [V5_outs m c]; exact .rfl) (fun _ => .rfl)

end Cert.Kernel.Asm
end
-- ==== Proof.KI.Region0.lean ====
/-
  The first pallas_call (the Jacobian batch reduction) as a pipeline region.

  The grid is 2 × 8: the first axis picks a half of the batch, the second walks that half in 8 blocks of 1024 rows.
  At a point the body reads a block of 1024 rows of the reshaped input and the four whole parameter arrays, forms the
  two layers' sign masks m1, m2 : 1024 × 256 (entries 0 or 1) and adds m2ᵀ · m1 to a 256 × 256 accumulator kept in a
  scratch buffer across the points of one half: at the half's first point the scratch is first overwritten with zeros,
  at its last point the accumulator is also copied to the output block (one 256 × 256 slab per half), which is written
  back there and nowhere else.

  So the scratch after point n is `accAfter n`: the step applied to the blocks at n and to zeros (first point of a half)
  or to `accAfter (n - 1)`; the output block after the last point of a half is that accumulator as a 1 × 256 × 256 slab.
-/
import proofs.«119898_j41583873360606_2_alg».proof.Proof.Gen.KernelIdeal.Launch
import proofs.«119898_j41583873360606_2_alg».proof.Proof.Gen.KernelIdeal.Skeleton
import proofs.«119898_j41583873360606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.R0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- "This is the first block of its half": the body's first conditional, from the second grid coordinate. -/
abbrev cond0_1 (i : grid0.Coords) : Prop := (Scalar.cmpi .ne (Scalar.extui (Scalar.cmpi .eq (BitVec.ofNat 32 (i 1).val) 0#32)) 0#32) = 1#1
/-- "This is the last block of its half": the body's second conditional. -/
abbrev cond0_2 (i : grid0.Coords) : Prop := k0_cond2 i = 1#1

theorem hcond0_1 : ∀ t : Fin cfg0.N, cond0_1 (grid0.coords t) ↔ t.val % 8 = 0 :=
  (by decide +kernel : ∀ t : Fin grid0.N, cond0_1 (grid0.coords t) ↔ t.val % 8 = 0)
theorem hcond0_2 : ∀ t : Fin cfg0.N, cond0_2 (grid0.coords t) ↔ t.val % 8 = 7 :=
  (by decide +kernel : ∀ t : Fin grid0.N, cond0_2 (grid0.coords t) ↔ t.val % 8 = 7)

/-- The output window is idle (not stored) exactly away from the last block of a half. -/
theorem idle5_of_not (i : grid0.Coords) (h : ¬cond0_2 i) : cfg0.idle 5 i = true := by
  show (!(k0_cond2 i == 1#1)) = true
  rw [Bool.not_eq_true', beq_eq_false_iff_ne]; exact h
theorem idle5_of (i : grid0.Coords) (h : cond0_2 i) : cfg0.idle 5 i = false := by
  show (!(k0_cond2 i == 1#1)) = false
  rw [Bool.not_eq_false', beq_iff_eq]; exact h

/-! ## One step of the accumulation, and what the body leaves -/

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- The accumulator after a point: the previous accumulator plus m2ᵀ · m1 of the point's block of rows. -/
def step (x0 : Vec F S1024x1080 .f32) (x1 : Vec F S1080x256 .f32) (x2 : Vec F S256 .f32) (x3 : Vec F S256x256 .f32) (x4 : Vec F S256 .f32)
    (prev : Vec F S256x256 .f32) : Vec F S256x256 .f32 :=
  k0_pay1 (k0_pay4 x0 x1 x2 x3 x4 prev)

/-- The zero accumulator a half starts from. -/
def zeroAcc : Vec F S256x256 .f32 := k0_pay3 (F := F)

abbrev rS : Rect S256x256 := Rect.unit (s := S256x256) ![0, 0] S256x256.size inb_S256x256_S256x256_0_0
abbrev rO : Rect S1x256x256 := Rect.unit (s := S1x256x256) ![0, 0, 0] S1x256x256.size inb_S1x256x256_S1x256x256_0_0_0

theorem coverS (L : List (View.Piece (Elt F) S256x256 .f32)) (p : Vec F S256x256 .f32) (y : S256x256.Idx) :
    ∃ pc ∈ ((⟨rS, p⟩ : View.Piece (Elt F) S256x256 .f32) :: L), y ∈ pc.1.set := by
  obtain ⟨pc, hpc, hy⟩ := View.cover_of_tiled ([⟨rS, p⟩] : List (View.Piece (Elt F) S256x256 .f32)) S256x256.size (by rfl) y
  exact ⟨pc, List.mem_cons.mpr (Or.inl (List.mem_singleton.mp hpc)), hy⟩
theorem coverO (L : List (View.Piece (Elt F) S1x256x256 .f32)) (p : Vec F S1x256x256 .f32) (y : S1x256x256.Idx) :
    ∃ pc ∈ ((⟨rO, p⟩ : View.Piece (Elt F) S1x256x256 .f32) :: L), y ∈ pc.1.set := by
  obtain ⟨pc, hpc, hy⟩ := View.cover_of_tiled ([⟨rO, p⟩] : List (View.Piece (Elt F) S1x256x256 .f32)) S1x256x256.size (by rfl) y
  exact ⟨pc, List.mem_cons.mpr (Or.inl (List.mem_singleton.mp hpc)), hy⟩

/-! ## The body's runs, one per case of its two conditionals -/

set_option maxHeartbeats 1000000 in
/-- A middle block of a half: the accumulator (at `xs`) takes one step; the output block is not touched. -/
theorem sound_kernel0_B (c : Dev nD) (i : grid0.Coords)
    (arg2 : Memref sig .tc .vmem S1024x1080 .f32) (harg2 : arg2.IsWhole) (arg3 : Memref sig .tc .vmem S1080x256 .f32) (harg3 : arg3.IsWhole)
    (arg4 : Memref sig .tc .vmem S256 .f32) (harg4 : arg4.IsWhole) (arg5 : Memref sig .tc .vmem S256x256 .f32) (harg5 : arg5.IsWhole)
    (arg6 : Memref sig .tc .vmem S256 .f32) (harg6 : arg6.IsWhole) (arg7 : Memref sig .tc .vmem S1x256x256 .f32) (harg7 : arg7.IsWhole)
    (arg8 : Memref sig .tc .vmem S256x256 .f32) (harg8 : arg8.IsWhole) (hc1 : ¬cond0_1 i) (hc2 : ¬cond0_2 i)
    (x0 : Vec F S1024x1080 .f32) (x1 : Vec F S1080x256 .f32) (x2 : Vec F S256 .f32) (x3 : Vec F S256x256 .f32) (x4 : Vec F S256 .f32) (xs : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare (step x0 x1 x2 x3 x4 xs)) -∗ K ⟨⟩))
      ⊢ wp frame (wpE (defs₀ (F := F)) Variants.none c none) E (cc0__jac_kernel i arg2 harg2 arg3 harg3 arg4 harg4 arg5 harg5 arg6 harg6 arg7 harg7 arg8 harg8) K := by
  simp only [cc0__jac_kernel_eq_skeleton]; unfold cc0__jac_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf8
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H8
  ipureintro
  rw [View.read_writes_eq_canon _ _ _ (coverS _ _), View.canon_cons_unit_zero hz2]
  simp only [View.readAt_eq_ld, harg2.read_unread, harg3.read_unread, harg4.read_unread, harg5.read_unread, harg6.read_unread, harg8.read_unread,
      View.ld_unit_zero (S := S1024x1080) hz2, View.ld_unit_zero (S := S1080x256) hz2, View.ld_unit_zero (S := S256) hz1, View.ld_unit_zero (S := S256x256) hz2]
  rfl

set_option maxHeartbeats 1000000 in
/-- The first block of a half: the accumulator is zeroed, then takes one step; whatever it held before is forgotten.
    The output block is not touched. -/
theorem sound_kernel0_A (c : Dev nD) (i : grid0.Coords)
    (arg2 : Memref sig .tc .vmem S1024x1080 .f32) (harg2 : arg2.IsWhole) (arg3 : Memref sig .tc .vmem S1080x256 .f32) (harg3 : arg3.IsWhole)
    (arg4 : Memref sig .tc .vmem S256 .f32) (harg4 : arg4.IsWhole) (arg5 : Memref sig .tc .vmem S256x256 .f32) (harg5 : arg5.IsWhole)
    (arg6 : Memref sig .tc .vmem S256 .f32) (harg6 : arg6.IsWhole) (arg7 : Memref sig .tc .vmem S1x256x256 .f32) (harg7 : arg7.IsWhole)
    (arg8 : Memref sig .tc .vmem S256x256 .f32) (harg8 : arg8.IsWhole) (hc1 : cond0_1 i) (hc2 : ¬cond0_2 i)
    (x0 : Vec F S1024x1080 .f32) (x1 : Vec F S1080x256 .f32) (x2 : Vec F S256 .f32) (x3 : Vec F S256x256 .f32) (x4 : Vec F S256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ xs, owns (c : Thread nD τ) arg8 fullShare xs)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare (step x0 x1 x2 x3 x4 (zeroAcc (F := F)))) -∗ K ⟨⟩))
      ⊢ wp frame (wpE (defs₀ (F := F)) Variants.none c none) E (cc0__jac_kernel i arg2 harg2 arg3 harg3 arg4 harg4 arg5 harg5 arg6 harg6 arg7 harg7 arg8 harg8) K := by
  simp only [cc0__jac_kernel_eq_skeleton]; unfold cc0__jac_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%xs, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H8
  ipureintro
  sl_unfold_run_names
  rw [View.read_writes_eq_canon _ _ _ (coverS _ _), View.canon_cons_unit_zero hz2]
  simp only [View.readAt_eq_ld, harg2.read_unread, harg3.read_unread, harg4.read_unread, harg5.read_unread, harg6.read_unread, harg8.read_unread,
      View.ld_unit_zero (S := S1024x1080) hz2, View.ld_unit_zero (S := S1080x256) hz2, View.ld_unit_zero (S := S256) hz1, View.ld_unit_zero (S := S256x256) hz2,
      View.readCov_unit_zero (S := S256x256) _ hz2]
  rfl

set_option maxHeartbeats 1000000 in
/-- The last block of a half: the accumulator (at `xs`) takes one step and is copied to the output block as a
    1 × 256 × 256 slab. -/
theorem sound_kernel0_C (c : Dev nD) (i : grid0.Coords)
    (arg2 : Memref sig .tc .vmem S1024x1080 .f32) (harg2 : arg2.IsWhole) (arg3 : Memref sig .tc .vmem S1080x256 .f32) (harg3 : arg3.IsWhole)
    (arg4 : Memref sig .tc .vmem S256 .f32) (harg4 : arg4.IsWhole) (arg5 : Memref sig .tc .vmem S256x256 .f32) (harg5 : arg5.IsWhole)
    (arg6 : Memref sig .tc .vmem S256 .f32) (harg6 : arg6.IsWhole) (arg7 : Memref sig .tc .vmem S1x256x256 .f32) (harg7 : arg7.IsWhole)
    (arg8 : Memref sig .tc .vmem S256x256 .f32) (harg8 : arg8.IsWhole) (hc1 : ¬cond0_1 i) (hc2 : cond0_2 i)
    (x0 : Vec F S1024x1080 .f32) (x1 : Vec F S1080x256 .f32) (x2 : Vec F S256 .f32) (x3 : Vec F S256x256 .f32) (x4 : Vec F S256 .f32) (xs : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare xs ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare (step x0 x1 x2 x3 x4 xs)
            ∗ owns (c : Thread nD τ) arg7 fullShare (k0_pay2 (step x0 x1 x2 x3 x4 xs))) -∗ K ⟨⟩))
      ⊢ wp frame (wpE (defs₀ (F := F)) Variants.none c none) E (cc0__jac_kernel i arg2 harg2 arg3 harg3 arg4 harg4 arg5 harg5 arg6 harg6 arg7 harg7 arg8 harg8) K := by
  simp only [cc0__jac_kernel_eq_skeleton]; unfold cc0__jac_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf8
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H8]
  · iexists _; isplitr
    swap; · iexact H8
    ipureintro
    sl_unfold_run_names
    rw [View.read_writes_eq_canon _ _ _ (coverS _ _), View.canon_cons_unit_zero hz2]
    simp only [View.readAt_eq_ld, harg2.read_unread, harg3.read_unread, harg4.read_unread, harg5.read_unread, harg6.read_unread, harg8.read_unread,
      View.ld_unit_zero (S := S1024x1080) hz2, View.ld_unit_zero (S := S1080x256) hz2, View.ld_unit_zero (S := S256) hz1, View.ld_unit_zero (S := S256x256) hz2]
    rfl
  iexists _; isplitr
  swap; · iexact H7
  ipureintro
  sl_unfold_run_names
  rw [View.read_writes_eq_canon _ _ _ (coverO _ _), View.canon_cons_unit_zero hz3]
  simp only [View.readAt_eq_ld, harg2.read_unread, harg3.read_unread, harg4.read_unread, harg5.read_unread, harg6.read_unread, harg8.read_unread,
      View.ld_unit_zero (S := S1024x1080) hz2, View.ld_unit_zero (S := S1080x256) hz2, View.ld_unit_zero (S := S256) hz1, View.ld_unit_zero (S := S256x256) hz2,
      View.readCov_unit_zero (S := S256x256) _ hz2]
  rfl

/-! ## The accumulator point by point -/

/-- One step at position `n` of the grid (the identity past the grid: never read). -/
def stepAt (c : Dev nD) (n : ℕ) (prev : Vec F S256x256 .f32) : Vec F S256x256 .f32 :=
  if h : n < cfg0.N then step (iblk0 V c 0 ⟨n, h⟩) (iblk0 V c 1 ⟨n, h⟩) (iblk0 V c 2 ⟨n, h⟩) (iblk0 V c 3 ⟨n, h⟩) (iblk0 V c 4 ⟨n, h⟩) prev else prev

/-- What the scratch accumulator holds after the body at position `n`: a half's first point starts from zeros. -/
def accAfter (c : Dev nD) : ℕ → Vec F S256x256 .f32
  | 0 => stepAt V c 0 (zeroAcc (F := F))
  | n + 1 => stepAt V c (n + 1) (if (n + 1) % 8 = 0 then zeroAcc (F := F) else accAfter c n)

theorem stepAt_eq (c : Dev nD) (t : Fin cfg0.N) (prev : Vec F S256x256 .f32) :
    stepAt V c t.val prev = step (iblk0 V c 0 t) (iblk0 V c 1 t) (iblk0 V c 2 t) (iblk0 V c 3 t) (iblk0 V c 4 t) prev := dif_pos t.isLt

theorem accAfter_first (c : Dev nD) (t : Fin cfg0.N) (h : t.val % 8 = 0) :
    accAfter V c t.val = step (iblk0 V c 0 t) (iblk0 V c 1 t) (iblk0 V c 2 t) (iblk0 V c 3 t) (iblk0 V c 4 t) (zeroAcc (F := F)) := by
  obtain ⟨n, hn⟩ := t
  cases n with
  | zero => exact stepAt_eq V c ⟨0, hn⟩ _
  | succ n =>
    show stepAt V c (n + 1) (if (n + 1) % 8 = 0 then zeroAcc (F := F) else accAfter V c n) = _
    rw [if_pos h]; exact stepAt_eq V c ⟨n + 1, hn⟩ _

theorem accAfter_next (c : Dev nD) (t : Fin cfg0.N) (h : ¬t.val % 8 = 0) :
    accAfter V c t.val = step (iblk0 V c 0 t) (iblk0 V c 1 t) (iblk0 V c 2 t) (iblk0 V c 3 t) (iblk0 V c 4 t) (accAfter V c (t.val - 1)) := by
  obtain ⟨n, hn⟩ := t
  cases n with
  | zero => exact absurd (Nat.zero_mod _) h
  | succ n =>
    show stepAt V c (n + 1) (if (n + 1) % 8 = 0 then zeroAcc (F := F) else accAfter V c n) = _
    rw [if_neg h]; exact stepAt_eq V c ⟨n + 1, hn⟩ _

/-! ## The proof data -/

/-- The scratch accumulator's memref. -/
abbrev scr : Memref sig .tc .vmem S256x256 .f32 := Memref.whole cc0_scratch0

/-- The scratch before point `n`: anything at the start, then the accumulator after the point before. -/
def scrAt (c : Dev nD) (n : Fin (cfg0.N + 1)) : sProp 𝕄 :=
  match n.val with
  | 0 => iprop(∃ xs, owns (c : Thread nD τ) scr fullShare xs)
  | k + 1 => owns (c : Thread nD τ) scr fullShare (accAfter V c k)

/-- The invariant between points: the scratch at its running contents, the other scoped buffers this call does not
    stage at something, the generator register at some state. -/
def Φ0 (c : Dev nD) (n : Fin (cfg0.N + 1)) : sProp 𝕄 :=
  iprop(scrAt V c n ∗ Pipeline.scopedRestBut (Ix := Unit) (Name := ℕ) (U := UR sig nD τ) (Lvl := ℕ) (Val := Elt F) spec0 c [cc0_scratch0] ∗ ∃ r, prngReg c r)

theorem scrAt_succ (c : Dev nD) (t : Fin cfg0.N) : scrAt V c t.succ = owns (c : Thread nD τ) scr fullShare (accAfter V c t.val) := rfl

theorem scrAt_castSucc_pos (c : Dev nD) (t : Fin cfg0.N) (h : t.val ≠ 0) :
    scrAt V c t.castSucc = owns (c : Thread nD τ) scr fullShare (accAfter V c (t.val - 1)) := by
  obtain ⟨n, hn⟩ := t
  cases n with
  | zero => exact absurd rfl h
  | succ k => rfl

theorem scrAt_castSucc_any (c : Dev nD) (t : Fin cfg0.N) :
    scrAt V c t.castSucc ⊢ (iprop(∃ xs, owns (c : Thread nD τ) scr fullShare xs) : sProp 𝕄) := by
  obtain ⟨n, hn⟩ := t
  cases n with
  | zero => exact .rfl
  | succ k => show owns (c : Thread nD τ) scr fullShare (accAfter V c k) ⊢ _; iintro H; iexists _; iexact H

/-- The proof data of this pipeline on core `c`: the arrays as the region finds them; after the body each input's
    buffer at its block and the output's at the accumulator as a slab (asked only where the body stores it: the last
    point of a half); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (accAfter V c t.val)
  Φ n := Φ0 V c n
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (accAfter V c t.val) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the output's buffer as found where the body does not store it, the accumulator's slab where it does. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (match cfg0.idle 5 (cfg0.grid.coords t) with
        | true =>
          match (cfg0.win 5).flush t with
          | false => iprop(∃ d, owns (c : Thread nD τ) (st0_5 t) fullShare ((dat0 V c).before 5 t d))
          | true => owns (c : Thread nD τ) (st0_5 t) fullShare ((dat0 V c).after 5 t)
        | false => owns (c : Thread nD τ) (st0_5 t) fullShare ((dat0 V c).after 5 t)))

set_option maxHeartbeats 1000000 in
/-- The body at any point. The inputs' buffers hold their blocks; the point's position in its half picks the case; the
    scratch holds the running accumulator (anything before a half's first point, which zeroes it); the output's buffer
    is handed back as found except at a half's last point, where it takes the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4,
    show (dat0 V c).Φ t.succ = Φ0 V c t.succ from rfl, show (dat0 V c).Φ t.castSucc = Φ0 V c t.castSucc from rfl]
  unfold Φ0
  rw [scrAt_succ]
  have hN : t.val < 16 := lt_of_lt_of_eq t.isLt (show cfg0.N = 16 from N_0)
  by_cases h7 : t.val % 8 = 7
  · -- the last block of a half
    have hc2 : cond0_2 (grid0.coords t) := (hcond0_2 t).mpr h7
    have hc1 : ¬cond0_1 (grid0.coords t) := fun h => by have := (hcond0_1 t).mp h; omega
    have hid : idle0 5 (grid0.coords t) = false := idle5_of _ hc2
    rw [after0_5, accAfter_next V c t (by omega), scrAt_castSucc_pos V c t (by omega)]
    split
    · rename_i heq; exact absurd (heq.symm.trans hid) (by decide)
    iintro ⟨⟨Hs, Hrest, Hp⟩, Ho, ⟨%d0, H0⟩, ⟨%d1, H1⟩, ⟨%d2, H2⟩, ⟨%d3, H3⟩, ⟨%d4, H4⟩, ⟨%d5, H5⟩⟩
    iapply (sound_kernel0_C c (grid0.coords t) _ _ _ _ _ _ _ _ _ _ _ _ _ _ hc1 hc2
      (iblk0 V c 0 t) (iblk0 V c 1 t) (iblk0 V c 2 t) (iblk0 V c 3 t) (iblk0 V c 4 t) (accAfter V c (t.val - 1)) Set.univ _)
    isplitl [H0]; · iexact H0
    isplitl [H1]; · iexact H1
    isplitl [H2]; · iexact H2
    isplitl [H3]; · iexact H3
    isplitl [H4]; · iexact H4
    isplitl [Hs]; · iexact Hs
    isplitl [H5]; · iexists _; iexact H5
    iintro ⟨H0, H1, H2, H3, H4, Hs, H5⟩
    isplitl [Hs Hrest Hp]
    · isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    iexact H5
  · have hc2 : ¬cond0_2 (grid0.coords t) := fun h => h7 ((hcond0_2 t).mp h)
    have hid : idle0 5 (grid0.coords t) = true := idle5_of_not _ hc2
    have hfl : (win0 5).flush t = false := Bool.eq_false_iff.mpr fun h => h7 ((flush0_5 t).mp h)
    simp only [hfl]
    by_cases h0 : t.val % 8 = 0
    · -- the first block of a half
      have hc1 : cond0_1 (grid0.coords t) := (hcond0_1 t).mpr h0
      rw [accAfter_first V c t h0]
      split
      swap
      · rename_i heq; exact absurd (heq.symm.trans hid) (by decide)
      iintro ⟨⟨Hs, Hrest, Hp⟩, Ho, ⟨%d0, H0⟩, ⟨%d1, H1⟩, ⟨%d2, H2⟩, ⟨%d3, H3⟩, ⟨%d4, H4⟩, ⟨%d5, H5⟩⟩
      ihave Hs' := (scrAt_castSucc_any V c t) $$ Hs
      iapply (sound_kernel0_A c (grid0.coords t) _ _ _ _ _ _ _ _ _ _ _ _ _ _ hc1 hc2
        (iblk0 V c 0 t) (iblk0 V c 1 t) (iblk0 V c 2 t) (iblk0 V c 3 t) (iblk0 V c 4 t) Set.univ _)
      isplitl [H0]; · iexact H0
      isplitl [H1]; · iexact H1
      isplitl [H2]; · iexact H2
      isplitl [H3]; · iexact H3
      isplitl [H4]; · iexact H4
      isplitl [Hs']; · iexact Hs'
      iintro ⟨H0, H1, H2, H3, H4, Hs⟩
      isplitl [Hs Hrest Hp]
      · isplitl [Hs]; · iexact Hs
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      iexists _; iexact H5
    · -- a middle block of a half
      have hc1 : ¬cond0_1 (grid0.coords t) := fun h => h0 ((hcond0_1 t).mp h)
      rw [accAfter_next V c t h0, scrAt_castSucc_pos V c t (fun e => h0 (by rw [e]))]
      split
      swap
      · rename_i heq; exact absurd (heq.symm.trans hid) (by decide)
      iintro ⟨⟨Hs, Hrest, Hp⟩, Ho, ⟨%d0, H0⟩, ⟨%d1, H1⟩, ⟨%d2, H2⟩, ⟨%d3, H3⟩, ⟨%d4, H4⟩, ⟨%d5, H5⟩⟩
      iapply (sound_kernel0_B c (grid0.coords t) _ _ _ _ _ _ _ _ _ _ _ _ _ _ hc1 hc2
        (iblk0 V c 0 t) (iblk0 V c 1 t) (iblk0 V c 2 t) (iblk0 V c 3 t) (iblk0 V c 4 t) (accAfter V c (t.val - 1)) Set.univ _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      isplitl [Hs Hrest Hp]
      · isplitl [Hs]; · iexact Hs
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0
end
-- ==== Proof.KI.Region1.lean ====
/- Region 1 of @main (the pallas_call of cc1__npi_kernel, pipeline 1), at the TensorCore's buffer contents V on entry:
   each window's block at a grid point, what the body leaves in the output window's staging buffer as a function of
   the three input blocks, the body's triple, the pipeline's proof data and the body obligation at every point.
   Windows: 0 = main_v15 f32[1,360,360] whole (fetched at the first point only); 1 = main_v16 f32[512,360,360] in blocks
   [16,360,360]; 2 = main_v17 f32[512,1] in blocks [16,1]; 3 = the output main_v18 f32[512,1] in blocks [16,1]. -/
import proofs.«119898_j41583873360606_2_alg».proof.Proof.Gen.KernelIdeal.Launch
import proofs.«119898_j41583873360606_2_alg».proof.Proof.Gen.KernelIdeal.Skeleton
import proofs.«119898_j41583873360606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1, the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2, the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev rE : Rect S1x360x360 := Rect.unit (s := S1x360x360) ![0, 0, 0] S1x360x360.size inb_S1x360x360_S1x360x360_0_0_0
abbrev rW : Rect S16x360x360 := Rect.unit (s := S16x360x360) ![0, 0, 0] S16x360x360.size inb_S16x360x360_S16x360x360_0_0_0
abbrev rB : Rect S16x1 := Rect.unit (s := S16x1) ![0, 0] S16x1.size inb_S16x1_S16x1_0_0

/-! ## What the body leaves in the output window's buffer -/

/-- Window 3's staging buffer after the body, from the three input windows' blocks: its one store, of the payload of
    the three loaded values, over the whole buffer. -/
def out1_3 (x0 : Vec F S1x360x360 .f32) (x1 : Vec F S16x360x360 .f32) (x2 : Vec F S16x1 .f32) : Vec F S16x1 .f32 :=
  View.canon [⟨rB, k1_pay1 (View.ld x0 rE) (View.ld x1 rW) (View.ld x2 rB)⟩]

/-- The store tiles the buffer, so it covers it. -/
theorem cover1_3 (p0 : Vec F S16x1 .f32) (y : S16x1.Idx) :
    ∃ pc ∈ ([⟨rB, p0⟩] : List (View.Piece (Elt F) S16x1 .f32)), y ∈ pc.1.set :=
  View.cover_of_tiled [⟨rB, p0⟩] S16x1.size (by rfl) y

/-! ## The body's triple -/

set_option maxHeartbeats 1000000 in
/-- The kernel body on whole staging memrefs, the inputs' at read contents x0 x1 x2 and the output's at anything, runs
    to the continuation holding the inputs' as they were and the output's at out1_3 of the inputs'. -/
theorem sound_kernel1 (c : Dev nD) (E : Set ℕ) (i : grid1.Coords)
    (arg1 : Memref sig .tc .vmem S1x360x360 .f32) (harg1 : arg1.IsWhole) (arg2 : Memref sig .tc .vmem S16x360x360 .f32) (harg2 : arg2.IsWhole)
    (arg3 : Memref sig .tc .vmem S16x1 .f32) (harg3 : arg3.IsWhole) (arg4 : Memref sig .tc .vmem S16x1 .f32) (harg4 : arg4.IsWhole)
    (x0 : Vec F S1x360x360 .f32) (x1 : Vec F S16x360x360 .f32) (x2 : Vec F S16x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__npi_kernel i arg1 harg1 arg2 harg2 arg3 harg3 arg4 harg4) K := by
  simp only [cc1__npi_kernel_eq_skeleton]; unfold cc1__npi_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them; after the body at point t each
    input's buffer at its block and the output's at out1_3 of the input blocks; the invariant that of a body touching
    its windows only; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.KI.Region2.lean ====
/- Region 2 of @main: the pallas_call of the reconstruction kernel, on a grid of 8 points, at the buffer contents `V`
   found when the region is entered. Window 0 is a [2048,200] block of rows of the [16384,200] input, fetched at every
   point; windows 1–9 are the whole weight and bias arrays, fetched at the first point only; windows 10–13 are the
   [2048,128], [2048,128], [2048,128] and [2048,360] blocks of rows of the four results, written back at every point.
   The body stores, per block of rows x: the [1,128] row broadcast over the rows (window 10); the two-layer product
   relu(x·W₁+b₁)·W₂+b₂ (window 11); that sum with the row added, divided by the larger of its row norm and a
   literal (window 12); and the two-layer product of that quotient (window 13). Each store covers its whole buffer,
   so each output buffer after the body is its one store's payload, a function of the input blocks alone. -/
import proofs.«119898_j41583873360606_2_alg».proof.Proof.Gen.KernelIdeal.Launch
import proofs.«119898_j41583873360606_2_alg».proof.Proof.Gen.KernelIdeal.Skeleton
import proofs.«119898_j41583873360606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: unfetched, its
    block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: unfetched, its
    block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: unfetched, its
    block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: unfetched, its
    block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: unfetched, its
    block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: unfetched, its
    block index has not moved, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: unfetched, its
    block index has not moved, and the body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: unfetched, its
    block index has not moved, and the body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not: unfetched, its
    block index has not moved, and the body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not: unfetched, its
    block index has not moved, and the body leaves the block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and each store is of a whole buffer -/

abbrev r_S2048x200 : Rect S2048x200 := Rect.unit (s := S2048x200) ![0, 0] S2048x200.size inb_S2048x200_S2048x200_0_0
abbrev r_S1x128 : Rect S1x128 := Rect.unit (s := S1x128) ![0, 0] S1x128.size inb_S1x128_S1x128_0_0
abbrev r_S200x256 : Rect S200x256 := Rect.unit (s := S200x256) ![0, 0] S200x256.size inb_S200x256_S200x256_0_0
abbrev r_S256 : Rect S256 := Rect.unit (s := S256) ![0] S256.size inb_S256_S256_0
abbrev r_S256x128 : Rect S256x128 := Rect.unit (s := S256x128) ![0, 0] S256x128.size inb_S256x128_S256x128_0_0
abbrev r_S128 : Rect S128 := Rect.unit (s := S128) ![0] S128.size inb_S128_S128_0
abbrev r_S128x256 : Rect S128x256 := Rect.unit (s := S128x256) ![0, 0] S128x256.size inb_S128x256_S128x256_0_0
abbrev r_S256x360 : Rect S256x360 := Rect.unit (s := S256x360) ![0, 0] S256x360.size inb_S256x360_S256x360_0_0
abbrev r_S360 : Rect S360 := Rect.unit (s := S360) ![0] S360.size inb_S360_S360_0
abbrev r_S2048x128 : Rect S2048x128 := Rect.unit (s := S2048x128) ![0, 0] S2048x128.size inb_S2048x128_S2048x128_0_0
abbrev r_S2048x360 : Rect S2048x360 := Rect.unit (s := S2048x360) ![0, 0] S2048x360.size inb_S2048x360_S2048x360_0_0

/-! ## What the body leaves in each output window's buffer -/

/-- Window 10's buffer after the body: the [1,128] row (window 1) broadcast over the 2048 rows. -/
def out2_10 (x1 : Vec F S1x128 .f32) : Vec F S2048x128 .f32 :=
  View.canon [⟨r_S2048x128, k2_pay3 (View.ld x1 r_S1x128)⟩]

/-- Window 11's buffer after the body: relu(x·W₁+b₁)·W₂+b₂ of the block of rows x (window 0) with the weights and
    biases of windows 2, 3, 4, 5. -/
def out2_11 (x0 : Vec F S2048x200 .f32) (x2 : Vec F S200x256 .f32) (x3 : Vec F S256 .f32) (x4 : Vec F S256x128 .f32) (x5 : Vec F S128 .f32) : Vec F S2048x128 .f32 :=
  View.canon [⟨r_S2048x128, k2_pay2 (View.ld x0 r_S2048x200) (View.ld x2 r_S200x256) (View.ld x3 r_S256) (View.ld x4 r_S256x128) (View.ld x5 r_S128)⟩]

/-- Window 12's buffer after the body: the sum of the two above divided, row by row, by the larger of the row's
    Euclidean norm and a literal. -/
def out2_12 (x0 : Vec F S2048x200 .f32) (x2 : Vec F S200x256 .f32) (x3 : Vec F S256 .f32) (x4 : Vec F S256x128 .f32) (x5 : Vec F S128 .f32) (x1 : Vec F S1x128 .f32) : Vec F S2048x128 .f32 :=
  View.canon [⟨r_S2048x128, k2_pay4 (View.ld x0 r_S2048x200) (View.ld x2 r_S200x256) (View.ld x3 r_S256) (View.ld x4 r_S256x128) (View.ld x5 r_S128) (View.ld x1 r_S1x128)⟩]

/-- Window 13's buffer after the body: relu(z·W₃+b₃)·W₄+b₄ of that quotient z with the weights and biases of
    windows 6, 7, 8, 9. -/
def out2_13 (x0 : Vec F S2048x200 .f32) (x2 : Vec F S200x256 .f32) (x3 : Vec F S256 .f32) (x4 : Vec F S256x128 .f32) (x5 : Vec F S128 .f32) (x1 : Vec F S1x128 .f32)
    (x6 : Vec F S128x256 .f32) (x7 : Vec F S256 .f32) (x8 : Vec F S256x360 .f32) (x9 : Vec F S360 .f32) : Vec F S2048x360 .f32 :=
  View.canon [⟨r_S2048x360, k2_pay1 (k2_pay5 (View.ld x0 r_S2048x200) (View.ld x2 r_S200x256) (View.ld x3 r_S256) (View.ld x4 r_S256x128) (View.ld x5 r_S128) (View.ld x1 r_S1x128) (View.ld x6 r_S128x256)) (View.ld x7 r_S256) (View.ld x8 r_S256x360) (View.ld x9 r_S360)⟩]

/-- Each output's one store is of its whole buffer, so it covers it. -/
theorem cover2_10 (p0 : Vec F S2048x128 .f32) (y : S2048x128.Idx) :
    ∃ pc ∈ ([⟨r_S2048x128, p0⟩] : List (View.Piece (Elt F) S2048x128 .f32)), y ∈ pc.1.set :=
  View.cover_of_tiled [⟨r_S2048x128, p0⟩] S2048x128.size (by rfl) y
theorem cover2_11 (p0 : Vec F S2048x128 .f32) (y : S2048x128.Idx) :
    ∃ pc ∈ ([⟨r_S2048x128, p0⟩] : List (View.Piece (Elt F) S2048x128 .f32)), y ∈ pc.1.set := cover2_10 p0 y
theorem cover2_12 (p0 : Vec F S2048x128 .f32) (y : S2048x128.Idx) :
    ∃ pc ∈ ([⟨r_S2048x128, p0⟩] : List (View.Piece (Elt F) S2048x128 .f32)), y ∈ pc.1.set := cover2_10 p0 y
theorem cover2_13 (p0 : Vec F S2048x360 .f32) (y : S2048x360.Idx) :
    ∃ pc ∈ ([⟨r_S2048x360, p0⟩] : List (View.Piece (Elt F) S2048x360 .f32)), y ∈ pc.1.set :=
  View.cover_of_tiled [⟨r_S2048x360, p0⟩] S2048x360.size (by rfl) y

/-! ## The body's triple -/

set_option maxHeartbeats 4000000 in
/-- The kernel body on whole staging buffers, the inputs' at contents `xW` and the outputs' at anything, runs to the
    continuation holding the inputs' as they were and each output's at `out2_W` of the inputs': the body is its
    skeleton of loads and stores over payloads, the first sixty statements being its part, and every store covers
    its buffer. -/
theorem sound_kernel2 (c : Dev nD) (E : Set ℕ) (i : grid2.Coords) (arg1 : Memref sig .tc .vmem S2048x200 .f32) (harg1 : arg1.IsWhole) (arg2 : Memref sig .tc .vmem S1x128 .f32) (harg2 : arg2.IsWhole) (arg3 : Memref sig .tc .vmem S200x256 .f32) (harg3 : arg3.IsWhole) (arg4 : Memref sig .tc .vmem S256 .f32) (harg4 : arg4.IsWhole) (arg5 : Memref sig .tc .vmem S256x128 .f32) (harg5 : arg5.IsWhole) (arg6 : Memref sig .tc .vmem S128 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x360 .f32) (harg9 : arg9.IsWhole) (arg10 : Memref sig .tc .vmem S360 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x360 .f32) (harg14 : arg14.IsWhole)
    (x0 : Vec F S2048x200 .f32) (x1 : Vec F S1x128 .f32) (x2 : Vec F S200x256 .f32) (x3 : Vec F S256 .f32) (x4 : Vec F S256x128 .f32) (x5 : Vec F S128 .f32) (x6 : Vec F S128x256 .f32) (x7 : Vec F S256 .f32) (x8 : Vec F S256x360 .f32) (x9 : Vec F S360 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x1) ∗ owns (c : Thread nD τ) arg12 fullShare (out2_11 x0 x2 x3 x4 x5) ∗ owns (c : Thread nD τ) arg13 fullShare (out2_12 x0 x2 x3 x4 x5 x1) ∗ owns (c : Thread nD τ) arg14 fullShare (out2_13 x0 x2 x3 x4 x5 x1 x6 x7 x8 x9)) -∗ K ⟨⟩))
      ⊢ wp frame (wpE (defs₀ (F := F)) Variants.none c none) E (cc2__recon_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__recon_kernel_eq_skeleton]; unfold cc2__recon_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover2_10 _)
  isplitl [H11]
  · iexists _; isplitr
    swap; · iexact H11
    ipureintro
    exact View.read_writes_eq_canon _ _ _ (cover2_11 _)
  isplitl [H12]
  · iexists _; isplitr
    swap; · iexact H12
    ipureintro
    exact View.read_writes_eq_canon _ _ _ (cover2_12 _)
  iexists _; isplitr
  swap; · iexact H13
  ipureintro
  exact View.read_writes_eq_canon _ _ _ (cover2_13 _)

/-! ## The pipeline's proof data -/

/-- The proof data of the region on core `c`: the arrays as the region finds them; after the body at point `t` each
    input's buffer at its block and each output's at `out2_W` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 1 t)
    | ⟨11, _⟩ => out2_11 (iblk2 V c 0 t) (iblk2 V c 2 t) (iblk2 V c 3 t) (iblk2 V c 4 t) (iblk2 V c 5 t)
    | ⟨12, _⟩ => out2_12 (iblk2 V c 0 t) (iblk2 V c 2 t) (iblk2 V c 3 t) (iblk2 V c 4 t) (iblk2 V c 5 t) (iblk2 V c 1 t)
    | ⟨13, _⟩ => out2_13 (iblk2 V c 0 t) (iblk2 V c 2 t) (iblk2 V c 3 t) (iblk2 V c 4 t) (iblk2 V c 5 t) (iblk2 V c 1 t) (iblk2 V c 6 t) (iblk2 V c 7 t) (iblk2 V c 8 t) (iblk2 V c 9 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 1 t) := by dsimp only [dat2]
theorem after2_11 (c : Dev nD) (t : Fin cfg2.N) : (dat2 V c).after 11 t = out2_11 (iblk2 V c 0 t) (iblk2 V c 2 t) (iblk2 V c 3 t) (iblk2 V c 4 t) (iblk2 V c 5 t) := by dsimp only [dat2]
theorem after2_12 (c : Dev nD) (t : Fin cfg2.N) : (dat2 V c).after 12 t = out2_12 (iblk2 V c 0 t) (iblk2 V c 2 t) (iblk2 V c 3 t) (iblk2 V c 4 t) (iblk2 V c 5 t) (iblk2 V c 1 t) := by dsimp only [dat2]
theorem after2_13 (c : Dev nD) (t : Fin cfg2.N) : (dat2 V c).after 13 t = out2_13 (iblk2 V c 0 t) (iblk2 V c 2 t) (iblk2 V c 3 t) (iblk2 V c 4 t) (iblk2 V c 5 t) (iblk2 V c 1 t) (iblk2 V c 6 t) (iblk2 V c 7 t) (iblk2 V c 8 t) (iblk2 V c 9 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

/-- The body at any point: the inputs' buffers hold their blocks, so `sound_kernel2` applies; the invariant and the
    core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel2 c Set.univ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.R2

end
-- ==== Proof.KI.Regs.lean ====
/-
  The three pallas_calls as segments of the program's run.

  Between two items of the program every unscoped buffer of a core is held at a valuation: the launch memory, then the
  host operations' results stretch by stretch, and after a pallas_call its output arrays at what its write-backs leave
  (the folded blocks) with every other buffer as before. Beside the buffers ride the generator register and the core's
  "nothing owed". Each pallas_call is entered from that state and left at it: its arrays are split out of the unscoped
  buffers and put back at their final contents; the first one also takes its scratch accumulator out of the scoped
  buffers and returns it.
-/
import proofs.«119898_j41583873360606_2_alg».proof.Proof.KI.Region0
import proofs.«119898_j41583873360606_2_alg».proof.Proof.KI.Region1
import proofs.«119898_j41583873360606_2_alg».proof.Proof.KI.Region2
import proofs.«119898_j41583873360606_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Entry contents of the first pallas_call: the launch memory after the first stretch of host operations. -/
abbrev EV0 : (c : Dev nD) → (b : Ref sig .tc) → Buf (Elt F) ((c : Thread nD τ).loc b) := fun c b => V1 m c b
/-- After the first pallas_call: its arrays at what its write-backs leave. -/
def W2 (c : Dev nD) : Valuation τ sig (Elt F) :=
  Pipeline.withArrays spec0 c (V1 m c) fun w => (R0.dat0 (EV0 m) c).arrAt w cfg0.N
def outsA : Outs (F := F) := fun _ r c => W2 m c r
/-- Entry contents of the second pallas_call. -/
abbrev EV1 : (c : Dev nD) → (b : Ref sig .tc) → Buf (Elt F) ((c : Thread nD τ).loc b) := fun c b => V3 m (outsA m) c b
def W4 (c : Dev nD) : Valuation τ sig (Elt F) :=
  Pipeline.withArrays spec1 c (V3 m (outsA m) c) fun w => (R1.dat1 (EV1 m) c).arrAt w cfg1.N
def outsB : Outs (F := F) := fun J r c => if J ≤ 2 then W2 m c r else W4 m c r
/-- Entry contents of the third pallas_call. -/
abbrev EV2 : (c : Dev nD) → (b : Ref sig .tc) → Buf (Elt F) ((c : Thread nD τ).loc b) := fun c b => V5 m (outsB m) c b
def W6 (c : Dev nD) : Valuation τ sig (Elt F) :=
  Pipeline.withArrays spec2 c (V5 m (outsB m) c) fun w => (R2.dat2 (EV2 m) c).arrAt w cfg2.N
/-- What each pallas_call leaves, by the item after which it is read. -/
def outs : Outs (F := F) := fun J r c => if J ≤ 2 then W2 m c r else if J ≤ 4 then W4 m c r else W6 m c r

theorem V3_outs (c : Dev nD) : V3 m (outs m) c = V3 m (outsA m) c := rfl
theorem V5_outs (c : Dev nD) : V5 m (outs m) c = V5 m (outsB m) c := rfl

theorem W2_arr (c : Dev nD) (w : Fin cfg0.W) :
    W2 m c (Proc.devRef .tc (Pipeline.arrRef spec0 w)) = (R0.dat0 (EV0 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (R1.dat1 (EV1 m) c).arrAt w cfg1.N := by
  unfold W4; exact Pipeline.withArrays_arr spec1 launch1.win.arr_inj c _ _ w
theorem W6_arr (c : Dev nD) (w : Fin cfg2.W) :
    W6 m c (Proc.devRef .tc (Pipeline.arrRef spec2 w)) = (R2.dat2 (EV2 m) c).arrAt w cfg2.N := by
  unfold W6; exact Pipeline.withArrays_arr spec2 launch2.win.arr_inj c _ _ w

/-- An input array of a pallas_call ends as it was entered. -/
theorem in0 (c : Dev nD) (w : Fin cfg0.W) (hw : (cfg0.win w).isOut = false) :
    (R0.dat0 (EV0 m) c).arrAt w cfg0.N = EV0 m c (Pipeline.arrRef spec0 w) :=
  ((R0.dat0 (EV0 m) c).arrAt_in w hw _).trans (R0.A_eq0 (EV0 m) c w)
theorem in1 (c : Dev nD) (w : Fin cfg1.W) (hw : (cfg1.win w).isOut = false) :
    (R1.dat1 (EV1 m) c).arrAt w cfg1.N = V3 m (outs m) c (Pipeline.arrRef spec1 w) :=
  (((R1.dat1 (EV1 m) c).arrAt_in w hw _).trans (R1.A_eq1 (EV1 m) c w)).trans (congrFun (V3_outs m c).symm _)
theorem in2 (c : Dev nD) (w : Fin cfg2.W) (hw : (cfg2.win w).isOut = false) :
    (R2.dat2 (EV2 m) c).arrAt w cfg2.N = V5 m (outs m) c (Pipeline.arrRef spec2 w) :=
  (((R2.dat2 (EV2 m) c).arrAt_in w hw _).trans (R2.A_eq2 (EV2 m) c w)).trans (congrFun (V5_outs m c).symm _)

theorem V2_out (c : Dev nD) : V2 m (outs m) c main_v4 = W2 m c main_v4 := by
  show Function.update (V1 m c) _ _ _ = _; rw [Function.update_self]; rfl
theorem V4_out (c : Dev nD) : V4 m (outs m) c main_v18 = W4 m c main_v18 := by
  show Function.update (V3 m (outs m) c) _ _ _ = _; rw [Function.update_self]; rfl

/-- At the first pallas_call's exit each of its arrays holds what the pipeline leaves, every other buffer what it held. -/
theorem hF0 (c : Dev nD) (w : Fin cfg0.W) : (R0.dat0 (EV0 m) c).arrAt w cfg0.N = V2 m (outs m) c (Pipeline.arrRef spec0 w) := by
  fin_cases w
  · exact (in0 m c 0 rfl).trans (V2_of m (outs m) c _ (by decide)).symm
  · exact (in0 m c 1 rfl).trans (V2_of m (outs m) c _ (by decide)).symm
  · exact (in0 m c 2 rfl).trans (V2_of m (outs m) c _ (by decide)).symm
  · exact (in0 m c 3 rfl).trans (V2_of m (outs m) c _ (by decide)).symm
  · exact (in0 m c 4 rfl).trans (V2_of m (outs m) c _ (by decide)).symm
  · exact ((W2_arr m c 5).symm.trans (V2_out m c).symm)
theorem hrest0 (c : Dev nD) : ∀ b, b ∉ Finset.univ.image (Pipeline.arrRef spec0) → V2 m (outs m) c b = EV0 m c b :=
  fun b hb => V2_of m (outs m) c b (fun h => hb (by
    rw [List.mem_singleton] at h; subst h
    exact Finset.mem_image.mpr ⟨5, Finset.mem_univ _, rfl⟩))

set_option maxHeartbeats 1000000 in
theorem hF1 (c : Dev nD) (w : Fin cfg1.W) : (R1.dat1 (EV1 m) c).arrAt w cfg1.N = V4 m (outs m) c (Pipeline.arrRef spec1 w) := by
  fin_cases w
  · exact (in1 m c 0 rfl).trans (V4_of m (outs m) c _ (by decide)).symm
  · exact (in1 m c 1 rfl).trans (V4_of m (outs m) c _ (by decide)).symm
  · exact (in1 m c 2 rfl).trans (V4_of m (outs m) c _ (by decide)).symm
  · exact ((W4_arr m c 3).symm.trans (V4_out m c).symm)
theorem hrest1 (c : Dev nD) : ∀ b, b ∉ Finset.univ.image (Pipeline.arrRef spec1) → V4 m (outs m) c b = EV1 m c b :=
  fun b hb => (V4_of m (outs m) c b (fun h => hb (by
    rw [List.mem_singleton] at h; subst h
    exact Finset.mem_image.mpr ⟨3, Finset.mem_univ _, rfl⟩))).trans (congrFun (V3_outs m c) _)

theorem V6_out0 (c : Dev nD) : V6 m (outs m) c main_v28_0 = W6 m c main_v28_0 := by
  show Function.update (Function.update (Function.update (Function.update (V5 m (outs m) c) _ _) _ _) _ _) _ _ _ = _
  rw [Function.update_of_ne (StableHlo.devRef_ne_of_ne (by decide)), Function.update_of_ne (StableHlo.devRef_ne_of_ne (by decide)),
    Function.update_of_ne (StableHlo.devRef_ne_of_ne (by decide)), Function.update_self]; rfl
theorem V6_out1 (c : Dev nD) : V6 m (outs m) c main_v28_1 = W6 m c main_v28_1 := by
  show Function.update (Function.update (Function.update (Function.update (V5 m (outs m) c) _ _) _ _) _ _) _ _ _ = _
  rw [Function.update_of_ne (StableHlo.devRef_ne_of_ne (by decide)), Function.update_of_ne (StableHlo.devRef_ne_of_ne (by decide)),
    Function.update_self]; rfl
theorem V6_out2 (c : Dev nD) : V6 m (outs m) c main_v28_2 = W6 m c main_v28_2 := by
  show Function.update (Function.update (Function.update (Function.update (V5 m (outs m) c) _ _) _ _) _ _) _ _ _ = _
  rw [Function.update_of_ne (StableHlo.devRef_ne_of_ne (by decide)), Function.update_self]; rfl
theorem V6_out3 (c : Dev nD) : V6 m (outs m) c main_v28_3 = W6 m c main_v28_3 := by
  show Function.update (Function.update (Function.update (Function.update (V5 m (outs m) c) _ _) _ _) _ _) _ _ _ = _
  rw [Function.update_self]; rfl

set_option maxHeartbeats 2000000 in
theorem hF2 (c : Dev nD) (w : Fin cfg2.W) : (R2.dat2 (EV2 m) c).arrAt w cfg2.N = V6 m (outs m) c (Pipeline.arrRef spec2 w) := by
  fin_cases w
  · exact (in2 m c 0 rfl).trans (V6_of m (outs m) c _ (by decide)).symm
  · exact (in2 m c 1 rfl).trans (V6_of m (outs m) c _ (by decide)).symm
  · exact (in2 m c 2 rfl).trans (V6_of m (outs m) c _ (by decide)).symm
  · exact (in2 m c 3 rfl).trans (V6_of m (outs m) c _ (by decide)).symm
  · exact (in2 m c 4 rfl).trans (V6_of m (outs m) c _ (by decide)).symm
  · exact (in2 m c 5 rfl).trans (V6_of m (outs m) c _ (by decide)).symm
  · exact (in2 m c 6 rfl).trans (V6_of m (outs m) c _ (by decide)).symm
  · exact (in2 m c 7 rfl).trans (V6_of m (outs m) c _ (by decide)).symm
  · exact (in2 m c 8 rfl).trans (V6_of m (outs m) c _ (by decide)).symm
  · exact (in2 m c 9 rfl).trans (V6_of m (outs m) c _ (by decide)).symm
  · exact ((W6_arr m c 10).symm.trans (V6_out0 m c).symm)
  · exact ((W6_arr m c 11).symm.trans (V6_out1 m c).symm)
  · exact ((W6_arr m c 12).symm.trans (V6_out2 m c).symm)
  · exact ((W6_arr m c 13).symm.trans (V6_out3 m c).symm)
theorem hrest2 (c : Dev nD) : ∀ b, b ∉ Finset.univ.image (Pipeline.arrRef spec2) → V6 m (outs m) c b = EV2 m c b :=
  fun b hb => (V6_of m (outs m) c b (fun h => hb (by
    simp only [List.mem_cons, List.mem_singleton, List.not_mem_nil, or_false] at h
    rcases h with rfl | rfl | rfl | rfl
    · exact Finset.mem_image.mpr ⟨10, Finset.mem_univ _, rfl⟩
    · exact Finset.mem_image.mpr ⟨11, Finset.mem_univ _, rfl⟩
    · exact Finset.mem_image.mpr ⟨12, Finset.mem_univ _, rfl⟩
    · exact Finset.mem_image.mpr ⟨13, Finset.mem_univ _, rfl⟩))).trans (congrFun (V5_outs m c) _)

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => R0.dat0 (EV0 m) c
  | ⟨1, _⟩ => fun c => R1.dat1 (EV1 m) c
  | ⟨2, _⟩ => fun c => R2.dat2 (EV2 m) c

/-- No core owes another anything: no level is assigned. -/
abbrev L : GSem nD τ sig → Finset Unit := fun _ => ∅
abbrev lv : GSem nD τ sig → Unit → ℕ := fun _ _ => 0

/-- What rides beside the buffers through every segment: the generator register at some state, nothing owed. -/
abbrev R (c : Dev nD) : sProp 𝕄 := iprop((∃ r, prngReg c r) ∗ ∃ W, owes (c : Thread nD τ) (0 : CellTallies nD τ sig Unit) W)

/-- The scratch accumulator held at something, said through its memref or through its buffer. -/
theorem scr_eq (c : Dev nD) :
    (iprop(∃ xs, owns (c : Thread nD τ) R0.scr fullShare xs) : sProp 𝕄)
      = iprop(∃ f : Buf (Elt F) ((c : Thread nD τ).loc cc0_scratch0), ((c : Thread nD τ).loc cc0_scratch0) ↦{fullShare} f) := by
  simp only [owns_whole]
  rfl

/-! ## The regions as segments -/

set_option backward.isDefEq.respectTransparency.types false in
/-- The first pallas_call over the thread state. Its invariant takes the scratch accumulator out of the scoped buffers
    (at anything) and returns it (at the last accumulator, which is something). -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation0 (EV0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (EV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (EV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = R0.Φ0 (EV0 m) c 0 from rfl]; unfold R0.Φ0
    rw [show (Pipeline.scopedRest (Ix := Unit) (Name := ℕ) (U := UR sig nD τ) (Lvl := ℕ) (Val := Elt F) (Pipeline.pin (pcfgs (F := F)) adm 0).spec c : sProp 𝕄) = _ from scopedRest0_split c,
      show R0.scrAt (EV0 m) c 0 = (iprop(∃ xs, owns (c : Thread nD τ) R0.scr fullShare xs) : sProp 𝕄) from rfl, scr_eq]
    iintro ⟨Hp, -, Hs, Hr⟩
    isplitl [Hs]; · iexact Hs
    isplitl [Hr]; · iexact Hr
    iexact Hp
  hout c := by
    rw [Pipeline.ownSems0_none, show (pdats m 0 c).Φ (Fin.last _) = R0.Φ0 (EV0 m) c (Fin.last _) from rfl]; unfold R0.Φ0
    rw [show (Pipeline.scopedRest (Ix := Unit) (Name := ℕ) (U := UR sig nD τ) (Lvl := ℕ) (Val := Elt F) (Pipeline.pin (pcfgs (F := F)) adm 0).spec c : sProp 𝕄) = _ from scopedRest0_split c,
      ← scr_eq]
    iintro ⟨Hs, Hr, Hp⟩
    isplitl [Hp]; · iexact Hp
    isplitr; · iempintro
    isplitl [Hs]
    · ihave Hs' := (show R0.scrAt (EV0 m) c (Fin.last _) ⊢ (iprop(∃ xs, owns (c : Thread nD τ) R0.scr fullShare xs) : sProp 𝕄) from by
          show owns (c : Thread nD τ) R0.scr fullShare _ ⊢ _; iintro H; iexists _; iexact H) $$ Hs
      iexact Hs'
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (EV0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those
    contents with its output arrays at what its write-backs leave; the generator register passes through the
    invariant; nothing owed; no semaphore of the kernel's own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation1 (EV1 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (EV1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (EV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (EV1 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those
    contents with its output arrays at what its write-backs leave; the generator register passes through the
    invariant; nothing owed; no semaphore of the kernel's own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (R2.body_obligation2 (EV2 m) c).loose
  hwaits := Pipeline.hwaits_of_owed_zero _ _ _ _ L lv 2 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (EV2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (EV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (EV2 m c) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm
end
-- ==== Proof.KI.Run.lean ====
/- The run of @main over its six items (three host stretches, three kernel regions), given a segment record per
   region: every weakly fair execution from memory m with zero counters terminates, and in every final memory EVERY
   unscoped TensorCore buffer holds what the last valuation V6 m outs c says — the launch contents carried through each
   host stretch's operations and updated, at each region, by what the region leaves in the arrays it may change. Two
   readings of that post: each argument array as launched, and the five result arrays at V6 beside the arguments. -/
import proofs.«119898_j41583873360606_2_alg».proof.Proof.Gen.KernelIdeal.Regions

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- An unscoped TensorCore reference is among the references the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, given the regions' records: under the hypotheses of the conditional frame, every final memory agrees
    with the last valuation on every unscoped TensorCore buffer (the last thread state holds each of them at that
    valuation, and a held buffer is read off the final state). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V6 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => ∀ b ∈ Pipeline.ucRefs τ sig, s.mem ((c : Thread nD τ).1, b) = V6 m outs c b)
    (hfin := fun c s' => ?_) (hQ := fun _ h => h)
  · -- the launch: the unscoped buffers are held at the launch contents; the rest makes E 0 on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every held buffer read off the final state
    unfold StableHlo.held
    iintro ⟨Hh, HSI⟩
    imodintro
    iapply (pointsTo_read_all (Pipeline.ucRefs τ sig) (fun b => ((c : Thread nD τ).1, b)) (V6 m outs c) s')
    isplitl [Hh] <;> iassumption

/-- The frame post from the run's: each argument array is an unscoped TensorCore buffer, and the last valuation at an
    argument is the launch memory there (no host operation and no region writes an argument). -/
theorem frame_of_run (ρ : Dev nD → PrngReg) (outs : Outs (F := F))
    (hrun : θ_run defs (onTc (τ := τ) (main (F := F))) ⟨m, fun _ => 0, ρ⟩ (fun r => ∀ c : Dev nD,
      ∀ b ∈ Pipeline.ucRefs τ sig, r.2.mem ((c : Thread nD τ).1, b) = V6 m outs c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (V6_main_arg0 m outs c),
      (h c _ (mem_uc main_arg1 (by decide))).trans (V6_main_arg1 m outs c),
      (h c _ (mem_uc main_arg2 (by decide))).trans (V6_main_arg2 m outs c),
      (h c _ (mem_uc main_arg3 (by decide))).trans (V6_main_arg3 m outs c),
      (h c _ (mem_uc main_arg4 (by decide))).trans (V6_main_arg4 m outs c),
      (h c _ (mem_uc main_arg5 (by decide))).trans (V6_main_arg5 m outs c),
      (h c _ (mem_uc main_arg6 (by decide))).trans (V6_main_arg6 m outs c),
      (h c _ (mem_uc main_arg7 (by decide))).trans (V6_main_arg7 m outs c),
      (h c _ (mem_uc main_arg8 (by decide))).trans (V6_main_arg8 m outs c),
      (h c _ (mem_uc main_arg9 (by decide))).trans (V6_main_arg9 m outs c),
      (h c _ (mem_uc main_arg10 (by decide))).trans (V6_main_arg10 m outs c),
      (h c _ (mem_uc main_arg11 (by decide))).trans (V6_main_arg11 m outs c),
      (h c _ (mem_uc main_arg12 (by decide))).trans (V6_main_arg12 m outs c),
      (h c _ (mem_uc main_arg13 (by decide))).trans (V6_main_arg13 m outs c),
      (h c _ (mem_uc main_arg14 (by decide))).trans (V6_main_arg14 m outs c),
      (h c _ (mem_uc main_arg15 (by decide))).trans (V6_main_arg15 m outs c),
      (h c _ (mem_uc main_arg16 (by decide))).trans (V6_main_arg16 m outs c),
      (h c _ (mem_uc main_arg17 (by decide))).trans (V6_main_arg17 m outs c),
      (h c _ (mem_uc main_arg18 (by decide))).trans (V6_main_arg18 m outs c),
      (h c _ (mem_uc main_arg19 (by decide))).trans (V6_main_arg19 m outs c),
      (h c _ (mem_uc main_arg20 (by decide))).trans (V6_main_arg20 m outs c)⟩) hrun

/-- The five result arrays at the last valuation, beside the arguments as launched. -/
theorem results_of_run (ρ : Dev nD → PrngReg) (outs : Outs (F := F))
    (hrun : θ_run defs (onTc (τ := τ) (main (F := F))) ⟨m, fun _ => 0, ρ⟩ (fun r => ∀ c : Dev nD,
      ∀ b ∈ Pipeline.ucRefs τ sig, r.2.mem ((c : Thread nD τ).1, b) = V6 m outs c b)) :
    θ_run defs (onTc (τ := τ) (main (F := F))) ⟨m, fun _ => 0, ρ⟩ (fun r => ∀ c : Dev nD,
      r.2.mem ((c.tc : Thread nD τ).loc main_v28_0) = V6 m outs c main_v28_0
      ∧ r.2.mem ((c.tc : Thread nD τ).loc main_v28_1) = V6 m outs c main_v28_1
      ∧ r.2.mem ((c.tc : Thread nD τ).loc main_v28_2) = V6 m outs c main_v28_2
      ∧ r.2.mem ((c.tc : Thread nD τ).loc main_v14) = V6 m outs c main_v14
      ∧ r.2.mem ((c.tc : Thread nD τ).loc main_v28_3) = V6 m outs c main_v28_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨h c _ (mem_uc main_v28_0 (by decide)),
      h c _ (mem_uc main_v28_1 (by decide)),
      h c _ (mem_uc main_v28_2 (by decide)),
      h c _ (mem_uc main_v14 (by decide)),
      h c _ (mem_uc main_v28_3 (by decide)),
      (h c _ (mem_uc main_arg0 (by decide))).trans (V6_main_arg0 m outs c),
      (h c _ (mem_uc main_arg1 (by decide))).trans (V6_main_arg1 m outs c),
      (h c _ (mem_uc main_arg2 (by decide))).trans (V6_main_arg2 m outs c),
      (h c _ (mem_uc main_arg3 (by decide))).trans (V6_main_arg3 m outs c),
      (h c _ (mem_uc main_arg4 (by decide))).trans (V6_main_arg4 m outs c),
      (h c _ (mem_uc main_arg5 (by decide))).trans (V6_main_arg5 m outs c),
      (h c _ (mem_uc main_arg6 (by decide))).trans (V6_main_arg6 m outs c),
      (h c _ (mem_uc main_arg7 (by decide))).trans (V6_main_arg7 m outs c),
      (h c _ (mem_uc main_arg8 (by decide))).trans (V6_main_arg8 m outs c),
      (h c _ (mem_uc main_arg9 (by decide))).trans (V6_main_arg9 m outs c),
      (h c _ (mem_uc main_arg10 (by decide))).trans (V6_main_arg10 m outs c),
      (h c _ (mem_uc main_arg11 (by decide))).trans (V6_main_arg11 m outs c),
      (h c _ (mem_uc main_arg12 (by decide))).trans (V6_main_arg12 m outs c),
      (h c _ (mem_uc main_arg13 (by decide))).trans (V6_main_arg13 m outs c),
      (h c _ (mem_uc main_arg14 (by decide))).trans (V6_main_arg14 m outs c),
      (h c _ (mem_uc main_arg15 (by decide))).trans (V6_main_arg15 m outs c),
      (h c _ (mem_uc main_arg16 (by decide))).trans (V6_main_arg16 m outs c),
      (h c _ (mem_uc main_arg17 (by decide))).trans (V6_main_arg17 m outs c),
      (h c _ (mem_uc main_arg18 (by decide))).trans (V6_main_arg18 m outs c),
      (h c _ (mem_uc main_arg19 (by decide))).trans (V6_main_arg19 m outs c),
      (h c _ (mem_uc main_arg20 (by decide))).trans (V6_main_arg20 m outs c)⟩) hrun

end Cert.KernelIdeal.Asm

end
-- ==== Proof.KI.Frame.lean ====
/-
  The whole program's run: every weakly fair execution terminates without a fault, and at the end every unscoped
  buffer of every core holds the last valuation of the fold — the launch memory carried through the three stretches of
  host operations and the three pallas_calls. Read at the arguments this is the frame claim (no stretch writes an
  argument, no pallas_call changes one); read at the results it names what the program computed.
-/
import proofs.«119898_j41583873360606_2_alg».proof.Proof.KI.Regs
import proofs.«119898_j41583873360606_2_alg».proof.Proof.KI.Run

set_option maxRecDepth 16384

noncomputable section

namespace Cert.KernelIdeal.Asm
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run to the last valuation: the generalized run at this certificate's proof data, unknowns and records. -/
theorem run_all : θ_run defs (onTc (τ := τ) (main (F := F))) ⟨m, fun _ => 0, ρ⟩
    (fun r => ∀ c : Dev nD, ∀ b ∈ Pipeline.ucRefs τ sig, r.2.mem ((c : Thread nD τ).1, b) = V6 m (outs m) c b) :=
  run_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hc : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (fun _ : Dev nD => (iprop(emp) : sProp 𝕄)) c))
          ⊢ (bigSep Finset.univ fun c : Dev nD => R c : sProp 𝕄) := bigSep_mono fun c _ =>
        show (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ R c from by
          iintro ⟨-, HO, -, Hp, -⟩
          isplitl [Hp]; · iexists _; iexact Hp
          iexists ∅; iexact HO
      iintro ⟨H, -⟩
      imodintro
      iapply hc
      iexact H)
    (hE3 := fun c => by iintro ⟨-, HO⟩; iexact HO)
    (reg0 m) (fun _ => .rfl) (fun _ => .rfl)
    (reg1 m) (fun c => by rw [V3_outs m c]; exact .rfl) (fun _ => .rfl)
    (reg2 m) (fun c => by rw [V5_outs m c]; exact .rfl) (fun _ => .rfl)

end Cert.KernelIdeal.Asm
end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibLayerProduct.lean ====
/-
  One layer of the network, read at an entry, over the extended reals.

  A layer multiplies a matrix of node features by a weight matrix. From the second layer on, the features are first
  shifted by a bias row and clamped below at zero. Entry (r, q) of the result is therefore a sum over the contracted
  axis k: of a (r, k) · w (k, q) for the first layer, and of max (a (r, k) + b (0, k)) 0 · w (k, q) for the others.
  Rounding the two factors to a narrower float format changes nothing over the extended reals, and a product
  accumulated into zero is the plain sum, so the tiled kernel body's stored value, read at an entry of its tile, is
  that sum over the tile's own rows.
-/
import Idealize.ShloMosaic.PureOps.Ideal.Laws
import Idealize.ShloMosaic.Lib.ValueIdx
import Idealize.ShloMosaic.Lib.ValueLayout
import Idealize.ShloMosaic.Lib.Pipeline.Value
import proofs.«119898_j41583873360606_2_alg».proof.Proof.LibMatmul

noncomputable section

namespace Cert.Layer

open Idealize.ShloMosaic Idealize.ShloMosaic.ValueIdx

/-- The plain product: entry (r, q) is the sum over k of a (r, k) · w (k, q). -/
def prod {A K B : ℕ} (a : FVec Ideal (⟨2, ![A, K]⟩ : Shape) .f32) (w : FVec Ideal (⟨2, ![K, B]⟩ : Shape) .f32) :
    FVec Ideal (⟨2, ![A, B]⟩ : Shape) .f32 :=
  fun i => ∑ k : Fin K, a (ix2 (i 0) k) * w (ix2 k (i 1))

/-- The product after the bias row is added and negatives are clamped to zero:
    entry (r, q) is the sum over k of max (a (r, k) + b (0, k)) 0 · w (k, q). -/
def biasReluProd {A K B : ℕ} (a : FVec Ideal (⟨2, ![A, K]⟩ : Shape) .f32) (b : FVec Ideal (⟨2, ![1, K]⟩ : Shape) .f32)
    (w : FVec Ideal (⟨2, ![K, B]⟩ : Shape) .f32) : FVec Ideal (⟨2, ![A, B]⟩ : Shape) .f32 :=
  fun i => ∑ k : Fin K, max (a (ix2 (i 0) k) + b (ix2 (0 : Fin 1) k)) 0 * w (ix2 k (i 1))

/-- Two entries of the plain product agree when the row and the column they sum over agree, term by term. -/
theorem prod_congr {A A' K B B' : ℕ}
    (a : FVec Ideal (⟨2, ![A, K]⟩ : Shape) .f32) (w : FVec Ideal (⟨2, ![K, B]⟩ : Shape) .f32)
    (a' : FVec Ideal (⟨2, ![A', K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hw : ∀ k : Fin K, w (ix2 k q) = w' (ix2 k q')) :
    prod a w (ix2 r q) = prod a' w' (ix2 r' q') := by
  show (∑ k : Fin K, a (ix2 r k) * w (ix2 k q)) = ∑ k : Fin K, a' (ix2 r' k) * w' (ix2 k q')
  exact Finset.sum_congr rfl fun k _ => by rw [ha k, hw k]

/-- Two entries of the clamped product agree when the row, the bias row and the column they sum over agree. -/
theorem biasReluProd_congr {A A' K B B' : ℕ}
    (a : FVec Ideal (⟨2, ![A, K]⟩ : Shape) .f32) (b : FVec Ideal (⟨2, ![1, K]⟩ : Shape) .f32) (w : FVec Ideal (⟨2, ![K, B]⟩ : Shape) .f32)
    (a' : FVec Ideal (⟨2, ![A', K]⟩ : Shape) .f32) (b' : FVec Ideal (⟨2, ![1, K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hb : ∀ k : Fin K, b (ix2 (0 : Fin 1) k) = b' (ix2 (0 : Fin 1) k))
    (hw : ∀ k : Fin K, w (ix2 k q) = w' (ix2 k q')) :
    biasReluProd a b w (ix2 r q) = biasReluProd a' b' w' (ix2 r' q') := by
  show (∑ k : Fin K, max (a (ix2 r k) + b (ix2 (0 : Fin 1) k)) 0 * w (ix2 k q))
    = ∑ k : Fin K, max (a' (ix2 r' k) + b' (ix2 (0 : Fin 1) k)) 0 * w' (ix2 k q')
  exact Finset.sum_congr rfl fun k _ => by rw [ha k, hb k, hw k]

/-- The two factors rounded to a narrower format and multiplied into a zero accumulator: the plain product. -/
theorem matmul_trunc_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (x0 : FVec Ideal (⟨2, ![A, K]⟩ : Shape) .f32) (x2 : FVec Ideal (⟨2, ![K, B]⟩ : Shape) .f32) (p : Fin A) (q : Fin B) :
    FloatOps.matmul d none (truncf .bf16 x0 h16) (truncf .bf16 x2 h16)
        (constant (F := Ideal) (⟨2, ![A, B]⟩ : Shape) .f32 0x00000000#32) (ix2 p q)
      = prod x0 x2 (ix2 p q) :=
  (Cert.LibMatmul.matmul_zero_ix2 d hr hs hl0 hl1 hr0 hr1 none _ _ p q).trans
    (Finset.sum_congr rfl fun _ _ => rfl)

/-- The same with the left factor first shifted by a bias row spread over all rows and clamped below at zero. -/
theorem biasRelu_matmul_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (hbc : (⟨2, ![1, K]⟩ : Shape).Broadcasts ⟨2, ![A, K]⟩)
    (x0 : FVec Ideal (⟨2, ![A, K]⟩ : Shape) .f32) (x1 : FVec Ideal (⟨2, ![1, K]⟩ : Shape) .f32)
    (x2 : FVec Ideal (⟨2, ![K, B]⟩ : Shape) .f32) (p : Fin A) (q : Fin B) :
    FloatOps.matmul d none
        (truncf .bf16 (maximumf (addf x0 (broadcastTo (⟨2, ![A, K]⟩ : Shape) x1 hbc))
          (broadcast (⟨2, ![A, K]⟩ : Shape) (Scalar.ofBits (F := Ideal) .f32 0x00000000#32))) h16)
        (truncf .bf16 x2 h16)
        (constant (F := Ideal) (⟨2, ![A, B]⟩ : Shape) .f32 0x00000000#32) (ix2 p q)
      = biasReluProd x0 x1 x2 (ix2 p q) := by
  refine (Cert.LibMatmul.matmul_zero_ix2 d hr hs hl0 hl1 hr0 hr1 none _ _ p q).trans ?_
  refine Finset.sum_congr rfl fun k _ => ?_
  show max (x0 (ix2 p k) + broadcastTo (⟨2, ![A, K]⟩ : Shape) x1 hbc (ix2 p k)) (Ideal.ofBits .f32 0x00000000#32) * x2 (ix2 k q)
    = max (x0 (ix2 p k) + x1 (ix2 (0 : Fin 1) k)) 0 * x2 (ix2 k q)
  rw [broadcastTo_1b_ab_apply, Ideal.ofBits_zero_f32]

end Cert.Layer

end
-- ==== Proof.RefStagesDefs.lean ====
/-
  The network's stages as named functions of arrays, entry by entry, over the extended reals.

  A layer is a matrix product plus a bias vector added to every row (affine), possibly clamped below at zero (relu).
  The mask of a matrix has 1 where the entry is strictly positive and 0 elsewhere. The Jacobian branch multiplies the
  first layer by its own mask, applies the second layer, and averages over the 16384 rows the products of the two
  masks' entries (gram, then a division by 16384); that average scales the second weight matrix entry by entry, and
  two further products give the 360 × 360 matrix ec. The flattened ec goes through a clamped layer and a plain layer
  to one row z₁; the other branch sends its input through a clamped layer and a plain layer to z_geo; their sum, with
  z₁ repeated on every row, is divided by the larger of its row's Euclidean norm and a small constant; two more layers
  reconstruct the output.
-/
import Idealize.ShloMosaic.PureOps.Ideal.Laws
import Idealize.ShloMosaic.Lib.ValueIdx
import proofs.«119898_j41583873360606_2_alg».proof.Proof.LibLayerProduct

noncomputable section

namespace Cert.ReferenceIdeal.RefValue

open Idealize.ShloMosaic Idealize.ShloMosaic.ValueIdx

/-! ## Building blocks -/

/-- A product plus a bias vector on every row: entry (r, q) is (∑ k, a (r, k) · w (k, q)) + b q. -/
def affine {A K B : ℕ} (a : FVec Ideal (⟨2, ![A, K]⟩ : Shape) .f32) (w : FVec Ideal (⟨2, ![K, B]⟩ : Shape) .f32)
    (b : FVec Ideal (⟨1, ![B]⟩ : Shape) .f32) : FVec Ideal (⟨2, ![A, B]⟩ : Shape) .f32 :=
  fun i => Cert.Layer.prod a w i + b (ix1 (i 1))

/-- Entry by entry, the larger of the entry and zero. -/
def relu {s : Shape} (x : FVec Ideal s .f32) : FVec Ideal s .f32 :=
  fun i => max (x i) 0

/-- Entry by entry, 1 where the entry is strictly positive and 0 elsewhere. -/
def mask {s : Shape} (h : FVec Ideal s .f32) : FVec Ideal s .f32 :=
  fun i => FloatOps.uitofp (F := Ideal) .f32 (FloatOps.cmpf (F := Ideal) .ogt (h i) (0 : Ideal .f32))

/-- Entry by entry product. -/
def had {s : Shape} (x y : FVec Ideal s .f32) : FVec Ideal s .f32 :=
  fun i => x i * y i

/-- Entry by entry sum. -/
def plus {s : Shape} (x y : FVec Ideal s .f32) : FVec Ideal s .f32 :=
  fun i => x i + y i

/-- The products of two matrices' columns summed over the common row axis: entry (p, q) is ∑ b, l (b, p) · r (b, q). -/
def gram {N A B : ℕ} (l : FVec Ideal (⟨2, ![N, A]⟩ : Shape) .f32) (r : FVec Ideal (⟨2, ![N, B]⟩ : Shape) .f32) :
    FVec Ideal (⟨2, ![A, B]⟩ : Shape) .f32 :=
  fun i => ∑ b : Fin N, l (ix2 b (i 0)) * r (ix2 b (i 1))

/-- Entry by entry division by 16384, the divisor given by its float word. -/
def div16384 {s : Shape} (g : FVec Ideal s .f32) : FVec Ideal s .f32 :=
  fun i => Ideal.div (g i) (Ideal.ofBits .f32 0x46800000#32)

/-- A one-row matrix repeated on each of A rows. -/
def rows {A B : ℕ} (z : FVec Ideal (⟨2, ![1, B]⟩ : Shape) .f32) : FVec Ideal (⟨2, ![A, B]⟩ : Shape) .f32 :=
  fun i => z (ix2 (0 : Fin 1) (i 1))

/-- A 360 × 360 matrix laid out as one row of 129600 entries, row after row. -/
def flat360 (e : FVec Ideal (⟨2, ![360, 360]⟩ : Shape) .f32) : FVec Ideal (⟨2, ![1, 129600]⟩ : Shape) .f32 :=
  fun i => e (ix2 ⟨(i 1).val / 360, by have h : (i 1).val < 129600 := (i 1).isLt; show (i 1).val / 360 < 360; omega⟩
    ⟨(i 1).val % 360, Nat.mod_lt _ (by norm_num)⟩)

/-- Each entry divided by the larger of its row's Euclidean norm and the constant with word 0x2B8CBCCC. -/
def normalize {A B : ℕ} (z : FVec Ideal (⟨2, ![A, B]⟩ : Shape) .f32) : FVec Ideal (⟨2, ![A, B]⟩ : Shape) .f32 :=
  fun i => Ideal.div (z i)
    (max (Ideal.sqrt (0 + ∑ k : Fin B, z (ix2 (i 0) k) * z (ix2 (i 0) k))) (Ideal.ofBits .f32 0x2B8CBCCC#32))

/-! ## The Jacobian branch: from the input rows to the 360 × 360 matrix ec -/

section Jac

variable (xr : FVec Ideal (⟨2, ![16384, 1080]⟩ : Shape) .f32) (W1t : FVec Ideal (⟨2, ![1080, 256]⟩ : Shape) .f32)
  (b1 : FVec Ideal (⟨1, ![256]⟩ : Shape) .f32) (W2t : FVec Ideal (⟨2, ![256, 256]⟩ : Shape) .f32)
  (b2 : FVec Ideal (⟨1, ![256]⟩ : Shape) .f32)

/-- The first layer before clamping. -/
def h1 : FVec Ideal (⟨2, ![16384, 256]⟩ : Shape) .f32 := affine xr W1t b1
/-- Where the first layer is strictly positive. -/
def m1 : FVec Ideal (⟨2, ![16384, 256]⟩ : Shape) .f32 := mask (h1 xr W1t b1)
/-- The first layer times its mask. -/
def a1 : FVec Ideal (⟨2, ![16384, 256]⟩ : Shape) .f32 := had (h1 xr W1t b1) (m1 xr W1t b1)
/-- The second layer before clamping. -/
def h2 : FVec Ideal (⟨2, ![16384, 256]⟩ : Shape) .f32 := affine (a1 xr W1t b1) W2t b2
/-- Where the second layer is strictly positive. -/
def m2 : FVec Ideal (⟨2, ![16384, 256]⟩ : Shape) .f32 := mask (h2 xr W1t b1 W2t b2)
/-- Entry (p, q): the sum over all 16384 rows b of m2 (b, p) · m1 (b, q). -/
def Gsum : FVec Ideal (⟨2, ![256, 256]⟩ : Shape) .f32 := gram (m2 xr W1t b1 W2t b2) (m1 xr W1t b1)
/-- That sum divided by 16384. -/
def G : FVec Ideal (⟨2, ![256, 256]⟩ : Shape) .f32 := div16384 (Gsum xr W1t b1 W2t b2)

end Jac

/-- ec = W3 · ((W2 ∘ G) · W1s), with W2 ∘ G the entry by entry product. -/
def ecOf (W3 : FVec Ideal (⟨2, ![360, 256]⟩ : Shape) .f32) (W2 G : FVec Ideal (⟨2, ![256, 256]⟩ : Shape) .f32)
    (W1s : FVec Ideal (⟨2, ![256, 360]⟩ : Shape) .f32) : FVec Ideal (⟨2, ![360, 360]⟩ : Shape) .f32 :=
  Cert.Layer.prod W3 (Cert.Layer.prod (had W2 G) W1s)

/-! ## From ec to the row z₁ -/

/-- u = relu (ecflat · Wp1t + bp1), one row of 512 entries. -/
def uOf (ecflat : FVec Ideal (⟨2, ![1, 129600]⟩ : Shape) .f32) (Wp1t : FVec Ideal (⟨2, ![129600, 512]⟩ : Shape) .f32)
    (bp1 : FVec Ideal (⟨1, ![512]⟩ : Shape) .f32) : FVec Ideal (⟨2, ![1, 512]⟩ : Shape) .f32 :=
  relu (affine ecflat Wp1t bp1)

/-- z₁ = u · Wp2t + bp2, one row of 128 entries. -/
def z1Of (u : FVec Ideal (⟨2, ![1, 512]⟩ : Shape) .f32) (Wp2t : FVec Ideal (⟨2, ![512, 128]⟩ : Shape) .f32)
    (bp2 : FVec Ideal (⟨1, ![128]⟩ : Shape) .f32) : FVec Ideal (⟨2, ![1, 128]⟩ : Shape) .f32 :=
  affine u Wp2t bp2

/-! ## The other branch, the normalised sum and the reconstruction -/

/-- z_geo = relu (x2 · Wg1t + bg1) · Wg2t + bg2. -/
def zgeoOf (x2 : FVec Ideal (⟨2, ![16384, 200]⟩ : Shape) .f32) (Wg1t : FVec Ideal (⟨2, ![200, 256]⟩ : Shape) .f32)
    (bg1 : FVec Ideal (⟨1, ![256]⟩ : Shape) .f32) (Wg2t : FVec Ideal (⟨2, ![256, 128]⟩ : Shape) .f32)
    (bg2 : FVec Ideal (⟨1, ![128]⟩ : Shape) .f32) : FVec Ideal (⟨2, ![16384, 128]⟩ : Shape) .f32 :=
  affine (relu (affine x2 Wg1t bg1)) Wg2t bg2

/-- zsum = z₁ on every row, plus z_geo. -/
def zsumOf (z1 : FVec Ideal (⟨2, ![1, 128]⟩ : Shape) .f32) (zgeo : FVec Ideal (⟨2, ![16384, 128]⟩ : Shape) .f32) :
    FVec Ideal (⟨2, ![16384, 128]⟩ : Shape) .f32 :=
  plus (rows z1) zgeo

/-- recon = relu (zn · Wd1t + bd1) · Wd2t + bd2. -/
def reconOf (zn : FVec Ideal (⟨2, ![16384, 128]⟩ : Shape) .f32) (Wd1t : FVec Ideal (⟨2, ![128, 256]⟩ : Shape) .f32)
    (bd1 : FVec Ideal (⟨1, ![256]⟩ : Shape) .f32) (Wd2t : FVec Ideal (⟨2, ![256, 360]⟩ : Shape) .f32)
    (bd2 : FVec Ideal (⟨1, ![360]⟩ : Shape) .f32) : FVec Ideal (⟨2, ![16384, 360]⟩ : Shape) .f32 :=
  affine (relu (affine zn Wd1t bd1)) Wd2t bd2

/-! ## The stages read at an entry -/

theorem affine_apply {A K B : ℕ} (a : FVec Ideal (⟨2, ![A, K]⟩ : Shape) .f32) (w : FVec Ideal (⟨2, ![K, B]⟩ : Shape) .f32)
    (b : FVec Ideal (⟨1, ![B]⟩ : Shape) .f32) (p : Fin A) (q : Fin B) :
    affine a w b (ix2 p q) = (∑ k : Fin K, a (ix2 p k) * w (ix2 k q)) + b (ix1 q) := rfl

theorem prod_apply {A K B : ℕ} (a : FVec Ideal (⟨2, ![A, K]⟩ : Shape) .f32) (w : FVec Ideal (⟨2, ![K, B]⟩ : Shape) .f32)
    (p : Fin A) (q : Fin B) : Cert.Layer.prod a w (ix2 p q) = ∑ k : Fin K, a (ix2 p k) * w (ix2 k q) := rfl

theorem gram_apply {N A B : ℕ} (l : FVec Ideal (⟨2, ![N, A]⟩ : Shape) .f32) (r : FVec Ideal (⟨2, ![N, B]⟩ : Shape) .f32)
    (p : Fin A) (q : Fin B) : gram l r (ix2 p q) = ∑ b : Fin N, l (ix2 b p) * r (ix2 b q) := rfl

theorem rows_apply {A B : ℕ} (z : FVec Ideal (⟨2, ![1, B]⟩ : Shape) .f32) (p : Fin A) (q : Fin B) :
    rows (A := A) z (ix2 p q) = z (ix2 (0 : Fin 1) q) := rfl

end Cert.ReferenceIdeal.RefValue

end
-- ==== Proof.Algebra.lean ====
/-
  Re-indexed sums, a division by a power of two as a product, and the two readings of a one-bit mask.

  A sum over the rows of a tall matrix may be taken block by block: with N = m · n, the sum over k < N of f k is the
  sum over a < m of the sum over b < n of f (a · n + b), because k ↦ (k / n, k % n) is a bijection. This holds in any
  commutative monoid, so on the extended reals it needs no finiteness. Applied twice it splits 16384 rows into
  2 halves of 8 blocks of 1024 rows, and a flattened 360 × 360 matrix into its rows.

  On the extended reals x / 16384 is x · (1 / 16384) for every x, the infinities included, since 16384 is a nonzero
  real; the two float words in question denote 16384 and 2⁻¹⁴ = 1 / 16384 exactly.

  A one-bit integer widened with zeros to 32 bits is 0 or 1, so reading it as a signed integer or the original bit
  as an unsigned integer gives the same number.
-/
import Idealize.ShloMosaic.PureOps.Ideal.Laws

noncomputable section

namespace Cert.ReferenceIdeal.RefValue

open Idealize.ShloMosaic

/-! ## Sums taken block by block -/

/-- With N = m · n, a sum over k < N is the sum over a < m of the sum over b < n at k = a · n + b. -/
theorem sum_fin_mul {M : Type*} [AddCommMonoid M] {N m n : ℕ} (h : N = m * n) (f : Fin N → M) :
    ∑ k : Fin N, f k
      = ∑ a : Fin m, ∑ b : Fin n, f ⟨a.val * n + b.val, by
          rw [h]
          exact Nat.lt_of_lt_of_le (Nat.add_lt_add_left b.isLt _)
            (by rw [← Nat.succ_mul]; exact Nat.mul_le_mul_right _ a.isLt)⟩ := by
  subst h
  rw [← finProdFinEquiv.sum_comp, Fintype.sum_prod_type]
  refine Finset.sum_congr rfl fun a _ => Finset.sum_congr rfl fun b _ => ?_
  congr 1
  apply Fin.ext
  show b.val + n * a.val = a.val * n + b.val
  rw [Nat.mul_comm, Nat.add_comm]

/-- The 16384 rows as 2 halves of 8 blocks of 1024 rows: row c · 8192 + i · 1024 + r. -/
theorem sum_rows_split {M : Type*} [AddCommMonoid M] (f : Fin 16384 → M) :
    ∑ b : Fin 16384, f b
      = ∑ c : Fin 2, ∑ i : Fin 8, ∑ r : Fin 1024,
          f ⟨c.val * 8192 + i.val * 1024 + r.val, by
            have := c.isLt; have := i.isLt; have := r.isLt; omega⟩ := by
  refine (sum_fin_mul (N := 16384) (m := 2) (n := 8192) (by norm_num) f).trans ?_
  refine Finset.sum_congr rfl fun c _ => ?_
  refine (sum_fin_mul (N := 8192) (m := 8) (n := 1024) (by norm_num)
    (fun j : Fin 8192 => f ⟨c.val * 8192 + j.val, by have := c.isLt; have := j.isLt; omega⟩)).trans ?_
  refine Finset.sum_congr rfl fun i _ => Finset.sum_congr rfl fun r _ => ?_
  exact congrArg f (Fin.ext (Nat.add_assoc _ _ _).symm)

/-- The same rows with the block counted across both halves: row (c · 8 + i) · 1024 + r. -/
theorem sum_rows_split_blocks {M : Type*} [AddCommMonoid M] (f : Fin 16384 → M) :
    ∑ b : Fin 16384, f b
      = ∑ c : Fin 2, ∑ i : Fin 8, ∑ r : Fin 1024,
          f ⟨(c.val * 8 + i.val) * 1024 + r.val, by
            have := c.isLt; have := i.isLt; have := r.isLt; omega⟩ := by
  refine (sum_rows_split f).trans ?_
  refine Finset.sum_congr rfl fun c _ => Finset.sum_congr rfl fun i _ => Finset.sum_congr rfl fun r _ => ?_
  exact congrArg f (Fin.ext (by
    show c.val * 8192 + i.val * 1024 + r.val = (c.val * 8 + i.val) * 1024 + r.val
    omega))

/-- One half of the rows, 8192 of them starting at row c · 8192, as 8 blocks of 1024 rows. -/
theorem sum_half_split {M : Type*} [AddCommMonoid M] (f : Fin 16384 → M) (c : Fin 2) :
    ∑ j : Fin 8192, f ⟨c.val * 8192 + j.val, by have := c.isLt; have := j.isLt; omega⟩
      = ∑ i : Fin 8, ∑ r : Fin 1024,
          f ⟨c.val * 8192 + i.val * 1024 + r.val, by
            have := c.isLt; have := i.isLt; have := r.isLt; omega⟩ := by
  refine (sum_fin_mul (N := 8192) (m := 8) (n := 1024) (by norm_num)
    (fun j : Fin 8192 => f ⟨c.val * 8192 + j.val, by have := c.isLt; have := j.isLt; omega⟩)).trans ?_
  refine Finset.sum_congr rfl fun i _ => Finset.sum_congr rfl fun r _ => ?_
  exact congrArg f (Fin.ext (Nat.add_assoc _ _ _).symm)

/-- The sum over all 16384 rows is the sum over the first 8192 rows plus the sum over the last 8192 rows. -/
theorem sum_rows_halves {M : Type*} [AddCommMonoid M] (f : Fin 16384 → M) :
    ∑ b : Fin 16384, f b
      = (∑ j : Fin 8192, f ⟨j.val, by have := j.isLt; omega⟩)
        + ∑ j : Fin 8192, f ⟨8192 + j.val, by have := j.isLt; omega⟩ := by
  refine (sum_fin_mul (N := 16384) (m := 2) (n := 8192) (by norm_num) f).trans ?_
  refine (Fin.sum_univ_two _).trans ?_
  refine congrArg₂ (· + ·) ?_ ?_
  · refine Finset.sum_congr rfl fun j _ => ?_
    exact congrArg f (Fin.ext (by
      show (0 : ℕ) * 8192 + j.val = j.val
      omega))
  · refine Finset.sum_congr rfl fun j _ => ?_
    exact congrArg f (Fin.ext (by
      show (1 : ℕ) * 8192 + j.val = 8192 + j.val
      omega))

/-- The sum over all rows is the first half's 8 blocks of 1024 rows plus the second half's. -/
theorem sum_rows_two_parts {M : Type*} [AddCommMonoid M] (f : Fin 16384 → M) :
    ∑ b : Fin 16384, f b
      = (∑ i : Fin 8, ∑ r : Fin 1024, f ⟨i.val * 1024 + r.val, by have := i.isLt; have := r.isLt; omega⟩)
        + ∑ i : Fin 8, ∑ r : Fin 1024, f ⟨8192 + i.val * 1024 + r.val, by have := i.isLt; have := r.isLt; omega⟩ := by
  refine (sum_rows_split f).trans ?_
  refine (Fin.sum_univ_two _).trans ?_
  refine congrArg₂ (· + ·) ?_ ?_
  · refine Finset.sum_congr rfl fun i _ => Finset.sum_congr rfl fun r _ => ?_
    exact congrArg f (Fin.ext (by
      show (0 : ℕ) * 8192 + i.val * 1024 + r.val = i.val * 1024 + r.val
      omega))
  · refine Finset.sum_congr rfl fun i _ => Finset.sum_congr rfl fun r _ => ?_
    exact congrArg f (Fin.ext (by
      show (1 : ℕ) * 8192 + i.val * 1024 + r.val = 8192 + i.val * 1024 + r.val
      omega))

/-- A flattened 360 × 360 matrix summed entry by entry: position q · 360 + r is row q, column r. -/
theorem sum_flat_360 {M : Type*} [AddCommMonoid M] (f : Fin 129600 → M) :
    ∑ k : Fin 129600, f k
      = ∑ q : Fin 360, ∑ r : Fin 360, f ⟨q.val * 360 + r.val, by have := q.isLt; have := r.isLt; omega⟩ :=
  sum_fin_mul (N := 129600) (m := 360) (n := 360) (by norm_num) f

/-! ## Division by 16384 is multiplication by 2⁻¹⁴ -/

/-- The word 0x46800000 denotes the real 16384. -/
theorem ofBits_16384 : Ideal.ofBits .f32 0x46800000#32 = ((16384 : ℝ) : EReal) := by
  simp [Ideal.ofBits, Ideal.ieee, -EReal.coe_mul]; norm_num

/-- The word 0x38800000 denotes the real 1 / 16384. -/
theorem ofBits_inv_16384 : Ideal.ofBits .f32 0x38800000#32 = ((1 / 16384 : ℝ) : EReal) := by
  simp [Ideal.ofBits, Ideal.ieee, -EReal.coe_mul]; norm_num

/-- For every extended real x, x / 16384 = x · 2⁻¹⁴, with both constants given by their words. -/
theorem div_16384 (x : EReal) :
    Ideal.div x (Ideal.ofBits .f32 0x46800000#32) = x * Ideal.ofBits .f32 0x38800000#32 := by
  rw [ofBits_16384, ofBits_inv_16384, Ideal.div_coe (by norm_num : (16384 : ℝ) ≠ 0)]

/-- The host's quotient by the word for 16384 is the product with the word for 2⁻¹⁴. -/
theorem hostDivf_16384 (x : Ideal .f32) :
    FloatOps.hostDivf x (FloatOps.ofBits (F := Ideal) .f32 0x46800000#32)
      = FloatOps.mulf x (FloatOps.ofBits (F := Ideal) .f32 0x38800000#32) :=
  div_16384 x

/-- The kernel's quotient by the word for 16384 is the same product. -/
theorem divf_16384 (x : Ideal .f32) :
    FloatOps.divf x (FloatOps.ofBits (F := Ideal) .f32 0x46800000#32)
      = FloatOps.mulf x (FloatOps.ofBits (F := Ideal) .f32 0x38800000#32) :=
  div_16384 x

/-! ## A one-bit mask as a number -/

/-- A bit widened with zeros to 32 bits and read as a signed integer is the bit read as an unsigned integer. -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  have hb : b = 0#1 ∨ b = 1#1 := by revert b; decide
  rcases hb with rfl | rfl
  · norm_num
  · norm_num

/-- Element-wise: the widened comparison mask read as signed is the mask read as unsigned. -/
theorem sitofp_extui_mask {s : Shape} (v : IVec s 1) (h : 1 < 32) :
    sitofp (F := Ideal) .f32 (extui 32 v h) = uitofp (F := Ideal) .f32 v :=
  funext fun i => sitofp_setWidth_bit (v i)

end Cert.ReferenceIdeal.RefValue

end
-- ==== Proof.GpartDef.lean ====
/-
  The partial Gram sums the first pallas_call leaves: one 256 × 256 slab per half of the batch. Slab h at (p, q) is the
  sum, over the 8 blocks of 1024 rows of that half, of m2(row, p) · m1(row, q) — the sign masks of the two layers.
  The two slabs add up to the full Gram sum over the 16384 rows.
-/
import proofs.«119898_j41583873360606_2_alg».proof.Proof.RefStagesDefs

noncomputable section

namespace Cert.ReferenceIdeal.RefValue

open Idealize.ShloMosaic Idealize.ShloMosaic.ValueIdx

/-- Slab `h` of the partial sums at entry (p, q): the rows `h·8192 + i·1024 + r` of the half, block by block. -/
def Gpart (xr : FVec Ideal (⟨2, ![16384, 1080]⟩ : Shape) .f32) (W1t : FVec Ideal (⟨2, ![1080, 256]⟩ : Shape) .f32)
    (b1 : FVec Ideal (⟨1, ![256]⟩ : Shape) .f32) (W2t : FVec Ideal (⟨2, ![256, 256]⟩ : Shape) .f32)
    (b2 : FVec Ideal (⟨1, ![256]⟩ : Shape) .f32) : FVec Ideal (⟨3, ![2, 256, 256]⟩ : Shape) .f32 :=
  fun j => ∑ i : Fin 8, ∑ r : Fin 1024,
    m2 xr W1t b1 W2t b2 (ix2 ⟨(j 0).val * 8192 + i.val * 1024 + r.val, by have h0 : (j 0).val < 2 := (j 0).isLt; have := i.isLt; have := r.isLt; omega⟩ (j 1))
      * m1 xr W1t b1 (ix2 ⟨(j 0).val * 8192 + i.val * 1024 + r.val, by have h0 : (j 0).val < 2 := (j 0).isLt; have := i.isLt; have := r.isLt; omega⟩ (j 2))

end Cert.ReferenceIdeal.RefValue

end
-- ==== Proof.KI.Region0Value.lean ====
/- Region 0 of @main at the ideal values: the output array main_v4 f32[2,256,256] after the region, as ONE function of
   the five input arrays as the region finds them. The grid has two halves of eight points; point t reads rows
   1024 t … 1024 t + 1023 of the input, and adds to a 256 × 256 accumulator (zero at a half's first point) the sum over
   those rows of the second layer's sign mask at (row, p) times the first layer's at (row, q); the half's last point
   writes the accumulator back as the half's slab. Over the extended reals the roundings to a narrower format are
   identities and a product accumulated into zero is the plain sum, so slab h at (p, q) is the sum over the half's 8
   blocks and each block's 1024 rows of the two masks' product. -/
import proofs.«119898_j41583873360606_2_alg».proof.Proof.KI.Region0
import proofs.«119898_j41583873360606_2_alg».proof.Proof.RefStagesDefs
import proofs.«119898_j41583873360606_2_alg».proof.Proof.Algebra
import proofs.«119898_j41583873360606_2_alg».proof.Proof.GpartDef
import Idealize.ShloMosaic.Lib.ValueLayout
import Idealize.ShloMosaic.Lib.Pipeline.Value

set_option maxRecDepth 16384
noncomputable section
namespace Cert.KernelIdeal.R0
open Cert.KernelIdeal Cert.KernelIdeal.Gen
open Idealize.ShloMosaic Idealize.ShloMosaic.TcCoe Idealize.ShloMosaic.ValueIdx Idealize.SL.Sem
open Idealize.ShloMosaic.Pipeline (Dat)
open Cert.ReferenceIdeal.RefValue

/-- A layer as the body computes it — both factors rounded to bf16, the product accumulated into zero, the bias a
    vector cast to one row and spread over the rows — is the affine map. -/
theorem affine_body {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (hc : (⟨1, ![B]⟩ : Shape).ShapeCasts ⟨2, ![1, B]⟩) (hb : (⟨2, ![1, B]⟩ : Shape).Broadcasts ⟨2, ![A, B]⟩)
    (x : FVec Ideal (⟨2, ![A, K]⟩ : Shape) .f32) (w : FVec Ideal (⟨2, ![K, B]⟩ : Shape) .f32) (b : FVec Ideal (⟨1, ![B]⟩ : Shape) .f32) :
    addf (FloatOps.matmul d none (truncf .bf16 x h16) (truncf .bf16 w h16) (constant (F := Ideal) (⟨2, ![A, B]⟩ : Shape) .f32 0x00000000#32))
        (broadcastTo (⟨2, ![A, B]⟩ : Shape) (shapeCast (⟨2, ![1, B]⟩ : Shape) b hc) hb)
      = affine x w b := by
  funext j
  obtain ⟨p, q, rfl⟩ : ∃ (p : Fin A) (q : Fin B), j = ix2 p q := ⟨j 0, j 1, eq_ix2 j⟩
  rw [addf_apply, Cert.Layer.matmul_trunc_apply d hr hs hl0 hl1 hr0 hr1 h16 x w p q, broadcastTo_1b_ab_apply, shapeCast_a_1a_apply]
  rfl

/-- The comparison with a zero splat, widened to 32 bits and converted as a signed integer, is the mask. -/
theorem mask_body {s : Shape} (H : FVec Ideal s .f32) (h : 1 < 32) :
    sitofp (F := Ideal) .f32 (extui 32 (cmpf .ogt H (broadcast s (Scalar.ofBits (F := Ideal) .f32 0x00000000#32))) h) = mask H := by
  rw [sitofp_extui_mask]
  funext i
  show FloatOps.uitofp (F := Ideal) .f32 (FloatOps.cmpf (F := Ideal) .ogt (H i) (Ideal.ofBits .f32 0x00000000#32))
    = FloatOps.uitofp (F := Ideal) .f32 (FloatOps.cmpf (F := Ideal) .ogt (H i) (0 : Ideal .f32))
  rw [Ideal.ofBits_zero_f32]

/-- One step at entry (p, q): the previous accumulator's entry plus the sum over the block's 1024 rows of the second
    mask at (r, p) times the first mask at (r, q). -/
theorem step_apply (x0 : Vec Ideal S1024x1080 .f32) (x1 : Vec Ideal S1080x256 .f32) (x2 : Vec Ideal S256 .f32) (x3 : Vec Ideal S256x256 .f32)
    (x4 : Vec Ideal S256 .f32) (prev : Vec Ideal S256x256 .f32) (p q : Fin 256) :
    step (F := Ideal) x0 x1 x2 x3 x4 prev (ix2 p q)
      = prev (ix2 p q) + ∑ r : Fin 1024,
          mask (affine (had (affine x0 x1 x2) (mask (affine x0 x1 x2))) x3 x4) (ix2 r p) * mask (affine x0 x1 x2) (ix2 r q) := by
  unfold step k0_pay1 k0_pay4
  simp only [shapeCast_self]
  rw [affine_body dot_S1024x1080_S1080x256_S1024x256_1_0_0_1_n_n rfl rfl (fun _ _ => rfl) (fun _ _ => rfl) (fun _ _ => rfl) (fun _ _ => rfl)]
  rw [mask_body (affine x0 x1 x2)]
  rw [show mulf (affine x0 x1 x2) (mask (affine x0 x1 x2)) = had (affine x0 x1 x2) (mask (affine x0 x1 x2)) from rfl]
  rw [affine_body dot_S1024x256_S256x256_S1024x256_1_0_0_1_n_n rfl rfl (fun _ _ => rfl) (fun _ _ => rfl) (fun _ _ => rfl) (fun _ _ => rfl)]
  rw [mask_body]
  rw [addf_apply]
  refine congrArg (prev (ix2 p q) + ·) ((Cert.Layer.matmul_trunc_apply dot_S256x1024_S1024x256_S256x256_1_0_0_1_n_n rfl rfl
    (fun _ _ => rfl) (fun _ _ => rfl) (fun _ _ => rfl) (fun _ _ => rfl) bitsLt_bf16_f32 _ _ p q).trans (Finset.sum_congr rfl fun r _ => ?_))
  rw [transpose_ix2_apply]

/-- The accumulator a half starts from is zero at every entry. -/
theorem zeroAcc_apply (j : S256x256.Idx) : zeroAcc (F := Ideal) j = 0 := by
  unfold zeroAcc k0_pay3
  simp only [shapeCast_self]
  exact Ideal.ofBits_zero_f32

/-- The two masks of a block of rows are the whole array's masks at the block's rows: a row of each stage depends on
    the same row of the input only. -/
theorem blk_rows (xr : FVec Ideal (⟨2, ![16384, 1080]⟩ : Shape) .f32) (W1t : FVec Ideal (⟨2, ![1080, 256]⟩ : Shape) .f32)
    (b1 : FVec Ideal (⟨1, ![256]⟩ : Shape) .f32) (W2t : FVec Ideal (⟨2, ![256, 256]⟩ : Shape) .f32) (b2 : FVec Ideal (⟨1, ![256]⟩ : Shape) .f32)
    (x0 : FVec Ideal (⟨2, ![1024, 1080]⟩ : Shape) .f32) (R : Fin 16384) (r : Fin 1024) (hx : ∀ k, x0 (ix2 r k) = xr (ix2 R k)) :
    (∀ q, mask (affine x0 W1t b1) (ix2 r q) = m1 xr W1t b1 (ix2 R q))
    ∧ (∀ p, mask (affine (had (affine x0 W1t b1) (mask (affine x0 W1t b1))) W2t b2) (ix2 r p) = m2 xr W1t b1 W2t b2 (ix2 R p)) := by
  have hA : ∀ q, affine x0 W1t b1 (ix2 r q) = h1 xr W1t b1 (ix2 R q) := fun q => by
    show (∑ k : Fin 1080, x0 (ix2 r k) * W1t (ix2 k q)) + b1 (ix1 q) = (∑ k : Fin 1080, xr (ix2 R k) * W1t (ix2 k q)) + b1 (ix1 q)
    simp only [hx]
  have hM : ∀ q, mask (affine x0 W1t b1) (ix2 r q) = m1 xr W1t b1 (ix2 R q) := fun q => by
    show FloatOps.uitofp (F := Ideal) .f32 (FloatOps.cmpf (F := Ideal) .ogt (affine x0 W1t b1 (ix2 r q)) (0 : Ideal .f32))
      = FloatOps.uitofp (F := Ideal) .f32 (FloatOps.cmpf (F := Ideal) .ogt (h1 xr W1t b1 (ix2 R q)) (0 : Ideal .f32))
    rw [hA]
  have hG : ∀ k, had (affine x0 W1t b1) (mask (affine x0 W1t b1)) (ix2 r k) = a1 xr W1t b1 (ix2 R k) := fun k => by
    show affine x0 W1t b1 (ix2 r k) * mask (affine x0 W1t b1) (ix2 r k) = h1 xr W1t b1 (ix2 R k) * m1 xr W1t b1 (ix2 R k)
    rw [hA, hM]
  have hH : ∀ p, affine (had (affine x0 W1t b1) (mask (affine x0 W1t b1))) W2t b2 (ix2 r p) = h2 xr W1t b1 W2t b2 (ix2 R p) := fun p => by
    show (∑ k : Fin 256, had (affine x0 W1t b1) (mask (affine x0 W1t b1)) (ix2 r k) * W2t (ix2 k p)) + b2 (ix1 p)
      = (∑ k : Fin 256, a1 xr W1t b1 (ix2 R k) * W2t (ix2 k p)) + b2 (ix1 p)
    simp only [hG]
  refine ⟨hM, fun p => ?_⟩
  show FloatOps.uitofp (F := Ideal) .f32 (FloatOps.cmpf (F := Ideal) .ogt (affine (had (affine x0 W1t b1) (mask (affine x0 W1t b1))) W2t b2 (ix2 r p)) (0 : Ideal .f32))
    = FloatOps.uitofp (F := Ideal) .f32 (FloatOps.cmpf (F := Ideal) .ogt (h2 xr W1t b1 W2t b2 (ix2 R p)) (0 : Ideal .f32))
  rw [hH]

/-! ## The output array as one function of the entry contents -/

-- the TensorCore's buffer contents when the region is entered
variable (V : (c : Dev nD) → (b : Ref sig .tc) → Buf (Elt Ideal) ((c : Thread nD τ).loc b))

/-- The index maps over the 16 grid points: window 0 is at block t along its rows; windows 1 to 4 stay at block 0;
    window 5 is at slab t / 8. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val / 8 ∧ win0_5.index t (1 : Fin 3) = 0 ∧ win0_5.index t (2 : Fin 3) = 0 :=
  (by decide +kernel : ∀ t : Fin grid0.N, _)

theorem rowBound (t : Fin cfg0.N) (r : Fin 1024) : t.val * 1024 + r.val < 16384 := by
  have hN : cfg0.N = 16 := N_0
  have := t.isLt; have := r.isLt; omega

/-- Row r of the block of input rows at point t is row 1024 t + r of the array. -/
theorem iblk0_0_apply (c : Dev nD) (t : Fin cfg0.N) (r : Fin 1024) (k : Fin 1080) :
    iblk0 V c 0 t (ix2 r k) = V c main_v0 (ix2 ⟨t.val * 1024 + r.val, rowBound t r⟩ k) := by
  obtain ⟨a0, a1, -⟩ := idx_facts0 t
  show V c main_v0 (((cfg0.win 0).blk t).view.emb (ix2 r k)) = V c main_v0 (ix2 ⟨t.val * 1024 + r.val, rowBound t r⟩ k)
  congr 1; funext a; apply Fin.ext
  match a with
  | ⟨0, _⟩ => show win0_0.index t (0 : Fin 2) * 1024 + 1 * r.val = t.val * 1024 + r.val; omega
  | ⟨1, _⟩ => show win0_0.index t (1 : Fin 2) * 1080 + 1 * k.val = k.val; omega

/-- The blocks of the windows that stay at block 0 are their whole arrays. -/
theorem iblk0_1_eq (c : Dev nD) (t : Fin cfg0.N) : iblk0 V c 1 t = V c main_v1 := by
  obtain ⟨-, -, b0, b1, -⟩ := idx_facts0 t
  funext j
  show V c main_v1 (((cfg0.win 1).blk t).view.emb j) = V c main_v1 j
  congr 1; funext a; apply Fin.ext
  match a with
  | ⟨0, _⟩ => show win0_1.index t (0 : Fin 2) * 1080 + 1 * (j 0).val = (j 0).val; omega
  | ⟨1, _⟩ => show win0_1.index t (1 : Fin 2) * 256 + 1 * (j 1).val = (j 1).val; omega
theorem iblk0_2_eq (c : Dev nD) (t : Fin cfg0.N) : iblk0 V c 2 t = V c main_arg4 := by
  obtain ⟨-, -, -, -, c0, -⟩ := idx_facts0 t
  funext j
  show V c main_arg4 (((cfg0.win 2).blk t).view.emb j) = V c main_arg4 j
  congr 1; funext a; apply Fin.ext
  match a with
  | ⟨0, _⟩ => show win0_2.index t (0 : Fin 1) * 256 + 1 * (j 0).val = (j 0).val; omega
theorem iblk0_3_eq (c : Dev nD) (t : Fin cfg0.N) : iblk0 V c 3 t = V c main_v2 := by
  obtain ⟨-, -, -, -, -, d0, d1, -⟩ := idx_facts0 t
  funext j
  show V c main_v2 (((cfg0.win 3).blk t).view.emb j) = V c main_v2 j
  congr 1; funext a; apply Fin.ext
  match a with
  | ⟨0, _⟩ => show win0_3.index t (0 : Fin 2) * 256 + 1 * (j 0).val = (j 0).val; omega
  | ⟨1, _⟩ => show win0_3.index t (1 : Fin 2) * 256 + 1 * (j 1).val = (j 1).val; omega
theorem iblk0_4_eq (c : Dev nD) (t : Fin cfg0.N) : iblk0 V c 4 t = V c main_arg6 := by
  obtain ⟨-, -, -, -, -, -, -, e0, -⟩ := idx_facts0 t
  funext j
  show V c main_arg6 (((cfg0.win 4).blk t).view.emb j) = V c main_arg6 j
  congr 1; funext a; apply Fin.ext
  match a with
  | ⟨0, _⟩ => show win0_4.index t (0 : Fin 1) * 256 + 1 * (j 0).val = (j 0).val; omega

/-- Point t's contribution to entry (p, q): the sum over its 1024 rows of the whole array's two masks. -/
def Sgt (c : Dev nD) (t : Fin cfg0.N) (p q : Fin 256) : Elt Ideal .f32 :=
  ∑ r : Fin 1024,
    m2 (V c main_v0) (V c main_v1) (V c main_arg4) (V c main_v2) (V c main_arg6) (ix2 ⟨t.val * 1024 + r.val, rowBound t r⟩ p)
      * m1 (V c main_v0) (V c main_v1) (V c main_arg4) (ix2 ⟨t.val * 1024 + r.val, rowBound t r⟩ q)

/-- One step of the accumulator from any previous value adds the point's contribution. -/
theorem step_blocks (c : Dev nD) (t : Fin cfg0.N) (prev : Vec Ideal S256x256 .f32) (p q : Fin 256) :
    step (F := Ideal) (iblk0 V c 0 t) (iblk0 V c 1 t) (iblk0 V c 2 t) (iblk0 V c 3 t) (iblk0 V c 4 t) prev (ix2 p q)
      = prev (ix2 p q) + Sgt V c t p q := by
  rw [step_apply, iblk0_1_eq, iblk0_2_eq, iblk0_3_eq, iblk0_4_eq]
  unfold Sgt
  refine congrArg (prev (ix2 p q) + ·) (Finset.sum_congr rfl fun r _ => ?_)
  obtain ⟨hm1, hm2⟩ := blk_rows (V c main_v0) (V c main_v1) (V c main_arg4) (V c main_v2) (V c main_arg6) (iblk0 V c 0 t)
    ⟨t.val * 1024 + r.val, rowBound t r⟩ r (fun k => iblk0_0_apply V c t r k)
  rw [hm2 p, hm1 q]

theorem acc_first_apply (c : Dev nD) (t : Fin cfg0.N) (h : t.val % 8 = 0) (p q : Fin 256) :
    accAfter V c t.val (ix2 p q) = Sgt V c t p q := by
  rw [accAfter_first V c t h, step_blocks, zeroAcc_apply, zero_add]

theorem acc_next_apply (c : Dev nD) (t : Fin cfg0.N) (h : ¬t.val % 8 = 0) (p q : Fin 256) :
    accAfter V c t.val (ix2 p q) = accAfter V c (t.val - 1) (ix2 p q) + Sgt V c t p q := by
  rw [accAfter_next V c t h, step_blocks]

theorem ptBound (h : Fin 2) (i : ℕ) (hi : i < 8) : 8 * h.val + i < cfg0.N := by
  have hN : cfg0.N = 16 := N_0
  have := h.isLt; omega

/-- Inside a half the accumulator after its point i is the sum of the contributions of its points 0 … i. -/
theorem acc_partial (c : Dev nD) (h : Fin 2) (p q : Fin 256) : ∀ (i : ℕ) (hi : i < 8),
    accAfter V c (8 * h.val + i) (ix2 p q)
      = ∑ j : Fin (i + 1), Sgt V c ⟨8 * h.val + j.val, ptBound h j.val (by have := j.isLt; omega)⟩ p q
  | 0, hi => by
    rw [Fin.sum_univ_one]
    exact acc_first_apply V c ⟨8 * h.val + 0, ptBound h 0 hi⟩ (by show (8 * h.val + 0) % 8 = 0; omega) p q
  | i + 1, hi => by
    rw [Fin.sum_univ_castSucc]
    have hn := acc_next_apply V c ⟨8 * h.val + (i + 1), ptBound h (i + 1) hi⟩ (by show ¬(8 * h.val + (i + 1)) % 8 = 0; omega) p q
    have e : (8 * h.val + (i + 1)) - 1 = 8 * h.val + i := by omega
    rw [show (⟨8 * h.val + (i + 1), ptBound h (i + 1) hi⟩ : Fin cfg0.N).val - 1 = 8 * h.val + i from e, acc_partial c h p q i (by omega)] at hn
    exact hn

/-- After a half's last point the accumulator is the sum of the half's eight contributions. -/
theorem acc_last (c : Dev nD) (h : Fin 2) (p q : Fin 256) :
    accAfter V c (8 * h.val + 7) (ix2 p q)
      = ∑ i : Fin 8, Sgt V c ⟨8 * h.val + i.val, ptBound h i.val i.isLt⟩ p q :=
  acc_partial V c h p q 7 (by omega)

/-- What a writing point t (the last of its half) writes back is slab t / 8 of Gpart of the five input arrays. -/
theorem flushed0_5_eq (c : Dev nD) (t : Fin cfg0.N) (hf : (cfg0.win 5).flush t = true) :
    (dat0 (F := Ideal) V c).flushed 5 t
      = ((cfg0.win 5).blk t).view.read (Elt Ideal) (Gpart (V c main_v0) (V c main_v1) (V c main_arg4) (V c main_v2) (V c main_arg6)) := by
  have h7 : t.val % 8 = 7 := (flush0_5 t).mp hf
  have hN : cfg0.N = 16 := N_0
  have htl : t.val < 16 := hN ▸ t.isLt
  have hh : t.val / 8 < 2 := by omega
  obtain ⟨-, -, -, -, -, -, -, -, f0, f1, f2⟩ := idx_facts0 t
  show (cfg0.win 5).cut (grid0.coords t) ((dat0 V c).after 5 t) = _
  rw [after0_5]
  funext j
  obtain ⟨u, p, q, rfl⟩ : ∃ (u : Fin 1) (p q : Fin 256), j = ix3 u p q := ⟨j 0, j 1, j 2, eq_ix3 j⟩
  obtain rfl : u = 0 := Subsingleton.elim _ _
  show k0_pay2 (accAfter V c t.val) (ix3 (0 : Fin 1) p q)
    = Gpart (V c main_v0) (V c main_v1) (V c main_arg4) (V c main_v2) (V c main_arg6) (((cfg0.win 5).blk t).view.emb (ix3 (0 : Fin 1) p q))
  have hemb : ((cfg0.win 5).blk t).view.emb (ix3 (0 : Fin 1) p q) = ix3 (⟨t.val / 8, hh⟩ : Fin 2) p q := by
    funext a; apply Fin.ext
    match a with
    | ⟨0, _⟩ => show win0_5.index t (0 : Fin 3) * 1 + 1 * 0 = t.val / 8; omega
    | ⟨1, _⟩ => show win0_5.index t (1 : Fin 3) * 256 + 1 * p.val = p.val; omega
    | ⟨2, _⟩ => show win0_5.index t (2 : Fin 3) * 256 + 1 * q.val = q.val; omega
  rw [hemb]
  unfold k0_pay2
  rw [shapeCast_ab_1ab_apply]
  have hacc : accAfter V c (8 * (t.val / 8) + 7) (ix2 p q) = _ := acc_last V c ⟨t.val / 8, hh⟩ p q
  rw [show 8 * (t.val / 8) + 7 = t.val from by omega] at hacc
  rw [hacc]
  show _ = ∑ i : Fin 8, ∑ r : Fin 1024, _
  refine Finset.sum_congr rfl fun i _ => ?_
  unfold Sgt
  refine Finset.sum_congr rfl fun r _ => ?_
  have eR : (⟨(8 * (t.val / 8) + i.val) * 1024 + r.val, rowBound ⟨8 * (t.val / 8) + i.val, ptBound ⟨t.val / 8, hh⟩ i.val i.isLt⟩ r⟩ : Fin 16384)
      = ⟨(t.val / 8) * 8192 + i.val * 1024 + r.val, by have := i.isLt; have := r.isLt; omega⟩ := Fin.ext (by show (8 * (t.val / 8) + i.val) * 1024 + r.val = (t.val / 8) * 8192 + i.val * 1024 + r.val; omega)
  rw [eR]

/-- An index of the output array is in point t's block iff each coordinate is in the block's range on its axis. -/
theorem mem_blk0_5 (t : Fin cfg0.N) (i : S2x256x256.Idx) :
    i ∈ ((cfg0.win 5).blk t).view.set ↔ ∀ a : Fin 3, win0_5.index t a * S1x256x256.size a ≤ (i a).val ∧ (i a).val < win0_5.index t a * S1x256x256.size a + S1x256x256.size a := by
  show i ∈ ((View.whole main_v4).slice (win0_5.rect t)).set ↔ _
  rw [View.set_slice_whole, Rect.mem_set_unit]
  exact Iff.rfl

/-- Every index of the output array is in some writing point's block: slab h is the block of point 8 h + 7. -/
theorem cover0_5_arr (i : S2x256x256.Idx) : ∃ t : Fin cfg0.N, (cfg0.win 5).flush t = true ∧ i ∈ ((cfg0.win 5).blk t).view.set := by
  have hi0 : (i 0).val < 2 := (i 0).isLt
  have hi1 : (i 1).val < 256 := (i 1).isLt
  have hi2 : (i 2).val < 256 := (i 2).isLt
  have hN : cfg0.N = 16 := N_0
  have ht : 8 * (i 0).val + 7 < cfg0.N := by rw [hN]; omega
  obtain ⟨-, -, -, -, -, -, -, -, f0, f1, f2⟩ := idx_facts0 ⟨8 * (i 0).val + 7, ht⟩
  refine ⟨⟨8 * (i 0).val + 7, ht⟩, (flush0_5 _).mpr (by show (8 * (i 0).val + 7) % 8 = 7; omega), ?_⟩
  rw [mem_blk0_5]
  intro a
  match a with
  | ⟨0, _⟩ =>
    show win0_5.index ⟨8 * (i 0).val + 7, ht⟩ (0 : Fin 3) * 1 ≤ (i 0).val ∧ (i 0).val < win0_5.index ⟨8 * (i 0).val + 7, ht⟩ (0 : Fin 3) * 1 + 1
    rw [f0]; show (8 * (i 0).val + 7) / 8 * 1 ≤ (i 0).val ∧ (i 0).val < (8 * (i 0).val + 7) / 8 * 1 + 1; omega
  | ⟨1, _⟩ =>
    show win0_5.index ⟨8 * (i 0).val + 7, ht⟩ (1 : Fin 3) * 256 ≤ (i 1).val ∧ (i 1).val < win0_5.index ⟨8 * (i 0).val + 7, ht⟩ (1 : Fin 3) * 256 + 256
    rw [f1]; omega
  | ⟨2, _⟩ =>
    show win0_5.index ⟨8 * (i 0).val + 7, ht⟩ (2 : Fin 3) * 256 ≤ (i 2).val ∧ (i 2).val < win0_5.index ⟨8 * (i 0).val + 7, ht⟩ (2 : Fin 3) * 256 + 256
    rw [f2]; omega

/-- THE OUTPUT ARRAY after the region: Gpart of the five input arrays as the region finds them. -/
theorem final0_5 (c : Dev nD) :
    (dat0 (F := Ideal) V c).arrAt 5 cfg0.N = Gpart (V c main_v0) (V c main_v1) (V c main_arg4) (V c main_v2) (V c main_arg6) :=
  (dat0 V c).arrAt_eq_of_cover 5 (Gpart (V c main_v0) (V c main_v1) (V c main_arg4) (V c main_v2) (V c main_arg6))
    (fun t hf => flushed0_5_eq V c t hf) (fun i => cover0_5_arr i)

end Cert.KernelIdeal.R0

end
-- ==== Proof.KI.Region1Value.lean ====
/- Region 1 of @main at the ideal values: the output array main_v18 f32[512,1] after the region, as ONE function of the
   three input arrays as the region finds them. Row p of the output is the maximum with zero of the bias at row p plus
   the sum over (q, r) of Wp[p, q, r] * E[0, q, r]: the body multiplies its block of Wp by E spread over the block's 16
   rows, sums over the last axis and then over the middle one, adds the bias block and takes the maximum with zero;
   grid point t writes rows 16 t … 16 t + 15, and the 32 points' blocks tile the 512 rows. -/
import proofs.«119898_j41583873360606_2_alg».proof.Proof.KI.Region1
import Idealize.ShloMosaic.Lib.Pipeline.Value
import Idealize.ShloMosaic.Lib.ValueIdx
import Idealize.ShloMosaic.PureOps.Ideal.Laws

set_option maxRecDepth 16384

noncomputable section

namespace Cert.KernelIdeal.R1

open Cert.KernelIdeal.Gen Idealize.ShloMosaic Idealize.ShloMosaic.TcCoe Idealize.ShloMosaic.ValueIdx Idealize.SL.Sem
open Idealize.ShloMosaic.Pipeline (Dat)

/-! ## The body's payload at an entry -/

/-- The stored value at entry (p, u) of the [16,1] block, over the extended reals: the casts to the same shape are
    identities; the [16] vector viewed as a [16,1] column reads its entry p; each of the two sums over one axis is the
    sum over that axis' coordinates (the accumulator is the neutral element, so no initial value is left); the
    [1,360,360] operand spread over 16 rows reads its row 0. -/
theorem pay1_apply (x0 : Vec Ideal S1x360x360 .f32) (x1 : Vec Ideal S16x360x360 .f32) (x2 : Vec Ideal S16x1 .f32) (p : Fin 16) (u : Fin 1) :
    k1_pay1 (F := Ideal) x0 x1 x2 (ix2 p u)
      = max ((∑ q : Fin 360, ∑ r : Fin 360, x1 (ix3 p q r) * x0 (ix3 0 q r)) + x2 (ix2 p u)) (Ideal.ofBits .f32 0x00000000#32) := by
  unfold k1_pay1
  simp only [shapeCast_self]
  rw [maximumf_apply, addf_apply, broadcast_apply]
  rw [shapeCast_apply _ shapeCasts_S16_S16x1 (ix2 p u) (ix1 p) (by
    have hu : u.val = 0 := by omega
    rw [Shape.rowMajor_val_two, Shape.rowMajor_val_one]
    show p.val = p.val * 1 + u.val
    rw [hu, Nat.mul_one, Nat.add_zero])]
  refine congrArg₂ max (congrArg₂ (· + ·) ?_ rfl) rfl
  refine (Ideal.multiReduction_add_single _ _ reduces_S16x360_S16 _ _ (ix1 p)).trans (Finset.sum_congr rfl fun (q : Fin 360) _ => ?_)
  refine (Ideal.multiReduction_add_single _ _ reduces_S16x360x360_S16x360 _ _ _).trans (Finset.sum_congr rfl fun (r : Fin 360) _ => ?_)
  have e : reduces_S16x360x360_S16x360.lift (reduces_S16x360_S16.lift (ix1 p) q) r = ix3 p q r :=
    funext fun a => Fin.ext (by
      match a with
      | ⟨0, _⟩ => rfl
      | ⟨1, _⟩ => rfl
      | ⟨2, _⟩ => rfl)
  rw [e]
  show x1 (ix3 p q r) * broadcastTo S16x360x360 x0 broadcasts_S1x360x360_S16x360x360 (ix3 p q r) = _
  rw [broadcastTo_apply x0 broadcasts_S1x360x360_S16x360x360 (ix3 p q r) (ix3 0 q r) (fun a => by
    match a with
    | ⟨0, _⟩ => rfl
    | ⟨1, _⟩ => rfl
    | ⟨2, _⟩ => rfl)]

/-! ## The output array as one function of the entry contents -/

/-- The output array index by index, of E : [1,360,360], Wp : [512,360,360] and the bias B : [512,1]: at j, with
    p := j 0, the maximum of (the sum over q of the sum over r of Wp (p, q, r) * E (0, q, r)) + B j and the value of
    the zero pattern. -/
def U1 (E : S1x360x360.Idx → Elt Ideal .f32) (Wp : S512x360x360.Idx → Elt Ideal .f32) (B : S512x1.Idx → Elt Ideal .f32) :
    S512x1.Idx → Elt Ideal .f32 :=
  fun j => max ((∑ q : Fin 360, ∑ r : Fin 360, Wp (ix3 (j 0) q r) * E (ix3 0 q r)) + B j) (Ideal.ofBits .f32 0x00000000#32)

/-- U1 at an index, and at an index given by its two coordinates: both by unfolding. -/
theorem U1_apply (E : S1x360x360.Idx → Elt Ideal .f32) (Wp : S512x360x360.Idx → Elt Ideal .f32) (B : S512x1.Idx → Elt Ideal .f32)
    (j : S512x1.Idx) :
    U1 E Wp B j = max ((∑ q : Fin 360, ∑ r : Fin 360, Wp (ix3 (j 0) q r) * E (ix3 0 q r)) + B j) (Ideal.ofBits .f32 0x00000000#32) := rfl
theorem U1_ix2 (E : S1x360x360.Idx → Elt Ideal .f32) (Wp : S512x360x360.Idx → Elt Ideal .f32) (B : S512x1.Idx → Elt Ideal .f32)
    (p : Fin 512) (u : Fin 1) :
    U1 E Wp B (ix2 p u)
      = max ((∑ q : Fin 360, ∑ r : Fin 360, Wp (ix3 p q r) * E (ix3 0 q r)) + B (ix2 p u)) (Ideal.ofBits .f32 0x00000000#32) := rfl

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the 32 grid points: window 0 stays at block (0, 0, 0); windows 1, 2 and 3 are at block t along
    their first axis and at block 0 along the others. -/
theorem idx_facts1 : ∀ t : Fin cfg1.N,
    win1_0.index t (0 : Fin 3) = 0 ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of U1 of the three input arrays: at entry (p, u) of the block both sides are
    the maximum with zero of the same sum of products plus the same bias entry, the blocks of Wp and of the bias being
    read at row 16 t + p, where the output block's entry lies, and E whole. -/
theorem flushed1_3_eq (c : Dev nD) (t : Fin cfg1.N) :
    (dat1 (F := Ideal) V c).flushed 3 t
      = ((cfg1.win 3).blk t).view.read (Elt Ideal) (U1 (V c main_v15) (V c main_v16) (V c main_v17)) := by
  show (cfg1.win 3).cut (grid1.coords t) ((dat1 V c).after 3 t) = _
  rw [after1_3]
  unfold out1_3
  rw [View.canon_unit_zero hz2]
  simp only [View.ld_unit_zero (S := S16x1) hz2, View.ld_unit_zero (S := S1x360x360) hz3, View.ld_unit_zero (S := S16x360x360) hz3]
  obtain ⟨a0, a1, a2, b0, b1, b2, c0, c1, d0, d1⟩ := idx_facts1 t
  funext j
  obtain ⟨p, u, rfl⟩ : ∃ (p : Fin 16) (u : Fin 1), j = ix2 p u := ⟨j 0, j 1, eq_ix2 j⟩
  show k1_pay1 (iblk1 V c 0 t) (iblk1 V c 1 t) (iblk1 V c 2 t) (ix2 p u)
    = U1 (V c main_v15) (V c main_v16) (V c main_v17) (((cfg1.win 3).blk t).view.emb (ix2 p u))
  rw [pay1_apply]
  unfold U1
  refine congrArg₂ max (congrArg₂ (· + ·) (Finset.sum_congr rfl fun q _ => Finset.sum_congr rfl fun r _ => congrArg₂ (· * ·) ?_ ?_) ?_) rfl
  · show V c main_v16 (((cfg1.win 1).blk t).view.emb (ix3 p q r)) = V c main_v16 (ix3 ((((cfg1.win 3).blk t).view.emb (ix2 p u)) 0) q r)
    congr 1; funext a; apply Fin.ext
    match a with
    | ⟨0, _⟩ => show win1_1.index t (0 : Fin 3) * 16 + 1 * p.val = win1_3.index t (0 : Fin 2) * 16 + 1 * p.val; omega
    | ⟨1, _⟩ => show win1_1.index t (1 : Fin 3) * 360 + 1 * q.val = q.val; omega
    | ⟨2, _⟩ => show win1_1.index t (2 : Fin 3) * 360 + 1 * r.val = r.val; omega
  · show V c main_v15 (((cfg1.win 0).blk t).view.emb (ix3 0 q r)) = V c main_v15 (ix3 0 q r)
    congr 1; funext a; apply Fin.ext
    match a with
    | ⟨0, _⟩ => show win1_0.index t (0 : Fin 3) * 1 + 1 * 0 = 0; omega
    | ⟨1, _⟩ => show win1_0.index t (1 : Fin 3) * 360 + 1 * q.val = q.val; omega
    | ⟨2, _⟩ => show win1_0.index t (2 : Fin 3) * 360 + 1 * r.val = r.val; omega
  · show V c main_v17 (((cfg1.win 2).blk t).view.emb (ix2 p u)) = V c main_v17 (((cfg1.win 3).blk t).view.emb (ix2 p u))
    congr 1

/-- An index of the output array is in point t's block iff each coordinate is in the block's range on its axis. -/
theorem mem_blk1_3 (t : Fin cfg1.N) (i : S512x1.Idx) :
    i ∈ ((cfg1.win 3).blk t).view.set ↔ ∀ a : Fin 2, win1_3.index t a * S16x1.size a ≤ (i a).val ∧ (i a).val < win1_3.index t a * S16x1.size a + S16x1.size a := by
  show i ∈ ((View.whole main_v18).slice (win1_3.rect t)).set ↔ _
  rw [View.set_slice_whole, Rect.mem_set_unit]
  exact Iff.rfl

/-- Every index of the output array is in some point's block: row p is in the block of point p / 16. -/
theorem cover1_3_arr (i : S512x1.Idx) : ∃ t : Fin cfg1.N, (cfg1.win 3).flush t = true ∧ i ∈ ((cfg1.win 3).blk t).view.set := by
  have hi0 : (i 0).val < 512 := (i 0).isLt
  have hi1 : (i 1).val < 1 := (i 1).isLt
  have hN : cfg1.N = 32 := N_1
  have ht : (i 0).val / 16 < cfg1.N := by rw [hN]; omega
  obtain ⟨-, -, -, -, -, -, -, -, d0, d1⟩ := idx_facts1 ⟨(i 0).val / 16, ht⟩
  refine ⟨⟨(i 0).val / 16, ht⟩, flush1_3 _, ?_⟩
  rw [mem_blk1_3]
  intro a
  match a with
  | ⟨0, _⟩ =>
    show win1_3.index ⟨(i 0).val / 16, ht⟩ (0 : Fin 2) * 16 ≤ (i 0).val ∧ (i 0).val < win1_3.index ⟨(i 0).val / 16, ht⟩ (0 : Fin 2) * 16 + 16
    rw [d0]; show (i 0).val / 16 * 16 ≤ (i 0).val ∧ (i 0).val < (i 0).val / 16 * 16 + 16; omega
  | ⟨1, _⟩ =>
    show win1_3.index ⟨(i 0).val / 16, ht⟩ (1 : Fin 2) * 1 ≤ (i 1).val ∧ (i 1).val < win1_3.index ⟨(i 0).val / 16, ht⟩ (1 : Fin 2) * 1 + 1
    rw [d1]; omega

/-- THE OUTPUT ARRAY after the region: U1 of the three input arrays as the region finds them. -/
theorem final1_3 (c : Dev nD) :
    (dat1 (F := Ideal) V c).arrAt 3 cfg1.N = U1 (V c main_v15) (V c main_v16) (V c main_v17) :=
  (dat1 V c).arrAt_eq_of_cover 3 (U1 (V c main_v15) (V c main_v16) (V c main_v17)) (fun t _ => flushed1_3_eq V c t) (fun i => cover1_3_arr i)

end Cert.KernelIdeal.R1

end
-- ==== Proof.KI.Region2Fun.lean ====
/-
  The reconstruction region's four results as functions of its inputs, over the extended reals, entry by entry.

  For a matrix x of A rows (A = 2048 for a block of rows, A = 16384 for the whole array), weights and biases
  (w₁, b₁, w₂, b₂) and (w₃, b₃, w₄, b₄), and a row r of 128 numbers:
    rowsOf A r           (p, q) = r (0, q)                                                   the row, on every row
    twoLayer x w b w' b' (p, q) = ∑ₕ max ((∑ₖ x (p, k) · w (k, h)) + b h) 0 · w' (h, q) + b' q    relu(x·w + b)·w' + b'
    zsum …               (p, q) = r (0, q) + twoLayer x w₁ b₁ w₂ b₂ (p, q)
    unitRows z           (p, q) = z (p, q) / max (sqrt (∑ₖ z (p, k) · z (p, k))) ε               each row over its norm
  with ε the literal 0x2B8CBCCC. Every one of them at row p reads its matrix argument only on row p, which is what lets
  a block of rows be computed from the block alone.
-/
import proofs.«119898_j41583873360606_2_alg».proof.Proof.LibLayerProduct

noncomputable section

namespace Cert.KernelIdeal.R2

open Idealize.ShloMosaic Idealize.ShloMosaic.ValueIdx

/-- A vector of K numbers as the one row of a 1 × K matrix. -/
def row {K : ℕ} (b : FVec Ideal (⟨1, ![K]⟩ : Shape) .f32) : FVec Ideal (⟨2, ![1, K]⟩ : Shape) .f32 :=
  fun j => b (ix1 (j 1))

/-- A 1 × B row repeated on each of A rows. -/
def rowsOf (A : ℕ) {B : ℕ} (r : FVec Ideal (⟨2, ![1, B]⟩ : Shape) .f32) : FVec Ideal (⟨2, ![A, B]⟩ : Shape) .f32 :=
  fun i => r (ix2 (0 : Fin 1) (i 1))

/-- Two layers: relu(x·w + b)·w' + b', entry by entry, through the plain sums over the contracted axes. -/
def twoLayer {A K H B : ℕ} (x : FVec Ideal (⟨2, ![A, K]⟩ : Shape) .f32) (w : FVec Ideal (⟨2, ![K, H]⟩ : Shape) .f32)
    (b : FVec Ideal (⟨1, ![H]⟩ : Shape) .f32) (w' : FVec Ideal (⟨2, ![H, B]⟩ : Shape) .f32)
    (b' : FVec Ideal (⟨1, ![B]⟩ : Shape) .f32) : FVec Ideal (⟨2, ![A, B]⟩ : Shape) .f32 :=
  fun i => Cert.Layer.biasReluProd (Cert.Layer.prod x w) (row b) w' i + b' (ix1 (i 1))

/-- The row added to the two-layer product. -/
def zsum {A K H B : ℕ} (x : FVec Ideal (⟨2, ![A, K]⟩ : Shape) .f32) (w : FVec Ideal (⟨2, ![K, H]⟩ : Shape) .f32)
    (b : FVec Ideal (⟨1, ![H]⟩ : Shape) .f32) (w' : FVec Ideal (⟨2, ![H, B]⟩ : Shape) .f32)
    (b' : FVec Ideal (⟨1, ![B]⟩ : Shape) .f32) (r : FVec Ideal (⟨2, ![1, B]⟩ : Shape) .f32) :
    FVec Ideal (⟨2, ![A, B]⟩ : Shape) .f32 :=
  fun i => rowsOf A r i + twoLayer x w b w' b' i

/-- Each row divided by the larger of its Euclidean norm and the literal 0x2B8CBCCC. -/
def unitRows {A B : ℕ} (z : FVec Ideal (⟨2, ![A, B]⟩ : Shape) .f32) : FVec Ideal (⟨2, ![A, B]⟩ : Shape) .f32 :=
  fun i => Ideal.div (z i)
    (max (Ideal.sqrt (∑ k : Fin B, z (ix2 (i 0) k) * z (ix2 (i 0) k))) (Ideal.ofBits .f32 0x2B8CBCCC#32))

/-! ## Each of them at a row reads its matrix argument on that row only -/

theorem rowsOf_congr {A A' B : ℕ} (r : FVec Ideal (⟨2, ![1, B]⟩ : Shape) .f32) (p : Fin A) (p' : Fin A') (q : Fin B) :
    rowsOf A r (ix2 p q) = rowsOf A' r (ix2 p' q) := rfl

theorem twoLayer_congr {A A' K H B : ℕ} (x : FVec Ideal (⟨2, ![A, K]⟩ : Shape) .f32) (x' : FVec Ideal (⟨2, ![A', K]⟩ : Shape) .f32)
    (w : FVec Ideal (⟨2, ![K, H]⟩ : Shape) .f32) (b : FVec Ideal (⟨1, ![H]⟩ : Shape) .f32)
    (w' : FVec Ideal (⟨2, ![H, B]⟩ : Shape) .f32) (b' : FVec Ideal (⟨1, ![B]⟩ : Shape) .f32)
    (p : Fin A) (p' : Fin A') (q : Fin B) (hx : ∀ k : Fin K, x (ix2 p k) = x' (ix2 p' k)) :
    twoLayer x w b w' b' (ix2 p q) = twoLayer x' w b w' b' (ix2 p' q) := by
  show Cert.Layer.biasReluProd (Cert.Layer.prod x w) (row b) w' (ix2 p q) + b' (ix1 q)
    = Cert.Layer.biasReluProd (Cert.Layer.prod x' w) (row b) w' (ix2 p' q) + b' (ix1 q)
  rw [Cert.Layer.biasReluProd_congr (Cert.Layer.prod x w) (row b) w' (Cert.Layer.prod x' w) (row b) w' p q p' q
    (fun h => Cert.Layer.prod_congr x w x' w p h p' h hx (fun _ => rfl)) (fun _ => rfl) (fun _ => rfl)]

theorem zsum_congr {A A' K H B : ℕ} (x : FVec Ideal (⟨2, ![A, K]⟩ : Shape) .f32) (x' : FVec Ideal (⟨2, ![A', K]⟩ : Shape) .f32)
    (w : FVec Ideal (⟨2, ![K, H]⟩ : Shape) .f32) (b : FVec Ideal (⟨1, ![H]⟩ : Shape) .f32)
    (w' : FVec Ideal (⟨2, ![H, B]⟩ : Shape) .f32) (b' : FVec Ideal (⟨1, ![B]⟩ : Shape) .f32)
    (r : FVec Ideal (⟨2, ![1, B]⟩ : Shape) .f32)
    (p : Fin A) (p' : Fin A') (q : Fin B) (hx : ∀ k : Fin K, x (ix2 p k) = x' (ix2 p' k)) :
    zsum x w b w' b' r (ix2 p q) = zsum x' w b w' b' r (ix2 p' q) := by
  show rowsOf A r (ix2 p q) + twoLayer x w b w' b' (ix2 p q) = rowsOf A' r (ix2 p' q) + twoLayer x' w b w' b' (ix2 p' q)
  rw [twoLayer_congr x x' w b w' b' p p' q hx, rowsOf_congr r p p' q]

theorem unitRows_congr {A A' B : ℕ} (z : FVec Ideal (⟨2, ![A, B]⟩ : Shape) .f32) (z' : FVec Ideal (⟨2, ![A', B]⟩ : Shape) .f32)
    (p : Fin A) (p' : Fin A') (q : Fin B) (hz : ∀ k : Fin B, z (ix2 p k) = z' (ix2 p' k)) :
    unitRows z (ix2 p q) = unitRows z' (ix2 p' q) := by
  show Ideal.div (z (ix2 p q)) (max (Ideal.sqrt (∑ k : Fin B, z (ix2 p k) * z (ix2 p k))) (Ideal.ofBits .f32 0x2B8CBCCC#32))
    = Ideal.div (z' (ix2 p' q)) (max (Ideal.sqrt (∑ k : Fin B, z' (ix2 p' k) * z' (ix2 p' k))) (Ideal.ofBits .f32 0x2B8CBCCC#32))
  rw [hz q, Finset.sum_congr rfl fun k _ => by rw [hz k]]

end Cert.KernelIdeal.R2

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KI.Region2Pay.lean ====
/-
  The body's payloads, over the extended reals, are the region's functions of the loaded blocks at 2048 rows.

  Rounding to a narrower float format is the identity; a matrix product accumulated into zero is the plain sum over the
  contracted axis; a vector cast to a one-row matrix and spread over the rows is the vector at the column; a sum along
  the lanes, kept as a column and spread back over the lanes, is the row's sum at every lane. With these the stored
  values are: the row on every row; the two-layer product; the sum of the two with each row divided by the larger of
  its norm and the literal; and the two-layer product of that quotient.
-/
import proofs.«119898_j41583873360606_2_alg».proof.Proof.Gen.KernelIdeal.Skeleton
import proofs.«119898_j41583873360606_2_alg».proof.Proof.KI.Region2Fun
import proofs.«119898_j41583873360606_2_alg».proof.Proof.LibKeepdims

noncomputable section

namespace Cert.KernelIdeal.R2

open Cert.KernelIdeal.Gen
open Idealize.ShloMosaic Idealize.ShloMosaic.ValueIdx

/-- Two layers as the body computes them — both factors of each product rounded to bf16, each product accumulated
    into zero, each bias a vector cast to one row and spread over the rows, the clamp a maximum with a zero splat —
    read at an entry: the two-layer function. The products' dimension records are any two whose operand indices are
    (row, contraction) and (contraction, column). -/
theorem twoLayer_body {A K1 K2 B : ℕ}
    (d1 : DotDims (⟨2, ![A, K1]⟩ : Shape) (⟨2, ![K1, K2]⟩ : Shape) (⟨2, ![A, K2]⟩ : Shape))
    (hr1 : d1.contr.rank = 1) (hs1 : d1.contr.size ⟨0, by omega⟩ = K1)
    (hl01 : ∀ i q, (d1.lhsIdx i q (0 : Fin 2)).val = (i (0 : Fin 2)).val)
    (hl11 : ∀ i q, (d1.lhsIdx i q (1 : Fin 2)).val = (q ⟨0, by omega⟩).val)
    (hr01 : ∀ i q, (d1.rhsIdx i q (0 : Fin 2)).val = (q ⟨0, by omega⟩).val)
    (hr11 : ∀ i q, (d1.rhsIdx i q (1 : Fin 2)).val = (i (1 : Fin 2)).val)
    (d2 : DotDims (⟨2, ![A, K2]⟩ : Shape) (⟨2, ![K2, B]⟩ : Shape) (⟨2, ![A, B]⟩ : Shape))
    (hr2 : d2.contr.rank = 1) (hs2 : d2.contr.size ⟨0, by omega⟩ = K2)
    (hl02 : ∀ i q, (d2.lhsIdx i q (0 : Fin 2)).val = (i (0 : Fin 2)).val)
    (hl12 : ∀ i q, (d2.lhsIdx i q (1 : Fin 2)).val = (q ⟨0, by omega⟩).val)
    (hr02 : ∀ i q, (d2.rhsIdx i q (0 : Fin 2)).val = (q ⟨0, by omega⟩).val)
    (hr12 : ∀ i q, (d2.rhsIdx i q (1 : Fin 2)).val = (i (1 : Fin 2)).val)
    (h16 : FTy.bf16.bits < FTy.f32.bits)
    (hc1 : (⟨1, ![K2]⟩ : Shape).ShapeCasts ⟨2, ![1, K2]⟩) (hb1 : (⟨2, ![1, K2]⟩ : Shape).Broadcasts ⟨2, ![A, K2]⟩)
    (hc2 : (⟨1, ![B]⟩ : Shape).ShapeCasts ⟨2, ![1, B]⟩) (hb2 : (⟨2, ![1, B]⟩ : Shape).Broadcasts ⟨2, ![A, B]⟩)
    (x : FVec Ideal (⟨2, ![A, K1]⟩ : Shape) .f32) (w : FVec Ideal (⟨2, ![K1, K2]⟩ : Shape) .f32)
    (b : FVec Ideal (⟨1, ![K2]⟩ : Shape) .f32) (w' : FVec Ideal (⟨2, ![K2, B]⟩ : Shape) .f32)
    (b' : FVec Ideal (⟨1, ![B]⟩ : Shape) .f32) (p : Fin A) (q : Fin B) :
    addf (FloatOps.matmul d2 none
        (truncf .bf16 (maximumf (addf (FloatOps.matmul d1 none (truncf .bf16 x h16) (truncf .bf16 w h16)
              (constant (F := Ideal) (⟨2, ![A, K2]⟩ : Shape) .f32 0x00000000#32))
            (broadcastTo (⟨2, ![A, K2]⟩ : Shape) (shapeCast (⟨2, ![1, K2]⟩ : Shape) b hc1) hb1))
          (broadcast (⟨2, ![A, K2]⟩ : Shape) (Scalar.ofBits (F := Ideal) .f32 0x00000000#32))) h16)
        (truncf .bf16 w' h16) (constant (F := Ideal) (⟨2, ![A, B]⟩ : Shape) .f32 0x00000000#32))
      (broadcastTo (⟨2, ![A, B]⟩ : Shape) (shapeCast (⟨2, ![1, B]⟩ : Shape) b' hc2) hb2) (ix2 p q)
      = twoLayer x w b w' b' (ix2 p q) := by
  rw [addf_apply, Cert.Layer.biasRelu_matmul_apply d2 hr2 hs2 hl02 hl12 hr02 hr12 h16 hb1,
    broadcastTo_1b_ab_apply, shapeCast_a_1a_apply]
  show _ = Cert.Layer.biasReluProd (Cert.Layer.prod x w) (row b) w' (ix2 p q) + b' (ix1 q)
  rw [Cert.Layer.biasReluProd_congr _ (shapeCast (⟨2, ![1, K2]⟩ : Shape) b hc1) w' (Cert.Layer.prod x w) (row b) w' p q p q
    (fun k => Cert.Layer.matmul_trunc_apply d1 hr1 hs1 hl01 hl11 hr01 hr11 h16 x w p k)
    (fun k => shapeCast_a_1a_apply b hc1 (0 : Fin 1) k) (fun _ => rfl)]

/-- Window 10's payload: the row on each of the 2048 rows. -/
theorem pay3_eq (x1 : FVec Ideal S1x128 .f32) : k2_pay3 (F := Ideal) x1 = rowsOf 2048 x1 := by
  funext j
  obtain ⟨p, q, rfl⟩ : ∃ (p : Fin 2048) (q : Fin 128), j = ix2 p q := ⟨j 0, j 1, eq_ix2 j⟩
  unfold k2_pay3
  simp only [shapeCast_self]
  exact broadcastTo_1b_ab_apply x1 _ p q

/-- Window 11's payload: the two-layer product of the block of rows. -/
theorem pay2_eq (x0 : FVec Ideal S2048x200 .f32) (x2 : FVec Ideal S200x256 .f32) (x3 : FVec Ideal S256 .f32)
    (x4 : FVec Ideal S256x128 .f32) (x5 : FVec Ideal S128 .f32) :
    k2_pay2 (F := Ideal) x0 x2 x3 x4 x5 = twoLayer x0 x2 x3 x4 x5 := by
  funext j
  obtain ⟨p, q, rfl⟩ : ∃ (p : Fin 2048) (q : Fin 128), j = ix2 p q := ⟨j 0, j 1, eq_ix2 j⟩
  unfold k2_pay2
  simp only [shapeCast_self]
  exact twoLayer_body dot_S2048x200_S200x256_S2048x256_1_0_0_1_n_n rfl rfl (fun _ _ => rfl) (fun _ _ => rfl) (fun _ _ => rfl) (fun _ _ => rfl)
    dot_S2048x256_S256x128_S2048x128_1_0_0_1_n_n rfl rfl (fun _ _ => rfl) (fun _ _ => rfl) (fun _ _ => rfl) (fun _ _ => rfl)
    bitsLt_bf16_f32 shapeCasts_S256_S1x256 broadcasts_S1x256_S2048x256 shapeCasts_S128_S1x128 broadcasts_S1x128_S2048x128
    x0 x2 x3 x4 x5 p q

/-- The lane sum kept as a column and spread back: each row divided by the larger of its norm and the literal. -/
theorem unitRows_body (z : FVec Ideal S2048x128 .f32) (p : Fin 2048) (q : Fin 128) :
    divf z (broadcastTo S2048x128
        (maximumf (sqrt (shapeCast S2048x1
            (multiReduction (F := Ideal) .add [1] S2048 (mulf z z) 0x00000000#32 reduces_S2048x128_S2048 (.inl rfl) rfl)
            shapeCasts_S2048_S2048x1))
          (broadcast S2048x1 (Scalar.ofBits (F := Ideal) .f32 0x2B8CBCCC#32)))
        broadcasts_S2048x1_S2048x128) (ix2 p q)
      = unitRows z (ix2 p q) := by
  show Ideal.div (z (ix2 p q)) (broadcastTo S2048x128 _ broadcasts_S2048x1_S2048x128 (ix2 p q))
    = Ideal.div (z (ix2 p q)) (max (Ideal.sqrt (∑ k : Fin 128, z (ix2 p k) * z (ix2 p k))) (Ideal.ofBits .f32 0x2B8CBCCC#32))
  refine congrArg (Ideal.div (z (ix2 p q))) ?_
  refine (Cert.LibKeepdims.broadcastTo_a1_ab_apply _ broadcasts_S2048x1_S2048x128 p q).trans ?_
  show max (Ideal.sqrt (shapeCast S2048x1 _ shapeCasts_S2048_S2048x1 (ix2 p (0 : Fin 1)))) (Ideal.ofBits .f32 0x2B8CBCCC#32) = _
  refine congrArg (fun s => max (Ideal.sqrt s) (Ideal.ofBits .f32 0x2B8CBCCC#32)) ?_
  refine (Cert.LibKeepdims.shapeCast_a_a1_apply _ shapeCasts_S2048_S2048x1 p (0 : Fin 1)).trans ?_
  refine (Ideal.multiReduction_add_single (mulf z z) 0x00000000#32 reduces_S2048x128_S2048 (.inl rfl) rfl (ix1 p)).trans ?_
  show (∑ k : Fin 128, mulf z z (reduces_S2048x128_S2048.lift (ix1 p) k)) = _
  refine Finset.sum_congr rfl fun k _ => ?_
  have hl : reduces_S2048x128_S2048.lift (ix1 p) k = ix2 p k := funext fun a => Fin.ext (by
    match a with
    | ⟨0, _⟩ => rfl
    | ⟨1, _⟩ => rfl)
  rw [hl]; rfl

/-- Window 12's payload: the row plus the two-layer product, each row over the larger of its norm and the literal. -/
theorem pay4_eq (x0 : FVec Ideal S2048x200 .f32) (x2 : FVec Ideal S200x256 .f32) (x3 : FVec Ideal S256 .f32)
    (x4 : FVec Ideal S256x128 .f32) (x5 : FVec Ideal S128 .f32) (x1 : FVec Ideal S1x128 .f32) :
    k2_pay4 (F := Ideal) x0 x2 x3 x4 x5 x1 = unitRows (zsum x0 x2 x3 x4 x5 x1) := by
  have hz : addf (k2_pay3 (F := Ideal) x1) (k2_pay2 x0 x2 x3 x4 x5) = zsum x0 x2 x3 x4 x5 x1 := by
    rw [pay3_eq, pay2_eq]; rfl
  funext j
  obtain ⟨p, q, rfl⟩ : ∃ (p : Fin 2048) (q : Fin 128), j = ix2 p q := ⟨j 0, j 1, eq_ix2 j⟩
  unfold k2_pay4
  simp only [hz]
  exact unitRows_body (zsum x0 x2 x3 x4 x5 x1) p q

/-- Window 13's payload: the two-layer product of that quotient. -/
theorem pay15_eq (x0 : FVec Ideal S2048x200 .f32) (x2 : FVec Ideal S200x256 .f32) (x3 : FVec Ideal S256 .f32)
    (x4 : FVec Ideal S256x128 .f32) (x5 : FVec Ideal S128 .f32) (x1 : FVec Ideal S1x128 .f32)
    (x6 : FVec Ideal S128x256 .f32) (x7 : FVec Ideal S256 .f32) (x8 : FVec Ideal S256x360 .f32) (x9 : FVec Ideal S360 .f32) :
    k2_pay1 (F := Ideal) (k2_pay5 x0 x2 x3 x4 x5 x1 x6) x7 x8 x9
      = twoLayer (unitRows (zsum x0 x2 x3 x4 x5 x1)) x6 x7 x8 x9 := by
  funext j
  obtain ⟨p, q, rfl⟩ : ∃ (p : Fin 2048) (q : Fin 360), j = ix2 p q := ⟨j 0, j 1, eq_ix2 j⟩
  unfold k2_pay1 k2_pay5
  simp only [shapeCast_self, pay4_eq]
  exact twoLayer_body dot_S2048x128_S128x256_S2048x256_1_0_0_1_n_n rfl rfl (fun _ _ => rfl) (fun _ _ => rfl) (fun _ _ => rfl) (fun _ _ => rfl)
    dot_S2048x256_S256x360_S2048x360_1_0_0_1_n_n rfl rfl (fun _ _ => rfl) (fun _ _ => rfl) (fun _ _ => rfl) (fun _ _ => rfl)
    bitsLt_bf16_f32 shapeCasts_S256_S1x256 broadcasts_S1x256_S2048x256 shapeCasts_S360_S1x360 broadcasts_S1x360_S2048x360
    (unitRows (zsum x0 x2 x3 x4 x5 x1)) x6 x7 x8 x9 p q

end Cert.KernelIdeal.R2

end
-- ==== Proof.KI.Region2Value.lean ====
/-
  The reconstruction region's four result arrays after the region, over the extended reals, each as ONE function of
  the arrays the region finds on entry.

  Point t of the 8 points handles rows 2048·t … 2048·t + 2047: the input block is those rows of the [16384,200] input,
  every weight and bias window is its whole array, and each output block is written back to those rows of its result.
  The body's stored values at a row depend on the input block on that row only, so block t of each result is block t of
  the whole-array function, and the 8 blocks cover all 16384 rows (row p lies in the block of point p / 2048).
-/
import proofs.«119898_j41583873360606_2_alg».proof.Proof.KI.Region2
import proofs.«119898_j41583873360606_2_alg».proof.Proof.KI.Region2Pay

set_option maxRecDepth 16384

noncomputable section

namespace Cert.KernelIdeal.R2

open Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, over the extended reals
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The windows' block indices, decided over the 8 points -/

/-- The input window and the four output windows are on block row t at point t, block column 0. -/
theorem idx_rows : ∀ t : Fin cfg2.N,
    win2_0.index t (0 : Fin 2) = t.val ∧ win2_0.index t (1 : Fin 2) = 0
    ∧ win2_10.index t (0 : Fin 2) = t.val ∧ win2_10.index t (1 : Fin 2) = 0
    ∧ win2_11.index t (0 : Fin 2) = t.val ∧ win2_11.index t (1 : Fin 2) = 0
    ∧ win2_12.index t (0 : Fin 2) = t.val ∧ win2_12.index t (1 : Fin 2) = 0
    ∧ win2_13.index t (0 : Fin 2) = t.val ∧ win2_13.index t (1 : Fin 2) = 0 :=
  (by decide +kernel : ∀ t : Fin grid2.N, _)

/-- Every weight and bias window is on its one block at every point. -/
theorem idx_whole : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = 0 ∧ win2_8.index t (1 : Fin 2) = 0
    ∧ win2_9.index t (0 : Fin 1) = 0 :=
  (by decide +kernel : ∀ t : Fin grid2.N, _)

/-! ## The input blocks read off the entry arrays -/

/-- Window 0's block at point t is rows 2048·t … 2048·t + 2047 of the input. -/
theorem iblk2_0_apply (c : Dev nD) (t : Fin cfg2.N) (p : Fin 2048) (k : Fin 200) (r : Fin 16384) (hr : r.val = t.val * 2048 + p.val) :
    (iblk2 V c 0 t : FVec Ideal S2048x200 .f32) (ix2 p k) = (V c main_arg2 : FVec Ideal S16384x200 .f32) (ix2 r k) := by
  obtain ⟨r0_0, r0_1, r10_0, r10_1, r11_0, r11_1, r12_0, r12_1, r13_0, r13_1⟩ := idx_rows t
  unfold iblk2
  rw [View.read_apply]
  show V c main_arg2 _ = V c main_arg2 _
  congr 1
  funext a
  apply Fin.ext
  match a with
  | ⟨0, _⟩ => show win2_0.index t (0 : Fin 2) * 2048 + 1 * p.val = r.val; rw [r0_0, hr]; omega
  | ⟨1, _⟩ => show win2_0.index t (1 : Fin 2) * 200 + 1 * k.val = k.val; rw [r0_1]; omega

/-- Window 1's block at every point is its whole array. -/
theorem iblk2_1_eq (c : Dev nD) (t : Fin cfg2.N) :
    (iblk2 V c 1 t : FVec Ideal S1x128 .f32) = (V c main_v23 : FVec Ideal S1x128 .f32) := by
  obtain ⟨z1_0, z1_1, z2_0, z2_1, z3_0, z4_0, z4_1, z5_0, z6_0, z6_1, z7_0, z8_0, z8_1, z9_0⟩ := idx_whole t
  funext j
  unfold iblk2
  rw [View.read_apply]
  show V c main_v23 _ = V c main_v23 j
  congr 1
  funext a
  apply Fin.ext
  match a with
  | ⟨0, _⟩ => show win2_1.index t (0 : Fin 2) * 1 + 1 * (j 0).val = (j 0).val; rw [z1_0]; omega
  | ⟨1, _⟩ => show win2_1.index t (1 : Fin 2) * 128 + 1 * (j 1).val = (j 1).val; rw [z1_1]; omega

/-- Window 2's block at every point is its whole array. -/
theorem iblk2_2_eq (c : Dev nD) (t : Fin cfg2.N) :
    (iblk2 V c 2 t : FVec Ideal S200x256 .f32) = (V c main_v24 : FVec Ideal S200x256 .f32) := by
  obtain ⟨z1_0, z1_1, z2_0, z2_1, z3_0, z4_0, z4_1, z5_0, z6_0, z6_1, z7_0, z8_0, z8_1, z9_0⟩ := idx_whole t
  funext j
  unfold iblk2
  rw [View.read_apply]
  show V c main_v24 _ = V c main_v24 j
  congr 1
  funext a
  apply Fin.ext
  match a with
  | ⟨0, _⟩ => show win2_2.index t (0 : Fin 2) * 200 + 1 * (j 0).val = (j 0).val; rw [z2_0]; omega
  | ⟨1, _⟩ => show win2_2.index t (1 : Fin 2) * 256 + 1 * (j 1).val = (j 1).val; rw [z2_1]; omega

/-- Window 3's block at every point is its whole array. -/
theorem iblk2_3_eq (c : Dev nD) (t : Fin cfg2.N) :
    (iblk2 V c 3 t : FVec Ideal S256 .f32) = (V c main_arg14 : FVec Ideal S256 .f32) := by
  obtain ⟨z1_0, z1_1, z2_0, z2_1, z3_0, z4_0, z4_1, z5_0, z6_0, z6_1, z7_0, z8_0, z8_1, z9_0⟩ := idx_whole t
  funext j
  unfold iblk2
  rw [View.read_apply]
  show V c main_arg14 _ = V c main_arg14 j
  congr 1
  funext a
  apply Fin.ext
  match a with
  | ⟨0, _⟩ => show win2_3.index t (0 : Fin 1) * 256 + 1 * (j 0).val = (j 0).val; rw [z3_0]; omega

/-- Window 4's block at every point is its whole array. -/
theorem iblk2_4_eq (c : Dev nD) (t : Fin cfg2.N) :
    (iblk2 V c 4 t : FVec Ideal S256x128 .f32) = (V c main_v25 : FVec Ideal S256x128 .f32) := by
  obtain ⟨z1_0, z1_1, z2_0, z2_1, z3_0, z4_0, z4_1, z5_0, z6_0, z6_1, z7_0, z8_0, z8_1, z9_0⟩ := idx_whole t
  funext j
  unfold iblk2
  rw [View.read_apply]
  show V c main_v25 _ = V c main_v25 j
  congr 1
  funext a
  apply Fin.ext
  match a with
  | ⟨0, _⟩ => show win2_4.index t (0 : Fin 2) * 256 + 1 * (j 0).val = (j 0).val; rw [z4_0]; omega
  | ⟨1, _⟩ => show win2_4.index t (1 : Fin 2) * 128 + 1 * (j 1).val = (j 1).val; rw [z4_1]; omega

/-- Window 5's block at every point is its whole array. -/
theorem iblk2_5_eq (c : Dev nD) (t : Fin cfg2.N) :
    (iblk2 V c 5 t : FVec Ideal S128 .f32) = (V c main_arg16 : FVec Ideal S128 .f32) := by
  obtain ⟨z1_0, z1_1, z2_0, z2_1, z3_0, z4_0, z4_1, z5_0, z6_0, z6_1, z7_0, z8_0, z8_1, z9_0⟩ := idx_whole t
  funext j
  unfold iblk2
  rw [View.read_apply]
  show V c main_arg16 _ = V c main_arg16 j
  congr 1
  funext a
  apply Fin.ext
  match a with
  | ⟨0, _⟩ => show win2_5.index t (0 : Fin 1) * 128 + 1 * (j 0).val = (j 0).val; rw [z5_0]; omega

/-- Window 6's block at every point is its whole array. -/
theorem iblk2_6_eq (c : Dev nD) (t : Fin cfg2.N) :
    (iblk2 V c 6 t : FVec Ideal S128x256 .f32) = (V c main_v26 : FVec Ideal S128x256 .f32) := by
  obtain ⟨z1_0, z1_1, z2_0, z2_1, z3_0, z4_0, z4_1, z5_0, z6_0, z6_1, z7_0, z8_0, z8_1, z9_0⟩ := idx_whole t
  funext j
  unfold iblk2
  rw [View.read_apply]
  show V c main_v26 _ = V c main_v26 j
  congr 1
  funext a
  apply Fin.ext
  match a with
  | ⟨0, _⟩ => show win2_6.index t (0 : Fin 2) * 128 + 1 * (j 0).val = (j 0).val; rw [z6_0]; omega
  | ⟨1, _⟩ => show win2_6.index t (1 : Fin 2) * 256 + 1 * (j 1).val = (j 1).val; rw [z6_1]; omega

/-- Window 7's block at every point is its whole array. -/
theorem iblk2_7_eq (c : Dev nD) (t : Fin cfg2.N) :
    (iblk2 V c 7 t : FVec Ideal S256 .f32) = (V c main_arg18 : FVec Ideal S256 .f32) := by
  obtain ⟨z1_0, z1_1, z2_0, z2_1, z3_0, z4_0, z4_1, z5_0, z6_0, z6_1, z7_0, z8_0, z8_1, z9_0⟩ := idx_whole t
  funext j
  unfold iblk2
  rw [View.read_apply]
  show V c main_arg18 _ = V c main_arg18 j
  congr 1
  funext a
  apply Fin.ext
  match a with
  | ⟨0, _⟩ => show win2_7.index t (0 : Fin 1) * 256 + 1 * (j 0).val = (j 0).val; rw [z7_0]; omega

/-- Window 8's block at every point is its whole array. -/
theorem iblk2_8_eq (c : Dev nD) (t : Fin cfg2.N) :
    (iblk2 V c 8 t : FVec Ideal S256x360 .f32) = (V c main_v27 : FVec Ideal S256x360 .f32) := by
  obtain ⟨z1_0, z1_1, z2_0, z2_1, z3_0, z4_0, z4_1, z5_0, z6_0, z6_1, z7_0, z8_0, z8_1, z9_0⟩ := idx_whole t
  funext j
  unfold iblk2
  rw [View.read_apply]
  show V c main_v27 _ = V c main_v27 j
  congr 1
  funext a
  apply Fin.ext
  match a with
  | ⟨0, _⟩ => show win2_8.index t (0 : Fin 2) * 256 + 1 * (j 0).val = (j 0).val; rw [z8_0]; omega
  | ⟨1, _⟩ => show win2_8.index t (1 : Fin 2) * 360 + 1 * (j 1).val = (j 1).val; rw [z8_1]; omega

/-- Window 9's block at every point is its whole array. -/
theorem iblk2_9_eq (c : Dev nD) (t : Fin cfg2.N) :
    (iblk2 V c 9 t : FVec Ideal S360 .f32) = (V c main_arg20 : FVec Ideal S360 .f32) := by
  obtain ⟨z1_0, z1_1, z2_0, z2_1, z3_0, z4_0, z4_1, z5_0, z6_0, z6_1, z7_0, z8_0, z8_1, z9_0⟩ := idx_whole t
  funext j
  unfold iblk2
  rw [View.read_apply]
  show V c main_arg20 _ = V c main_arg20 j
  congr 1
  funext a
  apply Fin.ext
  match a with
  | ⟨0, _⟩ => show win2_9.index t (0 : Fin 1) * 360 + 1 * (j 0).val = (j 0).val; rw [z9_0]; omega

/-! ## An output block's entry (p, q) at point t is the array's entry (2048·t + p, q) -/

theorem emb2_10 (t : Fin cfg2.N) (p : Fin 2048) (q : Fin 128) (r : Fin 16384) (hr : r.val = t.val * 2048 + p.val) :
    ((cfg2.win 10).blk t).view.emb (ix2 p q : S2048x128.Idx) = (ix2 r q : S16384x128.Idx) := by
  obtain ⟨r0_0, r0_1, r10_0, r10_1, r11_0, r11_1, r12_0, r12_1, r13_0, r13_1⟩ := idx_rows t
  funext a
  apply Fin.ext
  match a with
  | ⟨0, _⟩ => show win2_10.index t (0 : Fin 2) * 2048 + 1 * p.val = r.val; rw [r10_0, hr]; omega
  | ⟨1, _⟩ => show win2_10.index t (1 : Fin 2) * 128 + 1 * q.val = q.val; rw [r10_1]; omega

theorem emb2_11 (t : Fin cfg2.N) (p : Fin 2048) (q : Fin 128) (r : Fin 16384) (hr : r.val = t.val * 2048 + p.val) :
    ((cfg2.win 11).blk t).view.emb (ix2 p q : S2048x128.Idx) = (ix2 r q : S16384x128.Idx) := by
  obtain ⟨r0_0, r0_1, r10_0, r10_1, r11_0, r11_1, r12_0, r12_1, r13_0, r13_1⟩ := idx_rows t
  funext a
  apply Fin.ext
  match a with
  | ⟨0, _⟩ => show win2_11.index t (0 : Fin 2) * 2048 + 1 * p.val = r.val; rw [r11_0, hr]; omega
  | ⟨1, _⟩ => show win2_11.index t (1 : Fin 2) * 128 + 1 * q.val = q.val; rw [r11_1]; omega

theorem emb2_12 (t : Fin cfg2.N) (p : Fin 2048) (q : Fin 128) (r : Fin 16384) (hr : r.val = t.val * 2048 + p.val) :
    ((cfg2.win 12).blk t).view.emb (ix2 p q : S2048x128.Idx) = (ix2 r q : S16384x128.Idx) := by
  obtain ⟨r0_0, r0_1, r10_0, r10_1, r11_0, r11_1, r12_0, r12_1, r13_0, r13_1⟩ := idx_rows t
  funext a
  apply Fin.ext
  match a with
  | ⟨0, _⟩ => show win2_12.index t (0 : Fin 2) * 2048 + 1 * p.val = r.val; rw [r12_0, hr]; omega
  | ⟨1, _⟩ => show win2_12.index t (1 : Fin 2) * 128 + 1 * q.val = q.val; rw [r12_1]; omega

theorem emb2_13 (t : Fin cfg2.N) (p : Fin 2048) (q : Fin 360) (r : Fin 16384) (hr : r.val = t.val * 2048 + p.val) :
    ((cfg2.win 13).blk t).view.emb (ix2 p q : S2048x360.Idx) = (ix2 r q : S16384x360.Idx) := by
  obtain ⟨r0_0, r0_1, r10_0, r10_1, r11_0, r11_1, r12_0, r12_1, r13_0, r13_1⟩ := idx_rows t
  funext a
  apply Fin.ext
  match a with
  | ⟨0, _⟩ => show win2_13.index t (0 : Fin 2) * 2048 + 1 * p.val = r.val; rw [r13_0, hr]; omega
  | ⟨1, _⟩ => show win2_13.index t (1 : Fin 2) * 360 + 1 * q.val = q.val; rw [r13_1]; omega

/-- The array row a block row lands on. -/
def rowAt (t : Fin cfg2.N) (p : Fin 2048) : Fin 16384 :=
  ⟨t.val * 2048 + p.val, by have h : t.val < grid2.N := t.isLt; rw [N_2] at h; have := p.isLt; omega⟩

/-! ## The functions at a row with every other argument replaced by an equal one -/

theorem twoLayer_congr' {A A' K H B : ℕ} (x : FVec Ideal (⟨2, ![A, K]⟩ : Shape) .f32) (x' : FVec Ideal (⟨2, ![A', K]⟩ : Shape) .f32)
    (w w₀ : FVec Ideal (⟨2, ![K, H]⟩ : Shape) .f32) (b b₀ : FVec Ideal (⟨1, ![H]⟩ : Shape) .f32)
    (w' w₀' : FVec Ideal (⟨2, ![H, B]⟩ : Shape) .f32) (b' b₀' : FVec Ideal (⟨1, ![B]⟩ : Shape) .f32)
    (p : Fin A) (p' : Fin A') (q : Fin B) (hx : ∀ k : Fin K, x (ix2 p k) = x' (ix2 p' k))
    (hw : w = w₀) (hb : b = b₀) (hw' : w' = w₀') (hb' : b' = b₀') :
    twoLayer x w b w' b' (ix2 p q) = twoLayer x' w₀ b₀ w₀' b₀' (ix2 p' q) := by
  subst hw hb hw' hb'
  exact twoLayer_congr x x' w b w' b' p p' q hx

theorem zsum_congr' {A A' K H B : ℕ} (x : FVec Ideal (⟨2, ![A, K]⟩ : Shape) .f32) (x' : FVec Ideal (⟨2, ![A', K]⟩ : Shape) .f32)
    (w w₀ : FVec Ideal (⟨2, ![K, H]⟩ : Shape) .f32) (b b₀ : FVec Ideal (⟨1, ![H]⟩ : Shape) .f32)
    (w' w₀' : FVec Ideal (⟨2, ![H, B]⟩ : Shape) .f32) (b' b₀' : FVec Ideal (⟨1, ![B]⟩ : Shape) .f32)
    (r r₀ : FVec Ideal (⟨2, ![1, B]⟩ : Shape) .f32)
    (p : Fin A) (p' : Fin A') (q : Fin B) (hx : ∀ k : Fin K, x (ix2 p k) = x' (ix2 p' k))
    (hw : w = w₀) (hb : b = b₀) (hw' : w' = w₀') (hb' : b' = b₀') (hr : r = r₀) :
    zsum x w b w' b' r (ix2 p q) = zsum x' w₀ b₀ w₀' b₀' r₀ (ix2 p' q) := by
  subst hw hb hw' hb' hr
  exact zsum_congr x x' w b w' b' r p p' q hx

/-! ## What each point writes back is its block of the whole-array function -/

theorem flushed2_10_eq (c : Dev nD) (t : Fin cfg2.N) :
    (dat2 (F := Ideal) V c).flushed 10 t = ((cfg2.win 10).blk t).view.read (Elt Ideal) (rowsOf 16384 (V c main_v23 : FVec Ideal S1x128 .f32) : FVec Ideal S16384x128 .f32) := by
  show (cfg2.win 10).cut (grid2.coords t) ((dat2 V c).after 10 t) = _
  rw [after2_10]
  unfold out2_10
  rw [View.canon_unit_zero hz2]
  simp only [View.ld_unit_zero (S := S1x128) hz2]
  funext j
  obtain ⟨p, q, rfl⟩ : ∃ (p : Fin 2048) (q : Fin 128), j = ix2 p q := ⟨j 0, j 1, eq_ix2 j⟩
  rw [View.read_apply, emb2_10 t p q (rowAt t p) rfl]
  refine (congrFun (pay3_eq _) (ix2 p q)).trans ?_
  show (iblk2 V c 1 t : FVec Ideal S1x128 .f32) (ix2 (0 : Fin 1) q) = (V c main_v23 : FVec Ideal S1x128 .f32) (ix2 (0 : Fin 1) q)
  rw [iblk2_1_eq V c t]

theorem flushed2_11_eq (c : Dev nD) (t : Fin cfg2.N) :
    (dat2 (F := Ideal) V c).flushed 11 t = ((cfg2.win 11).blk t).view.read (Elt Ideal) (twoLayer (V c main_arg2 : FVec Ideal S16384x200 .f32) (V c main_v24 : FVec Ideal S200x256 .f32) (V c main_arg14 : FVec Ideal S256 .f32) (V c main_v25 : FVec Ideal S256x128 .f32) (V c main_arg16 : FVec Ideal S128 .f32) : FVec Ideal S16384x128 .f32) := by
  show (cfg2.win 11).cut (grid2.coords t) ((dat2 V c).after 11 t) = _
  rw [after2_11]
  unfold out2_11
  rw [View.canon_unit_zero hz2]
  simp only [View.ld_unit_zero (S := S2048x200) hz2, View.ld_unit_zero (S := S200x256) hz2, View.ld_unit_zero (S := S256) hz1, View.ld_unit_zero (S := S256x128) hz2, View.ld_unit_zero (S := S128) hz1]
  funext j
  obtain ⟨p, q, rfl⟩ : ∃ (p : Fin 2048) (q : Fin 128), j = ix2 p q := ⟨j 0, j 1, eq_ix2 j⟩
  rw [View.read_apply, emb2_11 t p q (rowAt t p) rfl]
  refine (congrFun (pay2_eq _ _ _ _ _) (ix2 p q)).trans ?_
  exact twoLayer_congr' _ _ _ _ _ _ _ _ _ _ p (rowAt t p) q (fun k => iblk2_0_apply V c t p k (rowAt t p) rfl)
    (iblk2_2_eq V c t) (iblk2_3_eq V c t) (iblk2_4_eq V c t) (iblk2_5_eq V c t)

theorem flushed2_12_eq (c : Dev nD) (t : Fin cfg2.N) :
    (dat2 (F := Ideal) V c).flushed 12 t = ((cfg2.win 12).blk t).view.read (Elt Ideal) (unitRows (zsum (V c main_arg2 : FVec Ideal S16384x200 .f32) (V c main_v24 : FVec Ideal S200x256 .f32) (V c main_arg14 : FVec Ideal S256 .f32) (V c main_v25 : FVec Ideal S256x128 .f32) (V c main_arg16 : FVec Ideal S128 .f32) (V c main_v23 : FVec Ideal S1x128 .f32)) : FVec Ideal S16384x128 .f32) := by
  show (cfg2.win 12).cut (grid2.coords t) ((dat2 V c).after 12 t) = _
  rw [after2_12]
  unfold out2_12
  rw [View.canon_unit_zero hz2]
  simp only [View.ld_unit_zero (S := S2048x200) hz2, View.ld_unit_zero (S := S200x256) hz2, View.ld_unit_zero (S := S256) hz1, View.ld_unit_zero (S := S256x128) hz2, View.ld_unit_zero (S := S128) hz1, View.ld_unit_zero (S := S1x128) hz2]
  funext j
  obtain ⟨p, q, rfl⟩ : ∃ (p : Fin 2048) (q : Fin 128), j = ix2 p q := ⟨j 0, j 1, eq_ix2 j⟩
  rw [View.read_apply, emb2_12 t p q (rowAt t p) rfl]
  refine (congrFun (pay4_eq _ _ _ _ _ _) (ix2 p q)).trans ?_
  exact unitRows_congr _ _ p (rowAt t p) q fun k' =>
    zsum_congr' _ _ _ _ _ _ _ _ _ _ _ _ p (rowAt t p) k' (fun k => iblk2_0_apply V c t p k (rowAt t p) rfl)
      (iblk2_2_eq V c t) (iblk2_3_eq V c t) (iblk2_4_eq V c t) (iblk2_5_eq V c t) (iblk2_1_eq V c t)

theorem flushed2_13_eq (c : Dev nD) (t : Fin cfg2.N) :
    (dat2 (F := Ideal) V c).flushed 13 t = ((cfg2.win 13).blk t).view.read (Elt Ideal) (twoLayer (unitRows (zsum (V c main_arg2 : FVec Ideal S16384x200 .f32) (V c main_v24 : FVec Ideal S200x256 .f32) (V c main_arg14 : FVec Ideal S256 .f32) (V c main_v25 : FVec Ideal S256x128 .f32) (V c main_arg16 : FVec Ideal S128 .f32) (V c main_v23 : FVec Ideal S1x128 .f32))) (V c main_v26 : FVec Ideal S128x256 .f32) (V c main_arg18 : FVec Ideal S256 .f32) (V c main_v27 : FVec Ideal S256x360 .f32) (V c main_arg20 : FVec Ideal S360 .f32) : FVec Ideal S16384x360 .f32) := by
  show (cfg2.win 13).cut (grid2.coords t) ((dat2 V c).after 13 t) = _
  rw [after2_13]
  unfold out2_13
  rw [View.canon_unit_zero hz2]
  simp only [View.ld_unit_zero (S := S2048x200) hz2, View.ld_unit_zero (S := S200x256) hz2, View.ld_unit_zero (S := S256) hz1, View.ld_unit_zero (S := S256x128) hz2, View.ld_unit_zero (S := S128) hz1, View.ld_unit_zero (S := S1x128) hz2, View.ld_unit_zero (S := S128x256) hz2, View.ld_unit_zero (S := S256) hz1, View.ld_unit_zero (S := S256x360) hz2, View.ld_unit_zero (S := S360) hz1]
  funext j
  obtain ⟨p, q, rfl⟩ : ∃ (p : Fin 2048) (q : Fin 360), j = ix2 p q := ⟨j 0, j 1, eq_ix2 j⟩
  rw [View.read_apply, emb2_13 t p q (rowAt t p) rfl]
  refine (congrFun (pay15_eq _ _ _ _ _ _ _ _ _ _) (ix2 p q)).trans ?_
  exact twoLayer_congr' _ _ _ _ _ _ _ _ _ _ p (rowAt t p) q
    (fun h => unitRows_congr _ _ p (rowAt t p) h fun k' =>
      zsum_congr' _ _ _ _ _ _ _ _ _ _ _ _ p (rowAt t p) k' (fun k => iblk2_0_apply V c t p k (rowAt t p) rfl)
        (iblk2_2_eq V c t) (iblk2_3_eq V c t) (iblk2_4_eq V c t) (iblk2_5_eq V c t) (iblk2_1_eq V c t))
    (iblk2_6_eq V c t) (iblk2_7_eq V c t) (iblk2_8_eq V c t) (iblk2_9_eq V c t)

/-! ## The 8 blocks cover the array: row p is in the block of point p / 2048 -/

/-- An index of the array is in point t's block iff each coordinate is in the block's range on its axis. -/
theorem mem_blk2_10 (t : Fin cfg2.N) (i : S16384x128.Idx) :
    i ∈ ((cfg2.win 10).blk t).view.set ↔ ∀ a : Fin 2, win2_10.index t a * S2048x128.size a ≤ (i a).val ∧ (i a).val < win2_10.index t a * S2048x128.size a + S2048x128.size a := by
  show i ∈ ((View.whole main_v28_0).slice (win2_10.rect t)).set ↔ _
  rw [View.set_slice_whole, Rect.mem_set_unit]
  exact Iff.rfl

theorem covered2_10 (i : S16384x128.Idx) :
    ∃ t : Fin cfg2.N, (cfg2.win 10).flush t = true ∧ i ∈ ((cfg2.win 10).blk t).view.set := by
  have hi0 : (i 0).val < 16384 := (i 0).isLt
  have hi1 : (i 1).val < 128 := (i 1).isLt
  have hN : (i 0).val / 2048 < grid2.N := by rw [N_2]; omega
  refine ⟨⟨(i 0).val / 2048, hN⟩, flush2_10 _, ?_⟩
  rw [mem_blk2_10]
  obtain ⟨r0_0, r0_1, r10_0, r10_1, r11_0, r11_1, r12_0, r12_1, r13_0, r13_1⟩ := idx_rows ⟨(i 0).val / 2048, hN⟩
  intro a
  match a with
  | ⟨0, _⟩ =>
    show win2_10.index ⟨(i 0).val / 2048, hN⟩ (0 : Fin 2) * 2048 ≤ (i 0).val ∧ (i 0).val < win2_10.index ⟨(i 0).val / 2048, hN⟩ (0 : Fin 2) * 2048 + 2048
    rw [r10_0]; show (i 0).val / 2048 * 2048 ≤ (i 0).val ∧ (i 0).val < (i 0).val / 2048 * 2048 + 2048; omega
  | ⟨1, _⟩ =>
    show win2_10.index ⟨(i 0).val / 2048, hN⟩ (1 : Fin 2) * 128 ≤ (i 1).val ∧ (i 1).val < win2_10.index ⟨(i 0).val / 2048, hN⟩ (1 : Fin 2) * 128 + 128
    rw [r10_1]; omega

/-- An index of the array is in point t's block iff each coordinate is in the block's range on its axis. -/
theorem mem_blk2_11 (t : Fin cfg2.N) (i : S16384x128.Idx) :
    i ∈ ((cfg2.win 11).blk t).view.set ↔ ∀ a : Fin 2, win2_11.index t a * S2048x128.size a ≤ (i a).val ∧ (i a).val < win2_11.index t a * S2048x128.size a + S2048x128.size a := by
  show i ∈ ((View.whole main_v28_1).slice (win2_11.rect t)).set ↔ _
  rw [View.set_slice_whole, Rect.mem_set_unit]
  exact Iff.rfl

theorem covered2_11 (i : S16384x128.Idx) :
    ∃ t : Fin cfg2.N, (cfg2.win 11).flush t = true ∧ i ∈ ((cfg2.win 11).blk t).view.set := by
  have hi0 : (i 0).val < 16384 := (i 0).isLt
  have hi1 : (i 1).val < 128 := (i 1).isLt
  have hN : (i 0).val / 2048 < grid2.N := by rw [N_2]; omega
  refine ⟨⟨(i 0).val / 2048, hN⟩, flush2_11 _, ?_⟩
  rw [mem_blk2_11]
  obtain ⟨r0_0, r0_1, r10_0, r10_1, r11_0, r11_1, r12_0, r12_1, r13_0, r13_1⟩ := idx_rows ⟨(i 0).val / 2048, hN⟩
  intro a
  match a with
  | ⟨0, _⟩ =>
    show win2_11.index ⟨(i 0).val / 2048, hN⟩ (0 : Fin 2) * 2048 ≤ (i 0).val ∧ (i 0).val < win2_11.index ⟨(i 0).val / 2048, hN⟩ (0 : Fin 2) * 2048 + 2048
    rw [r11_0]; show (i 0).val / 2048 * 2048 ≤ (i 0).val ∧ (i 0).val < (i 0).val / 2048 * 2048 + 2048; omega
  | ⟨1, _⟩ =>
    show win2_11.index ⟨(i 0).val / 2048, hN⟩ (1 : Fin 2) * 128 ≤ (i 1).val ∧ (i 1).val < win2_11.index ⟨(i 0).val / 2048, hN⟩ (1 : Fin 2) * 128 + 128
    rw [r11_1]; omega

/-- An index of the array is in point t's block iff each coordinate is in the block's range on its axis. -/
theorem mem_blk2_12 (t : Fin cfg2.N) (i : S16384x128.Idx) :
    i ∈ ((cfg2.win 12).blk t).view.set ↔ ∀ a : Fin 2, win2_12.index t a * S2048x128.size a ≤ (i a).val ∧ (i a).val < win2_12.index t a * S2048x128.size a + S2048x128.size a := by
  show i ∈ ((View.whole main_v28_2).slice (win2_12.rect t)).set ↔ _
  rw [View.set_slice_whole, Rect.mem_set_unit]
  exact Iff.rfl

theorem covered2_12 (i : S16384x128.Idx) :
    ∃ t : Fin cfg2.N, (cfg2.win 12).flush t = true ∧ i ∈ ((cfg2.win 12).blk t).view.set := by
  have hi0 : (i 0).val < 16384 := (i 0).isLt
  have hi1 : (i 1).val < 128 := (i 1).isLt
  have hN : (i 0).val / 2048 < grid2.N := by rw [N_2]; omega
  refine ⟨⟨(i 0).val / 2048, hN⟩, flush2_12 _, ?_⟩
  rw [mem_blk2_12]
  obtain ⟨r0_0, r0_1, r10_0, r10_1, r11_0, r11_1, r12_0, r12_1, r13_0, r13_1⟩ := idx_rows ⟨(i 0).val / 2048, hN⟩
  intro a
  match a with
  | ⟨0, _⟩ =>
    show win2_12.index ⟨(i 0).val / 2048, hN⟩ (0 : Fin 2) * 2048 ≤ (i 0).val ∧ (i 0).val < win2_12.index ⟨(i 0).val / 2048, hN⟩ (0 : Fin 2) * 2048 + 2048
    rw [r12_0]; show (i 0).val / 2048 * 2048 ≤ (i 0).val ∧ (i 0).val < (i 0).val / 2048 * 2048 + 2048; omega
  | ⟨1, _⟩ =>
    show win2_12.index ⟨(i 0).val / 2048, hN⟩ (1 : Fin 2) * 128 ≤ (i 1).val ∧ (i 1).val < win2_12.index ⟨(i 0).val / 2048, hN⟩ (1 : Fin 2) * 128 + 128
    rw [r12_1]; omega

/-- An index of the array is in point t's block iff each coordinate is in the block's range on its axis. -/
theorem mem_blk2_13 (t : Fin cfg2.N) (i : S16384x360.Idx) :
    i ∈ ((cfg2.win 13).blk t).view.set ↔ ∀ a : Fin 2, win2_13.index t a * S2048x360.size a ≤ (i a).val ∧ (i a).val < win2_13.index t a * S2048x360.size a + S2048x360.size a := by
  show i ∈ ((View.whole main_v28_3).slice (win2_13.rect t)).set ↔ _
  rw [View.set_slice_whole, Rect.mem_set_unit]
  exact Iff.rfl

theorem covered2_13 (i : S16384x360.Idx) :
    ∃ t : Fin cfg2.N, (cfg2.win 13).flush t = true ∧ i ∈ ((cfg2.win 13).blk t).view.set := by
  have hi0 : (i 0).val < 16384 := (i 0).isLt
  have hi1 : (i 1).val < 360 := (i 1).isLt
  have hN : (i 0).val / 2048 < grid2.N := by rw [N_2]; omega
  refine ⟨⟨(i 0).val / 2048, hN⟩, flush2_13 _, ?_⟩
  rw [mem_blk2_13]
  obtain ⟨r0_0, r0_1, r10_0, r10_1, r11_0, r11_1, r12_0, r12_1, r13_0, r13_1⟩ := idx_rows ⟨(i 0).val / 2048, hN⟩
  intro a
  match a with
  | ⟨0, _⟩ =>
    show win2_13.index ⟨(i 0).val / 2048, hN⟩ (0 : Fin 2) * 2048 ≤ (i 0).val ∧ (i 0).val < win2_13.index ⟨(i 0).val / 2048, hN⟩ (0 : Fin 2) * 2048 + 2048
    rw [r13_0]; show (i 0).val / 2048 * 2048 ≤ (i 0).val ∧ (i 0).val < (i 0).val / 2048 * 2048 + 2048; omega
  | ⟨1, _⟩ =>
    show win2_13.index ⟨(i 0).val / 2048, hN⟩ (1 : Fin 2) * 360 ≤ (i 1).val ∧ (i 1).val < win2_13.index ⟨(i 0).val / 2048, hN⟩ (1 : Fin 2) * 360 + 360
    rw [r13_1]; omega

/-! ## The arrays after the region -/

/-- Result 0 after the region: the [1,128] row on every one of the 16384 rows. -/
theorem final2_10 (c : Dev nD) : (dat2 (F := Ideal) V c).arrAt 10 cfg2.N = (rowsOf 16384 (V c main_v23 : FVec Ideal S1x128 .f32) : FVec Ideal S16384x128 .f32) :=
  (dat2 (F := Ideal) V c).arrAt_eq_of_cover 10 (rowsOf 16384 (V c main_v23 : FVec Ideal S1x128 .f32) : FVec Ideal S16384x128 .f32) (fun t _ => flushed2_10_eq V c t) covered2_10

/-- Result 1 after the region: the two-layer product relu(x·W₁+b₁)·W₂+b₂ of the input. -/
theorem final2_11 (c : Dev nD) : (dat2 (F := Ideal) V c).arrAt 11 cfg2.N = (twoLayer (V c main_arg2 : FVec Ideal S16384x200 .f32) (V c main_v24 : FVec Ideal S200x256 .f32) (V c main_arg14 : FVec Ideal S256 .f32) (V c main_v25 : FVec Ideal S256x128 .f32) (V c main_arg16 : FVec Ideal S128 .f32) : FVec Ideal S16384x128 .f32) :=
  (dat2 (F := Ideal) V c).arrAt_eq_of_cover 11 (twoLayer (V c main_arg2 : FVec Ideal S16384x200 .f32) (V c main_v24 : FVec Ideal S200x256 .f32) (V c main_arg14 : FVec Ideal S256 .f32) (V c main_v25 : FVec Ideal S256x128 .f32) (V c main_arg16 : FVec Ideal S128 .f32) : FVec Ideal S16384x128 .f32) (fun t _ => flushed2_11_eq V c t) covered2_11

/-- Result 2 after the region: the row plus that product, each row over the larger of its norm and the literal. -/
theorem final2_12 (c : Dev nD) : (dat2 (F := Ideal) V c).arrAt 12 cfg2.N = (unitRows (zsum (V c main_arg2 : FVec Ideal S16384x200 .f32) (V c main_v24 : FVec Ideal S200x256 .f32) (V c main_arg14 : FVec Ideal S256 .f32) (V c main_v25 : FVec Ideal S256x128 .f32) (V c main_arg16 : FVec Ideal S128 .f32) (V c main_v23 : FVec Ideal S1x128 .f32)) : FVec Ideal S16384x128 .f32) :=
  (dat2 (F := Ideal) V c).arrAt_eq_of_cover 12 (unitRows (zsum (V c main_arg2 : FVec Ideal S16384x200 .f32) (V c main_v24 : FVec Ideal S200x256 .f32) (V c main_arg14 : FVec Ideal S256 .f32) (V c main_v25 : FVec Ideal S256x128 .f32) (V c main_arg16 : FVec Ideal S128 .f32) (V c main_v23 : FVec Ideal S1x128 .f32)) : FVec Ideal S16384x128 .f32) (fun t _ => flushed2_12_eq V c t) covered2_12

/-- Result 3 after the region: the two-layer product relu(z·W₃+b₃)·W₄+b₄ of that quotient z. -/
theorem final2_13 (c : Dev nD) : (dat2 (F := Ideal) V c).arrAt 13 cfg2.N = (twoLayer (unitRows (zsum (V c main_arg2 : FVec Ideal S16384x200 .f32) (V c main_v24 : FVec Ideal S200x256 .f32) (V c main_arg14 : FVec Ideal S256 .f32) (V c main_v25 : FVec Ideal S256x128 .f32) (V c main_arg16 : FVec Ideal S128 .f32) (V c main_v23 : FVec Ideal S1x128 .f32))) (V c main_v26 : FVec Ideal S128x256 .f32) (V c main_arg18 : FVec Ideal S256 .f32) (V c main_v27 : FVec Ideal S256x360 .f32) (V c main_arg20 : FVec Ideal S360 .f32) : FVec Ideal S16384x360 .f32) :=
  (dat2 (F := Ideal) V c).arrAt_eq_of_cover 13 (twoLayer (unitRows (zsum (V c main_arg2 : FVec Ideal S16384x200 .f32) (V c main_v24 : FVec Ideal S200x256 .f32) (V c main_arg14 : FVec Ideal S256 .f32) (V c main_v25 : FVec Ideal S256x128 .f32) (V c main_arg16 : FVec Ideal S128 .f32) (V c main_v23 : FVec Ideal S1x128 .f32))) (V c main_v26 : FVec Ideal S128x256 .f32) (V c main_arg18 : FVec Ideal S256 .f32) (V c main_v27 : FVec Ideal S256x360 .f32) (V c main_arg20 : FVec Ideal S360 .f32) : FVec Ideal S16384x360 .f32) (fun t _ => flushed2_13_eq V c t) covered2_13

end Cert.KernelIdeal.R2

end
-- ==== Proof.KI.KernelHyps.lean ====
/- What each pallas_call leaves in its output arrays, for this program's own run: the first one's two slabs are the
   partial Gram sums of the entry contents; the second one's column is the clamped layer of the entry contents; the
   third one's four arrays are the row on every row, the two-layer product, the normalised sum and the two-layer
   product of that. Each is the fold of the region's write-backs (the region's final array) read at the region's
   entry valuation. -/
import proofs.«119898_j41583873360606_2_alg».proof.Proof.KI.Regs
import proofs.«119898_j41583873360606_2_alg».proof.Proof.KI.Region0Value
import proofs.«119898_j41583873360606_2_alg».proof.Proof.KI.Region1Value
import proofs.«119898_j41583873360606_2_alg».proof.Proof.KI.Region2Value

set_option maxRecDepth 16384

noncomputable section

namespace Cert.KernelIdeal.Asm

open Cert.KernelIdeal Cert.KernelIdeal.Gen Cert.KernelIdeal.R2
open Cert.ReferenceIdeal.RefValue
open Idealize.ShloMosaic Idealize.ShloMosaic.TcCoe Idealize.ShloMosaic.ValueIdx
open Idealize.SL Idealize.SL.Sem

variable (m : (ℓ : Loc nD τ sig) → Buf (Elt Ideal) ℓ) (c : Dev nD)

/-- After the first pallas_call its output array holds the partial Gram sums of its entry contents. -/
theorem h2_outs : outs m 2 main_v4 c
    = Gpart (V1 m c main_v0) (V1 m c main_v1) (V1 m c main_arg4) (V1 m c main_v2) (V1 m c main_arg6) :=
  (W2_arr m c 5).trans (R0.final0_5 (EV0 m) c)

/-- After the second pallas_call its output column holds the clamped layer of its entry contents. -/
theorem h4_outs : outs m 4 main_v18 c
    = R1.U1 (V3 m (outs m) c main_v15) (V3 m (outs m) c main_v16) (V3 m (outs m) c main_v17) :=
  (W4_arr m c 3).trans (R1.final1_3 (EV1 m) c)

/-- After the third pallas_call its four output arrays hold the four functions of its entry contents. -/
theorem h6_0_outs : outs m 6 main_v28_0 c = rowsOf 16384 (V5 m (outs m) c main_v23) :=
  (W6_arr m c 10).trans (R2.final2_10 (EV2 m) c)
theorem h6_1_outs : outs m 6 main_v28_1 c
    = twoLayer (V5 m (outs m) c main_arg2) (V5 m (outs m) c main_v24) (V5 m (outs m) c main_arg14) (V5 m (outs m) c main_v25) (V5 m (outs m) c main_arg16) :=
  (W6_arr m c 11).trans (R2.final2_11 (EV2 m) c)
theorem h6_2_outs : outs m 6 main_v28_2 c
    = unitRows (zsum (V5 m (outs m) c main_arg2) (V5 m (outs m) c main_v24) (V5 m (outs m) c main_arg14) (V5 m (outs m) c main_v25) (V5 m (outs m) c main_arg16) (V5 m (outs m) c main_v23)) :=
  (W6_arr m c 12).trans (R2.final2_12 (EV2 m) c)
theorem h6_3_outs : outs m 6 main_v28_3 c
    = twoLayer (unitRows (zsum (V5 m (outs m) c main_arg2) (V5 m (outs m) c main_v24) (V5 m (outs m) c main_arg14) (V5 m (outs m) c main_v25) (V5 m (outs m) c main_arg16) (V5 m (outs m) c main_v23)))
        (V5 m (outs m) c main_v26) (V5 m (outs m) c main_arg18) (V5 m (outs m) c main_v27) (V5 m (outs m) c main_arg20) :=
  (W6_arr m c 13).trans (R2.final2_13 (EV2 m) c)

end Cert.KernelIdeal.Asm

end
-- ==== Proof.RefStagesJac.lean ====
/-
  The reference's Jacobian branch, stage by stage: each intermediate array of the reference is the named stage function
  of the arrays it is computed from. The first and second layers are products plus a bias row; the masks compare with
  zero and read the bit as a number; the mask products are summed over all 16384 rows and divided by 16384; the result
  scales the second weight matrix entry by entry, and two products give the 360 × 360 matrix.
-/
import proofs.«119898_j41583873360606_2_alg».proof.Proof.Gen.ReferenceIdeal.Read
import proofs.«119898_j41583873360606_2_alg».proof.Proof.RefStagesDefs
import proofs.«119898_j41583873360606_2_alg».proof.Proof.Algebra

noncomputable section

namespace Cert.ReferenceIdeal.RefValue

open Cert.ReferenceIdeal Cert.ReferenceIdeal.Read Idealize.ShloMosaic Idealize.ShloMosaic.ValueIdx

/-- Two index functions into a matrix agree when both coordinates agree. -/
local macro "idx2" : tactic =>
  `(tactic| exact funext fun a => Fin.ext (by match a with | ⟨0, _⟩ => rfl | ⟨1, _⟩ => rfl))
/-- Two index functions into a vector agree when the coordinate agrees. -/
local macro "idx1" : tactic =>
  `(tactic| exact funext fun a => Fin.ext (by match a with | ⟨0, _⟩ => rfl))

section

variable (x0 : (⟨S16384x3x360, .f32⟩ : BufTy).Contents (Elt Ideal)) (x3 : (⟨S256x1080, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S360x256, .f32⟩ : BufTy).Contents (Elt Ideal))

/-- The first layer: the reshaped input times the transposed weights, plus the bias on every row. -/
theorem ref_h1 : val_main_v5 (F := Ideal) x0 x3 x4 = h1 (val_main_v0 x0) (val_main_v1 x3) x4 := by
  funext i
  obtain ⟨p, q, rfl⟩ : ∃ (p : Fin 16384) (q : Fin 256), i = ix2 p q := ⟨i 0, i 1, eq_ix2 i⟩
  have e3 : idx_main_v3 (idx_main_v4 (ix2 p q)) = ix1 q := by idx1
  rw [val_main_v5_apply, Ideal.addf_def, val_main_v4_apply, val_main_v3_apply, e3, val_main_v2_apply]
  refine Eq.trans ?_ (affine_apply _ _ _ p q).symm
  refine congrArg₂ (· + ·) (Finset.sum_congr rfl fun k _ => ?_) rfl
  have e1 : lidx_main_v2 (ix2 p q) k = ix2 p k := by idx2
  have e2 : ridx_main_v2 (ix2 p q) k = ix2 k q := by idx2
  rw [e1, e2]

/-- The first mask: where the first layer is strictly positive. -/
theorem ref_mask1 : val_main_v8 (F := Ideal) x0 x3 x4 = mask (val_main_v5 x0 x3 x4) := by
  funext i
  rw [val_main_v8_apply, val_main_v7_apply, val_main_v6_apply, val_main_cst_apply, Ideal.ofBits_def,
    Ideal.ofBits_zero_f32]
  rfl

/-- The first layer times its mask. -/
theorem ref_gate1 : val_main_v9 (F := Ideal) x0 x3 x4 = had (val_main_v5 x0 x3 x4) (val_main_v8 x0 x3 x4) := by
  funext i
  rfl

/-- The second layer: the gated first layer times the transposed second weights, plus the bias on every row. -/
theorem ref_h2 : val_main_v14 (F := Ideal) x0 x3 x4 x5 x6 = affine (val_main_v9 x0 x3 x4) (val_main_v10 x5) x6 := by
  funext i
  obtain ⟨p, q, rfl⟩ : ∃ (p : Fin 16384) (q : Fin 256), i = ix2 p q := ⟨i 0, i 1, eq_ix2 i⟩
  have e3 : idx_main_v12 (idx_main_v13 (ix2 p q)) = ix1 q := by idx1
  rw [val_main_v14_apply, Ideal.addf_def, val_main_v13_apply, val_main_v12_apply, e3, val_main_v11_apply]
  refine Eq.trans ?_ (affine_apply _ _ _ p q).symm
  refine congrArg₂ (· + ·) (Finset.sum_congr rfl fun k _ => ?_) rfl
  have e1 : lidx_main_v11 (ix2 p q) k = ix2 p k := by idx2
  have e2 : ridx_main_v11 (ix2 p q) k = ix2 k q := by idx2
  rw [e1, e2]

/-- The second mask: where the second layer is strictly positive. -/
theorem ref_mask2 : val_main_v17 (F := Ideal) x0 x3 x4 x5 x6 = mask (val_main_v14 x0 x3 x4 x5 x6) := by
  funext i
  rw [val_main_v17_apply, val_main_v16_apply, val_main_v15_apply, val_main_cst_0_apply, Ideal.ofBits_def,
    Ideal.ofBits_zero_f32]
  rfl

/-- Entry (p, q) of the transposed second mask times the first mask is the sum over all rows b of
    m2 (b, p) · m1 (b, q). -/
theorem ref_gram :
    val_main_v19 (F := Ideal) x0 x3 x4 x5 x6 = gram (val_main_v17 x0 x3 x4 x5 x6) (val_main_v8 x0 x3 x4) := by
  funext i
  obtain ⟨p, q, rfl⟩ : ∃ (p : Fin 256) (q : Fin 256), i = ix2 p q := ⟨i 0, i 1, eq_ix2 i⟩
  refine (val_main_v19_apply x0 x3 x4 x5 x6 (ix2 p q)).trans ?_
  refine Eq.trans ?_ (gram_apply _ _ p q).symm
  refine Finset.sum_congr rfl fun k _ => ?_
  rw [val_main_v18_apply]
  have e1 : idx_main_v18 (lidx_main_v19 (ix2 p q) k) = ix2 k p := by idx2
  have e2 : ridx_main_v19 (ix2 p q) k = ix2 k q := by idx2
  rw [e1, e2]

/-- The division of that sum by 16384. -/
theorem ref_div : val_main_v21 (F := Ideal) x0 x3 x4 x5 x6 = div16384 (val_main_v19 x0 x3 x4 x5 x6) := by
  funext i
  rw [val_main_v21_apply, val_main_v20_apply, val_main_cst_1_apply]
  rfl

/-- The second weight matrix scaled entry by entry. -/
theorem ref_scale : val_main_v22 (F := Ideal) x0 x3 x4 x5 x6 = had x5 (val_main_v21 x0 x3 x4 x5 x6) := by
  funext i
  rfl

/-- The scaled matrix times the last 360 columns of the first weight matrix. -/
theorem ref_inner :
    val_main_v24 (F := Ideal) x0 x3 x4 x5 x6 = Cert.Layer.prod (val_main_v22 x0 x3 x4 x5 x6) (val_main_v23 x3) := by
  funext i
  obtain ⟨p, q, rfl⟩ : ∃ (p : Fin 256) (q : Fin 360), i = ix2 p q := ⟨i 0, i 1, eq_ix2 i⟩
  refine (val_main_v24_apply x0 x3 x4 x5 x6 (ix2 p q)).trans ?_
  refine Eq.trans ?_ (prod_apply _ _ p q).symm
  refine Finset.sum_congr rfl fun k _ => ?_
  have e1 : lidx_main_v24 (ix2 p q) k = ix2 p k := by idx2
  have e2 : ridx_main_v24 (ix2 p q) k = ix2 k q := by idx2
  rw [e1, e2]

/-- The third weight matrix times that product. -/
theorem ref_outer :
    val_main_v25 (F := Ideal) x0 x3 x4 x5 x6 x7 = Cert.Layer.prod x7 (val_main_v24 x0 x3 x4 x5 x6) := by
  funext i
  obtain ⟨p, q, rfl⟩ : ∃ (p : Fin 360) (q : Fin 360), i = ix2 p q := ⟨i 0, i 1, eq_ix2 i⟩
  refine (val_main_v25_apply x0 x3 x4 x5 x6 x7 (ix2 p q)).trans ?_
  refine Eq.trans ?_ (prod_apply _ _ p q).symm
  refine Finset.sum_congr rfl fun k _ => ?_
  have e1 : lidx_main_v25 (ix2 p q) k = ix2 p k := by idx2
  have e2 : ridx_main_v25 (ix2 p q) k = ix2 k q := by idx2
  rw [e1, e2]

/-! ### The composed stages, as functions of the reshaped input, the transposed weights and the biases -/

theorem ref_m1 : val_main_v8 (F := Ideal) x0 x3 x4 = m1 (val_main_v0 x0) (val_main_v1 x3) x4 := by
  rw [ref_mask1, ref_h1]; rfl

theorem ref_a1 : val_main_v9 (F := Ideal) x0 x3 x4 = a1 (val_main_v0 x0) (val_main_v1 x3) x4 := by
  rw [ref_gate1, ref_m1, ref_h1]; rfl

theorem ref_h2' :
    val_main_v14 (F := Ideal) x0 x3 x4 x5 x6 = h2 (val_main_v0 x0) (val_main_v1 x3) x4 (val_main_v10 x5) x6 := by
  rw [ref_h2, ref_a1]; rfl

theorem ref_m2 :
    val_main_v17 (F := Ideal) x0 x3 x4 x5 x6 = m2 (val_main_v0 x0) (val_main_v1 x3) x4 (val_main_v10 x5) x6 := by
  rw [ref_mask2, ref_h2']; rfl

theorem ref_Gsum :
    val_main_v19 (F := Ideal) x0 x3 x4 x5 x6 = Gsum (val_main_v0 x0) (val_main_v1 x3) x4 (val_main_v10 x5) x6 := by
  rw [ref_gram, ref_m2, ref_m1]; rfl

theorem ref_G :
    val_main_v21 (F := Ideal) x0 x3 x4 x5 x6 = G (val_main_v0 x0) (val_main_v1 x3) x4 (val_main_v10 x5) x6 := by
  rw [ref_div, ref_Gsum]; rfl

/-- The reference's 360 × 360 result: ec = W3 · ((W2 ∘ G) · W1[:, 720:1080]). -/
theorem ref_ec :
    val_main_v25 (F := Ideal) x0 x3 x4 x5 x6 x7
      = ecOf x7 x5 (G (val_main_v0 x0) (val_main_v1 x3) x4 (val_main_v10 x5) x6) (val_main_v23 x3) := by
  rw [ref_outer, ref_inner, ref_scale, ref_G]; rfl

end

/-! ### The layout operations on the arguments, read at an entry -/

/-- The reshaped input: entry (b, k) is the input at (b, k / 360, k % 360). -/
theorem ref_xr_apply (x0 : (⟨S16384x3x360, .f32⟩ : BufTy).Contents (Elt Ideal)) (b : Fin 16384) (k : Fin 1080) :
    val_main_v0 (F := Ideal) x0 (ix2 b k)
      = x0 (ix3 b ⟨k.val / 360, by have := k.isLt; omega⟩ ⟨k.val % 360, Nat.mod_lt _ (by norm_num)⟩) := by
  rw [val_main_v0_apply]
  refine congrArg x0 (funext fun a => Fin.ext ?_)
  have hb := b.isLt
  have hk := k.isLt
  match a with
  | ⟨0, _⟩ => show (b.val * 1080 + k.val) / 1080 = b.val; omega
  | ⟨1, _⟩ => show (b.val * 1080 + k.val) / 360 % 3 = k.val / 360; omega
  | ⟨2, _⟩ => show (b.val * 1080 + k.val) % 360 = k.val % 360; omega

/-- The transposed first weights: entry (k, q) is W1 (q, k). -/
theorem ref_W1t_apply (x3 : (⟨S256x1080, .f32⟩ : BufTy).Contents (Elt Ideal)) (k : Fin 1080) (q : Fin 256) :
    val_main_v1 (F := Ideal) x3 (ix2 k q) = x3 (ix2 q k) := by
  rw [val_main_v1_apply]
  exact congrArg x3 (by idx2)

/-- The transposed second weights: entry (k, q) is W2 (q, k). -/
theorem ref_W2t_apply (x5 : (⟨S256x256, .f32⟩ : BufTy).Contents (Elt Ideal)) (k q : Fin 256) :
    val_main_v10 (F := Ideal) x5 (ix2 k q) = x5 (ix2 q k) := by
  rw [val_main_v10_apply]
  exact congrArg x5 (by idx2)

/-- The last 360 columns of the first weights: entry (k, r) is W1 (k, 720 + r). -/
theorem ref_W1s_apply (x3 : (⟨S256x1080, .f32⟩ : BufTy).Contents (Elt Ideal)) (k : Fin 256) (r : Fin 360) :
    val_main_v23 (F := Ideal) x3 (ix2 k r) = x3 (ix2 k ⟨720 + r.val, by have := r.isLt; omega⟩) := by
  rw [val_main_v23_apply]
  exact congrArg x3 (by idx2)

/-! ### The averaged mask product in the two arrangements that differ between the programs -/

section

variable (xr : FVec Ideal (⟨2, ![16384, 1080]⟩ : Shape) .f32) (W1t : FVec Ideal (⟨2, ![1080, 256]⟩ : Shape) .f32)
  (b1 : FVec Ideal (⟨1, ![256]⟩ : Shape) .f32) (W2t : FVec Ideal (⟨2, ![256, 256]⟩ : Shape) .f32)
  (b2 : FVec Ideal (⟨1, ![256]⟩ : Shape) .f32)

/-- G at an entry: the sum over all 16384 rows, divided by 16384. -/
theorem G_apply (p q : Fin 256) :
    G xr W1t b1 W2t b2 (ix2 p q)
      = Ideal.div (∑ b : Fin 16384, m2 xr W1t b1 W2t b2 (ix2 b p) * m1 xr W1t b1 (ix2 b q))
          (Ideal.ofBits .f32 0x46800000#32) := rfl

/-- G at an entry as the two halves' sums, each 8 blocks of 1024 rows, added and multiplied by 2⁻¹⁴. -/
theorem G_apply_parts (p q : Fin 256) :
    G xr W1t b1 W2t b2 (ix2 p q)
      = ((∑ i : Fin 8, ∑ r : Fin 1024,
            m2 xr W1t b1 W2t b2 (ix2 (⟨i.val * 1024 + r.val, by have := i.isLt; have := r.isLt; omega⟩ : Fin 16384) p)
              * m1 xr W1t b1 (ix2 (⟨i.val * 1024 + r.val, by have := i.isLt; have := r.isLt; omega⟩ : Fin 16384) q))
          + ∑ i : Fin 8, ∑ r : Fin 1024,
            m2 xr W1t b1 W2t b2 (ix2 (⟨8192 + i.val * 1024 + r.val, by have := i.isLt; have := r.isLt; omega⟩ : Fin 16384) p)
              * m1 xr W1t b1 (ix2 (⟨8192 + i.val * 1024 + r.val, by have := i.isLt; have := r.isLt; omega⟩ : Fin 16384) q))
        * Ideal.ofBits .f32 0x38800000#32 :=
  (G_apply xr W1t b1 W2t b2 p q).trans ((div_16384 _).trans (congrArg (· * Ideal.ofBits .f32 0x38800000#32)
    (sum_rows_two_parts fun b : Fin 16384 => m2 xr W1t b1 W2t b2 (ix2 b p) * m1 xr W1t b1 (ix2 b q))))

end

/-- The mask read through a widening to 32 bits and a signed conversion is the same mask. -/
theorem mask_apply_sitofp {s : Shape} (h : FVec Ideal s .f32) (i : s.Idx) :
    mask h i = FloatOps.sitofp (F := Ideal) .f32
      ((FloatOps.cmpf (F := Ideal) .ogt (h i) (0 : Ideal .f32)).setWidth 32) :=
  (sitofp_setWidth_bit _).symm

end Cert.ReferenceIdeal.RefValue

end
-- ==== Proof.LibDot.lean ====
/-
  A host matrix product with one contracted axis, read at one entry.

  Over the extended reals the host's product of an A by K matrix and a K by B matrix at entry (p, q) is the sum over k
  of l (p, k) r (k, q): there is no accumulator, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibDot

open Idealize.ShloMosaic Idealize.ShloMosaic.ValueIdx

/-- Entry (p, q) of the host's plain matrix product is the sum over the contracted axis. -/
theorem dotGeneral_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    Host.dotGeneral (F := Ideal) d prec l r (ix2 p q) = ∑ k : Fin K, l (ix2 p k) * r (ix2 k q) := by
  show FloatOps.dotGeneral d prec .single l r (ix2 p q) = _
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibDot

end
-- ==== Proof.LibBcast.lean ====
/-
  A host broadcast read at an entry, for the shapes a bias row and a per-row factor go through.

  A vector of `a` numbers placed as an `a × 1` column holds, at (p, u), the vector's entry p; a column spread over `b`
  columns holds, at (p, q), the column's entry (p, 0); a vector of `b` numbers placed as a `1 × b` row holds, at (u, q),
  the vector's entry q; a row spread over `a` rows holds, at (p, q), the row's entry (0, q); and a scalar spread over
  any shape holds that scalar everywhere. Each is the rule that a broadcast reads its operand at the named axes'
  coordinates, with 0 on the operand's unit axes.
-/
import Idealize.ShloMosaic.Lib.Pipeline.Value
import Idealize.ShloMosaic.Lib.ValueIdx

namespace Cert.LibBcast

open Idealize.ShloMosaic Idealize.ShloMosaic.ValueIdx

variable {α : Type}

/-- An `[a]` vector placed along axis 0 of `[a, 1]` reads, at `(p, u)`, the vector at `p`. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- An `[a, 1]` column spread over `[a, b]` reads, at `(p, q)`, the column at `(p, 0)`. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A `[b]` vector placed along axis 1 of `[1, b]` reads, at `(u, q)`, the vector at `q`. -/
theorem bcast_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row spread over `[a, b]` reads, at `(p, q)`, the row at `(0, q)`. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A scalar spread over any shape reads that scalar everywhere. -/
theorem bcast_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Cert.LibBcast
-- ==== Proof.KI.ChainJac.lean ====
/-
  The host stretch between the first two kernels: from the two 256 × 256 slabs of partial mask products to the
  360 × 360 matrix ec.

  The stretch takes slab 0 and slab 1 of the [2,256,256] array, drops their unit axis, adds them, multiplies every
  entry by the constant 2⁻¹⁴ (word 0x38800000), multiplies the second weight matrix by the result entry by entry,
  and applies two matrix products. When the slabs are the two halves' sums of m2ᵀ·m1 over their 8192 rows, the
  scaled sum is the average over all 16384 rows, so the stretch computes ec = W3 · ((W2 ∘ G) · W1s).
-/
import proofs.«119898_j41583873360606_2_alg».proof.Proof.Gen.KernelIdeal
import proofs.«119898_j41583873360606_2_alg».proof.Proof.GpartDef
import proofs.«119898_j41583873360606_2_alg».proof.Proof.RefStagesJac
import proofs.«119898_j41583873360606_2_alg».proof.Proof.LibDot
import proofs.«119898_j41583873360606_2_alg».proof.Proof.LibBcast
import Idealize.ShloMosaic.Lib.ValueLayout
import Idealize.ShloMosaic.Lib.Pipeline.Value

noncomputable section

namespace Cert.KernelIdeal.Chain

open Cert.KernelIdeal.Gen
open Cert.ReferenceIdeal.RefValue
open Idealize.ShloMosaic Idealize.ShloMosaic.ValueIdx

/-- The two slabs added and scaled by 2⁻¹⁴. -/
def gHost (P : FVec Ideal S2x256x256 .f32) : FVec Ideal S256x256 .f32 :=
  mulf (addf (shapeCast S256x256 (extractStridedSlice S1x256x256 ![0, 0, 0] P slices_S2x256x256_S1x256x256_0_0_0) shapeCasts_S1x256x256_S256x256)
      (shapeCast S256x256 (extractStridedSlice S1x256x256 ![1, 0, 0] P slices_S2x256x256_S1x256x256_1_0_0) shapeCasts_S1x256x256_S256x256))
    (broadcastInDim S256x256 ![] bcast_S_S256x256 (constant (F := Ideal) S_ .f32 0x38800000#32))

/-- The stretch's result: W3 · ((W2 ∘ scaled sum) · W1s), as the host operations compute it. -/
def ecHost (W3 : FVec Ideal S360x256 .f32) (W2 : FVec Ideal S256x256 .f32) (P : FVec Ideal S2x256x256 .f32)
    (W1s : FVec Ideal S256x360 .f32) : FVec Ideal S360x360 .f32 :=
  Host.dotGeneral (F := Ideal) dot_S360x256_S256x360_S360x360_1_0_0_1_n_n (some .fp32) W3
    (Host.dotGeneral (F := Ideal) dot_S256x256_S256x360_S256x360_1_0_0_1_n_n (some .fp32) (mulf W2 (gHost P)) W1s)

/-- The scaled sum at an entry: (slab 0 + slab 1) · 2⁻¹⁴. -/
theorem gHost_apply (P : FVec Ideal S2x256x256 .f32) (p q : Fin 256) :
    gHost P (ix2 p q) = (P (ix3 (0 : Fin 2) p q) + P (ix3 (1 : Fin 2) p q)) * Ideal.ofBits .f32 0x38800000#32 := by
  unfold gHost
  rw [mulf_apply, addf_apply, shapeCast_1ab_ab_apply, shapeCast_1ab_ab_apply,
    Cert.LibBcast.bcast_scalar_apply, constant_apply,
    extractStridedSlice_apply ![0, 0, 0] P slices_S2x256x256_S1x256x256_0_0_0 (ix3 (0 : Fin 1) p q) (ix3 (0 : Fin 2) p q)
      (fun a => by match a with | ⟨0, _⟩ => rfl | ⟨1, _⟩ => exact (Nat.zero_add _).symm | ⟨2, _⟩ => exact (Nat.zero_add _).symm),
    extractStridedSlice_apply ![1, 0, 0] P slices_S2x256x256_S1x256x256_1_0_0 (ix3 (0 : Fin 1) p q) (ix3 (1 : Fin 2) p q)
      (fun a => by match a with | ⟨0, _⟩ => rfl | ⟨1, _⟩ => exact (Nat.zero_add _).symm | ⟨2, _⟩ => exact (Nat.zero_add _).symm)]

section

variable (xr : FVec Ideal (⟨2, ![16384, 1080]⟩ : Shape) .f32) (W1t : FVec Ideal (⟨2, ![1080, 256]⟩ : Shape) .f32)
  (b1 : FVec Ideal (⟨1, ![256]⟩ : Shape) .f32) (W2t : FVec Ideal (⟨2, ![256, 256]⟩ : Shape) .f32)
  (b2 : FVec Ideal (⟨1, ![256]⟩ : Shape) .f32)

/-- The two halves' sums, added and scaled, are the average over all the rows. -/
theorem gHost_Gpart : gHost (Gpart xr W1t b1 W2t b2) = G xr W1t b1 W2t b2 := by
  funext i
  obtain ⟨p, q, rfl⟩ : ∃ (p q : Fin 256), i = ix2 p q := ⟨i 0, i 1, eq_ix2 i⟩
  rw [gHost_apply, G_apply_parts]
  refine congrArg (· * Ideal.ofBits .f32 0x38800000#32) ?_
  refine congrArg₂ (· + ·) ?_ ?_
  · refine Finset.sum_congr rfl fun i _ => Finset.sum_congr rfl fun r _ => ?_
    have e : (⟨(0 : ℕ) * 8192 + i.val * 1024 + r.val, by have := i.isLt; have := r.isLt; omega⟩ : Fin 16384)
        = ⟨i.val * 1024 + r.val, by have := i.isLt; have := r.isLt; omega⟩ := Fin.ext (by show 0 * 8192 + i.val * 1024 + r.val = i.val * 1024 + r.val; omega)
    show m2 xr W1t b1 W2t b2 (ix2 ⟨(0 : ℕ) * 8192 + i.val * 1024 + r.val, _⟩ p) * m1 xr W1t b1 (ix2 ⟨(0 : ℕ) * 8192 + i.val * 1024 + r.val, _⟩ q) = _
    rw [e]
  · refine Finset.sum_congr rfl fun i _ => Finset.sum_congr rfl fun r _ => ?_
    have e : (⟨(1 : ℕ) * 8192 + i.val * 1024 + r.val, by have := i.isLt; have := r.isLt; omega⟩ : Fin 16384)
        = ⟨8192 + i.val * 1024 + r.val, by have := i.isLt; have := r.isLt; omega⟩ := Fin.ext (by show 1 * 8192 + i.val * 1024 + r.val = 8192 + i.val * 1024 + r.val; omega)
    show m2 xr W1t b1 W2t b2 (ix2 ⟨(1 : ℕ) * 8192 + i.val * 1024 + r.val, _⟩ p) * m1 xr W1t b1 (ix2 ⟨(1 : ℕ) * 8192 + i.val * 1024 + r.val, _⟩ q) = _
    rw [e]

/-- So the stretch, run on the two halves' sums, computes ec. -/
theorem ecHost_Gpart (W3 : FVec Ideal S360x256 .f32) (W2 : FVec Ideal S256x256 .f32) (W1s : FVec Ideal S256x360 .f32) :
    ecHost W3 W2 (Gpart xr W1t b1 W2t b2) W1s = ecOf W3 W2 (G xr W1t b1 W2t b2) W1s := by
  funext i
  obtain ⟨p, q, rfl⟩ : ∃ (p q : Fin 360), i = ix2 p q := ⟨i 0, i 1, eq_ix2 i⟩
  unfold ecHost
  rw [gHost_Gpart]
  rw [Cert.LibDot.dotGeneral_ix2 dot_S360x256_S256x360_S360x360_1_0_0_1_n_n rfl rfl (fun _ _ => rfl) (fun _ _ => rfl) (fun _ _ => rfl) (fun _ _ => rfl) (some .fp32) W3 _ p q]
  show _ = ∑ k : Fin 256, W3 (ix2 p k) * Cert.Layer.prod (had W2 (G xr W1t b1 W2t b2)) W1s (ix2 k q)
  refine Finset.sum_congr rfl fun k _ => ?_
  rw [Cert.LibDot.dotGeneral_ix2 dot_S256x256_S256x360_S256x360_1_0_0_1_n_n rfl rfl (fun _ _ => rfl) (fun _ _ => rfl) (fun _ _ => rfl) (fun _ _ => rfl) (some .fp32) _ W1s k q]
  rfl

end

end Cert.KernelIdeal.Chain

end
-- ==== Proof.RefStagesNpi.lean ====
/-
  The reference from the 360 × 360 matrix to the row z₁ and its copy on every row. The matrix is laid out as one row
  of 129600 entries, multiplied by the transposed first projection weights, shifted by a bias and clamped below at
  zero; a second plain layer gives z₁, and z₁ is repeated on each of the 16384 rows. The sum over the 129600 flattened
  positions is also given as the double sum over the matrix's rows and columns.
-/
import proofs.«119898_j41583873360606_2_alg».proof.Proof.RefStagesJac

noncomputable section

namespace Cert.ReferenceIdeal.RefValue

open Cert.ReferenceIdeal Cert.ReferenceIdeal.Read Idealize.ShloMosaic Idealize.ShloMosaic.ValueIdx

/-- Two index functions into a matrix agree when both coordinates agree. -/
local macro "idx2" : tactic =>
  `(tactic| exact funext fun a => Fin.ext (by match a with | ⟨0, _⟩ => rfl | ⟨1, _⟩ => rfl))
/-- Two index functions into a vector agree when the coordinate agrees. -/
local macro "idx1" : tactic =>
  `(tactic| exact funext fun a => Fin.ext (by match a with | ⟨0, _⟩ => rfl))

/-! ### The clamped layer and the flattening at an entry -/

theorem relu_affine_apply {A K B : ℕ} (a : FVec Ideal (⟨2, ![A, K]⟩ : Shape) .f32)
    (w : FVec Ideal (⟨2, ![K, B]⟩ : Shape) .f32) (b : FVec Ideal (⟨1, ![B]⟩ : Shape) .f32) (p : Fin A) (q : Fin B) :
    relu (affine a w b) (ix2 p q) = max ((∑ k : Fin K, a (ix2 p k) * w (ix2 k q)) + b (ix1 q)) 0 := rfl

/-- Position q · 360 + r of the flattened matrix is the matrix's entry (q, r). -/
theorem flat360_apply (e : FVec Ideal (⟨2, ![360, 360]⟩ : Shape) .f32) (z : Fin 1) (q r : Fin 360) :
    flat360 e (ix2 z (⟨q.val * 360 + r.val, by have := q.isLt; have := r.isLt; omega⟩ : Fin 129600)) = e (ix2 q r) := by
  refine congrArg e (funext fun a => Fin.ext ?_)
  have hq := q.isLt
  have hr := r.isLt
  match a with
  | ⟨0, _⟩ => show (q.val * 360 + r.val) / 360 = q.val; omega
  | ⟨1, _⟩ => show (q.val * 360 + r.val) % 360 = r.val; omega

/-- The clamped layer on the flattened matrix, with the 129600 positions summed row by row of the matrix and the
    weights read from the untransposed array: entry p is
    max ((∑ q r, e (q, r) · W (p, q · 360 + r)) + b p) 0. -/
theorem uOf_apply_split (e : FVec Ideal (⟨2, ![360, 360]⟩ : Shape) .f32)
    (Wt : FVec Ideal (⟨2, ![129600, 512]⟩ : Shape) .f32) (W : FVec Ideal (⟨2, ![512, 129600]⟩ : Shape) .f32)
    (hW : ∀ (k : Fin 129600) (p : Fin 512), Wt (ix2 k p) = W (ix2 p k))
    (b : FVec Ideal (⟨1, ![512]⟩ : Shape) .f32) (z : Fin 1) (p : Fin 512) :
    uOf (flat360 e) Wt b (ix2 z p)
      = max ((∑ q : Fin 360, ∑ r : Fin 360,
          e (ix2 q r) * W (ix2 p (⟨q.val * 360 + r.val, by have := q.isLt; have := r.isLt; omega⟩ : Fin 129600)))
          + b (ix1 p)) 0 := by
  refine (relu_affine_apply (flat360 e) Wt b z p).trans ?_
  refine congrArg (fun s => max (s + b (ix1 p)) 0) ?_
  refine (sum_flat_360 fun k : Fin 129600 => flat360 e (ix2 z k) * Wt (ix2 k p)).trans ?_
  refine Finset.sum_congr rfl fun q _ => Finset.sum_congr rfl fun r _ => ?_
  exact congrArg₂ (· * ·) (flat360_apply e z q r) (hW _ p)

section

variable (x0 : (⟨S16384x3x360, .f32⟩ : BufTy).Contents (Elt Ideal)) (x3 : (⟨S256x1080, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S360x256, .f32⟩ : BufTy).Contents (Elt Ideal))
  (x9 : (⟨S512x129600, .f32⟩ : BufTy).Contents (Elt Ideal)) (x10 : (⟨S512, .f32⟩ : BufTy).Contents (Elt Ideal))
  (x11 : (⟨S128x512, .f32⟩ : BufTy).Contents (Elt Ideal)) (x12 : (⟨S128, .f32⟩ : BufTy).Contents (Elt Ideal))

/-- The 360 × 360 matrix laid out as one row. -/
theorem ref_flat : val_main_v26 (F := Ideal) x0 x3 x4 x5 x6 x7 = flat360 (val_main_v25 x0 x3 x4 x5 x6 x7) := by
  funext i
  obtain ⟨z, k, rfl⟩ : ∃ (z : Fin 1) (k : Fin 129600), i = ix2 z k := ⟨i 0, i 1, eq_ix2 i⟩
  rw [val_main_v26_apply]
  refine congrArg (val_main_v25 x0 x3 x4 x5 x6 x7) (funext fun a => Fin.ext ?_)
  have hz := z.isLt
  match a with
  | ⟨0, _⟩ => show (z.val * 129600 + k.val) / 360 = k.val / 360; omega
  | ⟨1, _⟩ => show (z.val * 129600 + k.val) % 360 = k.val % 360; omega

/-- The flattened matrix times the transposed first projection weights, plus the bias. -/
theorem ref_proj1 :
    val_main_v30 (F := Ideal) x0 x3 x4 x5 x6 x7 x9 x10
      = affine (val_main_v26 x0 x3 x4 x5 x6 x7) (val_main_v27 x9) x10 := by
  funext i
  obtain ⟨z, p, rfl⟩ : ∃ (z : Fin 1) (p : Fin 512), i = ix2 z p := ⟨i 0, i 1, eq_ix2 i⟩
  have e3 : idx_main_v29 (ix2 z p) = ix1 p := by idx1
  rw [val_main_v30_apply, Ideal.addf_def, val_main_v29_apply, e3, val_main_v28_apply]
  refine Eq.trans ?_ (affine_apply _ _ _ z p).symm
  refine congrArg₂ (· + ·) (Finset.sum_congr rfl fun k _ => ?_) rfl
  have e1 : lidx_main_v28 (ix2 z p) k = ix2 z k := by idx2
  have e2 : ridx_main_v28 (ix2 z p) k = ix2 k p := by idx2
  rw [e1, e2]

/-- Clamped below at zero. -/
theorem ref_clamp1 :
    val_main_v31 (F := Ideal) x0 x3 x4 x5 x6 x7 x9 x10 = relu (val_main_v30 x0 x3 x4 x5 x6 x7 x9 x10) := by
  funext i
  rw [val_main_v31_apply, val_main_call0_v0_apply, val_main_call0_cst_apply, Ideal.ofBits_def,
    Ideal.ofBits_zero_f32]
  rfl

/-- The second projection layer: a plain product plus the bias. -/
theorem ref_proj2 :
    val_main_v35 (F := Ideal) x0 x3 x4 x5 x6 x7 x9 x10 x11 x12
      = affine (val_main_v31 x0 x3 x4 x5 x6 x7 x9 x10) (val_main_v32 x11) x12 := by
  funext i
  obtain ⟨z, q, rfl⟩ : ∃ (z : Fin 1) (q : Fin 128), i = ix2 z q := ⟨i 0, i 1, eq_ix2 i⟩
  have e3 : idx_main_v34 (ix2 z q) = ix1 q := by idx1
  rw [val_main_v35_apply, Ideal.addf_def, val_main_v34_apply, e3, val_main_v33_apply]
  refine Eq.trans ?_ (affine_apply _ _ _ z q).symm
  refine congrArg₂ (· + ·) (Finset.sum_congr rfl fun k _ => ?_) rfl
  have e1 : lidx_main_v33 (ix2 z q) k = ix2 z k := by idx2
  have e2 : ridx_main_v33 (ix2 z q) k = ix2 k q := by idx2
  rw [e1, e2]

/-- The one row repeated on every one of the 16384 rows. -/
theorem ref_rows :
    val_main_v38 (F := Ideal) x0 x3 x4 x5 x6 x7 x9 x10 x11 x12
      = rows (val_main_v35 x0 x3 x4 x5 x6 x7 x9 x10 x11 x12) := by
  funext i
  obtain ⟨b, q, rfl⟩ : ∃ (b : Fin 16384) (q : Fin 128), i = ix2 b q := ⟨i 0, i 1, eq_ix2 i⟩
  rw [val_main_v38_apply, val_main_v37_apply, val_main_v36_apply]
  refine Eq.trans ?_ (rows_apply _ b q).symm
  refine congrArg (val_main_v35 x0 x3 x4 x5 x6 x7 x9 x10 x11 x12) (funext fun a => Fin.ext ?_)
  have hq := q.isLt
  match a with
  | ⟨0, _⟩ => rfl
  | ⟨1, _⟩ =>
    show ((((0 : ℕ) * 1 + 0) * 1 + 0) * 128 + (b.val * 128 + q.val) % 128) % 128 = q.val
    omega

/-! ### The composed stages -/

/-- u = relu (ecflat · Wp1t + bp1) with ecflat the flattened 360 × 360 result. -/
theorem ref_u :
    val_main_v31 (F := Ideal) x0 x3 x4 x5 x6 x7 x9 x10
      = uOf (flat360 (val_main_v25 x0 x3 x4 x5 x6 x7)) (val_main_v27 x9) x10 := by
  rw [ref_clamp1, ref_proj1, ref_flat]; rfl

/-- z₁ = u · Wp2t + bp2. -/
theorem ref_z1 :
    val_main_v35 (F := Ideal) x0 x3 x4 x5 x6 x7 x9 x10 x11 x12
      = z1Of (uOf (flat360 (val_main_v25 x0 x3 x4 x5 x6 x7)) (val_main_v27 x9) x10) (val_main_v32 x11) x12 := by
  rw [ref_proj2, ref_u]; rfl

/-- The reference's first result: z₁ on every row. -/
theorem ref_z_npi :
    val_main_v38 (F := Ideal) x0 x3 x4 x5 x6 x7 x9 x10 x11 x12
      = rows (z1Of (uOf (flat360 (val_main_v25 x0 x3 x4 x5 x6 x7)) (val_main_v27 x9) x10) (val_main_v32 x11) x12) := by
  rw [ref_rows, ref_z1]

end

/-! ### The transposed projection weights at an entry -/

/-- The transposed first projection weights: entry (k, p) is Wp1 (p, k). -/
theorem ref_Wp1t_apply (x9 : (⟨S512x129600, .f32⟩ : BufTy).Contents (Elt Ideal)) (k : Fin 129600) (p : Fin 512) :
    val_main_v27 (F := Ideal) x9 (ix2 k p) = x9 (ix2 p k) := by
  rw [val_main_v27_apply]
  exact congrArg x9 (by idx2)

/-- The transposed second projection weights: entry (k, q) is Wp2 (q, k). -/
theorem ref_Wp2t_apply (x11 : (⟨S128x512, .f32⟩ : BufTy).Contents (Elt Ideal)) (k : Fin 512) (q : Fin 128) :
    val_main_v32 (F := Ideal) x11 (ix2 k q) = x11 (ix2 q k) := by
  rw [val_main_v32_apply]
  exact congrArg x11 (by idx2)

/-- The reference's u at entry p as the double sum over the matrix's rows and columns, with the weights read from the
    untransposed argument. -/
theorem ref_u_apply_split (x9 : (⟨S512x129600, .f32⟩ : BufTy).Contents (Elt Ideal))
    (e : FVec Ideal (⟨2, ![360, 360]⟩ : Shape) .f32) (b : FVec Ideal (⟨1, ![512]⟩ : Shape) .f32) (z : Fin 1) (p : Fin 512) :
    uOf (flat360 e) (val_main_v27 (F := Ideal) x9) b (ix2 z p)
      = max ((∑ q : Fin 360, ∑ r : Fin 360,
          e (ix2 q r) * x9 (ix2 p (⟨q.val * 360 + r.val, by have := q.isLt; have := r.isLt; omega⟩ : Fin 129600)))
          + b (ix1 p)) 0 :=
  uOf_apply_split e (val_main_v27 (F := Ideal) x9) x9 (fun k p => ref_Wp1t_apply x9 k p) b z p

end Cert.ReferenceIdeal.RefValue

end
-- ==== Proof.KI.ChainNpi.lean ====
/-
  The host stretch between the last two kernels' inputs: from the column u of 512 numbers to the row z₁.

  The stretch turns the [512,1] column into a [1,512] row, multiplies it by the transposed second projection weights
  and adds the bias as a row. When the column is max ((∑ q r, Wp (p, q, r) · E (0, q, r)) + B (p, 0)) 0 with E the
  360 × 360 matrix with a unit axis in front, Wp the first projection weights reshaped to [512,360,360] and B the bias
  as a column, the column's entry p is the clamped layer of the flattened matrix at p — the 129600 positions summed
  row by row of the matrix — so the stretch computes z₁ = relu (flat e · Wp1ᵀ + bp1) · Wp2ᵀ + bp2.
-/
import proofs.«119898_j41583873360606_2_alg».proof.Proof.Gen.KernelIdeal
import proofs.«119898_j41583873360606_2_alg».proof.Proof.KI.Region1Value
import proofs.«119898_j41583873360606_2_alg».proof.Proof.RefStagesNpi
import proofs.«119898_j41583873360606_2_alg».proof.Proof.LibDot
import proofs.«119898_j41583873360606_2_alg».proof.Proof.LibBcast
import proofs.«119898_j41583873360606_2_alg».proof.Proof.LibKeepdims
import Idealize.ShloMosaic.Lib.ValueLayout
import Idealize.ShloMosaic.Lib.Pipeline.Value

noncomputable section

namespace Cert.KernelIdeal.Chain

open Cert.KernelIdeal.Gen
open Cert.ReferenceIdeal.RefValue
open Idealize.ShloMosaic Idealize.ShloMosaic.ValueIdx

/-- The stretch's result from the column: (column as a row) · Wp2ᵀ + bp2 as a row. -/
def z1Host (U : FVec Ideal S512x1 .f32) (a11 : FVec Ideal S128x512 .f32) (a12 : FVec Ideal S128 .f32) : FVec Ideal S1x128 .f32 :=
  addf (Host.dotGeneral (F := Ideal) dot_S1x512_S512x128_S1x128_1_0_0_1_n_n (some .fp32)
      (shapeCast S1x512 U shapeCasts_S512x1_S1x512)
      (transpose S512x128 [1, 0] a11 transposes_S128x512_S512x128_1_0))
    (broadcastInDim S1x128 ![1] bcast_S128_S1x128_1 a12)

/-- A [512,1] column cast to a [1,512] row reads, at (z, k), the column at (k, 0). -/
theorem shapeCast_col_row (U : FVec Ideal S512x1 .f32) (z : Fin 1) (k : Fin 512) :
    shapeCast S1x512 U shapeCasts_S512x1_S1x512 (ix2 z k) = U (ix2 k (0 : Fin 1)) :=
  shapeCast_apply U shapeCasts_S512x1_S1x512 _ _ (by
    have hz : z.val = 0 := by omega
    rw [Shape.rowMajor_val_two, Shape.rowMajor_val_two]
    show k.val * 1 + 0 = z.val * 512 + k.val
    rw [hz]; omega)

/-- The [512,129600] weights cast to [512,360,360] read, at (p, q, r), the weights at (p, q·360 + r). -/
theorem shapeCast_Wp (a9 : FVec Ideal S512x129600 .f32) (p : Fin 512) (q r : Fin 360) :
    shapeCast S512x360x360 a9 shapeCasts_S512x129600_S512x360x360 (ix3 p q r)
      = a9 (ix2 p (⟨q.val * 360 + r.val, by have := q.isLt; have := r.isLt; omega⟩ : Fin 129600)) :=
  shapeCast_apply a9 shapeCasts_S512x129600_S512x360x360 _ _ (by
    rw [Shape.rowMajor_val_two, Shape.rowMajor_val_three]
    show p.val * 129600 + (q.val * 360 + r.val) = (p.val * 360 + q.val) * 360 + r.val
    omega)

/-- The column the middle kernel leaves, at entry p, is the clamped layer of the flattened matrix at p. -/
theorem U1_eq_uOf (e : FVec Ideal S360x360 .f32) (a9 : FVec Ideal S512x129600 .f32) (a10 : FVec Ideal S512 .f32)
    (z : Fin 1) (p : Fin 512) :
    Cert.KernelIdeal.R1.U1 (shapeCast S1x360x360 e shapeCasts_S360x360_S1x360x360)
        (shapeCast S512x360x360 a9 shapeCasts_S512x129600_S512x360x360)
        (shapeCast S512x1 a10 shapeCasts_S512_S512x1) (ix2 p (0 : Fin 1))
      = uOf (flat360 e) (Cert.ReferenceIdeal.Read.val_main_v27 (F := Ideal) a9) a10 (ix2 z p) := by
  rw [Cert.KernelIdeal.R1.U1_ix2, ref_u_apply_split, Cert.LibKeepdims.shapeCast_a_a1_apply, Ideal.ofBits_zero_f32]
  refine congrArg (fun s => max (s + a10 (ix1 p)) 0) ?_
  refine Finset.sum_congr rfl fun q _ => Finset.sum_congr rfl fun r _ => ?_
  rw [shapeCast_Wp, shapeCast_ab_1ab_apply, mul_comm]

/-- So the stretch, run on that column, computes z₁. -/
theorem z1Host_U1 (e : FVec Ideal S360x360 .f32) (a9 : FVec Ideal S512x129600 .f32) (a10 : FVec Ideal S512 .f32)
    (a11 : FVec Ideal S128x512 .f32) (a12 : FVec Ideal S128 .f32) :
    z1Host (Cert.KernelIdeal.R1.U1 (shapeCast S1x360x360 e shapeCasts_S360x360_S1x360x360)
        (shapeCast S512x360x360 a9 shapeCasts_S512x129600_S512x360x360)
        (shapeCast S512x1 a10 shapeCasts_S512_S512x1)) a11 a12
      = z1Of (uOf (flat360 e) (Cert.ReferenceIdeal.Read.val_main_v27 (F := Ideal) a9) a10)
          (Cert.ReferenceIdeal.Read.val_main_v32 (F := Ideal) a11) a12 := by
  funext i
  obtain ⟨z, q, rfl⟩ : ∃ (z : Fin 1) (q : Fin 128), i = ix2 z q := ⟨i 0, i 1, eq_ix2 i⟩
  unfold z1Host
  rw [addf_apply, Cert.LibDot.dotGeneral_ix2 dot_S1x512_S512x128_S1x128_1_0_0_1_n_n rfl rfl (fun _ _ => rfl) (fun _ _ => rfl) (fun _ _ => rfl) (fun _ _ => rfl) (some .fp32) _ _ z q,
    Cert.LibBcast.bcast_b_1b_apply]
  show _ = (∑ k : Fin 512, uOf (flat360 e) (Cert.ReferenceIdeal.Read.val_main_v27 (F := Ideal) a9) a10 (ix2 z k)
      * Cert.ReferenceIdeal.Read.val_main_v32 (F := Ideal) a11 (ix2 k q)) + a12 (ix1 q)
  refine congrArg (· + a12 (ix1 q)) ?_
  refine Finset.sum_congr rfl fun k _ => ?_
  rw [shapeCast_col_row, U1_eq_uOf e a9 a10 z k]
  rfl

end Cert.KernelIdeal.Chain

end
-- ==== Proof.KI.ChainHost.lean ====
/-
  What the host stretches of @main leave in the buffers the kernels read, over the extended reals, as the host
  operations' terms of the launch arrays.

  Stretch 0 reshapes the first argument to 16384 × 1080, transposes the first two weight matrices and cuts the last
  360 columns of the first. Stretch 1 turns the first kernel's two slabs into the 360 × 360 matrix (the composite
  `ecHost`) and reshapes it, the first projection weights and their bias for the second kernel. Stretch 2 turns the
  second kernel's column into the row z₁ (the composite `z1Host`) and transposes the four remaining weight matrices.
  A buffer a stretch does not write, and a kernel does not change, keeps its contents.
-/
import proofs.«119898_j41583873360606_2_alg».proof.Proof.Gen.KernelIdeal.Regions
import proofs.«119898_j41583873360606_2_alg».proof.Proof.Gen.ReferenceIdeal.Read
import proofs.«119898_j41583873360606_2_alg».proof.Proof.KI.ChainJac
import proofs.«119898_j41583873360606_2_alg».proof.Proof.KI.ChainNpi
import Idealize.ShloMosaic.Lib.StableHlo.Run

set_option maxRecDepth 16384

noncomputable section

namespace Cert.KernelIdeal.Chain

open Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (outs : Outs (F := Ideal)) (c : Dev nD)

/-! ## Arguments are never written -/

theorem V1_arg4 : V1 m c main_arg4 = V0 m c main_arg4 := V1_of m c main_arg4 (by decide)
theorem V1_arg6 : V1 m c main_arg6 = V0 m c main_arg6 := V1_of m c main_arg6 (by decide)
theorem V2_arg3 : V2 m outs c main_arg3 = V0 m c main_arg3 :=
  (V2_of m outs c main_arg3 (by decide)).trans <| (V1_of m c main_arg3 (by decide))
theorem V2_arg5 : V2 m outs c main_arg5 = V0 m c main_arg5 :=
  (V2_of m outs c main_arg5 (by decide)).trans <| (V1_of m c main_arg5 (by decide))
theorem V2_arg7 : V2 m outs c main_arg7 = V0 m c main_arg7 :=
  (V2_of m outs c main_arg7 (by decide)).trans <| (V1_of m c main_arg7 (by decide))
theorem V2_arg9 : V2 m outs c main_arg9 = V0 m c main_arg9 :=
  (V2_of m outs c main_arg9 (by decide)).trans <| (V1_of m c main_arg9 (by decide))
theorem V2_arg10 : V2 m outs c main_arg10 = V0 m c main_arg10 :=
  (V2_of m outs c main_arg10 (by decide)).trans <| (V1_of m c main_arg10 (by decide))
theorem V4_arg11 : V4 m outs c main_arg11 = V0 m c main_arg11 :=
  (V4_of m outs c main_arg11 (by decide)).trans <| (V3_of m outs c main_arg11 (by decide)).trans <| (V2_of m outs c main_arg11 (by decide)).trans <| (V1_of m c main_arg11 (by decide))
theorem V4_arg12 : V4 m outs c main_arg12 = V0 m c main_arg12 :=
  (V4_of m outs c main_arg12 (by decide)).trans <| (V3_of m outs c main_arg12 (by decide)).trans <| (V2_of m outs c main_arg12 (by decide)).trans <| (V1_of m c main_arg12 (by decide))
theorem V4_arg13 : V4 m outs c main_arg13 = V0 m c main_arg13 :=
  (V4_of m outs c main_arg13 (by decide)).trans <| (V3_of m outs c main_arg13 (by decide)).trans <| (V2_of m outs c main_arg13 (by decide)).trans <| (V1_of m c main_arg13 (by decide))
theorem V4_arg15 : V4 m outs c main_arg15 = V0 m c main_arg15 :=
  (V4_of m outs c main_arg15 (by decide)).trans <| (V3_of m outs c main_arg15 (by decide)).trans <| (V2_of m outs c main_arg15 (by decide)).trans <| (V1_of m c main_arg15 (by decide))
theorem V4_arg17 : V4 m outs c main_arg17 = V0 m c main_arg17 :=
  (V4_of m outs c main_arg17 (by decide)).trans <| (V3_of m outs c main_arg17 (by decide)).trans <| (V2_of m outs c main_arg17 (by decide)).trans <| (V1_of m c main_arg17 (by decide))
theorem V4_arg19 : V4 m outs c main_arg19 = V0 m c main_arg19 :=
  (V4_of m outs c main_arg19 (by decide)).trans <| (V3_of m outs c main_arg19 (by decide)).trans <| (V2_of m outs c main_arg19 (by decide)).trans <| (V1_of m c main_arg19 (by decide))
theorem V5_arg2 : V5 m outs c main_arg2 = V0 m c main_arg2 :=
  (V5_of m outs c main_arg2 (by decide)).trans <| (V4_of m outs c main_arg2 (by decide)).trans <| (V3_of m outs c main_arg2 (by decide)).trans <| (V2_of m outs c main_arg2 (by decide)).trans <| (V1_of m c main_arg2 (by decide))
theorem V5_arg14 : V5 m outs c main_arg14 = V0 m c main_arg14 :=
  (V5_of m outs c main_arg14 (by decide)).trans <| (V4_of m outs c main_arg14 (by decide)).trans <| (V3_of m outs c main_arg14 (by decide)).trans <| (V2_of m outs c main_arg14 (by decide)).trans <| (V1_of m c main_arg14 (by decide))
theorem V5_arg16 : V5 m outs c main_arg16 = V0 m c main_arg16 :=
  (V5_of m outs c main_arg16 (by decide)).trans <| (V4_of m outs c main_arg16 (by decide)).trans <| (V3_of m outs c main_arg16 (by decide)).trans <| (V2_of m outs c main_arg16 (by decide)).trans <| (V1_of m c main_arg16 (by decide))
theorem V5_arg18 : V5 m outs c main_arg18 = V0 m c main_arg18 :=
  (V5_of m outs c main_arg18 (by decide)).trans <| (V4_of m outs c main_arg18 (by decide)).trans <| (V3_of m outs c main_arg18 (by decide)).trans <| (V2_of m outs c main_arg18 (by decide)).trans <| (V1_of m c main_arg18 (by decide))
theorem V5_arg20 : V5 m outs c main_arg20 = V0 m c main_arg20 :=
  (V5_of m outs c main_arg20 (by decide)).trans <| (V4_of m outs c main_arg20 (by decide)).trans <| (V3_of m outs c main_arg20 (by decide)).trans <| (V2_of m outs c main_arg20 (by decide)).trans <| (V1_of m c main_arg20 (by decide))

/-! ## Stretch 0 -/

theorem V1_v0 : V1 m c main_v0 = Cert.ReferenceIdeal.Read.val_main_v0 (F := Ideal) (V0 m c main_arg0) := by
  show StableHlo.after hostOps0 (V0 m c) main_v0 = _
  after_results <;> rfl
theorem V1_v1 : V1 m c main_v1 = Cert.ReferenceIdeal.Read.val_main_v1 (F := Ideal) (V0 m c main_arg3) := by
  show StableHlo.after hostOps0 (V0 m c) main_v1 = _
  after_results <;> rfl
theorem V1_v2 : V1 m c main_v2 = Cert.ReferenceIdeal.Read.val_main_v10 (F := Ideal) (V0 m c main_arg5) := by
  show StableHlo.after hostOps0 (V0 m c) main_v2 = _
  after_results <;> rfl
theorem V1_v3 : V1 m c main_v3 = Cert.ReferenceIdeal.Read.val_main_v23 (F := Ideal) (V0 m c main_arg3) := by
  show StableHlo.after hostOps0 (V0 m c) main_v3 = _
  after_results <;> rfl

/-! ## Stretch 1 -/

theorem V2_v4 : V2 m outs c main_v4 = outs 2 main_v4 c := by
  show Function.update (V1 m c) main_v4 (outs 2 main_v4 c) main_v4 = _
  rw [Function.update_self]
theorem V2_v3 : V2 m outs c main_v3 = Cert.ReferenceIdeal.Read.val_main_v23 (F := Ideal) (V0 m c main_arg3) :=
  (V2_of m outs c main_v3 (by decide)).trans (V1_v3 m c)

/-- The 360 × 360 matrix after stretch 1: the composite of the stretch's operations on what the first kernel left. -/
theorem V3_v14 : V3 m outs c main_v14
    = ecHost (V0 m c main_arg7) (V0 m c main_arg5) (outs 2 main_v4 c) (Cert.ReferenceIdeal.Read.val_main_v23 (F := Ideal) (V0 m c main_arg3)) := by
  show StableHlo.after hostOps1 (V2 m outs c) main_v14 = _
  after_results
  rw [V2_arg7 m outs c, V2_arg5 m outs c, V2_v4 m outs c, V2_v3 m outs c]
  rfl
theorem V3_v15 : V3 m outs c main_v15
    = shapeCast S1x360x360
        (ecHost (V0 m c main_arg7) (V0 m c main_arg5) (outs 2 main_v4 c) (Cert.ReferenceIdeal.Read.val_main_v23 (F := Ideal) (V0 m c main_arg3)))
        shapeCasts_S360x360_S1x360x360 := by
  show StableHlo.after hostOps1 (V2 m outs c) main_v15 = _
  after_results
  rw [V2_arg7 m outs c, V2_arg5 m outs c, V2_v4 m outs c, V2_v3 m outs c]
  rfl
theorem V3_v16 : V3 m outs c main_v16 = shapeCast S512x360x360 (V0 m c main_arg9) shapeCasts_S512x129600_S512x360x360 := by
  show StableHlo.after hostOps1 (V2 m outs c) main_v16 = _
  after_results
  rw [V2_arg9 m outs c]
  rfl
theorem V3_v17 : V3 m outs c main_v17 = shapeCast S512x1 (V0 m c main_arg10) shapeCasts_S512_S512x1 := by
  show StableHlo.after hostOps1 (V2 m outs c) main_v17 = _
  after_results
  rw [V2_arg10 m outs c]
  rfl

/-! ## Stretch 2 -/

theorem V4_v18 : V4 m outs c main_v18 = outs 4 main_v18 c := by
  show Function.update (V3 m outs c) main_v18 (outs 4 main_v18 c) main_v18 = _
  rw [Function.update_self]

/-- The row after stretch 2: the composite of the stretch's operations on what the second kernel left. -/
theorem V5_v23 : V5 m outs c main_v23 = z1Host (outs 4 main_v18 c) (V0 m c main_arg11) (V0 m c main_arg12) := by
  show StableHlo.after hostOps2 (V4 m outs c) main_v23 = _
  after_results
  rw [V4_v18 m outs c, V4_arg11 m outs c, V4_arg12 m outs c]
  rfl
theorem V5_v24 : V5 m outs c main_v24 = Cert.ReferenceIdeal.Read.val_main_v39 (F := Ideal) (V0 m c main_arg13) := by
  show StableHlo.after hostOps2 (V4 m outs c) main_v24 = _
  after_results
  rw [V4_arg13 m outs c]
  rfl
theorem V5_v25 : V5 m outs c main_v25 = Cert.ReferenceIdeal.Read.val_main_v45 (F := Ideal) (V0 m c main_arg15) := by
  show StableHlo.after hostOps2 (V4 m outs c) main_v25 = _
  after_results
  rw [V4_arg15 m outs c]
  rfl
theorem V5_v26 : V5 m outs c main_v26 = Cert.ReferenceIdeal.Read.val_main_v56 (F := Ideal) (V0 m c main_arg17) := by
  show StableHlo.after hostOps2 (V4 m outs c) main_v26 = _
  after_results
  rw [V4_arg17 m outs c]
  rfl
theorem V5_v27 : V5 m outs c main_v27 = Cert.ReferenceIdeal.Read.val_main_v62 (F := Ideal) (V0 m c main_arg19) := by
  show StableHlo.after hostOps2 (V4 m outs c) main_v27 = _
  after_results
  rw [V4_arg19 m outs c]
  rfl

/-! ## What the last kernel leaves is what the run ends with -/

theorem V6_v14 : V6 m outs c main_v14 = V3 m outs c main_v14 :=
  (V6_of m outs c main_v14 (by decide)).trans <| (V5_of m outs c main_v14 (by decide)).trans (V4_of m outs c main_v14 (by decide))

theorem V6_v28_3 : V6 m outs c main_v28_3 = outs 6 main_v28_3 c := by
  unfold V6
  rw [Function.update_self]
theorem V6_v28_2 : V6 m outs c main_v28_2 = outs 6 main_v28_2 c := by
  unfold V6
  rw [Function.update_of_ne (StableHlo.devRef_ne_of_ne (by decide) : (Proc.devRef .tc main_v28_2 : DevRef τ sig) ≠ Proc.devRef .tc main_v28_3),
    Function.update_self]
theorem V6_v28_1 : V6 m outs c main_v28_1 = outs 6 main_v28_1 c := by
  unfold V6
  rw [Function.update_of_ne (StableHlo.devRef_ne_of_ne (by decide) : (Proc.devRef .tc main_v28_1 : DevRef τ sig) ≠ Proc.devRef .tc main_v28_3),
    Function.update_of_ne (StableHlo.devRef_ne_of_ne (by decide) : (Proc.devRef .tc main_v28_1 : DevRef τ sig) ≠ Proc.devRef .tc main_v28_2),
    Function.update_self]
theorem V6_v28_0 : V6 m outs c main_v28_0 = outs 6 main_v28_0 c := by
  unfold V6
  rw [Function.update_of_ne (StableHlo.devRef_ne_of_ne (by decide) : (Proc.devRef .tc main_v28_0 : DevRef τ sig) ≠ Proc.devRef .tc main_v28_3),
    Function.update_of_ne (StableHlo.devRef_ne_of_ne (by decide) : (Proc.devRef .tc main_v28_0 : DevRef τ sig) ≠ Proc.devRef .tc main_v28_2),
    Function.update_of_ne (StableHlo.devRef_ne_of_ne (by decide) : (Proc.devRef .tc main_v28_0 : DevRef τ sig) ≠ Proc.devRef .tc main_v28_1),
    Function.update_self]

end Cert.KernelIdeal.Chain

end
-- ==== Proof.KI.ChainRecon.lean ====
/-
  The last kernel's four results, as functions of its inputs, are the named stages of the network: the row on every
  row is the stage that repeats a row; two layers are an affine map, a clamp below at zero and an affine map; the row
  plus the two-layer product, each row over the larger of its norm and the literal, is the normalised sum (a sum
  started from zero is the sum); and two layers of that are the reconstruction.
-/
import proofs.«119898_j41583873360606_2_alg».proof.Proof.KI.Region2Fun
import proofs.«119898_j41583873360606_2_alg».proof.Proof.RefStagesDefs

noncomputable section

namespace Cert.KernelIdeal.Chain

open Cert.KernelIdeal.R2
open Cert.ReferenceIdeal.RefValue
open Idealize.ShloMosaic Idealize.ShloMosaic.ValueIdx

theorem rowsOf_eq_rows {A B : ℕ} (r : FVec Ideal (⟨2, ![1, B]⟩ : Shape) .f32) : rowsOf A r = rows (A := A) r := rfl

theorem twoLayer_eq_affine {A K H B : ℕ} (x : FVec Ideal (⟨2, ![A, K]⟩ : Shape) .f32) (w : FVec Ideal (⟨2, ![K, H]⟩ : Shape) .f32)
    (b : FVec Ideal (⟨1, ![H]⟩ : Shape) .f32) (w' : FVec Ideal (⟨2, ![H, B]⟩ : Shape) .f32)
    (b' : FVec Ideal (⟨1, ![B]⟩ : Shape) .f32) : twoLayer x w b w' b' = affine (relu (affine x w b)) w' b' :=
  funext fun _ => rfl

theorem unitRows_eq_normalize {A B : ℕ} (z : FVec Ideal (⟨2, ![A, B]⟩ : Shape) .f32) : unitRows z = normalize z := by
  funext i
  show Ideal.div (z i) (max (Ideal.sqrt (∑ k : Fin B, z (ix2 (i 0) k) * z (ix2 (i 0) k))) (Ideal.ofBits .f32 0x2B8CBCCC#32))
    = Ideal.div (z i) (max (Ideal.sqrt (0 + ∑ k : Fin B, z (ix2 (i 0) k) * z (ix2 (i 0) k))) (Ideal.ofBits .f32 0x2B8CBCCC#32))
  rw [zero_add]

/-- The other branch: two layers of the [16384,200] input. -/
theorem twoLayer_eq_zgeoOf (x2 : FVec Ideal (⟨2, ![16384, 200]⟩ : Shape) .f32) (Wg1t : FVec Ideal (⟨2, ![200, 256]⟩ : Shape) .f32)
    (bg1 : FVec Ideal (⟨1, ![256]⟩ : Shape) .f32) (Wg2t : FVec Ideal (⟨2, ![256, 128]⟩ : Shape) .f32)
    (bg2 : FVec Ideal (⟨1, ![128]⟩ : Shape) .f32) : twoLayer x2 Wg1t bg1 Wg2t bg2 = zgeoOf x2 Wg1t bg1 Wg2t bg2 :=
  twoLayer_eq_affine x2 Wg1t bg1 Wg2t bg2

/-- The row on every row plus the other branch is the sum stage. -/
theorem zsum_eq_zsumOf (x2 : FVec Ideal (⟨2, ![16384, 200]⟩ : Shape) .f32) (Wg1t : FVec Ideal (⟨2, ![200, 256]⟩ : Shape) .f32)
    (bg1 : FVec Ideal (⟨1, ![256]⟩ : Shape) .f32) (Wg2t : FVec Ideal (⟨2, ![256, 128]⟩ : Shape) .f32)
    (bg2 : FVec Ideal (⟨1, ![128]⟩ : Shape) .f32) (z1 : FVec Ideal (⟨2, ![1, 128]⟩ : Shape) .f32) :
    zsum x2 Wg1t bg1 Wg2t bg2 z1 = zsumOf z1 (zgeoOf x2 Wg1t bg1 Wg2t bg2) :=
  funext fun _ => rfl

/-- The normalised sum. -/
theorem unitRows_zsum_eq (x2 : FVec Ideal (⟨2, ![16384, 200]⟩ : Shape) .f32) (Wg1t : FVec Ideal (⟨2, ![200, 256]⟩ : Shape) .f32)
    (bg1 : FVec Ideal (⟨1, ![256]⟩ : Shape) .f32) (Wg2t : FVec Ideal (⟨2, ![256, 128]⟩ : Shape) .f32)
    (bg2 : FVec Ideal (⟨1, ![128]⟩ : Shape) .f32) (z1 : FVec Ideal (⟨2, ![1, 128]⟩ : Shape) .f32) :
    unitRows (zsum x2 Wg1t bg1 Wg2t bg2 z1) = normalize (zsumOf z1 (zgeoOf x2 Wg1t bg1 Wg2t bg2)) := by
  rw [unitRows_eq_normalize, zsum_eq_zsumOf]

/-- The reconstruction: two layers of the normalised sum. -/
theorem twoLayer_eq_reconOf (zn : FVec Ideal (⟨2, ![16384, 128]⟩ : Shape) .f32) (Wd1t : FVec Ideal (⟨2, ![128, 256]⟩ : Shape) .f32)
    (bd1 : FVec Ideal (⟨1, ![256]⟩ : Shape) .f32) (Wd2t : FVec Ideal (⟨2, ![256, 360]⟩ : Shape) .f32)
    (bd2 : FVec Ideal (⟨1, ![360]⟩ : Shape) .f32) : twoLayer zn Wd1t bd1 Wd2t bd2 = reconOf zn Wd1t bd1 Wd2t bd2 :=
  twoLayer_eq_affine zn Wd1t bd1 Wd2t bd2

end Cert.KernelIdeal.Chain

end
-- ==== Proof.RefStagesRecon.lean ====
/-
  The reference's other branch and its last two results. The second input goes through a clamped layer and a plain
  layer to z_geo; z₁ on every row plus z_geo is divided, entry by entry, by the larger of its row's Euclidean norm
  (the square root of the row's sum of squares, the sum started at zero) and a small constant; a clamped layer and a
  plain layer then reconstruct the output.
-/
import proofs.«119898_j41583873360606_2_alg».proof.Proof.RefStagesNpi

noncomputable section

namespace Cert.ReferenceIdeal.RefValue

open Cert.ReferenceIdeal Cert.ReferenceIdeal.Read Idealize.ShloMosaic Idealize.ShloMosaic.ValueIdx

/-- Two index functions into a matrix agree when both coordinates agree. -/
local macro "idx2" : tactic =>
  `(tactic| exact funext fun a => Fin.ext (by match a with | ⟨0, _⟩ => rfl | ⟨1, _⟩ => rfl))
/-- Two index functions into a vector agree when the coordinate agrees. -/
local macro "idx1" : tactic =>
  `(tactic| exact funext fun a => Fin.ext (by match a with | ⟨0, _⟩ => rfl))

/-- The normalised matrix at an entry. -/
theorem normalize_apply {A B : ℕ} (z : FVec Ideal (⟨2, ![A, B]⟩ : Shape) .f32) (b : Fin A) (q : Fin B) :
    normalize z (ix2 b q)
      = Ideal.div (z (ix2 b q))
          (max (Ideal.sqrt (0 + ∑ k : Fin B, z (ix2 b k) * z (ix2 b k))) (Ideal.ofBits .f32 0x2B8CBCCC#32)) := rfl

section

variable (x0 : (⟨S16384x3x360, .f32⟩ : BufTy).Contents (Elt Ideal)) (x2 : (⟨S16384x200, .f32⟩ : BufTy).Contents (Elt Ideal))
  (x3 : (⟨S256x1080, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S360x256, .f32⟩ : BufTy).Contents (Elt Ideal))
  (x9 : (⟨S512x129600, .f32⟩ : BufTy).Contents (Elt Ideal)) (x10 : (⟨S512, .f32⟩ : BufTy).Contents (Elt Ideal))
  (x11 : (⟨S128x512, .f32⟩ : BufTy).Contents (Elt Ideal)) (x12 : (⟨S128, .f32⟩ : BufTy).Contents (Elt Ideal))
  (x13 : (⟨S256x200, .f32⟩ : BufTy).Contents (Elt Ideal)) (x14 : (⟨S256, .f32⟩ : BufTy).Contents (Elt Ideal))
  (x15 : (⟨S128x256, .f32⟩ : BufTy).Contents (Elt Ideal)) (x16 : (⟨S128, .f32⟩ : BufTy).Contents (Elt Ideal))
  (x17 : (⟨S256x128, .f32⟩ : BufTy).Contents (Elt Ideal)) (x18 : (⟨S256, .f32⟩ : BufTy).Contents (Elt Ideal))
  (x19 : (⟨S360x256, .f32⟩ : BufTy).Contents (Elt Ideal)) (x20 : (⟨S360, .f32⟩ : BufTy).Contents (Elt Ideal))

local notation "V50" => val_main_v50 (F := Ideal) x0 x2 x3 x4 x5 x6 x7 x9 x10 x11 x12 x13 x14 x15 x16
local notation "V55" => val_main_v55 (F := Ideal) x0 x2 x3 x4 x5 x6 x7 x9 x10 x11 x12 x13 x14 x15 x16
local notation "V60" => val_main_v60 (F := Ideal) x0 x2 x3 x4 x5 x6 x7 x9 x10 x11 x12 x13 x14 x15 x16 x17 x18
local notation "V61" => val_main_v61 (F := Ideal) x0 x2 x3 x4 x5 x6 x7 x9 x10 x11 x12 x13 x14 x15 x16 x17 x18
local notation "V66" => val_main_v66 (F := Ideal) x0 x2 x3 x4 x5 x6 x7 x9 x10 x11 x12 x13 x14 x15 x16 x17 x18 x19 x20
local notation "Z1" => z1Of (uOf (flat360 (val_main_v25 (F := Ideal) x0 x3 x4 x5 x6 x7)) (val_main_v27 (F := Ideal) x9) x10) (val_main_v32 (F := Ideal) x11) x12
local notation "ZGEO" => zgeoOf x2 (val_main_v39 (F := Ideal) x13) x14 (val_main_v45 (F := Ideal) x15) x16

/-- The other branch's first layer before clamping. -/
theorem ref_geo1 : val_main_v43 (F := Ideal) x2 x13 x14 = affine x2 (val_main_v39 x13) x14 := by
  funext i
  obtain ⟨p, q, rfl⟩ : ∃ (p : Fin 16384) (q : Fin 256), i = ix2 p q := ⟨i 0, i 1, eq_ix2 i⟩
  have e3 : idx_main_v41 (idx_main_v42 (ix2 p q)) = ix1 q := by idx1
  rw [val_main_v43_apply, Ideal.addf_def, val_main_v42_apply, val_main_v41_apply, e3, val_main_v40_apply]
  refine Eq.trans ?_ (affine_apply _ _ _ p q).symm
  refine congrArg₂ (· + ·) (Finset.sum_congr rfl fun k _ => ?_) rfl
  have e1 : lidx_main_v40 (ix2 p q) k = ix2 p k := by idx2
  have e2 : ridx_main_v40 (ix2 p q) k = ix2 k q := by idx2
  rw [e1, e2]

/-- Clamped below at zero. -/
theorem ref_geo1_clamp : val_main_v44 (F := Ideal) x2 x13 x14 = relu (val_main_v43 x2 x13 x14) := by
  funext i
  rw [val_main_v44_apply, val_main_call1_v0_apply, val_main_call1_cst_apply, Ideal.ofBits_def,
    Ideal.ofBits_zero_f32]
  rfl

/-- The other branch's second layer. -/
theorem ref_geo2 :
    val_main_v49 (F := Ideal) x2 x13 x14 x15 x16 = affine (val_main_v44 x2 x13 x14) (val_main_v45 x15) x16 := by
  funext i
  obtain ⟨p, q, rfl⟩ : ∃ (p : Fin 16384) (q : Fin 128), i = ix2 p q := ⟨i 0, i 1, eq_ix2 i⟩
  have e3 : idx_main_v47 (idx_main_v48 (ix2 p q)) = ix1 q := by idx1
  rw [val_main_v49_apply, Ideal.addf_def, val_main_v48_apply, val_main_v47_apply, e3, val_main_v46_apply]
  refine Eq.trans ?_ (affine_apply _ _ _ p q).symm
  refine congrArg₂ (· + ·) (Finset.sum_congr rfl fun k _ => ?_) rfl
  have e1 : lidx_main_v46 (ix2 p q) k = ix2 p k := by idx2
  have e2 : ridx_main_v46 (ix2 p q) k = ix2 k q := by idx2
  rw [e1, e2]

/-- The reference's second result: z_geo = relu (x2 · Wg1t + bg1) · Wg2t + bg2. -/
theorem ref_z_geo : val_main_v49 (F := Ideal) x2 x13 x14 x15 x16 = ZGEO := by
  rw [ref_geo2, ref_geo1_clamp, ref_geo1]; rfl

/-- The two branches added entry by entry. -/
theorem ref_plus :
    V50 = plus (val_main_v38 (F := Ideal) x0 x3 x4 x5 x6 x7 x9 x10 x11 x12) (val_main_v49 (F := Ideal) x2 x13 x14 x15 x16) := by
  funext i
  rfl

/-- zsum = z₁ on every row, plus z_geo. -/
theorem ref_zsum : V50 = zsumOf Z1 ZGEO := by
  rw [ref_plus, ref_z_npi, ref_z_geo]; rfl

/-- Each entry divided by the larger of its row's norm and the small constant. -/
theorem ref_normalize : V55 = normalize V50 := by
  funext i
  obtain ⟨b, q, rfl⟩ : ∃ (b : Fin 16384) (q : Fin 128), i = ix2 b q := ⟨i 0, i 1, eq_ix2 i⟩
  rw [val_main_v55_apply, val_main_v54_apply, val_main_v53_apply, val_main_v52_apply, val_main_cst_2_apply,
    val_main_v51_apply, val_main_call2_v2_apply, val_main_call2_v1_apply, val_main_call2_cst_apply]
  refine Eq.trans ?_ (normalize_apply _ b q).symm
  simp only [Ideal.hostDivf_def, Ideal.maximumf_def, Ideal.hostUnary_sqrt_def, Ideal.ofBits_def,
    Ideal.ofBits_zero_f32]
  refine congrArg (fun s => Ideal.div (V50 (ix2 b q)) (max (Ideal.sqrt (0 + s)) (Ideal.ofBits .f32 0x2B8CBCCC#32))) ?_
  refine Finset.sum_congr rfl fun k _ => ?_
  have e : idx_main_call2_v1 (idx_main_call2_v2 (idx_main_v54 (ix2 b q))) k = ix2 b k := by idx2
  rw [e]
  rfl

/-- The reference's third result: zn, the normalised zsum. -/
theorem ref_zn : V55 = normalize (zsumOf Z1 ZGEO) := by
  rw [ref_normalize, ref_zsum]

/-- The reconstruction's first layer before clamping. -/
theorem ref_dec1 : V60 = affine V55 (val_main_v56 (F := Ideal) x17) x18 := by
  funext i
  obtain ⟨p, q, rfl⟩ : ∃ (p : Fin 16384) (q : Fin 256), i = ix2 p q := ⟨i 0, i 1, eq_ix2 i⟩
  have e3 : idx_main_v58 (idx_main_v59 (ix2 p q)) = ix1 q := by idx1
  rw [val_main_v60_apply, Ideal.addf_def, val_main_v59_apply, val_main_v58_apply, e3, val_main_v57_apply]
  refine Eq.trans ?_ (affine_apply _ _ _ p q).symm
  refine congrArg₂ (· + ·) (Finset.sum_congr rfl fun k _ => ?_) rfl
  have e1 : lidx_main_v57 (ix2 p q) k = ix2 p k := by idx2
  have e2 : ridx_main_v57 (ix2 p q) k = ix2 k q := by idx2
  rw [e1, e2]

/-- Clamped below at zero. -/
theorem ref_dec1_clamp : V61 = relu V60 := by
  funext i
  rw [val_main_v61_apply, val_main_call3_v0_apply, val_main_call3_cst_apply, Ideal.ofBits_def,
    Ideal.ofBits_zero_f32]
  rfl

/-- The reconstruction's second layer. -/
theorem ref_dec2 : V66 = affine V61 (val_main_v62 (F := Ideal) x19) x20 := by
  funext i
  obtain ⟨p, q, rfl⟩ : ∃ (p : Fin 16384) (q : Fin 360), i = ix2 p q := ⟨i 0, i 1, eq_ix2 i⟩
  have e3 : idx_main_v64 (idx_main_v65 (ix2 p q)) = ix1 q := by idx1
  rw [val_main_v66_apply, Ideal.addf_def, val_main_v65_apply, val_main_v64_apply, e3, val_main_v63_apply]
  refine Eq.trans ?_ (affine_apply _ _ _ p q).symm
  refine congrArg₂ (· + ·) (Finset.sum_congr rfl fun k _ => ?_) rfl
  have e1 : lidx_main_v63 (ix2 p q) k = ix2 p k := by idx2
  have e2 : ridx_main_v63 (ix2 p q) k = ix2 k q := by idx2
  rw [e1, e2]

/-- The reference's fifth result: recon = relu (zn · Wd1t + bd1) · Wd2t + bd2. -/
theorem ref_recon :
    V66 = reconOf (normalize (zsumOf Z1 ZGEO)) (val_main_v56 (F := Ideal) x17) x18 (val_main_v62 (F := Ideal) x19) x20 := by
  rw [ref_dec2, ref_dec1_clamp, ref_dec1, ref_zn]; rfl

end

/-! ### The transposed weights of these layers at an entry -/

theorem ref_Wg1t_apply (x13 : (⟨S256x200, .f32⟩ : BufTy).Contents (Elt Ideal)) (k : Fin 200) (q : Fin 256) :
    val_main_v39 (F := Ideal) x13 (ix2 k q) = x13 (ix2 q k) := by
  rw [val_main_v39_apply]
  exact congrArg x13 (by idx2)

theorem ref_Wg2t_apply (x15 : (⟨S128x256, .f32⟩ : BufTy).Contents (Elt Ideal)) (k : Fin 256) (q : Fin 128) :
    val_main_v45 (F := Ideal) x15 (ix2 k q) = x15 (ix2 q k) := by
  rw [val_main_v45_apply]
  exact congrArg x15 (by idx2)

theorem ref_Wd1t_apply (x17 : (⟨S256x128, .f32⟩ : BufTy).Contents (Elt Ideal)) (k : Fin 128) (q : Fin 256) :
    val_main_v56 (F := Ideal) x17 (ix2 k q) = x17 (ix2 q k) := by
  rw [val_main_v56_apply]
  exact congrArg x17 (by idx2)

theorem ref_Wd2t_apply (x19 : (⟨S360x256, .f32⟩ : BufTy).Contents (Elt Ideal)) (k : Fin 256) (q : Fin 360) :
    val_main_v62 (F := Ideal) x19 (ix2 k q) = x19 (ix2 q k) := by
  rw [val_main_v62_apply]
  exact congrArg x19 (by idx2)

end Cert.ReferenceIdeal.RefValue

end
-- ==== Proof.RefStages.lean ====
/-
  The reference's five results as named stage functions of its arguments, collected.

  With xr the input reshaped to 16384 × 1080, a trailing t a transposed weight matrix, W1s the last 360 columns of the
  first weight matrix, and the stage functions of the definitions module:
    ec    = W3 · ((W2 ∘ G) · W1s),  G = (∑ over the 16384 rows of m2ᵀ m1) / 16384      (ref_ec)
    z_npi = z₁ on every row,  z₁ = relu (flat ec · Wp1t + bp1) · Wp2t + bp2            (ref_z_npi)
    z_geo = relu (x2 · Wg1t + bg1) · Wg2t + bg2                                         (ref_z_geo)
    zn    = (z_npi + z_geo) / max (row norm) ε                                          (ref_zn)
    recon = relu (zn · Wd1t + bd1) · Wd2t + bd2                                         (ref_recon)
-/
import proofs.«119898_j41583873360606_2_alg».proof.Proof.RefStagesJac
import proofs.«119898_j41583873360606_2_alg».proof.Proof.RefStagesNpi
import proofs.«119898_j41583873360606_2_alg».proof.Proof.RefStagesRecon
-- ==== Proof.Spec.lean ====
/-
  The five results as functions of the argument arrays alone.

  Each is the composition of the named stages applied to the arguments after the layout operations both programs
  share (the reshape of the first argument, the transposes of the weight matrices, the last 360 columns of the first
  weight matrix): the 360 × 360 matrix ec; the row z₁ and its copy on every row; the other branch's z_geo; their
  normalised sum; the reconstruction. The reference's five result arrays are these functions of its arguments.
-/
import proofs.«119898_j41583873360606_2_alg».proof.Proof.RefStages

noncomputable section

namespace Cert.ReferenceIdeal.RefValue

open Cert.ReferenceIdeal Cert.ReferenceIdeal.Read Idealize.ShloMosaic Idealize.ShloMosaic.ValueIdx

/-- ec = W3 · ((W2 ∘ G) · W1[:, 720:1080]), G the averaged mask product of the two layers of the reshaped input. -/
def specEc (a0 : FVec Ideal S16384x3x360 .f32) (a3 : FVec Ideal S256x1080 .f32) (a4 : FVec Ideal S256 .f32) (a5 : FVec Ideal S256x256 .f32) (a6 : FVec Ideal S256 .f32) (a7 : FVec Ideal S360x256 .f32) : FVec Ideal S360x360 .f32 :=
  ecOf a7 a5 (G (val_main_v0 (F := Ideal) a0) (val_main_v1 (F := Ideal) a3) a4 (val_main_v10 (F := Ideal) a5) a6)
    (val_main_v23 (F := Ideal) a3)

/-- z₁ = relu (flat ec · Wp1ᵀ + bp1) · Wp2ᵀ + bp2, one row of 128 entries. -/
def specZ1 (a0 : FVec Ideal S16384x3x360 .f32) (a3 : FVec Ideal S256x1080 .f32) (a4 : FVec Ideal S256 .f32) (a5 : FVec Ideal S256x256 .f32) (a6 : FVec Ideal S256 .f32) (a7 : FVec Ideal S360x256 .f32) (a9 : FVec Ideal S512x129600 .f32) (a10 : FVec Ideal S512 .f32) (a11 : FVec Ideal S128x512 .f32) (a12 : FVec Ideal S128 .f32) : FVec Ideal S1x128 .f32 :=
  z1Of (uOf (flat360 (specEc a0 a3 a4 a5 a6 a7)) (val_main_v27 (F := Ideal) a9) a10) (val_main_v32 (F := Ideal) a11) a12

/-- z_npi: z₁ on every one of the 16384 rows. -/
def specZnpi (a0 : FVec Ideal S16384x3x360 .f32) (a3 : FVec Ideal S256x1080 .f32) (a4 : FVec Ideal S256 .f32) (a5 : FVec Ideal S256x256 .f32) (a6 : FVec Ideal S256 .f32) (a7 : FVec Ideal S360x256 .f32) (a9 : FVec Ideal S512x129600 .f32) (a10 : FVec Ideal S512 .f32) (a11 : FVec Ideal S128x512 .f32) (a12 : FVec Ideal S128 .f32) : FVec Ideal S16384x128 .f32 :=
  rows (specZ1 a0 a3 a4 a5 a6 a7 a9 a10 a11 a12)

/-- z_geo = relu (x2 · Wg1ᵀ + bg1) · Wg2ᵀ + bg2. -/
def specZgeo (a2 : FVec Ideal S16384x200 .f32) (a13 : FVec Ideal S256x200 .f32) (a14 : FVec Ideal S256 .f32) (a15 : FVec Ideal S128x256 .f32) (a16 : FVec Ideal S128 .f32) : FVec Ideal S16384x128 .f32 :=
  zgeoOf a2 (val_main_v39 (F := Ideal) a13) a14 (val_main_v45 (F := Ideal) a15) a16

/-- zn: z_npi + z_geo, each entry divided by the larger of its row's norm and the small constant. -/
def specZn (a0 : FVec Ideal S16384x3x360 .f32) (a2 : FVec Ideal S16384x200 .f32) (a3 : FVec Ideal S256x1080 .f32) (a4 : FVec Ideal S256 .f32) (a5 : FVec Ideal S256x256 .f32) (a6 : FVec Ideal S256 .f32) (a7 : FVec Ideal S360x256 .f32) (a9 : FVec Ideal S512x129600 .f32) (a10 : FVec Ideal S512 .f32) (a11 : FVec Ideal S128x512 .f32) (a12 : FVec Ideal S128 .f32) (a13 : FVec Ideal S256x200 .f32) (a14 : FVec Ideal S256 .f32) (a15 : FVec Ideal S128x256 .f32) (a16 : FVec Ideal S128 .f32) : FVec Ideal S16384x128 .f32 :=
  normalize (zsumOf (specZ1 a0 a3 a4 a5 a6 a7 a9 a10 a11 a12) (specZgeo a2 a13 a14 a15 a16))

/-- recon = relu (zn · Wd1ᵀ + bd1) · Wd2ᵀ + bd2. -/
def specRecon (a0 : FVec Ideal S16384x3x360 .f32) (a2 : FVec Ideal S16384x200 .f32) (a3 : FVec Ideal S256x1080 .f32) (a4 : FVec Ideal S256 .f32) (a5 : FVec Ideal S256x256 .f32) (a6 : FVec Ideal S256 .f32) (a7 : FVec Ideal S360x256 .f32) (a9 : FVec Ideal S512x129600 .f32) (a10 : FVec Ideal S512 .f32) (a11 : FVec Ideal S128x512 .f32) (a12 : FVec Ideal S128 .f32) (a13 : FVec Ideal S256x200 .f32) (a14 : FVec Ideal S256 .f32) (a15 : FVec Ideal S128x256 .f32) (a16 : FVec Ideal S128 .f32) (a17 : FVec Ideal S256x128 .f32) (a18 : FVec Ideal S256 .f32) (a19 : FVec Ideal S360x256 .f32) (a20 : FVec Ideal S360 .f32) : FVec Ideal S16384x360 .f32 :=
  reconOf (specZn a0 a2 a3 a4 a5 a6 a7 a9 a10 a11 a12 a13 a14 a15 a16) (val_main_v56 (F := Ideal) a17) a18 (val_main_v62 (F := Ideal) a19) a20

/-! ## The reference's result arrays are these functions of its arguments -/

section

variable (x0 : (⟨S16384x3x360, .f32⟩ : BufTy).Contents (Elt Ideal)) (x2 : (⟨S16384x200, .f32⟩ : BufTy).Contents (Elt Ideal)) (x3 : (⟨S256x1080, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S360x256, .f32⟩ : BufTy).Contents (Elt Ideal)) (x9 : (⟨S512x129600, .f32⟩ : BufTy).Contents (Elt Ideal)) (x10 : (⟨S512, .f32⟩ : BufTy).Contents (Elt Ideal)) (x11 : (⟨S128x512, .f32⟩ : BufTy).Contents (Elt Ideal)) (x12 : (⟨S128, .f32⟩ : BufTy).Contents (Elt Ideal)) (x13 : (⟨S256x200, .f32⟩ : BufTy).Contents (Elt Ideal)) (x14 : (⟨S256, .f32⟩ : BufTy).Contents (Elt Ideal)) (x15 : (⟨S128x256, .f32⟩ : BufTy).Contents (Elt Ideal)) (x16 : (⟨S128, .f32⟩ : BufTy).Contents (Elt Ideal)) (x17 : (⟨S256x128, .f32⟩ : BufTy).Contents (Elt Ideal)) (x18 : (⟨S256, .f32⟩ : BufTy).Contents (Elt Ideal)) (x19 : (⟨S360x256, .f32⟩ : BufTy).Contents (Elt Ideal)) (x20 : (⟨S360, .f32⟩ : BufTy).Contents (Elt Ideal))

theorem ref_specEc : val_main_v25 (F := Ideal) x0 x3 x4 x5 x6 x7 = specEc x0 x3 x4 x5 x6 x7 :=
  ref_ec x0 x3 x4 x5 x6 x7

theorem ref_specZnpi : val_main_v38 (F := Ideal) x0 x3 x4 x5 x6 x7 x9 x10 x11 x12 = specZnpi x0 x3 x4 x5 x6 x7 x9 x10 x11 x12 :=
  by rw [ref_z_npi, ref_ec]; rfl

theorem ref_specZgeo : val_main_v49 (F := Ideal) x2 x13 x14 x15 x16 = specZgeo x2 x13 x14 x15 x16 :=
  ref_z_geo x2 x13 x14 x15 x16

theorem ref_specZn : val_main_v55 (F := Ideal) x0 x2 x3 x4 x5 x6 x7 x9 x10 x11 x12 x13 x14 x15 x16 = specZn x0 x2 x3 x4 x5 x6 x7 x9 x10 x11 x12 x13 x14 x15 x16 :=
  by rw [ref_zn, ref_ec]; rfl

theorem ref_specRecon : val_main_v66 (F := Ideal) x0 x2 x3 x4 x5 x6 x7 x9 x10 x11 x12 x13 x14 x15 x16 x17 x18 x19 x20 = specRecon x0 x2 x3 x4 x5 x6 x7 x9 x10 x11 x12 x13 x14 x15 x16 x17 x18 x19 x20 :=
  by rw [ref_recon, ref_ec]; rfl

end

end Cert.ReferenceIdeal.RefValue

end
-- ==== Proof.KI.KernelChain.lean ====
/-
  The kernel program's five results, over the extended reals, as the network's stages of the launch arguments.

  Given what each of the three kernels leaves as a function of what it finds — the first the two halves' sums of the
  mask products, the second the clamped projection column, the third the row on every row, the two-layer product, the
  normalised sum and the reconstruction — and the host stretches between them, each result array at the end of the
  run is the corresponding stage function of the arguments: the 360 × 360 matrix ec, z₁ on every row, z_geo, the
  normalised sum zn, and the reconstruction.
-/
import proofs.«119898_j41583873360606_2_alg».proof.Proof.KI.ChainHost
import proofs.«119898_j41583873360606_2_alg».proof.Proof.KI.ChainRecon
import proofs.«119898_j41583873360606_2_alg».proof.Proof.Spec

set_option maxRecDepth 16384

noncomputable section

namespace Cert.KernelIdeal.Chain

open Cert.KernelIdeal.Gen Cert.KernelIdeal.R2
open Cert.ReferenceIdeal.RefValue
open Idealize.ShloMosaic Idealize.ShloMosaic.TcCoe Idealize.ShloMosaic.ValueIdx
open Idealize.SL Idealize.SL.Sem

variable (m : (ℓ : Loc nD τ sig) → Buf (Elt Ideal) ℓ) (outs : Outs (F := Ideal)) (c : Dev nD)

/-- The 360 × 360 matrix after the second host stretch is ec of the arguments. -/
theorem ec_mid (h2 : outs 2 main_v4 c = Gpart (V1 m c main_v0) (V1 m c main_v1) (V1 m c main_arg4) (V1 m c main_v2) (V1 m c main_arg6)) :
    V3 m outs c main_v14 = specEc (V0 m c main_arg0) (V0 m c main_arg3) (V0 m c main_arg4) (V0 m c main_arg5) (V0 m c main_arg6) (V0 m c main_arg7) := by
  rw [V3_v14 m outs c, h2, V1_v0 m c, V1_v1 m c, V1_arg4 m c, V1_v2 m c, V1_arg6 m c, ecHost_Gpart]
  rfl

/-- (1) The result ec. -/
theorem ec_final (h2 : outs 2 main_v4 c = Gpart (V1 m c main_v0) (V1 m c main_v1) (V1 m c main_arg4) (V1 m c main_v2) (V1 m c main_arg6)) :
    V6 m outs c main_v14 = specEc (V0 m c main_arg0) (V0 m c main_arg3) (V0 m c main_arg4) (V0 m c main_arg5) (V0 m c main_arg6) (V0 m c main_arg7) :=
  (V6_v14 m outs c).trans (ec_mid m outs c h2)

/-- The row after the third host stretch is z₁ of the arguments. -/
theorem z1_mid (h2 : outs 2 main_v4 c = Gpart (V1 m c main_v0) (V1 m c main_v1) (V1 m c main_arg4) (V1 m c main_v2) (V1 m c main_arg6))
    (h4 : outs 4 main_v18 c = Cert.KernelIdeal.R1.U1 (V3 m outs c main_v15) (V3 m outs c main_v16) (V3 m outs c main_v17)) :
    V5 m outs c main_v23 = specZ1 (V0 m c main_arg0) (V0 m c main_arg3) (V0 m c main_arg4) (V0 m c main_arg5) (V0 m c main_arg6) (V0 m c main_arg7) (V0 m c main_arg9) (V0 m c main_arg10) (V0 m c main_arg11) (V0 m c main_arg12) := by
  rw [V5_v23 m outs c, h4, V3_v15 m outs c, V3_v16 m outs c, V3_v17 m outs c, ← V3_v14 m outs c, ec_mid m outs c h2, z1Host_U1]
  rfl

/-- (2) The result z_npi: z₁ on every row. -/
theorem znpi_final (h2 : outs 2 main_v4 c = Gpart (V1 m c main_v0) (V1 m c main_v1) (V1 m c main_arg4) (V1 m c main_v2) (V1 m c main_arg6))
    (h4 : outs 4 main_v18 c = Cert.KernelIdeal.R1.U1 (V3 m outs c main_v15) (V3 m outs c main_v16) (V3 m outs c main_v17))
    (h6_0 : outs 6 main_v28_0 c = rowsOf 16384 (V5 m outs c main_v23)) :
    V6 m outs c main_v28_0 = specZnpi (V0 m c main_arg0) (V0 m c main_arg3) (V0 m c main_arg4) (V0 m c main_arg5) (V0 m c main_arg6) (V0 m c main_arg7) (V0 m c main_arg9) (V0 m c main_arg10) (V0 m c main_arg11) (V0 m c main_arg12) := by
  rw [V6_v28_0 m outs c, h6_0, z1_mid m outs c h2 h4, rowsOf_eq_rows]
  rfl

/-- (3) The result z_geo. -/
theorem zgeo_final (h6_1 : outs 6 main_v28_1 c = twoLayer (V5 m outs c main_arg2) (V5 m outs c main_v24) (V5 m outs c main_arg14) (V5 m outs c main_v25) (V5 m outs c main_arg16)) :
    V6 m outs c main_v28_1 = specZgeo (V0 m c main_arg2) (V0 m c main_arg13) (V0 m c main_arg14) (V0 m c main_arg15) (V0 m c main_arg16) := by
  rw [V6_v28_1 m outs c, h6_1, V5_arg2 m outs c, V5_v24 m outs c, V5_arg14 m outs c, V5_v25 m outs c, V5_arg16 m outs c, twoLayer_eq_zgeoOf]
  rfl

/-- (4) The result zn: the normalised sum. -/
theorem zn_final (h2 : outs 2 main_v4 c = Gpart (V1 m c main_v0) (V1 m c main_v1) (V1 m c main_arg4) (V1 m c main_v2) (V1 m c main_arg6))
    (h4 : outs 4 main_v18 c = Cert.KernelIdeal.R1.U1 (V3 m outs c main_v15) (V3 m outs c main_v16) (V3 m outs c main_v17))
    (h6_2 : outs 6 main_v28_2 c = unitRows (zsum (V5 m outs c main_arg2) (V5 m outs c main_v24) (V5 m outs c main_arg14) (V5 m outs c main_v25) (V5 m outs c main_arg16) (V5 m outs c main_v23))) :
    V6 m outs c main_v28_2 = specZn (V0 m c main_arg0) (V0 m c main_arg2) (V0 m c main_arg3) (V0 m c main_arg4) (V0 m c main_arg5) (V0 m c main_arg6) (V0 m c main_arg7) (V0 m c main_arg9) (V0 m c main_arg10) (V0 m c main_arg11) (V0 m c main_arg12) (V0 m c main_arg13) (V0 m c main_arg14) (V0 m c main_arg15) (V0 m c main_arg16) := by
  rw [V6_v28_2 m outs c, h6_2, V5_arg2 m outs c, V5_v24 m outs c, V5_arg14 m outs c, V5_v25 m outs c, V5_arg16 m outs c, z1_mid m outs c h2 h4, unitRows_zsum_eq]
  rfl

/-- (5) The result recon. -/
theorem recon_final (h2 : outs 2 main_v4 c = Gpart (V1 m c main_v0) (V1 m c main_v1) (V1 m c main_arg4) (V1 m c main_v2) (V1 m c main_arg6))
    (h4 : outs 4 main_v18 c = Cert.KernelIdeal.R1.U1 (V3 m outs c main_v15) (V3 m outs c main_v16) (V3 m outs c main_v17))
    (h6_3 : outs 6 main_v28_3 c = twoLayer (unitRows (zsum (V5 m outs c main_arg2) (V5 m outs c main_v24) (V5 m outs c main_arg14) (V5 m outs c main_v25) (V5 m outs c main_arg16) (V5 m outs c main_v23))) (V5 m outs c main_v26) (V5 m outs c main_arg18) (V5 m outs c main_v27) (V5 m outs c main_arg20)) :
    V6 m outs c main_v28_3 = specRecon (V0 m c main_arg0) (V0 m c main_arg2) (V0 m c main_arg3) (V0 m c main_arg4) (V0 m c main_arg5) (V0 m c main_arg6) (V0 m c main_arg7) (V0 m c main_arg9) (V0 m c main_arg10) (V0 m c main_arg11) (V0 m c main_arg12) (V0 m c main_arg13) (V0 m c main_arg14) (V0 m c main_arg15) (V0 m c main_arg16) (V0 m c main_arg17) (V0 m c main_arg18) (V0 m c main_arg19) (V0 m c main_arg20) := by
  rw [V6_v28_3 m outs c, h6_3, V5_arg2 m outs c, V5_v24 m outs c, V5_arg14 m outs c, V5_v25 m outs c, V5_arg16 m outs c, z1_mid m outs c h2 h4,
    V5_v26 m outs c, V5_arg18 m outs c, V5_v27 m outs c, V5_arg20 m outs c, unitRows_zsum_eq, twoLayer_eq_reconOf]
  rfl

end Cert.KernelIdeal.Chain

end
-- ==== Proof.KI.KernelValue.lean ====
/- The kernel program's run to its five results as functions of its arguments: every weakly fair execution from memory
   m with zero counters terminates, and in every final memory each result array holds the corresponding function of
   the argument arrays as launched, the arguments unchanged. The run ends at the last valuation of the fold; the value
   chain reads that valuation at each result, given what the three pallas_calls leave. -/
import proofs.«119898_j41583873360606_2_alg».proof.Proof.KI.KernelHyps
import proofs.«119898_j41583873360606_2_alg».proof.Proof.KI.Frame
import proofs.«119898_j41583873360606_2_alg».proof.Proof.KI.KernelChain

set_option maxRecDepth 16384

noncomputable section

namespace Cert.KernelIdeal.Asm

open Cert.KernelIdeal Cert.KernelIdeal.Gen
open Cert.ReferenceIdeal.RefValue
open Idealize.ShloMosaic Idealize.ShloMosaic.TcCoe
open Idealize.SL Idealize.SL.Sem

/-- THE KERNEL HALF: the five results as functions of the launch memory at the arguments, beside the arguments as
    launched. -/
theorem kernel_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28_0) = specZnpi (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v28_1) = specZgeo (m ((c.tc : Thread nD τ).loc main_arg2)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v28_2) = specZn (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v14) = specEc (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v28_3) = specRecon (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => by
    obtain ⟨e0, e1, e2, e14, e3, hargs⟩ := h c
    exact ⟨e0.trans (Chain.znpi_final m (outs m) c (h2_outs m c) (h4_outs m c) (h6_0_outs m c)),
      e1.trans (Chain.zgeo_final m (outs m) c (h6_1_outs m c)),
      e2.trans (Chain.zn_final m (outs m) c (h2_outs m c) (h4_outs m c) (h6_2_outs m c)),
      e14.trans (Chain.ec_final m (outs m) c (h2_outs m c)),
      e3.trans (Chain.recon_final m (outs m) c (h2_outs m c) (h4_outs m c) (h6_3_outs m c)),
      hargs⟩)
    (results_of_run m ρ (outs m) (run_all m ρ))

end Cert.KernelIdeal.Asm

end
-- ==== Proof.RefRun.lean ====
/-
  The reference's run with its five result arrays stated as the five functions of its arguments: every weakly fair
  execution of the reference terminates with each result array equal to the corresponding function of the
  arguments' initial contents, and with the arguments unchanged.
-/
import proofs.«119898_j41583873360606_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-- The reference ends with its five results at the five functions of its arguments, the arguments unchanged. -/
theorem ref_results (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v38) = specZnpi (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg9)) (m' ((c.tc : Thread nD τ).loc main_arg10)) (m' ((c.tc : Thread nD τ).loc main_arg11)) (m' ((c.tc : Thread nD τ).loc main_arg12))
      ∧ r.2.mem ((c.tc : Thread nD τ).loc main_v49) = specZgeo (m' ((c.tc : Thread nD τ).loc main_arg2)) (m' ((c.tc : Thread nD τ).loc main_arg13)) (m' ((c.tc : Thread nD τ).loc main_arg14)) (m' ((c.tc : Thread nD τ).loc main_arg15)) (m' ((c.tc : Thread nD τ).loc main_arg16))
      ∧ r.2.mem ((c.tc : Thread nD τ).loc main_v55) = specZn (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16))
      ∧ r.2.mem ((c.tc : Thread nD τ).loc main_v25) = specEc (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))
      ∧ r.2.mem ((c.tc : Thread nD τ).loc main_v66) = specRecon (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20) :=
  (θ_run defs _ _).mono (fun _ h c =>
    ⟨(h c).1.trans ((val_main_v38_eq (F := Ideal) (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg9)) (m' ((c.tc : Thread nD τ).loc main_arg10)) (m' ((c.tc : Thread nD τ).loc main_arg11)) (m' ((c.tc : Thread nD τ).loc main_arg12))).trans (ref_specZnpi _ _ _ _ _ _ _ _ _ _)),
      (h c).2.1.trans ((val_main_v49_eq (F := Ideal) (m' ((c.tc : Thread nD τ).loc main_arg2)) (m' ((c.tc : Thread nD τ).loc main_arg13)) (m' ((c.tc : Thread nD τ).loc main_arg14)) (m' ((c.tc : Thread nD τ).loc main_arg15)) (m' ((c.tc : Thread nD τ).loc main_arg16))).trans (ref_specZgeo _ _ _ _ _)),
      (h c).2.2.1.trans ((val_main_v55_eq (F := Ideal) m' c).trans (ref_specZn _ _ _ _ _ _ _ _ _ _ _ _ _ _ _)),
      (h c).2.2.2.1.trans ((val_main_v25_eq (F := Ideal) (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))).trans (ref_specEc _ _ _ _ _ _)),
      (h c).2.2.2.2.1.trans ((val_main_v66_eq (F := Ideal) m' c).trans (ref_specRecon _ _ _ _ _ _ _ _ _ _ _ _ _ _ _ _ _ _ _)),
      (h c).2.2.2.2.2⟩)
    (Cert.ReferenceIdeal.Value.run (F := Ideal) m' ρ')

/-- The reference terminates with its arguments unchanged. -/
theorem ref_args_unchanged (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20) :=
  (θ_run defs _ _).mono (fun _ h c => (h c).2.2.2.2.2) (Cert.ReferenceIdeal.Value.run (F := Ideal) m' ρ')

end Cert.ReferenceIdeal.RefValue

end
-- ==== Proof.Algebraic.lean ====
/-
  The algebraic claim from the kernel program's run. If the kernel program, from any memory, ends with its five
  result arrays at the five functions of its own arguments and its arguments unchanged, then from memories that agree
  on the arguments the two programs end with equal results: the reference ends at the same five functions of its
  arguments, and equal arguments give equal values.
-/
import proofs.«119898_j41583873360606_2_alg».proof.Defs
import proofs.«119898_j41583873360606_2_alg».proof.Proof.Gen.KernelIdeal
import proofs.«119898_j41583873360606_2_alg».proof.Proof.Gen.Pre_finite_inputs
import proofs.«119898_j41583873360606_2_alg».proof.Proof.RefRun

noncomputable section

namespace Cert.ReferenceIdeal.RefValue

open Idealize.ShloMosaic Idealize.ShloMosaic.TcCoe Idealize.SL.Sem

/-! ## Equal arguments give equal values -/

theorem specZnpi_congr {a0 b0 : FVec Ideal Cert.ReferenceIdeal.S16384x3x360 .f32} {a3 b3 : FVec Ideal Cert.ReferenceIdeal.S256x1080 .f32} {a4 b4 : FVec Ideal Cert.ReferenceIdeal.S256 .f32} {a5 b5 : FVec Ideal Cert.ReferenceIdeal.S256x256 .f32} {a6 b6 : FVec Ideal Cert.ReferenceIdeal.S256 .f32} {a7 b7 : FVec Ideal Cert.ReferenceIdeal.S360x256 .f32} {a9 b9 : FVec Ideal Cert.ReferenceIdeal.S512x129600 .f32} {a10 b10 : FVec Ideal Cert.ReferenceIdeal.S512 .f32} {a11 b11 : FVec Ideal Cert.ReferenceIdeal.S128x512 .f32} {a12 b12 : FVec Ideal Cert.ReferenceIdeal.S128 .f32}
    (h0 : a0 = b0) (h3 : a3 = b3) (h4 : a4 = b4) (h5 : a5 = b5) (h6 : a6 = b6) (h7 : a7 = b7) (h9 : a9 = b9) (h10 : a10 = b10) (h11 : a11 = b11) (h12 : a12 = b12) :
    specZnpi a0 a3 a4 a5 a6 a7 a9 a10 a11 a12 = specZnpi b0 b3 b4 b5 b6 b7 b9 b10 b11 b12 := by
  subst h0 h3 h4 h5 h6 h7 h9 h10 h11 h12
  rfl

theorem specZgeo_congr {a2 b2 : FVec Ideal Cert.ReferenceIdeal.S16384x200 .f32} {a13 b13 : FVec Ideal Cert.ReferenceIdeal.S256x200 .f32} {a14 b14 : FVec Ideal Cert.ReferenceIdeal.S256 .f32} {a15 b15 : FVec Ideal Cert.ReferenceIdeal.S128x256 .f32} {a16 b16 : FVec Ideal Cert.ReferenceIdeal.S128 .f32}
    (h2 : a2 = b2) (h13 : a13 = b13) (h14 : a14 = b14) (h15 : a15 = b15) (h16 : a16 = b16) :
    specZgeo a2 a13 a14 a15 a16 = specZgeo b2 b13 b14 b15 b16 := by
  subst h2 h13 h14 h15 h16
  rfl

theorem specZn_congr {a0 b0 : FVec Ideal Cert.ReferenceIdeal.S16384x3x360 .f32} {a2 b2 : FVec Ideal Cert.ReferenceIdeal.S16384x200 .f32} {a3 b3 : FVec Ideal Cert.ReferenceIdeal.S256x1080 .f32} {a4 b4 : FVec Ideal Cert.ReferenceIdeal.S256 .f32} {a5 b5 : FVec Ideal Cert.ReferenceIdeal.S256x256 .f32} {a6 b6 : FVec Ideal Cert.ReferenceIdeal.S256 .f32} {a7 b7 : FVec Ideal Cert.ReferenceIdeal.S360x256 .f32} {a9 b9 : FVec Ideal Cert.ReferenceIdeal.S512x129600 .f32} {a10 b10 : FVec Ideal Cert.ReferenceIdeal.S512 .f32} {a11 b11 : FVec Ideal Cert.ReferenceIdeal.S128x512 .f32} {a12 b12 : FVec Ideal Cert.ReferenceIdeal.S128 .f32} {a13 b13 : FVec Ideal Cert.ReferenceIdeal.S256x200 .f32} {a14 b14 : FVec Ideal Cert.ReferenceIdeal.S256 .f32} {a15 b15 : FVec Ideal Cert.ReferenceIdeal.S128x256 .f32} {a16 b16 : FVec Ideal Cert.ReferenceIdeal.S128 .f32}
    (h0 : a0 = b0) (h2 : a2 = b2) (h3 : a3 = b3) (h4 : a4 = b4) (h5 : a5 = b5) (h6 : a6 = b6) (h7 : a7 = b7) (h9 : a9 = b9) (h10 : a10 = b10) (h11 : a11 = b11) (h12 : a12 = b12) (h13 : a13 = b13) (h14 : a14 = b14) (h15 : a15 = b15) (h16 : a16 = b16) :
    specZn a0 a2 a3 a4 a5 a6 a7 a9 a10 a11 a12 a13 a14 a15 a16 = specZn b0 b2 b3 b4 b5 b6 b7 b9 b10 b11 b12 b13 b14 b15 b16 := by
  subst h0 h2 h3 h4 h5 h6 h7 h9 h10 h11 h12 h13 h14 h15 h16
  rfl

theorem specEc_congr {a0 b0 : FVec Ideal Cert.ReferenceIdeal.S16384x3x360 .f32} {a3 b3 : FVec Ideal Cert.ReferenceIdeal.S256x1080 .f32} {a4 b4 : FVec Ideal Cert.ReferenceIdeal.S256 .f32} {a5 b5 : FVec Ideal Cert.ReferenceIdeal.S256x256 .f32} {a6 b6 : FVec Ideal Cert.ReferenceIdeal.S256 .f32} {a7 b7 : FVec Ideal Cert.ReferenceIdeal.S360x256 .f32}
    (h0 : a0 = b0) (h3 : a3 = b3) (h4 : a4 = b4) (h5 : a5 = b5) (h6 : a6 = b6) (h7 : a7 = b7) :
    specEc a0 a3 a4 a5 a6 a7 = specEc b0 b3 b4 b5 b6 b7 := by
  subst h0 h3 h4 h5 h6 h7
  rfl

theorem specRecon_congr {a0 b0 : FVec Ideal Cert.ReferenceIdeal.S16384x3x360 .f32} {a2 b2 : FVec Ideal Cert.ReferenceIdeal.S16384x200 .f32} {a3 b3 : FVec Ideal Cert.ReferenceIdeal.S256x1080 .f32} {a4 b4 : FVec Ideal Cert.ReferenceIdeal.S256 .f32} {a5 b5 : FVec Ideal Cert.ReferenceIdeal.S256x256 .f32} {a6 b6 : FVec Ideal Cert.ReferenceIdeal.S256 .f32} {a7 b7 : FVec Ideal Cert.ReferenceIdeal.S360x256 .f32} {a9 b9 : FVec Ideal Cert.ReferenceIdeal.S512x129600 .f32} {a10 b10 : FVec Ideal Cert.ReferenceIdeal.S512 .f32} {a11 b11 : FVec Ideal Cert.ReferenceIdeal.S128x512 .f32} {a12 b12 : FVec Ideal Cert.ReferenceIdeal.S128 .f32} {a13 b13 : FVec Ideal Cert.ReferenceIdeal.S256x200 .f32} {a14 b14 : FVec Ideal Cert.ReferenceIdeal.S256 .f32} {a15 b15 : FVec Ideal Cert.ReferenceIdeal.S128x256 .f32} {a16 b16 : FVec Ideal Cert.ReferenceIdeal.S128 .f32} {a17 b17 : FVec Ideal Cert.ReferenceIdeal.S256x128 .f32} {a18 b18 : FVec Ideal Cert.ReferenceIdeal.S256 .f32} {a19 b19 : FVec Ideal Cert.ReferenceIdeal.S360x256 .f32} {a20 b20 : FVec Ideal Cert.ReferenceIdeal.S360 .f32}
    (h0 : a0 = b0) (h2 : a2 = b2) (h3 : a3 = b3) (h4 : a4 = b4) (h5 : a5 = b5) (h6 : a6 = b6) (h7 : a7 = b7) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    specRecon a0 a2 a3 a4 a5 a6 a7 a9 a10 a11 a12 a13 a14 a15 a16 a17 a18 a19 a20 = specRecon b0 b2 b3 b4 b5 b6 b7 b9 b10 b11 b12 b13 b14 b15 b16 b17 b18 b19 b20 := by
  subst h0 h2 h3 h4 h5 h6 h7 h9 h10 h11 h12 h13 h14 h15 h16 h17 h18 h19 h20
  rfl

/-- The reference runs and leaves its arguments unchanged. -/
theorem frame_ReferenceIdeal :
    Cert.frame_ReferenceIdeal (hReferenceIdeal := Cert.ReferenceIdeal.Gen.facts)
      (hPre_finite_inputs := Cert.Pre_finite_inputs.Gen.facts) :=
  fun m ρ _ => ref_args_unchanged m ρ

set_option maxHeartbeats 1600000 in
/-- Equal results from agreeing arguments, given the kernel program's run to the five functions of its arguments. -/
theorem algebraic_of
    (hk : ∀ (m : (ℓ : Loc Cert.KernelIdeal.nD Cert.KernelIdeal.τ Cert.KernelIdeal.sig) → Buf (Elt Ideal) ℓ)
        (g : Dev Cert.KernelIdeal.nD → PrngReg),
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
        r.2.mem ((c.tc : Thread Cert.KernelIdeal.nD Cert.KernelIdeal.τ).loc Cert.KernelIdeal.main_v28_0) = specZnpi (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
        ∧ r.2.mem ((c.tc : Thread Cert.KernelIdeal.nD Cert.KernelIdeal.τ).loc Cert.KernelIdeal.main_v28_1) = specZgeo (m ((c.tc : Thread Cert.KernelIdeal.nD Cert.KernelIdeal.τ).loc Cert.KernelIdeal.main_arg2)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        ∧ r.2.mem ((c.tc : Thread Cert.KernelIdeal.nD Cert.KernelIdeal.τ).loc Cert.KernelIdeal.main_v28_2) = specZn (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        ∧ r.2.mem ((c.tc : Thread Cert.KernelIdeal.nD Cert.KernelIdeal.τ).loc Cert.KernelIdeal.main_v14) = specEc (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_v28_3) = specRecon (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' _ hagree
  refine ⟨fun c => specZnpi (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => specZgeo (m ((c.tc : Thread Cert.KernelIdeal.nD Cert.KernelIdeal.τ).loc Cert.KernelIdeal.main_arg2)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => specZn (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => specEc (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => specRecon (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    hk m g, ?_⟩
  refine (θ_run Cert.ReferenceIdeal.defs _ _).mono (fun _ h c => ?_) (ref_results m' g')
  obtain ⟨e38, e49, e55, e25, e66, hargs⟩ := h c
  obtain ⟨a0, _, a2, a3, a4, a5, a6, a7, _, a9, a10, a11, a12, a13, a14, a15, a16, a17, a18, a19, a20⟩ := hagree c
  refine ⟨?_, ?_, ?_, ?_, ?_, hargs⟩
  · exact e38.trans (specZnpi_congr a0 a3 a4 a5 a6 a7 a9 a10 a11 a12)
  · exact e49.trans (specZgeo_congr a2 a13 a14 a15 a16)
  · exact e55.trans (specZn_congr a0 a2 a3 a4 a5 a6 a7 a9 a10 a11 a12 a13 a14 a15 a16)
  · exact e25.trans (specEc_congr a0 a3 a4 a5 a6 a7)
  · exact e66.trans (specRecon_congr a0 a2 a3 a4 a5 a6 a7 a9 a10 a11 a12 a13 a14 a15 a16 a17 a18 a19 a20)

end Cert.ReferenceIdeal.RefValue

end
-- ==== Proof.lean ====
/-
  The certificate of a Jacobian-moment network: three tiled kernels inside host glue against a plain reference.

  Both programs compute, from a batch of 16384 windows x, the sign masks m1 = [h1 > 0], m2 = [h2 > 0] of a two-layer
  perceptron (h1 = x·W1ᵀ + b1, h2 = (h1 ∘ m1)·W2ᵀ + b2), the Gram matrix G = (m2ᵀ·m1)/16384, the mean Jacobian
  ec = W3·((W2 ∘ G)·W1[:, 720:]), a projection z_npi = relu(vec(ec)·Wp1ᵀ + bp1)·Wp2ᵀ + bp2 repeated over the batch,
  z_geo = relu(c·Wg1ᵀ + bg1)·Wg2ᵀ + bg2, the row-normalized sum zn = (z_npi + z_geo)/max(‖z_npi + z_geo‖, ε), and
  recon = relu(zn·Wr1ᵀ + br1)·Wr2ᵀ + br2. The results are (z_npi, z_geo, zn, ec, recon).

  The kernel program forms m2ᵀ·m1 in a first tiled kernel as two partial sums (one per half of the batch, each
  accumulated over eight blocks of 1024 rows in a scratch buffer and written out at the half's last block), adds the
  halves and multiplies by 2⁻¹⁴ on the host; a second tiled kernel forms the projection's 512 pre-activations as
  two-stage sums over the 360 × 360 entries of ec; a third computes z_geo, zn and recon on blocks of 2048 rows.
  On the extended reals these are the reference's values: a change of float format is the identity, the sums are
  regrouped (commutativity and associativity only), x·2⁻¹⁴ = x/16384 for every extended real x, and the two
  spellings of the masks' conversion agree on a one-bit value.

  The frames: each tiled kernel is a pipeline region entered from, and left at, the state "every unscoped buffer at
  the current valuation"; the program's run is the chain of its three stretches of host operations and three regions.
  The last valuation read at the arguments is the launch memory (the frame claims, at the word-level and at the
  idealized instance) and read at the results it is the functions above of the arguments (the algebraic claim, whose
  reference half is the reference's run read back stage by stage). The idealization rewrote nothing: `preserves` is `True`.
-/
import proofs.«119898_j41583873360606_2_alg».proof.Defs
import proofs.«119898_j41583873360606_2_alg».proof.Proof.Gen.Kernel
import proofs.«119898_j41583873360606_2_alg».proof.Proof.Gen.KernelIdeal
import proofs.«119898_j41583873360606_2_alg».proof.Proof.Gen.ReferenceIdeal
import proofs.«119898_j41583873360606_2_alg».proof.Proof.Gen.Pre_finite_inputs
import proofs.«119898_j41583873360606_2_alg».proof.Proof.K.Frame
import proofs.«119898_j41583873360606_2_alg».proof.Proof.KI.Frame
import proofs.«119898_j41583873360606_2_alg».proof.Proof.KI.KernelValue
import proofs.«119898_j41583873360606_2_alg».proof.Proof.RefRun
import proofs.«119898_j41583873360606_2_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Asm.frame_of_run m ρ (Cert.Kernel.Asm.outs m) (Cert.Kernel.Asm.run_all m ρ),
  fun m ρ _ => Cert.KernelIdeal.Asm.frame_of_run m ρ (Cert.KernelIdeal.Asm.outs m) (Cert.KernelIdeal.Asm.run_all m ρ),
  Cert.ReferenceIdeal.RefValue.frame_ReferenceIdeal,
  trivial,
  Cert.ReferenceIdeal.RefValue.algebraic_of (fun m ρ => Cert.KernelIdeal.Asm.kernel_results m ρ)⟩

end Cert.Proof

end
